-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1500000x1 : Shape := ⟨2, ![1500000, 1]⟩
abbrev S2x12000000 : Shape := ⟨2, ![2, 12000000]⟩
abbrev S12000000x2 : Shape := ⟨2, ![12000000, 2]⟩
abbrev S9x1 : Shape := ⟨2, ![9, 1]⟩
abbrev S9 : Shape := ⟨1, ![9]⟩
abbrev S9x2 : Shape := ⟨2, ![9, 2]⟩
abbrev S9x9 : Shape := ⟨2, ![9, 9]⟩
abbrev S4x9 : Shape := ⟨2, ![4, 9]⟩
abbrev S4 : Shape := ⟨1, ![4]⟩
abbrev S8x24 : Shape := ⟨2, ![8, 24]⟩
abbrev S8 : Shape := ⟨1, ![8]⟩
abbrev S4x8 : Shape := ⟨2, ![4, 8]⟩
abbrev S_ : Shape := ⟨0, ![]⟩

class Facts : Prop where
  bcast_S_S1500000x1 : S_.BroadcastsInDim S1500000x1 (![] : Fin 0 → Fin S1500000x1.rank)
  reducesTo_S1500000x1_S_d0_1 : S1500000x1.ReducesTo [0, 1] S_
  h_S_ : 0 < S_.numel
  bcast_S_S12000000x2 : S_.BroadcastsInDim S12000000x2 (![] : Fin 0 → Fin S12000000x2.rank)
  reducesTo_S12000000x2_S_d0_1 : S12000000x2.ReducesTo [0, 1] S_
  bcast_S_S9x1 : S_.BroadcastsInDim S9x1 (![] : Fin 0 → Fin S9x1.rank)
  reducesTo_S9x1_S_d0_1 : S9x1.ReducesTo [0, 1] S_
  bcast_S_S9 : S_.BroadcastsInDim S9 (![] : Fin 0 → Fin S9.rank)
  reducesTo_S9_S_d0 : S9.ReducesTo [0] S_
  bcast_S_S9x2 : S_.BroadcastsInDim S9x2 (![] : Fin 0 → Fin S9x2.rank)
  reducesTo_S9x2_S_d0_1 : S9x2.ReducesTo [0, 1] S_
  bcast_S_S9x9 : S_.BroadcastsInDim S9x9 (![] : Fin 0 → Fin S9x9.rank)
  reducesTo_S9x9_S_d0_1 : S9x9.ReducesTo [0, 1] S_
  bcast_S_S4x9 : S_.BroadcastsInDim S4x9 (![] : Fin 0 → Fin S4x9.rank)
  reducesTo_S4x9_S_d0_1 : S4x9.ReducesTo [0, 1] S_
  bcast_S_S4 : S_.BroadcastsInDim S4 (![] : Fin 0 → Fin S4.rank)
  reducesTo_S4_S_d0 : S4.ReducesTo [0] S_
  bcast_S_S8x24 : S_.BroadcastsInDim S8x24 (![] : Fin 0 → Fin S8x24.rank)
  reducesTo_S8x24_S_d0_1 : S8x24.ReducesTo [0, 1] S_
  bcast_S_S8 : S_.BroadcastsInDim S8 (![] : Fin 0 → Fin S8.rank)
  reducesTo_S8_S_d0 : S8.ReducesTo [0] S_
  bcast_S_S4x8 : S_.BroadcastsInDim S4x8 (![] : Fin 0 → Fin S4x8.rank)
  reducesTo_S4x8_S_d0_1 : S4x8.ReducesTo [0, 1] S_

variable [Facts]

def fn_part6 {F : FTy → Type} [FloatOps F] (main_arg22 : FVec F S8 .f32) (main_arg23 : FVec F S4x8 .f32) (main_arg24 : FVec F S4 .f32) (main_v98 : IVec S_ 1) (main_v101 : IVec S8x24 1) (main_c_39 : IVec S_ 1) : IVec S_ 1 :=
  let main_v102 : IVec S_ 1 := (fun x v => Host.reduce IntOp.andi x v reducesTo_S8x24_S_d0_1 h_S_) main_v101 main_c_39
  let main_v103 : IVec S_ 1 := andi main_v98 main_v102
  let main_v104 : FVec F S8 .f32 := Host.absf main_arg22
  let main_cst_40 : FVec F S_ .f32 := constant S_ .f32 0x7F800000#32
  let main_v105 : FVec F S8 .f32 := broadcastInDim S8 ![] bcast_S_S8 main_cst_40
  let main_v106 : IVec S8 1 := cmpf .olt main_v104 main_v105
  let main_c_41 : IVec S_ 1 := constantI S_ 1 1#1
  let main_v107 : IVec S_ 1 := (fun x v => Host.reduce IntOp.andi x v reducesTo_S8_S_d0 h_S_) main_v106 main_c_41
  let main_v108 : IVec S_ 1 := andi main_v103 main_v107
  let main_v109 : FVec F S4x8 .f32 := Host.absf main_arg23
  let main_cst_42 : FVec F S_ .f32 := constant S_ .f32 0x7F800000#32
  let main_v110 : FVec F S4x8 .f32 := broadcastInDim S4x8 ![] bcast_S_S4x8 main_cst_42
  let main_v111 : IVec S4x8 1 := cmpf .olt main_v109 main_v110
  let main_c_43 : IVec S_ 1 := constantI S_ 1 1#1
  let main_v112 : IVec S_ 1 := (fun x v => Host.reduce IntOp.andi x v reducesTo_S4x8_S_d0_1 h_S_) main_v111 main_c_43
  let main_v113 : IVec S_ 1 := andi main_v108 main_v112
  let main_v114 : FVec F S4 .f32 := Host.absf main_arg24
  let main_cst_44 : FVec F S_ .f32 := constant S_ .f32 0x7F800000#32
  let main_v115 : FVec F S4 .f32 := broadcastInDim S4 ![] bcast_S_S4 main_cst_44
  let main_v116 : IVec S4 1 := cmpf .olt main_v114 main_v115
  let main_c_45 : IVec S_ 1 := constantI S_ 1 1#1
  let main_v117 : IVec S_ 1 := (fun x v => Host.reduce IntOp.andi x v reducesTo_S4_S_d0 h_S_) main_v116 main_c_45
  let main_v118 : IVec S_ 1 := andi main_v113 main_v117
  main_v118

def fn_part5 {F : FTy → Type} [FloatOps F] (main_arg19 : FVec F S4x9 .f32) (main_arg20 : FVec F S4 .f32) (main_arg21 : FVec F S8x24 .f32) (main_arg22 : FVec F S8 .f32) (main_arg23 : FVec F S4x8 .f32) (main_arg24 : FVec F S4 .f32) (main_v83 : IVec S_ 1) (main_v84 : FVec F S9 .f32) (main_cst_32 : FVec F S_ .f32) : IVec S_ 1 :=
  let main_v85 : FVec F S9 .f32 := broadcastInDim S9 ![] bcast_S_S9 main_cst_32
  let main_v86 : IVec S9 1 := cmpf .olt main_v84 main_v85
  let main_c_33 : IVec S_ 1 := constantI S_ 1 1#1
  let main_v87 : IVec S_ 1 := (fun x v => Host.reduce IntOp.andi x v reducesTo_S9_S_d0 h_S_) main_v86 main_c_33
  let main_v88 : IVec S_ 1 := andi main_v83 main_v87
  let main_v89 : FVec F S4x9 .f32 := Host.absf main_arg19
  let main_cst_34 : FVec F S_ .f32 := constant S_ .f32 0x7F800000#32
  let main_v90 : FVec F S4x9 .f32 := broadcastInDim S4x9 ![] bcast_S_S4x9 main_cst_34
  let main_v91 : IVec S4x9 1 := cmpf .olt main_v89 main_v90
  let main_c_35 : IVec S_ 1 := constantI S_ 1 1#1
  let main_v92 : IVec S_ 1 := (fun x v => Host.reduce IntOp.andi x v reducesTo_S4x9_S_d0_1 h_S_) main_v91 main_c_35
  let main_v93 : IVec S_ 1 := andi main_v88 main_v92
  let main_v94 : FVec F S4 .f32 := Host.absf main_arg20
  let main_cst_36 : FVec F S_ .f32 := constant S_ .f32 0x7F800000#32
  let main_v95 : FVec F S4 .f32 := broadcastInDim S4 ![] bcast_S_S4 main_cst_36
  let main_v96 : IVec S4 1 := cmpf .olt main_v94 main_v95
  let main_c_37 : IVec S_ 1 := constantI S_ 1 1#1
  let main_v97 : IVec S_ 1 := (fun x v => Host.reduce IntOp.andi x v reducesTo_S4_S_d0 h_S_) main_v96 main_c_37
  let main_v98 : IVec S_ 1 := andi main_v93 main_v97
  let main_v99 : FVec F S8x24 .f32 := Host.absf main_arg21
  let main_cst_38 : FVec F S_ .f32 := constant S_ .f32 0x7F800000#32
  let main_v100 : FVec F S8x24 .f32 := broadcastInDim S8x24 ![] bcast_S_S8x24 main_cst_38
  let main_v101 : IVec S8x24 1 := cmpf .olt main_v99 main_v100
  let main_c_39 : IVec S_ 1 := constantI S_ 1 1#1
  fn_part6 (F := F) main_arg22 main_arg23 main_arg24 main_v98 main_v101 main_c_39

def fn_part4 {F : FTy → Type} [FloatOps F] (main_arg15 : FVec F S9x9 .f32) (main_arg16 : FVec F S9 .f32) (main_arg17 : FVec F S9x2 .f32) (main_arg18 : FVec F S9 .f32) (main_arg19 : FVec F S4x9 .f32) (main_arg20 : FVec F S4 .f32) (main_arg21 : FVec F S8x24 .f32) (main_arg22 : FVec F S8 .f32) (main_arg23 : FVec F S4x8 .f32) (main_arg24 : FVec F S4 .f32) (main_v63 : IVec S_ 1) (main_v67 : IVec S_ 1) : IVec S_ 1 :=
  let main_v68 : IVec S_ 1 := andi main_v63 main_v67
  let main_v69 : FVec F S9x9 .f32 := Host.absf main_arg15
  let main_cst_26 : FVec F S_ .f32 := constant S_ .f32 0x7F800000#32
  let main_v70 : FVec F S9x9 .f32 := broadcastInDim S9x9 ![] bcast_S_S9x9 main_cst_26
  let main_v71 : IVec S9x9 1 := cmpf .olt main_v69 main_v70
  let main_c_27 : IVec S_ 1 := constantI S_ 1 1#1
  let main_v72 : IVec S_ 1 := (fun x v => Host.reduce IntOp.andi x v reducesTo_S9x9_S_d0_1 h_S_) main_v71 main_c_27
  let main_v73 : IVec S_ 1 := andi main_v68 main_v72
  let main_v74 : FVec F S9 .f32 := Host.absf main_arg16
  let main_cst_28 : FVec F S_ .f32 := constant S_ .f32 0x7F800000#32
  let main_v75 : FVec F S9 .f32 := broadcastInDim S9 ![] bcast_S_S9 main_cst_28
  let main_v76 : IVec S9 1 := cmpf .olt main_v74 main_v75
  let main_c_29 : IVec S_ 1 := constantI S_ 1 1#1
  let main_v77 : IVec S_ 1 := (fun x v => Host.reduce IntOp.andi x v reducesTo_S9_S_d0 h_S_) main_v76 main_c_29
  let main_v78 : IVec S_ 1 := andi main_v73 main_v77
  let main_v79 : FVec F S9x2 .f32 := Host.absf main_arg17
  let main_cst_30 : FVec F S_ .f32 := constant S_ .f32 0x7F800000#32
  let main_v80 : FVec F S9x2 .f32 := broadcastInDim S9x2 ![] bcast_S_S9x2 main_cst_30
  let main_v81 : IVec S9x2 1 := cmpf .olt main_v79 main_v80
  let main_c_31 : IVec S_ 1 := constantI S_ 1 1#1
  let main_v82 : IVec S_ 1 := (fun x v => Host.reduce IntOp.andi x v reducesTo_S9x2_S_d0_1 h_S_) main_v81 main_c_31
  let main_v83 : IVec S_ 1 := andi main_v78 main_v82
  let main_v84 : FVec F S9 .f32 := Host.absf main_arg18
  let main_cst_32 : FVec F S_ .f32 := constant S_ .f32 0x7F800000#32
  fn_part5 (F := F) main_arg19 main_arg20 main_arg21 main_arg22 main_arg23 main_arg24 main_v83 main_v84 main_cst_32

def fn_part3 {F : FTy → Type} [FloatOps F] (main_arg12 : FVec F S9 .f32) (main_arg13 : FVec F S9x9 .f32) (main_arg14 : FVec F S9 .f32) (main_arg15 : FVec F S9x9 .f32) (main_arg16 : FVec F S9 .f32) (main_arg17 : FVec F S9x2 .f32) (main_arg18 : FVec F S9 .f32) (main_arg19 : FVec F S4x9 .f32) (main_arg20 : FVec F S4 .f32) (main_arg21 : FVec F S8x24 .f32) (main_arg22 : FVec F S8 .f32) (main_arg23 : FVec F S4x8 .f32) (main_arg24 : FVec F S4 .f32) (main_v48 : IVec S_ 1) (main_v49 : FVec F S9x2 .f32) (main_v50 : FVec F S9x2 .f32) : IVec S_ 1 :=
  let main_v51 : IVec S9x2 1 := cmpf .olt main_v49 main_v50
  let main_c_19 : IVec S_ 1 := constantI S_ 1 1#1
  let main_v52 : IVec S_ 1 := (fun x v => Host.reduce IntOp.andi x v reducesTo_S9x2_S_d0_1 h_S_) main_v51 main_c_19
  let main_v53 : IVec S_ 1 := andi main_v48 main_v52
  let main_v54 : FVec F S9 .f32 := Host.absf main_arg12
  let main_cst_20 : FVec F S_ .f32 := constant S_ .f32 0x7F800000#32
  let main_v55 : FVec F S9 .f32 := broadcastInDim S9 ![] bcast_S_S9 main_cst_20
  let main_v56 : IVec S9 1 := cmpf .olt main_v54 main_v55
  let main_c_21 : IVec S_ 1 := constantI S_ 1 1#1
  let main_v57 : IVec S_ 1 := (fun x v => Host.reduce IntOp.andi x v reducesTo_S9_S_d0 h_S_) main_v56 main_c_21
  let main_v58 : IVec S_ 1 := andi main_v53 main_v57
  let main_v59 : FVec F S9x9 .f32 := Host.absf main_arg13
  let main_cst_22 : FVec F S_ .f32 := constant S_ .f32 0x7F800000#32
  let main_v60 : FVec F S9x9 .f32 := broadcastInDim S9x9 ![] bcast_S_S9x9 main_cst_22
  let main_v61 : IVec S9x9 1 := cmpf .olt main_v59 main_v60
  let main_c_23 : IVec S_ 1 := constantI S_ 1 1#1
  let main_v62 : IVec S_ 1 := (fun x v => Host.reduce IntOp.andi x v reducesTo_S9x9_S_d0_1 h_S_) main_v61 main_c_23
  let main_v63 : IVec S_ 1 := andi main_v58 main_v62
  let main_v64 : FVec F S9 .f32 := Host.absf main_arg14
  let main_cst_24 : FVec F S_ .f32 := constant S_ .f32 0x7F800000#32
  let main_v65 : FVec F S9 .f32 := broadcastInDim S9 ![] bcast_S_S9 main_cst_24
  let main_v66 : IVec S9 1 := cmpf .olt main_v64 main_v65
  let main_c_25 : IVec S_ 1 := constantI S_ 1 1#1
  let main_v67 : IVec S_ 1 := (fun x v => Host.reduce IntOp.andi x v reducesTo_S9_S_d0 h_S_) main_v66 main_c_25
  fn_part4 (F := F) main_arg15 main_arg16 main_arg17 main_arg18 main_arg19 main_arg20 main_arg21 main_arg22 main_arg23 main_arg24 main_v63 main_v67

def fn_part2 {F : FTy → Type} [FloatOps F] (main_arg8 : FVec F S9 .f32) (main_arg9 : FVec F S9x9 .f32) (main_arg10 : FVec F S9 .f32) (main_arg11 : FVec F S9x2 .f32) (main_arg12 : FVec F S9 .f32) (main_arg13 : FVec F S9x9 .f32) (main_arg14 : FVec F S9 .f32) (main_arg15 : FVec F S9x9 .f32) (main_arg16 : FVec F S9 .f32) (main_arg17 : FVec F S9x2 .f32) (main_arg18 : FVec F S9 .f32) (main_arg19 : FVec F S4x9 .f32) (main_arg20 : FVec F S4 .f32) (main_arg21 : FVec F S8x24 .f32) (main_arg22 : FVec F S8 .f32) (main_arg23 : FVec F S4x8 .f32) (main_arg24 : FVec F S4 .f32) (main_v33 : IVec S_ 1) : IVec S_ 1 :=
  let main_v34 : FVec F S9 .f32 := Host.absf main_arg8
  let main_cst_12 : FVec F S_ .f32 := constant S_ .f32 0x7F800000#32
  let main_v35 : FVec F S9 .f32 := broadcastInDim S9 ![] bcast_S_S9 main_cst_12
  let main_v36 : IVec S9 1 := cmpf .olt main_v34 main_v35
  let main_c_13 : IVec S_ 1 := constantI S_ 1 1#1
  let main_v37 : IVec S_ 1 := (fun x v => Host.reduce IntOp.andi x v reducesTo_S9_S_d0 h_S_) main_v36 main_c_13
  let main_v38 : IVec S_ 1 := andi main_v33 main_v37
  let main_v39 : FVec F S9x9 .f32 := Host.absf main_arg9
  let main_cst_14 : FVec F S_ .f32 := constant S_ .f32 0x7F800000#32
  let main_v40 : FVec F S9x9 .f32 := broadcastInDim S9x9 ![] bcast_S_S9x9 main_cst_14
  let main_v41 : IVec S9x9 1 := cmpf .olt main_v39 main_v40
  let main_c_15 : IVec S_ 1 := constantI S_ 1 1#1
  let main_v42 : IVec S_ 1 := (fun x v => Host.reduce IntOp.andi x v reducesTo_S9x9_S_d0_1 h_S_) main_v41 main_c_15
  let main_v43 : IVec S_ 1 := andi main_v38 main_v42
  let main_v44 : FVec F S9 .f32 := Host.absf main_arg10
  let main_cst_16 : FVec F S_ .f32 := constant S_ .f32 0x7F800000#32
  let main_v45 : FVec F S9 .f32 := broadcastInDim S9 ![] bcast_S_S9 main_cst_16
  let main_v46 : IVec S9 1 := cmpf .olt main_v44 main_v45
  let main_c_17 : IVec S_ 1 := constantI S_ 1 1#1
  let main_v47 : IVec S_ 1 := (fun x v => Host.reduce IntOp.andi x v reducesTo_S9_S_d0 h_S_) main_v46 main_c_17
  let main_v48 : IVec S_ 1 := andi main_v43 main_v47
  let main_v49 : FVec F S9x2 .f32 := Host.absf main_arg11
  let main_cst_18 : FVec F S_ .f32 := constant S_ .f32 0x7F800000#32
  let main_v50 : FVec F S9x2 .f32 := broadcastInDim S9x2 ![] bcast_S_S9x2 main_cst_18
  fn_part3 (F := F) main_arg12 main_arg13 main_arg14 main_arg15 main_arg16 main_arg17 main_arg18 main_arg19 main_arg20 main_arg21 main_arg22 main_arg23 main_arg24 main_v48 main_v49 main_v50

def fn_part1 {F : FTy → Type} [FloatOps F] (main_arg5 : FVec F S9x2 .f32) (main_arg6 : FVec F S9 .f32) (main_arg7 : FVec F S9x9 .f32) (main_arg8 : FVec F S9 .f32) (main_arg9 : FVec F S9x9 .f32) (main_arg10 : FVec F S9 .f32) (main_arg11 : FVec F S9x2 .f32) (main_arg12 : FVec F S9 .f32) (main_arg13 : FVec F S9x9 .f32) (main_arg14 : FVec F S9 .f32) (main_arg15 : FVec F S9x9 .f32) (main_arg16 : FVec F S9 .f32) (main_arg17 : FVec F S9x2 .f32) (main_arg18 : FVec F S9 .f32) (main_arg19 : FVec F S4x9 .f32) (main_arg20 : FVec F S4 .f32) (main_arg21 : FVec F S8x24 .f32) (main_arg22 : FVec F S8 .f32) (main_arg23 : FVec F S4x8 .f32) (main_arg24 : FVec F S4 .f32) (main_v13 : IVec S_ 1) (main_v16 : IVec S9 1) : IVec S_ 1 :=
  let main_c_5 : IVec S_ 1 := constantI S_ 1 1#1
  let main_v17 : IVec S_ 1 := (fun x v => Host.reduce IntOp.andi x v reducesTo_S9_S_d0 h_S_) main_v16 main_c_5
  let main_v18 : IVec S_ 1 := andi main_v13 main_v17
  let main_v19 : FVec F S9x2 .f32 := Host.absf main_arg5
  let main_cst_6 : FVec F S_ .f32 := constant S_ .f32 0x7F800000#32
  let main_v20 : FVec F S9x2 .f32 := broadcastInDim S9x2 ![] bcast_S_S9x2 main_cst_6
  let main_v21 : IVec S9x2 1 := cmpf .olt main_v19 main_v20
  let main_c_7 : IVec S_ 1 := constantI S_ 1 1#1
  let main_v22 : IVec S_ 1 := (fun x v => Host.reduce IntOp.andi x v reducesTo_S9x2_S_d0_1 h_S_) main_v21 main_c_7
  let main_v23 : IVec S_ 1 := andi main_v18 main_v22
  let main_v24 : FVec F S9 .f32 := Host.absf main_arg6
  let main_cst_8 : FVec F S_ .f32 := constant S_ .f32 0x7F800000#32
  let main_v25 : FVec F S9 .f32 := broadcastInDim S9 ![] bcast_S_S9 main_cst_8
  let main_v26 : IVec S9 1 := cmpf .olt main_v24 main_v25
  let main_c_9 : IVec S_ 1 := constantI S_ 1 1#1
  let main_v27 : IVec S_ 1 := (fun x v => Host.reduce IntOp.andi x v reducesTo_S9_S_d0 h_S_) main_v26 main_c_9
  let main_v28 : IVec S_ 1 := andi main_v23 main_v27
  let main_v29 : FVec F S9x9 .f32 := Host.absf main_arg7
  let main_cst_10 : FVec F S_ .f32 := constant S_ .f32 0x7F800000#32
  let main_v30 : FVec F S9x9 .f32 := broadcastInDim S9x9 ![] bcast_S_S9x9 main_cst_10
  let main_v31 : IVec S9x9 1 := cmpf .olt main_v29 main_v30
  let main_c_11 : IVec S_ 1 := constantI S_ 1 1#1
  let main_v32 : IVec S_ 1 := (fun x v => Host.reduce IntOp.andi x v reducesTo_S9x9_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S1500000x1 .f32) (main_arg1 : IVec S2x12000000 32) (main_arg2 : FVec F S12000000x2 .f32) (main_arg3 : FVec F S9x1 .f32) (main_arg4 : FVec F S9 .f32) (main_arg5 : FVec F S9x2 .f32) (main_arg6 : FVec F S9 .f32) (main_arg7 : FVec F S9x9 .f32) (main_arg8 : FVec F S9 .f32) (main_arg9 : FVec F S9x9 .f32) (main_arg10 : FVec F S9 .f32) (main_arg11 : FVec F S9x2 .f32) (main_arg12 : FVec F S9 .f32) (main_arg13 : FVec F S9x9 .f32) (main_arg14 : FVec F S9 .f32) (main_arg15 : FVec F S9x9 .f32) (main_arg16 : FVec F S9 .f32) (main_arg17 : FVec F S9x2 .f32) (main_arg18 : FVec F S9 .f32) (main_arg19 : FVec F S4x9 .f32) (main_arg20 : FVec F S4 .f32) (main_arg21 : FVec F S8x24 .f32) (main_arg22 : FVec F S8 .f32) (main_arg23 : FVec F S4x8 .f32) (main_arg24 : FVec F S4 .f32) : IVec S_ 1 :=
  let main_v0 : FVec F S1500000x1 .f32 := Host.absf main_arg0
  let main_cst : FVec F S_ .f32 := constant S_ .f32 0x7F800000#32
  let main_v1 : FVec F S1500000x1 .f32 := broadcastInDim S1500000x1 ![] bcast_S_S1500000x1 main_cst
  let main_v2 : IVec S1500000x1 1 := cmpf .olt main_v0 main_v1
  let main_c : IVec S_ 1 := constantI S_ 1 1#1
  let main_v3 : IVec S_ 1 := (fun x v => Host.reduce IntOp.andi x v reducesTo_S1500000x1_S_d0_1 h_S_) main_v2 main_c
  let main_v4 : FVec F S12000000x2 .f32 := Host.absf main_arg2
  let main_cst_0 : FVec F S_ .f32 := constant S_ .f32 0x7F800000#32
  let main_v5 : FVec F S12000000x2 .f32 := broadcastInDim S12000000x2 ![] bcast_S_S12000000x2 main_cst_0
  let main_v6 : IVec S12000000x2 1 := cmpf .olt main_v4 main_v5
  let main_c_1 : IVec S_ 1 := constantI S_ 1 1#1
  let main_v7 : IVec S_ 1 := (fun x v => Host.reduce IntOp.andi x v reducesTo_S12000000x2_S_d0_1 h_S_) main_v6 main_c_1
  let main_v8 : IVec S_ 1 := andi main_v3 main_v7
  let main_v9 : FVec F S9x1 .f32 := Host.absf main_arg3
  let main_cst_2 : FVec F S_ .f32 := constant S_ .f32 0x7F800000#32
  let main_v10 : FVec F S9x1 .f32 := broadcastInDim S9x1 ![] bcast_S_S9x1 main_cst_2
  let main_v11 : IVec S9x1 1 := cmpf .olt main_v9 main_v10
  let main_c_3 : IVec S_ 1 := constantI S_ 1 1#1
  let main_v12 : IVec S_ 1 := (fun x v => Host.reduce IntOp.andi x v reducesTo_S9x1_S_d0_1 h_S_) main_v11 main_c_3
  let main_v13 : IVec S_ 1 := andi main_v8 main_v12
  let main_v14 : FVec F S9 .f32 := Host.absf main_arg4
  let main_cst_4 : FVec F S_ .f32 := constant S_ .f32 0x7F800000#32
  let main_v15 : FVec F S9 .f32 := broadcastInDim S9 ![] bcast_S_S9 main_cst_4
  let main_v16 : IVec S9 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S1500000x1 : Shape := ⟨2, ![1500000, 1]⟩
abbrev S2x12000000 : Shape := ⟨2, ![2, 12000000]⟩
abbrev S12000000x2 : Shape := ⟨2, ![12000000, 2]⟩
abbrev S9x1 : Shape := ⟨2, ![9, 1]⟩
abbrev S9 : Shape := ⟨1, ![9]⟩
abbrev S9x2 : Shape := ⟨2, ![9, 2]⟩
abbrev S9x9 : Shape := ⟨2, ![9, 9]⟩
abbrev S4x9 : Shape := ⟨2, ![4, 9]⟩
abbrev S4 : Shape := ⟨1, ![4]⟩
abbrev S8x24 : Shape := ⟨2, ![8, 24]⟩
abbrev S8 : Shape := ⟨1, ![8]⟩
abbrev S4x8 : Shape := ⟨2, ![4, 8]⟩
abbrev S1x12000000 : Shape := ⟨2, ![1, 12000000]⟩
abbrev S12000000 : Shape := ⟨1, ![12000000]⟩
abbrev S1x9 : Shape := ⟨2, ![1, 9]⟩
abbrev S1500000x9 : Shape := ⟨2, ![1500000, 9]⟩
abbrev S12000x1 : Shape := ⟨2, ![12000, 1]⟩
abbrev S12000x9 : Shape := ⟨2, ![12000, 9]⟩
abbrev S_ : Shape := ⟨0, ![]⟩
abbrev S12000000x1 : Shape := ⟨2, ![12000000, 1]⟩
abbrev S12000000x9 : Shape := ⟨2, ![12000000, 9]⟩
abbrev S2x9 : Shape := ⟨2, ![2, 9]⟩
abbrev S12000x2 : Shape := ⟨2, ![12000, 2]⟩
abbrev S9x4 : Shape := ⟨2, ![9, 4]⟩
abbrev S1x4 : Shape := ⟨2, ![1, 4]⟩
abbrev S1500000x4 : Shape := ⟨2, ![1500000, 4]⟩
abbrev S12000x4 : Shape := ⟨2, ![12000, 4]⟩
abbrev S250000x24 : Shape := ⟨2, ![250000, 24]⟩
abbrev S24x8 : Shape := ⟨2, ![24, 8]⟩
abbrev S8x4 : Shape := ⟨2, ![8, 4]⟩
abbrev S1x8 : Shape := ⟨2, ![1, 8]⟩
abbrev S250000x4 : Shape := ⟨2, ![250000, 4]⟩
abbrev S10000x24 : Shape := ⟨2, ![10000, 24]⟩
abbrev S10000x4 : Shape := ⟨2, ![10000, 4]⟩
abbrev S10000x8 : Shape := ⟨2, ![10000, 8]⟩
abbrev S10000 : Shape := ⟨1, ![10000]⟩
abbrev S10000x1 : Shape := ⟨2, ![10000, 1]⟩

abbrev nBuf : Space → Nat
  | .hbm => 101
  | .vmem => 68
  | .smem => 0
  | _ => 0

abbrev bufTy : (tb : Table) → Fin (tcTables nBuf tb) → BufTy
  | .hbm, ⟨0, _⟩ => ⟨S1500000x1, .f32⟩
  | .hbm, ⟨1, _⟩ => ⟨S2x12000000, .i32⟩
  | .hbm, ⟨2, _⟩ => ⟨S12000000x2, .f32⟩
  | .hbm, ⟨3, _⟩ => ⟨S9x1, .f32⟩
  | .hbm, ⟨4, _⟩ => ⟨S9, .f32⟩
  | .hbm, ⟨5, _⟩ => ⟨S9x2, .f32⟩
  | .hbm, ⟨6, _⟩ => ⟨S9, .f32⟩
  | .hbm, ⟨7, _⟩ => ⟨S9x9, .f32⟩
  | .hbm, ⟨8, _⟩ => ⟨S9, .f32⟩
  | .hbm, ⟨9, _⟩ => ⟨S9x9, .f32⟩
  | .hbm, ⟨10, _⟩ => ⟨S9, .f32⟩
  | .hbm, ⟨11, _⟩ => ⟨S9x2, .f32⟩
  | .hbm, ⟨12, _⟩ => ⟨S9, .f32⟩
  | .hbm, ⟨13, _⟩ => ⟨S9x9, .f32⟩
  | .hbm, ⟨14, _⟩ => ⟨S9, .f32⟩
  | .hbm, ⟨15, _⟩ => ⟨S9x9, .f32⟩
  | .hbm, ⟨16, _⟩ => ⟨S9, .f32⟩
  | .hbm, ⟨17, _⟩ => ⟨S9x2, .f32⟩
  | .hbm, ⟨18, _⟩ => ⟨S9, .f32⟩
  | .hbm, ⟨19, _⟩ => ⟨S4x9, .f32⟩
  | .hbm, ⟨20, _⟩ => ⟨S4, .f32⟩
  | .hbm, ⟨21, _⟩ => ⟨S8x24, .f32⟩
  | .hbm, ⟨22, _⟩ => ⟨S8, .f32⟩
  | .hbm, ⟨23, _⟩ => ⟨S4x8, .f32⟩
  | .hbm, ⟨24, _⟩ => ⟨S4, .f32⟩
  | .hbm, ⟨25, _⟩ => ⟨S1x12000000, .i32⟩
  | .hbm, ⟨26, _⟩ => ⟨S12000000, .i32⟩
  | .hbm, ⟨27, _⟩ => ⟨S1x12000000, .i32⟩
  | .hbm, ⟨28, _⟩ => ⟨S12000000, .i32⟩
  | .hbm, ⟨29, _⟩ => ⟨S1x9, .f32⟩
  | .hbm, ⟨30, _⟩ => ⟨S1x9, .f32⟩
  | .hbm, ⟨31, _⟩ => ⟨S1500000x9, .f32⟩
  | .hbm, ⟨32, _⟩ => ⟨S_, .i32⟩
  | .hbm, ⟨33, _⟩ => ⟨S12000000, .i32⟩
  | .hbm, ⟨34, _⟩ => ⟨S12000000, .i1⟩
  | .hbm, ⟨35, _⟩ => ⟨S_, .i32⟩
  | .hbm, ⟨36, _⟩ => ⟨S12000000, .i32⟩
  | .hbm, ⟨37, _⟩ => ⟨S12000000, .i32⟩
  | .hbm, ⟨38, _⟩ => ⟨S12000000, .i32⟩
  | .hbm, ⟨39, _⟩ => ⟨S12000000x1, .i32⟩
  | .hbm, ⟨40, _⟩ => ⟨S12000000x9, .f32⟩
  | .hbm, ⟨41, _⟩ => ⟨S2x9, .f32⟩
  | .hbm, ⟨42, _⟩ => ⟨S1x9, .f32⟩
  | .hbm, ⟨43, _⟩ => ⟨S12000000x9, .f32⟩
  | .hbm, ⟨44, _⟩ => ⟨S_, .f32⟩
  | .hbm, ⟨45, _⟩ => ⟨S1500000x9, .f32⟩
  | .hbm, ⟨46, _⟩ => ⟨S12000000x1, .i32⟩
  | .hbm, ⟨47, _⟩ => ⟨S1500000x9, .f32⟩
  | .hbm, ⟨48, _⟩ => ⟨S9x9, .f32⟩
  | .hbm, ⟨49, _⟩ => ⟨S1x9, .f32⟩
  | .hbm, ⟨50, _⟩ => ⟨S1500000x9, .f32⟩
  | .hbm, ⟨51, _⟩ => ⟨S9x9, .f32⟩
  | .hbm, ⟨52, _⟩ => ⟨S1x9, .f32⟩
  | .hbm, ⟨53, _⟩ => ⟨S1500000x9, .f32⟩
  | .hbm, ⟨54, _⟩ => ⟨S_, .i32⟩
  | .hbm, ⟨55, _⟩ => ⟨S12000000, .i32⟩
  | .hbm, ⟨56, _⟩ => ⟨S12000000, .i1⟩
  | .hbm, ⟨57, _⟩ => ⟨S_, .i32⟩
  | .hbm, ⟨58, _⟩ => ⟨S12000000, .i32⟩
  | .hbm, ⟨59, _⟩ => ⟨S12000000, .i32⟩
  | .hbm, ⟨60, _⟩ => ⟨S12000000, .i32⟩
  | .hbm, ⟨61, _⟩ => ⟨S12000000x1, .i32⟩
  | .hbm, ⟨62, _⟩ => ⟨S12000000x9, .f32⟩
  | .hbm, ⟨63, _⟩ => ⟨S2x9, .f32⟩
  | .hbm, ⟨64, _⟩ => ⟨S1x9, .f32⟩
  | .hbm, ⟨65, _⟩ => ⟨S12000000x9, .f32⟩
  | .hbm, ⟨66, _⟩ => ⟨S_, .f32⟩
  | .hbm, ⟨67, _⟩ => ⟨S1500000x9, .f32⟩
  | .hbm, ⟨68, _⟩ => ⟨S12000000x1, .i32⟩
  | .hbm, ⟨69, _⟩ => ⟨S1500000x9, .f32⟩
  | .hbm, ⟨70, _⟩ => ⟨S9x9, .f32⟩
  | .hbm, ⟨71, _⟩ => ⟨S1x9, .f32⟩
  | .hbm, ⟨72, _⟩ => ⟨S1500000x9, .f32⟩
  | .hbm, ⟨73, _⟩ => ⟨S9x9, .f32⟩
  | .hbm, ⟨74, _⟩ => ⟨S1x9, .f32⟩
  | .hbm, ⟨75, _⟩ => ⟨S1500000x9, .f32⟩
  | .hbm, ⟨76, _⟩ => ⟨S_, .i32⟩
  | .hbm, ⟨77, _⟩ => ⟨S12000000, .i32⟩
  | .hbm, ⟨78, _⟩ => ⟨S12000000, .i1⟩
  | .hbm, ⟨79, _⟩ => ⟨S_, .i32⟩
  | .hbm, ⟨80, _⟩ => ⟨S12000000, .i32⟩
  | .hbm, ⟨81, _⟩ => ⟨S12000000, .i32⟩
  | .hbm, ⟨82, _⟩ => ⟨S12000000, .i32⟩
  | .hbm, ⟨83, _⟩ => ⟨S12000000x1, .i32⟩
  | .hbm, ⟨84, _⟩ => ⟨S12000000x9, .f32⟩
  | .hbm, ⟨85, _⟩ => ⟨S2x9, .f32⟩
  | .hbm, ⟨86, _⟩ => ⟨S1x9, .f32⟩
  | .hbm, ⟨87, _⟩ => ⟨S12000000x9, .f32⟩
  | .hbm, ⟨88, _⟩ => ⟨S_, .f32⟩
  | .hbm, ⟨89, _⟩ => ⟨S1500000x9, .f32⟩
  | .hbm, ⟨90, _⟩ => ⟨S12000000x1, .i32⟩
  | .hbm, ⟨91, _⟩ => ⟨S1500000x9, .f32⟩
  | .hbm, ⟨92, _⟩ => ⟨S9x4, .f32⟩
  | .hbm, ⟨93, _⟩ => ⟨S1x4, .f32⟩
  | .hbm, ⟨94, _⟩ => ⟨S1500000x4, .f32⟩
  | .hbm, ⟨95, _⟩ => ⟨S250000x24, .f32⟩
  | .hbm, ⟨96, _⟩ => ⟨S24x8, .f32⟩
  | .hbm, ⟨97, _⟩ => ⟨S8x4, .f32⟩
  | .hbm, ⟨98, _⟩ => ⟨S1x8, .f32⟩
  | .hbm, ⟨99, _⟩ => ⟨S1x4, .f32⟩
  | .hbm, ⟨100, _⟩ => ⟨S250000x4, .f32⟩
  | .local _ .vmem, ⟨0, _⟩ => ⟨S12000x1, .f32⟩
  | .local _ .vmem, ⟨1, _⟩ => ⟨S12000x1, .f32⟩
  | .local _ .vmem, ⟨2, _⟩ => ⟨S1x9, .f32⟩
  | .local _ .vmem, ⟨3, _⟩ => ⟨S1x9, .f32⟩
  | .local _ .vmem, ⟨4, _⟩ => ⟨S12000x9, .f32⟩
  | .local _ .vmem, ⟨5, _⟩ => ⟨S12000x9, .f32⟩
  | .local _ .vmem, ⟨6, _⟩ => ⟨S12000x9, .f32⟩
  | .local _ .vmem, ⟨7, _⟩ => ⟨S12000x9, .f32⟩
  | .local _ .vmem, ⟨8, _⟩ => ⟨S12000x2, .f32⟩
  | .local _ .vmem, ⟨9, _⟩ => ⟨S12000x2, .f32⟩
  | .local _ .vmem, ⟨10, _⟩ => ⟨S2x9, .f32⟩
  | .local _ .vmem, ⟨11, _⟩ => ⟨S1x9, .f32⟩
  | .local _ .vmem, ⟨12, _⟩ => ⟨S12000x9, .f32⟩
  | .local _ .vmem, ⟨13, _⟩ => ⟨S12000x9, .f32⟩
  | .local _ .vmem, ⟨14, _⟩ => ⟨S12000x9, .f32⟩
  | .local _ .vmem, ⟨15, _⟩ => ⟨S12000x9, .f32⟩
  | .local _ .vmem, ⟨16, _⟩ => ⟨S9x9, .f32⟩
  | .local _ .vmem, ⟨17, _⟩ => ⟨S1x9, .f32⟩
  | .local _ .vmem, ⟨18, _⟩ => ⟨S12000x9, .f32⟩
  | .local _ .vmem, ⟨19, _⟩ => ⟨S12000x9, .f32⟩
  | .local _ .vmem, ⟨20, _⟩ => ⟨S12000x9, .f32⟩
  | .local _ .vmem, ⟨21, _⟩ => ⟨S12000x9, .f32⟩
  | .local _ .vmem, ⟨22, _⟩ => ⟨S9x9, .f32⟩
  | .local _ .vmem, ⟨23, _⟩ => ⟨S1x9, .f32⟩
  | .local _ .vmem, ⟨24, _⟩ => ⟨S12000x9, .f32⟩
  | .local _ .vmem, ⟨25, _⟩ => ⟨S12000x9, .f32⟩
  | .local _ .vmem, ⟨26, _⟩ => ⟨S12000x9, .f32⟩
  | .local _ .vmem, ⟨27, _⟩ => ⟨S12000x9, .f32⟩
  | .local _ .vmem, ⟨28, _⟩ => ⟨S12000x2, .f32⟩
  | .local _ .vmem, ⟨29, _⟩ => ⟨S12000x2, .f32⟩
  | .local _ .vmem, ⟨30, _⟩ => ⟨S2x9, .f32⟩
  | .local _ .vmem, ⟨31, _⟩ => ⟨S1x9, .f32⟩
  | .local _ .vmem, ⟨32, _⟩ => ⟨S12000x9, .f32⟩
  | .local _ .vmem, ⟨33, _⟩ => ⟨S12000x9, .f32⟩
  | .local _ .vmem, ⟨34, _⟩ => ⟨S12000x9, .f32⟩
  | .local _ .vmem, ⟨35, _⟩ => ⟨S12000x9, .f32⟩
  | .local _ .vmem, ⟨36, _⟩ => ⟨S9x9, .f32⟩
  | .local _ .vmem, ⟨37, _⟩ => ⟨S1x9, .f32⟩
  | .local _ .vmem, ⟨38, _⟩ => ⟨S12000x9, .f32⟩
  | .local _ .vmem, ⟨39, _⟩ => ⟨S12000x9, .f32⟩
  | .local _ .vmem, ⟨40, _⟩ => ⟨S12000x9, .f32⟩
  | .local _ .vmem, ⟨41, _⟩ => ⟨S12000x9, .f32⟩
  | .local _ .vmem, ⟨42, _⟩ => ⟨S9x9, .f32⟩
  | .local _ .vmem, ⟨43, _⟩ => ⟨S1x9, .f32⟩
  | .local _ .vmem, ⟨44, _⟩ => ⟨S12000x9, .f32⟩
  | .local _ .vmem, ⟨45, _⟩ => ⟨S12000x9, .f32⟩
  | .local _ .vmem, ⟨46, _⟩ => ⟨S12000x9, .f32⟩
  | .local _ .vmem, ⟨47, _⟩ => ⟨S12000x9, .f32⟩
  | .local _ .vmem, ⟨48, _⟩ => ⟨S12000x2, .f32⟩
  | .local _ .vmem, ⟨49, _⟩ => ⟨S12000x2, .f32⟩
  | .local _ .vmem, ⟨50, _⟩ => ⟨S2x9, .f32⟩
  | .local _ .vmem, ⟨51, _⟩ => ⟨S1x9, .f32⟩
  | .local _ .vmem, ⟨52, _⟩ => ⟨S12000x9, .f32⟩
  | .local _ .vmem, ⟨53, _⟩ => ⟨S12000x9, .f32⟩
  | .local _ .vmem, ⟨54, _⟩ => ⟨S12000x9, .f32⟩
  | .local _ .vmem, ⟨55, _⟩ => ⟨S12000x9, .f32⟩
  | .local _ .vmem, ⟨56, _⟩ => ⟨S9x4, .f32⟩
  | .local _ .vmem, ⟨57, _⟩ => ⟨S1x4, .f32⟩
  | .local _ .vmem, ⟨58, _⟩ => ⟨S12000x4, .f32⟩
  | .local _ .vmem, ⟨59, _⟩ => ⟨S12000x4, .f32⟩
  | .local _ .vmem, ⟨60, _⟩ => ⟨S10000x24, .f32⟩
  | .local _ .vmem, ⟨61, _⟩ => ⟨S10000x24, .f32⟩
  | .local _ .vmem, ⟨62, _⟩ => ⟨S24x8, .f32⟩
  | .local _ .vmem, ⟨63, _⟩ => ⟨S1x8, .f32⟩
  | .local _ .vmem, ⟨64, _⟩ => ⟨S8x4, .f32⟩
  | .local _ .vmem, ⟨65, _⟩ => ⟨S1x4, .f32⟩
  | .local _ .vmem, ⟨66, _⟩ => ⟨S10000x4, .f32⟩
  | .local _ .vmem, ⟨67, _⟩ => ⟨S10000x4, .f32⟩
  | _, _ => ⟨S1500000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_c : Ref sig .tc := ⟨.hbm, 32, rfl⟩
abbrev main_v7 : Ref sig .tc := ⟨.hbm, 33, rfl⟩
abbrev main_v8 : Ref sig .tc := ⟨.hbm, 34, rfl⟩
abbrev main_c_0 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_c_1 : Ref sig .tc := ⟨.hbm, 54, rfl⟩
abbrev main_v26 : Ref sig .tc := ⟨.hbm, 55, rfl⟩
abbrev main_v27 : Ref sig .tc := ⟨.hbm, 56, rfl⟩
abbrev main_c_2 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_3 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_c_4 : Ref sig .tc := ⟨.hbm, 76, rfl⟩
abbrev main_v45 : Ref sig .tc := ⟨.hbm, 77, rfl⟩
abbrev main_v46 : Ref sig .tc := ⟨.hbm, 78, rfl⟩
abbrev main_c_5 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_6 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg4_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg3_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg3_0 : Ref sig .tc := ⟨.vmem, 44, rfl⟩
abbrev cc6_stg3_1 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg1_1 : Ref sig .tc := ⟨.vmem, 49, rfl⟩
abbrev cc7_stg2_0 : Ref sig .tc := ⟨.vmem, 50, rfl⟩
abbrev cc7_stg3_0 : Ref sig .tc := ⟨.vmem, 51, rfl⟩
abbrev cc7_stg4_0 : Ref sig .tc := ⟨.vmem, 52, rfl⟩
abbrev cc7_stg4_1 : Ref sig .tc := ⟨.vmem, 53, rfl⟩
abbrev cc8_stg0_0 : Ref sig .tc := ⟨.vmem, 54, rfl⟩
abbrev cc8_stg0_1 : Ref sig .tc := ⟨.vmem, 55, rfl⟩
abbrev cc8_stg1_0 : Ref sig .tc := ⟨.vmem, 56, rfl⟩
abbrev cc8_stg2_0 : Ref sig .tc := ⟨.vmem, 57, rfl⟩
abbrev cc8_stg3_0 : Ref sig .tc := ⟨.vmem, 58, rfl⟩
abbrev cc8_stg3_1 : Ref sig .tc := ⟨.vmem, 59, rfl⟩
abbrev cc9_stg0_0 : Ref sig .tc := ⟨.vmem, 60, rfl⟩
abbrev cc9_stg0_1 : Ref sig .tc := ⟨.vmem, 61, rfl⟩
abbrev cc9_stg1_0 : Ref sig .tc := ⟨.vmem, 62, rfl⟩
abbrev cc9_stg2_0 : Ref sig .tc := ⟨.vmem, 63, rfl⟩
abbrev cc9_stg3_0 : Ref sig .tc := ⟨.vmem, 64, rfl⟩
abbrev cc9_stg4_0 : Ref sig .tc := ⟨.vmem, 65, rfl⟩
abbrev cc9_stg5_0 : Ref sig .tc := ⟨.vmem, 66, rfl⟩
abbrev cc9_stg5_1 : Ref sig .tc := ⟨.vmem, 67, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem3_0 : DmaSem sig := 31
abbrev cc4_sem4_0 : DmaSem sig := 32
abbrev cc4_sem4_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem3_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem3_0 : DmaSem sig := 44
abbrev cc6_sem3_1 : DmaSem sig := 45
abbrev cc7_sem0_0 : DmaSem sig := 46
abbrev cc7_sem0_1 : DmaSem sig := 47
abbrev cc7_sem1_0 : DmaSem sig := 48
abbrev cc7_sem1_1 : DmaSem sig := 49
abbrev cc7_sem2_0 : DmaSem sig := 50
abbrev cc7_sem3_0 : DmaSem sig := 51
abbrev cc7_sem4_0 : DmaSem sig := 52
abbrev cc7_sem4_1 : DmaSem sig := 53
abbrev cc8_sem0_0 : DmaSem sig := 54
abbrev cc8_sem0_1 : DmaSem sig := 55
abbrev cc8_sem1_0 : DmaSem sig := 56
abbrev cc8_sem2_0 : DmaSem sig := 57
abbrev cc8_sem3_0 : DmaSem sig := 58
abbrev cc8_sem3_1 : DmaSem sig := 59
abbrev cc9_sem0_0 : DmaSem sig := 60
abbrev cc9_sem0_1 : DmaSem sig := 61
abbrev cc9_sem1_0 : DmaSem sig := 62
abbrev cc9_sem2_0 : DmaSem sig := 63
abbrev cc9_sem3_0 : DmaSem sig := 64
abbrev cc9_sem4_0 : DmaSem sig := 65
abbrev cc9_sem5_0 : DmaSem sig := 66
abbrev cc9_sem5_1 : DmaSem sig := 67

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x9 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x9 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S12000x9 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1000], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S12000x9 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S12000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2x9 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x9 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S12000x9 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S12000x9 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S9x9 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x9 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S12000x9 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S12000x9 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S9x9 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x9 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S12000x9 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![1000], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S12000x9 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S12000x2 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S2x9 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x9 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S12000x9 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![125], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S12000x9 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S9x9 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x9 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S12000x9 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![125], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S12000x9 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S9x9 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x9 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S12000x9 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![1000], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S12000x9 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S12000x2 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S2x9 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x9 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S12000x9 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![125], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S12000x9 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S9x4 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x4 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S12000x4 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x24 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S24x8 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x8 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S8x4 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x4 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S10000x4 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

class Facts₀ : Prop where
  slices_S2x12000000_S1x12000000_0_0 : S2x12000000.Slices ![0, 0] S1x12000000
  shapeCasts_S1x12000000_S12000000 : S1x12000000.ShapeCasts S12000000
  slices_S2x12000000_S1x12000000_1_0 : S2x12000000.Slices ![1, 0] S1x12000000
  transposes_S9x1_S1x9_1_0 : S9x1.Transposes [1, 0] S1x9
  shapeCasts_S9_S1x9 : S9.ShapeCasts S1x9
  inb_S12000x1_S12000x1_0_0 : ∀ a, (![0, 0] : Fin 2 → Nat) a + S12000x1.size a ≤ S12000x1.size a
  h_S12000x1 : 0 < S12000x1.numel
  bitsLt_bf16_f32 : FTy.bits .bf16 < FTy.bits .f32
  inb_S1x9_S1x9_0_0 : ∀ a, (![0, 0] : Fin 2 → Nat) a + S1x9.size a ≤ S1x9.size a
  h_S1x9 : 0 < S1x9.numel
  shapeCasts_S1x9_S1x9 : S1x9.ShapeCasts S1x9
  broadcasts_S1x9_S12000x9 : S1x9.Broadcasts S12000x9
  inb_S12000x9_S12000x9_0_0 : ∀ a, (![0, 0] : Fin 2 → Nat) a + S12000x9.size a ≤ S12000x9.size a
  h_S12000x9 : 0 < S12000x9.numel
  bcast_S_S12000000 : S_.BroadcastsInDim S12000000 (![] : Fin 0 → Fin S12000000.rank)
  bcast_S12000000_S12000000x1_0 : S12000000.BroadcastsInDim S12000000x1 (![0] : Fin 1 → Fin S12000000x1.rank)
  transposes_S9x2_S2x9_1_0 : S9x2.Transposes [1, 0] S2x9
  shapeCasts_S12000x9_S12000x9 : S12000x9.ShapeCasts S12000x9
  inb_S12000x2_S12000x2_0_0 : ∀ a, (![0, 0] : Fin 2 → Nat) a + S12000x2.size a ≤ S12000x2.size a
  h_S12000x2 : 0 < S12000x2.numel
  inb_S2x9_S2x9_0_0 : ∀ a, (![0, 0] : Fin 2 → Nat) a + S2x9.size a ≤ S2x9.size a
  h_S2x9 : 0 < S2x9.numel
  shapeCasts_S2x9_S2x9 : S2x9.ShapeCasts S2x9
  bcast_S_S1500000x9 : S_.BroadcastsInDim S1500000x9 (![] : Fin 0 → Fin S1500000x9.rank)
  transposes_S9x9_S9x9_1_0 : S9x9.Transposes [1, 0] S9x9
  inb_S9x9_S9x9_0_0 : ∀ a, (![0, 0] : Fin 2 → Nat) a + S9x9.size a ≤ S9x9.size a
  h_S9x9 : 0 < S9x9.numel
  shapeCasts_S9x9_S9x9 : S9x9.ShapeCasts S9x9
  transposes_S4x9_S9x4_1_0 : S4x9.Transposes [1, 0] S9x4
  shapeCasts_S4_S1x4 : S4.ShapeCasts S1x4
  inb_S9x4_S9x4_0_0 : ∀ a, (![0, 0] : Fin 2 → Nat) a + S9x4.size a ≤ S9x4.size a
  h_S9x4 : 0 < S9x4.numel
  shapeCasts_S9x4_S9x4 : S9x4.ShapeCasts S9x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S12000x4 : S1x4.Broadcasts S12000x4
  inb_S12000x4_S12000x4_0_0 : ∀ a, (![0, 0] : Fin 2 → Nat) a + S12000x4.size a ≤ S12000x4.size a
  h_S12000x4 : 0 < S12000x4.numel
  shapeCasts_S1500000x4_S250000x24 : S1500000x4.ShapeCasts S250000x24
  transposes_S8x24_S24x8_1_0 : S8x24.Transposes [1, 0] S24x8
  transposes_S4x8_S8x4_1_0 : S4x8.Transposes [1, 0] S8x4
  shapeCasts_S8_S1x8 : S8.ShapeCasts S1x8
  inb_S10000x24_S10000x24_0_0 : ∀ a, (![0, 0] : Fin 2 → Nat) a + S10000x24.size a ≤ S10000x24.size a
  h_S10000x24 : 0 < S10000x24.numel
  shapeCasts_S10000x24_S10000x24 : S10000x24.ShapeCasts S10000x24
  inb_S24x8_S24x8_0_0 : ∀ a, (![0, 0] : Fin 2 → Nat) a + S24x8.size a ≤ S24x8.size a
  h_S24x8 : 0 < S24x8.numel
  shapeCasts_S24x8_S24x8 : S24x8.ShapeCasts S24x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S10000x8 : S1x8.Broadcasts S10000x8
  inb_S8x4_S8x4_0_0 : ∀ a, (![0, 0] : Fin 2 → Nat) a + S8x4.size a ≤ S8x4.size a
  h_S8x4 : 0 < S8x4.numel
  shapeCasts_S8x4_S8x4 : S8x4.ShapeCasts S8x4
  broadcasts_S1x4_S10000x4 : S1x4.Broadcasts S10000x4
  reduces_S10000x4_S10000 : S10000x4.Reduces [1] S10000
  shapeCasts_S10000_S10000x1 : S10000.ShapeCasts S10000x1
  broadcasts_S10000x1_S10000x4 : S10000x1.Broadcasts S10000x4
  inb_S10000x4_S10000x4_0_0 : ∀ a, (![0, 0] : Fin 2 → Nat) a + S10000x4.size a ≤ S10000x4.size a
  h_S10000x4 : 0 < S10000x4.numel
  dot_S12000x1_S1x9_S12000x9_1_0_0_1_n_n_wf : DotDims.WF S12000x1 S1x9 S12000x9 [1] [0] [0] [1] [] []
  gather_S1500000x9_S12000000x1_S12000000x9_1_0_n_n_0_1_19_wf : GatherDims.WF S1500000x9 S12000000x1 S12000000x9 [1] [0] [] [0] [] 1 ![1, 9]
  dot_S12000x2_S2x9_S12000x9_1_0_0_1_n_n_wf : DotDims.WF S12000x2 S2x9 S12000x9 [1] [0] [0] [1] [] []
  scatter_S1500000x9_S12000000x1_S12000000x9_1_0_0_1_wf : ScatterDims.WF S1500000x9 S12000000x1 S12000000x9 [1] [0] [0] 1
  dot_S12000x9_S9x9_S12000x9_1_0_0_1_n_n_wf : DotDims.WF S12000x9 S9x9 S12000x9 [1] [0] [0] [1] [] []
  dot_S12000x9_S9x4_S12000x4_1_0_0_1_n_n_wf : DotDims.WF S12000x9 S9x4 S12000x4 [1] [0] [0] [1] [] []
  dot_S10000x24_S24x8_S10000x8_1_0_0_1_n_n_wf : DotDims.WF S10000x24 S24x8 S10000x8 [1] [0] [0] [1] [] []
  dot_S10000x8_S8x4_S10000x4_1_0_0_1_n_n_wf : DotDims.WF S10000x8 S8x4 S10000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12000x1.size a ≤ S1500000x1.size a
  hwx0_0 : ∀ i : grid0.Coords, EltTy.bits .f32 = 32 ∨ (Rect.block (s := S1500000x1) S12000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x9.size a ≤ S1x9.size a
  hwx0_1 : ∀ i : grid0.Coords, EltTy.bits .f32 = 32 ∨ (Rect.block (s := S1x9) S1x9.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x9.size a ≤ S1x9.size a
  hwx0_2 : ∀ i : grid0.Coords, EltTy.bits .f32 = 32 ∨ (Rect.block (s := S1x9) S1x9.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S12000x9.size a ≤ S1500000x9.size a
  hwx0_3 : ∀ i : grid0.Coords, EltTy.bits .f32 = 32 ∨ (Rect.block (s := S1500000x9) S12000x9.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S12000x9.size a ≤ S12000000x9.size a
  hwx1_0 : ∀ i : grid1.Coords, EltTy.bits .f32 = 32 ∨ (Rect.block (s := S12000000x9) S12000x9.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S12000x2.size a ≤ S12000000x2.size a
  hwx1_1 : ∀ i : grid1.Coords, EltTy.bits .f32 = 32 ∨ (Rect.block (s := S12000000x2) S12000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x9.size a ≤ S2x9.size a
  hwx1_2 : ∀ i : grid1.Coords, EltTy.bits .f32 = 32 ∨ (Rect.block (s := S2x9) S2x9.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x9.size a ≤ S1x9.size a
  hwx1_3 : ∀ i : grid1.Coords, EltTy.bits .f32 = 32 ∨ (Rect.block (s := S1x9) S1x9.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S12000x9.size a ≤ S12000000x9.size a
  hwx1_4 : ∀ i : grid1.Coords, EltTy.bits .f32 = 32 ∨ (Rect.block (s := S12000000x9) S12000x9.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S12000x9.size a ≤ S1500000x9.size a
  hwx2_0 : ∀ i : grid2.Coords, EltTy.bits .f32 = 32 ∨ (Rect.block (s := S1500000x9) S12000x9.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S9x9.size a ≤ S9x9.size a
  hwx2_1 : ∀ i : grid2.Coords, EltTy.bits .f32 = 32 ∨ (Rect.block (s := S9x9) S9x9.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x9.size a ≤ S1x9.size a
  hwx2_2 : ∀ i : grid2.Coords, EltTy.bits .f32 = 32 ∨ (Rect.block (s := S1x9) S1x9.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S12000x9.size a ≤ S1500000x9.size a
  hwx2_3 : ∀ i : grid2.Coords, EltTy.bits .f32 = 32 ∨ (Rect.block (s := S1500000x9) S12000x9.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S12000x9.size a ≤ S1500000x9.size a
  hwx3_0 : ∀ i : grid3.Coords, EltTy.bits .f32 = 32 ∨ (Rect.block (s := S1500000x9) S12000x9.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S9x9.size a ≤ S9x9.size a
  hwx3_1 : ∀ i : grid3.Coords, EltTy.bits .f32 = 32 ∨ (Rect.block (s := S9x9) S9x9.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x9.size a ≤ S1x9.size a
  hwx3_2 : ∀ i : grid3.Coords, EltTy.bits .f32 = 32 ∨ (Rect.block (s := S1x9) S1x9.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S12000x9.size a ≤ S1500000x9.size a
  hwx3_3 : ∀ i : grid3.Coords, EltTy.bits .f32 = 32 ∨ (Rect.block (s := S1500000x9) S12000x9.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S12000x9.size a ≤ S12000000x9.size a
  hwx4_0 : ∀ i : grid4.Coords, EltTy.bits .f32 = 32 ∨ (Rect.block (s := S12000000x9) S12000x9.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S12000x2.size a ≤ S12000000x2.size a
  hwx4_1 : ∀ i : grid4.Coords, EltTy.bits .f32 = 32 ∨ (Rect.block (s := S12000000x2) S12000x2.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S2x9.size a ≤ S2x9.size a
  hwx4_2 : ∀ i : grid4.Coords, EltTy.bits .f32 = 32 ∨ (Rect.block (s := S2x9) S2x9.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x9.size a ≤ S1x9.size a
  hwx4_3 : ∀ i : grid4.Coords, EltTy.bits .f32 = 32 ∨ (Rect.block (s := S1x9) S1x9.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S12000x9.size a ≤ S12000000x9.size a
  hwx4_4 : ∀ i : grid4.Coords, EltTy.bits .f32 = 32 ∨ (Rect.block (s := S12000000x9) S12000x9.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S12000x9.size a ≤ S1500000x9.size a
  hwx5_0 : ∀ i : grid5.Coords, EltTy.bits .f32 = 32 ∨ (Rect.block (s := S1500000x9) S12000x9.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S9x9.size a ≤ S9x9.size a
  hwx5_1 : ∀ i : grid5.Coords, EltTy.bits .f32 = 32 ∨ (Rect.block (s := S9x9) S9x9.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x9.size a ≤ S1x9.size a
  hwx5_2 : ∀ i : grid5.Coords, EltTy.bits .f32 = 32 ∨ (Rect.block (s := S1x9) S1x9.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S12000x9.size a ≤ S1500000x9.size a
  hwx5_3 : ∀ i : grid5.Coords, EltTy.bits .f32 = 32 ∨ (Rect.block (s := S1500000x9) S12000x9.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S12000x9.size a ≤ S1500000x9.size a
  hwx6_0 : ∀ i : grid6.Coords, EltTy.bits .f32 = 32 ∨ (Rect.block (s := S1500000x9) S12000x9.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S9x9.size a ≤ S9x9.size a
  hwx6_1 : ∀ i : grid6.Coords, EltTy.bits .f32 = 32 ∨ (Rect.block (s := S9x9) S9x9.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x9.size a ≤ S1x9.size a
  hwx6_2 : ∀ i : grid6.Coords, EltTy.bits .f32 = 32 ∨ (Rect.block (s := S1x9) S1x9.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S12000x9.size a ≤ S1500000x9.size a
  hwx6_3 : ∀ i : grid6.Coords, EltTy.bits .f32 = 32 ∨ (Rect.block (s := S1500000x9) S12000x9.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S12000x9.size a ≤ S12000000x9.size a
  hwx7_0 : ∀ i : grid7.Coords, EltTy.bits .f32 = 32 ∨ (Rect.block (s := S12000000x9) S12000x9.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S12000x2.size a ≤ S12000000x2.size a
  hwx7_1 : ∀ i : grid7.Coords, EltTy.bits .f32 = 32 ∨ (Rect.block (s := S12000000x2) S12000x2.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S2x9.size a ≤ S2x9.size a
  hwx7_2 : ∀ i : grid7.Coords, EltTy.bits .f32 = 32 ∨ (Rect.block (s := S2x9) S2x9.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x9.size a ≤ S1x9.size a
  hwx7_3 : ∀ i : grid7.Coords, EltTy.bits .f32 = 32 ∨ (Rect.block (s := S1x9) S1x9.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S12000x9.size a ≤ S12000000x9.size a
  hwx7_4 : ∀ i : grid7.Coords, EltTy.bits .f32 = 32 ∨ (Rect.block (s := S12000000x9) S12000x9.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S12000x9.size a ≤ S1500000x9.size a
  hwx8_0 : ∀ i : grid8.Coords, EltTy.bits .f32 = 32 ∨ (Rect.block (s := S1500000x9) S12000x9.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S9x4.size a ≤ S9x4.size a
  hwx8_1 : ∀ i : grid8.Coords, EltTy.bits .f32 = 32 ∨ (Rect.block (s := S9x4) S9x4.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x4.size a ≤ S1x4.size a
  hwx8_2 : ∀ i : grid8.Coords, EltTy.bits .f32 = 32 ∨ (Rect.block (s := S1x4) S1x4.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S12000x4.size a ≤ S1500000x4.size a
  hwx8_3 : ∀ i : grid8.Coords, EltTy.bits .f32 = 32 ∨ (Rect.block (s := S1500000x4) S12000x4.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x24.size a ≤ S250000x24.size a
  hwx9_0 : ∀ i : grid9.Coords, EltTy.bits .f32 = 32 ∨ (Rect.block (s := S250000x24) S10000x24.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S24x8.size a ≤ S24x8.size a
  hwx9_1 : ∀ i : grid9.Coords, EltTy.bits .f32 = 32 ∨ (Rect.block (s := S24x8) S24x8.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x8.size a ≤ S1x8.size a
  hwx9_2 : ∀ i : grid9.Coords, EltTy.bits .f32 = 32 ∨ (Rect.block (s := S1x8) S1x8.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S8x4.size a ≤ S8x4.size a
  hwx9_3 : ∀ i : grid9.Coords, EltTy.bits .f32 = 32 ∨ (Rect.block (s := S8x4) S8x4.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x4.size a ≤ S1x4.size a
  hwx9_4 : ∀ i : grid9.Coords, EltTy.bits .f32 = 32 ∨ (Rect.block (s := S1x4) S1x4.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S10000x4.size a ≤ S250000x4.size a
  hwx9_5 : ∀ i : grid9.Coords, EltTy.bits .f32 = 32 ∨ (Rect.block (s := S250000x4) S10000x4.size (cc9_transform_5 i) (hinb9_5 i)).WholeWords (EltTy.packing .f32)

variable [Facts₀]

def dot_S12000x1_S1x9_S12000x9_1_0_0_1_n_n : DotDims S12000x1 S1x9 S12000x9 where
  lhsContracting := [1]
  rhsContracting := [0]
  lhsNonContracting := [0]
  rhsNonContracting := [1]
  lhsBatch := []
  rhsBatch := []
  wf := dot_S12000x1_S1x9_S12000x9_1_0_0_1_n_n_wf
def gather_S1500000x9_S12000000x1_S12000000x9_1_0_n_n_0_1_19 : GatherDims S1500000x9 S12000000x1 S12000000x9 where
  offsetDims := [1]
  collapsedSliceDims := [0]
  operandBatchingDims := []
  startIndicesBatchingDims := []
  startIndexMap := [0]
  indexVectorDim := 1
  sliceSizes := ![1, 9]
  wf := gather_S1500000x9_S12000000x1_S12000000x9_1_0_n_n_0_1_19_wf
def dot_S12000x2_S2x9_S12000x9_1_0_0_1_n_n : DotDims S12000x2 S2x9 S12000x9 where
  lhsContracting := [1]
  rhsContracting := [0]
  lhsNonContracting := [0]
  rhsNonContracting := [1]
  lhsBatch := []
  rhsBatch := []
  wf := dot_S12000x2_S2x9_S12000x9_1_0_0_1_n_n_wf
def scatter_S1500000x9_S12000000x1_S12000000x9_1_0_0_1 : ScatterDims S1500000x9 S12000000x1 S12000000x9 where
  updateWindowDims := [1]
  insertedWindowDims := [0]
  scatterDimsToOperandDims := [0]
  indexVectorDim := 1
  wf := scatter_S1500000x9_S12000000x1_S12000000x9_1_0_0_1_wf
def dot_S12000x9_S9x9_S12000x9_1_0_0_1_n_n : DotDims S12000x9 S9x9 S12000x9 where
  lhsContracting := [1]
  rhsContracting := [0]
  lhsNonContracting := [0]
  rhsNonContracting := [1]
  lhsBatch := []
  rhsBatch := []
  wf := dot_S12000x9_S9x9_S12000x9_1_0_0_1_n_n_wf
def dot_S12000x9_S9x4_S12000x4_1_0_0_1_n_n : DotDims S12000x9 S9x4 S12000x4 where
  lhsContracting := [1]
  rhsContracting := [0]
  lhsNonContracting := [0]
  rhsNonContracting := [1]
  lhsBatch := []
  rhsBatch := []
  wf := dot_S12000x9_S9x4_S12000x4_1_0_0_1_n_n_wf
def dot_S10000x24_S24x8_S10000x8_1_0_0_1_n_n : DotDims S10000x24 S24x8 S10000x8 where
  lhsContracting := [1]
  rhsContracting := [0]
  lhsNonContracting := [0]
  rhsNonContracting := [1]
  lhsBatch := []
  rhsBatch := []
  wf := dot_S10000x24_S24x8_S10000x8_1_0_0_1_n_n_wf
def dot_S10000x8_S8x4_S10000x4_1_0_0_1_n_n : DotDims S10000x8 S8x4 S10000x4 where
  lhsContracting := [1]
  rhsContracting := [0]
  lhsNonContracting := [0]
  rhsNonContracting := [1]
  lhsBatch := []
  rhsBatch := []
  wf := dot_S10000x8_S8x4_S10000x4_1_0_0_1_n_n_wf

abbrev win0_0 : Pipeline.Window sig grid0 :=
  Pipeline.Window.ofSpec (Memref.whole main_arg0) S12000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x9.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x9.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S12000x9.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S12000x9.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S12000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S2x9.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x9.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S12000x9.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v19) S12000x9.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S9x9.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v21) S1x9.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v22) S12000x9.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v22) S12000x9.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S9x9.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v24) S1x9.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v25) S12000x9.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v32) S12000x9.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg2) S12000x2.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v33) S2x9.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v34) S1x9.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v35) S12000x9.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v38) S12000x9.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v39) S9x9.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v40) S1x9.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v41) S12000x9.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v41) S12000x9.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v42) S9x9.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v43) S1x9.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v44) S12000x9.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v51) S12000x9.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg2) S12000x2.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v52) S2x9.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v53) S1x9.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v54) S12000x9.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v57) S12000x9.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v58) S9x4.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v59) S1x4.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v60) S12000x4.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v61) S10000x24.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v62) S24x8.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v64) S1x8.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v63) S8x4.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v65) S1x4.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v66) S10000x4.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

class Facts : Prop extends Facts₀ where

variable [Facts]
-- ==== ReferenceIdeal.lean ====
abbrev S1500000x1 : Shape := ⟨2, ![1500000, 1]⟩
abbrev S2x12000000 : Shape := ⟨2, ![2, 12000000]⟩
abbrev S12000000x2 : Shape := ⟨2, ![12000000, 2]⟩
abbrev S9x1 : Shape := ⟨2, ![9, 1]⟩
abbrev S9 : Shape := ⟨1, ![9]⟩
abbrev S9x2 : Shape := ⟨2, ![9, 2]⟩
abbrev S9x9 : Shape := ⟨2, ![9, 9]⟩
abbrev S4x9 : Shape := ⟨2, ![4, 9]⟩
abbrev S4 : Shape := ⟨1, ![4]⟩
abbrev S8x24 : Shape := ⟨2, ![8, 24]⟩
abbrev S8 : Shape := ⟨1, ![8]⟩
abbrev S4x8 : Shape := ⟨2, ![4, 8]⟩
abbrev S1x12000000 : Shape := ⟨2, ![1, 12000000]⟩
abbrev S12000000 : Shape := ⟨1, ![12000000]⟩
abbrev S1x9 : Shape := ⟨2, ![1, 9]⟩
abbrev S1500000x9 : Shape := ⟨2, ![1500000, 9]⟩
abbrev S_ : Shape := ⟨0, ![]⟩
abbrev S12000000x1 : Shape := ⟨2, ![12000000, 1]⟩
abbrev S12000000x9 : Shape := ⟨2, ![12000000, 9]⟩
abbrev S2x9 : Shape := ⟨2, ![2, 9]⟩
abbrev S9x4 : Shape := ⟨2, ![9, 4]⟩
abbrev S1500000x4 : Shape := ⟨2, ![1500000, 4]⟩
abbrev S1x4 : Shape := ⟨2, ![1, 4]⟩
abbrev S250000x24 : Shape := ⟨2, ![250000, 24]⟩
abbrev S24x8 : Shape := ⟨2, ![24, 8]⟩
abbrev S250000x8 : Shape := ⟨2, ![250000, 8]⟩
abbrev S1x8 : Shape := ⟨2, ![1, 8]⟩
abbrev S8x4 : Shape := ⟨2, ![8, 4]⟩
abbrev S250000x4 : Shape := ⟨2, ![250000, 4]⟩
abbrev S250000 : Shape := ⟨1, ![250000]⟩
abbrev S250000x1 : Shape := ⟨2, ![250000, 1]⟩

abbrev nBuf : Space → Nat
  | .hbm => 154
  | .vmem => 0
  | .smem => 0
  | _ => 0

abbrev hbmTy0_0 (i : Nat) : BufTy := match i % 128 with
  | 0 => ⟨S1500000x1, .f32⟩
  | 1 => ⟨S2x12000000, .i32⟩
  | 2 => ⟨S12000000x2, .f32⟩
  | 3 => ⟨S9x1, .f32⟩
  | 4 => ⟨S9, .f32⟩
  | 5 => ⟨S9x2, .f32⟩
  | 6 => ⟨S9, .f32⟩
  | 7 => ⟨S9x9, .f32⟩
  | 8 => ⟨S9, .f32⟩
  | 9 => ⟨S9x9, .f32⟩
  | 10 => ⟨S9, .f32⟩
  | 11 => ⟨S9x2, .f32⟩
  | 12 => ⟨S9, .f32⟩
  | 13 => ⟨S9x9, .f32⟩
  | 14 => ⟨S9, .f32⟩
  | 15 => ⟨S9x9, .f32⟩
  | 16 => ⟨S9, .f32⟩
  | 17 => ⟨S9x2, .f32⟩
  | 18 => ⟨S9, .f32⟩
  | 19 => ⟨S4x9, .f32⟩
  | 20 => ⟨S4, .f32⟩
  | 21 => ⟨S8x24, .f32⟩
  | 22 => ⟨S8, .f32⟩
  | 23 => ⟨S4x8, .f32⟩
  | 24 => ⟨S4, .f32⟩
  | 25 => ⟨S1x12000000, .i32⟩
  | 26 => ⟨S12000000, .i32⟩
  | 27 => ⟨S1x12000000, .i32⟩
  | 28 => ⟨S12000000, .i32⟩
  | 29 => ⟨S1x9, .f32⟩
  | 30 => ⟨S1500000x9, .f32⟩
  | 31 => ⟨S1x9, .f32⟩
  | 32 => ⟨S1500000x9, .f32⟩
  | 33 => ⟨S1500000x9, .f32⟩
  | 34 => ⟨S_, .i32⟩
  | 35 => ⟨S12000000, .i32⟩
  | 36 => ⟨S12000000, .i1⟩
  | 37 => ⟨S_, .i32⟩
  | 38 => ⟨S12000000, .i32⟩
  | 39 => ⟨S12000000, .i32⟩
  | 40 => ⟨S12000000, .i32⟩
  | 41 => ⟨S12000000x1, .i32⟩
  | 42 => ⟨S12000000x9, .f32⟩
  | 43 => ⟨S2x9, .f32⟩
  | 44 => ⟨S12000000x9, .f32⟩
  | 45 => ⟨S1x9, .f32⟩
  | 46 => ⟨S12000000x9, .f32⟩
  | 47 => ⟨S12000000x9, .f32⟩
  | 48 => ⟨S12000000x9, .f32⟩
  | 49 => ⟨S_, .f32⟩
  | 50 => ⟨S1500000x9, .f32⟩
  | 51 => ⟨S12000000x1, .i32⟩
  | 52 => ⟨S1500000x9, .f32⟩
  | 53 => ⟨S9x9, .f32⟩
  | 54 => ⟨S1500000x9, .f32⟩
  | 55 => ⟨S1x9, .f32⟩
  | 56 => ⟨S1500000x9, .f32⟩
  | 57 => ⟨S1500000x9, .f32⟩
  | 58 => ⟨S_, .f32⟩
  | 59 => ⟨S1500000x9, .f32⟩
  | 60 => ⟨S1500000x9, .f32⟩
  | 61 => ⟨S9x9, .f32⟩
  | 62 => ⟨S1500000x9, .f32⟩
  | 63 => ⟨S1x9, .f32⟩
  | 64 => ⟨S1500000x9, .f32⟩
  | 65 => ⟨S1500000x9, .f32⟩
  | 66 => ⟨S_, .i32⟩
  | 67 => ⟨S12000000, .i32⟩
  | 68 => ⟨S12000000, .i1⟩
  | 69 => ⟨S_, .i32⟩
  | 70 => ⟨S12000000, .i32⟩
  | 71 => ⟨S12000000, .i32⟩
  | 72 => ⟨S12000000, .i32⟩
  | 73 => ⟨S12000000x1, .i32⟩
  | 74 => ⟨S12000000x9, .f32⟩
  | 75 => ⟨S2x9, .f32⟩
  | 76 => ⟨S12000000x9, .f32⟩
  | 77 => ⟨S1x9, .f32⟩
  | 78 => ⟨S12000000x9, .f32⟩
  | 79 => ⟨S12000000x9, .f32⟩
  | 80 => ⟨S12000000x9, .f32⟩
  | 81 => ⟨S_, .f32⟩
  | 82 => ⟨S1500000x9, .f32⟩
  | 83 => ⟨S12000000x1, .i32⟩
  | 84 => ⟨S1500000x9, .f32⟩
  | 85 => ⟨S9x9, .f32⟩
  | 86 => ⟨S1500000x9, .f32⟩
  | 87 => ⟨S1x9, .f32⟩
  | 88 => ⟨S1500000x9, .f32⟩
  | 89 => ⟨S1500000x9, .f32⟩
  | 90 => ⟨S_, .f32⟩
  | 91 => ⟨S1500000x9, .f32⟩
  | 92 => ⟨S1500000x9, .f32⟩
  | 93 => ⟨S9x9, .f32⟩
  | 94 => ⟨S1500000x9, .f32⟩
  | 95 => ⟨S1x9, .f32⟩
  | 96 => ⟨S1500000x9, .f32⟩
  | 97 => ⟨S1500000x9, .f32⟩
  | 98 => ⟨S_, .i32⟩
  | 99 => ⟨S12000000, .i32⟩
  | 100 => ⟨S12000000, .i1⟩
  | 101 => ⟨S_, .i32⟩
  | 102 => ⟨S12000000, .i32⟩
  | 103 => ⟨S12000000, .i32⟩
  | 104 => ⟨S12000000, .i32⟩
  | 105 => ⟨S12000000x1, .i32⟩
  | 106 => ⟨S12000000x9, .f32⟩
  | 107 => ⟨S2x9, .f32⟩
  | 108 => ⟨S12000000x9, .f32⟩
  | 109 => ⟨S1x9, .f32⟩
  | 110 => ⟨S12000000x9, .f32⟩
  | 111 => ⟨S12000000x9, .f32⟩
  | 112 => ⟨S12000000x9, .f32⟩
  | 113 => ⟨S_, .f32⟩
  | 114 => ⟨S1500000x9, .f32⟩
  | 115 => ⟨S12000000x1, .i32⟩
  | 116 => ⟨S1500000x9, .f32⟩
  | 117 => ⟨S9x4, .f32⟩
  | 118 => ⟨S1500000x4, .f32⟩
  | 119 => ⟨S1x4, .f32⟩
  | 120 => ⟨S1500000x4, .f32⟩
  | 121 => ⟨S1500000x4, .f32⟩
  | 122 => ⟨S_, .f32⟩
  | 123 => ⟨S1500000x4, .f32⟩
  | 124 => ⟨S1500000x4, .f32⟩
  | 125 => ⟨S250000x24, .f32⟩
  | 126 => ⟨S24x8, .f32⟩
  | 127 => ⟨S250000x8, .f32⟩
  | _ => ⟨S1500000x1, .f32⟩

abbrev hbmTy0_1 (i : Nat) : BufTy := match i % 128 with
  | 0 => ⟨S1x8, .f32⟩
  | 1 => ⟨S250000x8, .f32⟩
  | 2 => ⟨S250000x8, .f32⟩
  | 3 => ⟨S_, .f32⟩
  | 4 => ⟨S250000x8, .f32⟩
  | 5 => ⟨S250000x8, .f32⟩
  | 6 => ⟨S8x4, .f32⟩
  | 7 => ⟨S250000x4, .f32⟩
  | 8 => ⟨S1x4, .f32⟩
  | 9 => ⟨S250000x4, .f32⟩
  | 10 => ⟨S250000x4, .f32⟩
  | 11 => ⟨S_, .f32⟩
  | 12 => ⟨S250000, .f32⟩
  | 13 => ⟨S_, .f32⟩
  | 14 => ⟨S250000, .f32⟩
  | 15 => ⟨S250000, .f32⟩
  | 16 => ⟨S250000x1, .f32⟩
  | 17 => ⟨S250000x4, .f32⟩
  | 18 => ⟨S250000x4, .f32⟩
  | 19 => ⟨S250000x4, .f32⟩
  | 20 => ⟨S_, .f32⟩
  | 21 => ⟨S250000, .f32⟩
  | 22 => ⟨S250000x1, .f32⟩
  | 23 => ⟨S250000x1, .f32⟩
  | 24 => ⟨S250000x4, .f32⟩
  | 25 => ⟨S250000x4, .f32⟩
  | _ => ⟨S1500000x1, .f32⟩

abbrev hbmTy (i : Nat) : BufTy := match i / 128 with
  | 0 => hbmTy0_0 i
  | 1 => hbmTy0_1 i
  | _ => ⟨S1500000x1, .f32⟩

abbrev bufTy : (tb : Table) → Fin (tcTables nBuf tb) → BufTy
  | .hbm, ⟨i, _⟩ => hbmTy i
  | _, _ => ⟨S1500000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_c : Ref sig .tc := ⟨.hbm, 34, rfl⟩
abbrev main_v9 : Ref sig .tc := ⟨.hbm, 35, rfl⟩
abbrev main_v10 : Ref sig .tc := ⟨.hbm, 36, rfl⟩
abbrev main_c_0 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_call0_cst : Ref sig .tc := ⟨.hbm, 58, rfl⟩
abbrev main_call0_v0 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_c_1 : Ref sig .tc := ⟨.hbm, 66, rfl⟩
abbrev main_v36 : Ref sig .tc := ⟨.hbm, 67, rfl⟩
abbrev main_v37 : Ref sig .tc := ⟨.hbm, 68, rfl⟩
abbrev main_c_2 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_3 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_call1_cst : Ref sig .tc := ⟨.hbm, 90, rfl⟩
abbrev main_call1_v0 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_c_4 : Ref sig .tc := ⟨.hbm, 98, rfl⟩
abbrev main_v63 : Ref sig .tc := ⟨.hbm, 99, rfl⟩
abbrev main_v64 : Ref sig .tc := ⟨.hbm, 100, rfl⟩
abbrev main_c_5 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_6 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_call2_cst : Ref sig .tc := ⟨.hbm, 122, rfl⟩
abbrev main_call2_v0 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_call3_cst : Ref sig .tc := ⟨.hbm, 131, rfl⟩
abbrev main_call3_v0 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_call4_cst : Ref sig .tc := ⟨.hbm, 139, rfl⟩
abbrev main_call4_v0 : Ref sig .tc := ⟨.hbm, 140, rfl⟩
abbrev main_call4_cst_0 : Ref sig .tc := ⟨.hbm, 141, rfl⟩
abbrev main_call4_v1 : Ref sig .tc := ⟨.hbm, 142, rfl⟩
abbrev main_call4_v2 : Ref sig .tc := ⟨.hbm, 143, rfl⟩
abbrev main_call4_v3 : Ref sig .tc := ⟨.hbm, 144, rfl⟩
abbrev main_call4_v4 : Ref sig .tc := ⟨.hbm, 145, rfl⟩
abbrev main_call4_v5 : Ref sig .tc := ⟨.hbm, 146, rfl⟩
abbrev main_call4_v6 : Ref sig .tc := ⟨.hbm, 147, rfl⟩
abbrev main_call4_cst_1 : Ref sig .tc := ⟨.hbm, 148, rfl⟩
abbrev main_call4_v7 : Ref sig .tc := ⟨.hbm, 149, rfl⟩
abbrev main_call4_v8 : Ref sig .tc := ⟨.hbm, 150, rfl⟩
abbrev main_call4_v9 : Ref sig .tc := ⟨.hbm, 151, rfl⟩
abbrev main_call4_v10 : Ref sig .tc := ⟨.hbm, 152, rfl⟩
abbrev main_v97 : Ref sig .tc := ⟨.hbm, 153, rfl⟩

abbrev nD : Nat := 1
abbrev τ : Topo := Topo.v7x

variable {F : FTy → Type} [FloatOps F]

class Facts₀ : Prop where
  slices_S2x12000000_S1x12000000_0_0 : S2x12000000.Slices ![0, 0] S1x12000000
  shapeCasts_S1x12000000_S12000000 : S1x12000000.ShapeCasts S12000000
  slices_S2x12000000_S1x12000000_1_0 : S2x12000000.Slices ![1, 0] S1x12000000
  transposes_S9x1_S1x9_1_0 : S9x1.Transposes [1, 0] S1x9
  bcast_S9_S1x9_1 : S9.BroadcastsInDim S1x9 (![1] : Fin 1 → Fin S1x9.rank)
  bcast_S1x9_S1500000x9_0_1 : S1x9.BroadcastsInDim S1500000x9 (![0, 1] : Fin 2 → Fin S1500000x9.rank)
  bcast_S_S12000000 : S_.BroadcastsInDim S12000000 (![] : Fin 0 → Fin S12000000.rank)
  bcast_S12000000_S12000000x1_0 : S12000000.BroadcastsInDim S12000000x1 (![0] : Fin 1 → Fin S12000000x1.rank)
  transposes_S9x2_S2x9_1_0 : S9x2.Transposes [1, 0] S2x9
  bcast_S1x9_S12000000x9_0_1 : S1x9.BroadcastsInDim S12000000x9 (![0, 1] : Fin 2 → Fin S12000000x9.rank)
  bcast_S_S1500000x9 : S_.BroadcastsInDim S1500000x9 (![] : Fin 0 → Fin S1500000x9.rank)
  transposes_S9x9_S9x9_1_0 : S9x9.Transposes [1, 0] S9x9
  transposes_S4x9_S9x4_1_0 : S4x9.Transposes [1, 0] S9x4
  bcast_S4_S1x4_1 : S4.BroadcastsInDim S1x4 (![1] : Fin 1 → Fin S1x4.rank)
  bcast_S1x4_S1500000x4_0_1 : S1x4.BroadcastsInDim S1500000x4 (![0, 1] : Fin 2 → Fin S1500000x4.rank)
  bcast_S_S1500000x4 : S_.BroadcastsInDim S1500000x4 (![] : Fin 0 → Fin S1500000x4.rank)
  shapeCasts_S1500000x4_S250000x24 : S1500000x4.ShapeCasts S250000x24
  transposes_S8x24_S24x8_1_0 : S8x24.Transposes [1, 0] S24x8
  bcast_S8_S1x8_1 : S8.BroadcastsInDim S1x8 (![1] : Fin 1 → Fin S1x8.rank)
  bcast_S1x8_S250000x8_0_1 : S1x8.BroadcastsInDim S250000x8 (![0, 1] : Fin 2 → Fin S250000x8.rank)
  bcast_S_S250000x8 : S_.BroadcastsInDim S250000x8 (![] : Fin 0 → Fin S250000x8.rank)
  transposes_S4x8_S8x4_1_0 : S4x8.Transposes [1, 0] S8x4
  bcast_S1x4_S250000x4_0_1 : S1x4.BroadcastsInDim S250000x4 (![0, 1] : Fin 2 → Fin S250000x4.rank)
  reducesTo_S250000x4_S250000_d1 : S250000x4.ReducesTo [1] S250000
  h_S_ : 0 < S_.numel
  bcast_S_S250000 : S_.BroadcastsInDim S250000 (![] : Fin 0 → Fin S250000.rank)
  bcast_S250000_S250000x1_0 : S250000.BroadcastsInDim S250000x1 (![0] : Fin 1 → Fin S250000x1.rank)
  bcast_S250000x1_S250000x4_0_1 : S250000x1.BroadcastsInDim S250000x4 (![0, 1] : Fin 2 → Fin S250000x4.rank)
  dot_S1500000x1_S1x9_S1500000x9_1_0_0_1_n_n_wf : DotDims.WF S1500000x1 S1x9 S1500000x9 [1] [0] [0] [1] [] []
  gather_S1500000x9_S12000000x1_S12000000x9_1_0_n_n_0_1_19_wf : GatherDims.WF S1500000x9 S12000000x1 S12000000x9 [1] [0] [] [0] [] 1 ![1, 9]
  dot_S12000000x2_S2x9_S12000000x9_1_0_0_1_n_n_wf : DotDims.WF S12000000x2 S2x9 S12000000x9 [1] [0] [0] [1] [] []
  scatter_S1500000x9_S12000000x1_S12000000x9_1_0_0_1_wf : ScatterDims.WF S1500000x9 S12000000x1 S12000000x9 [1] [0] [0] 1
  dot_S1500000x9_S9x9_S1500000x9_1_0_0_1_n_n_wf : DotDims.WF S1500000x9 S9x9 S1500000x9 [1] [0] [0] [1] [] []
  dot_S1500000x9_S9x4_S1500000x4_1_0_0_1_n_n_wf : DotDims.WF S1500000x9 S9x4 S1500000x4 [1] [0] [0] [1] [] []
  dot_S250000x24_S24x8_S250000x8_1_0_0_1_n_n_wf : DotDims.WF S250000x24 S24x8 S250000x8 [1] [0] [0] [1] [] []
  dot_S250000x8_S8x4_S250000x4_1_0_0_1_n_n_wf : DotDims.WF S250000x8 S8x4 S250000x4 [1] [0] [0] [1] [] []

variable [Facts₀]

def dot_S1500000x1_S1x9_S1500000x9_1_0_0_1_n_n : DotDims S1500000x1 S1x9 S1500000x9 where
  lhsContracting := [1]
  rhsContracting := [0]
  lhsNonContracting := [0]
  rhsNonContracting := [1]
  lhsBatch := []
  rhsBatch := []
  wf := dot_S1500000x1_S1x9_S1500000x9_1_0_0_1_n_n_wf
def gather_S1500000x9_S12000000x1_S12000000x9_1_0_n_n_0_1_19 : GatherDims S1500000x9 S12000000x1 S12000000x9 where
  offsetDims := [1]
  collapsedSliceDims := [0]
  operandBatchingDims := []
  startIndicesBatchingDims := []
  startIndexMap := [0]
  indexVectorDim := 1
  sliceSizes := ![1, 9]
  wf := gather_S1500000x9_S12000000x1_S12000000x9_1_0_n_n_0_1_19_wf
def dot_S12000000x2_S2x9_S12000000x9_1_0_0_1_n_n : DotDims S12000000x2 S2x9 S12000000x9 where
  lhsContracting := [1]
  rhsContracting := [0]
  lhsNonContracting := [0]
  rhsNonContracting := [1]
  lhsBatch := []
  rhsBatch := []
  wf := dot_S12000000x2_S2x9_S12000000x9_1_0_0_1_n_n_wf
def scatter_S1500000x9_S12000000x1_S12000000x9_1_0_0_1 : ScatterDims S1500000x9 S12000000x1 S12000000x9 where
  updateWindowDims := [1]
  insertedWindowDims := [0]
  scatterDimsToOperandDims := [0]
  indexVectorDim := 1
  wf := scatter_S1500000x9_S12000000x1_S12000000x9_1_0_0_1_wf
def dot_S1500000x9_S9x9_S1500000x9_1_0_0_1_n_n : DotDims S1500000x9 S9x9 S1500000x9 where
  lhsContracting := [1]
  rhsContracting := [0]
  lhsNonContracting := [0]
  rhsNonContracting := [1]
  lhsBatch := []
  rhsBatch := []
  wf := dot_S1500000x9_S9x9_S1500000x9_1_0_0_1_n_n_wf
def dot_S1500000x9_S9x4_S1500000x4_1_0_0_1_n_n : DotDims S1500000x9 S9x4 S1500000x4 where
  lhsContracting := [1]
  rhsContracting := [0]
  lhsNonContracting := [0]
  rhsNonContracting := [1]
  lhsBatch := []
  rhsBatch := []
  wf := dot_S1500000x9_S9x4_S1500000x4_1_0_0_1_n_n_wf
def dot_S250000x24_S24x8_S250000x8_1_0_0_1_n_n : DotDims S250000x24 S24x8 S250000x8 where
  lhsContracting := [1]
  rhsContracting := [0]
  lhsNonContracting := [0]
  rhsNonContracting := [1]
  lhsBatch := []
  rhsBatch := []
  wf := dot_S250000x24_S24x8_S250000x8_1_0_0_1_n_n_wf
def dot_S250000x8_S8x4_S250000x4_1_0_0_1_n_n : DotDims S250000x8 S8x4 S250000x4 where
  lhsContracting := [1]
  rhsContracting := [0]
  lhsNonContracting := [0]
  rhsNonContracting := [1]
  lhsBatch := []
  rhsBatch := []
  wf := dot_S250000x8_S8x4_S250000x4_1_0_0_1_n_n_wf

class Facts : Prop extends Facts₀ where

variable [Facts]
-- ==== Proof.KRun.lean ====
/-
  The idealized kernel program's run with its result named.

  @main is ten kernel launches among stretches of host operations. Its run is followed boundary by boundary:
  `W0` is the launch memory, `W(2k+1)` the memory after the k-th host stretch, `W(2k+2)` the memory after the
  k-th launch (its output array at what the grid's write-backs leave, every other buffer as before). Every weakly
  fair execution terminates, without a fault, in a state whose unscoped buffers are exactly `W20`: so the result
  buffer ends holding `W20` at the result's reference, and the arguments end as launched.
-/
import proofs.«175860_j29935922053254_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v66) = W20 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v66 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c),
       (h c _ (mem_uc main_arg13 (by decide))).trans (W20_main_arg13 m ρ c),
       (h c _ (mem_uc main_arg14 (by decide))).trans (W20_main_arg14 m ρ c),
       (h c _ (mem_uc main_arg15 (by decide))).trans (W20_main_arg15 m ρ c),
       (h c _ (mem_uc main_arg16 (by decide))).trans (W20_main_arg16 m ρ c),
       (h c _ (mem_uc main_arg17 (by decide))).trans (W20_main_arg17 m ρ c),
       (h c _ (mem_uc main_arg18 (by decide))).trans (W20_main_arg18 m ρ c),
       (h c _ (mem_uc main_arg19 (by decide))).trans (W20_main_arg19 m ρ c),
       (h c _ (mem_uc main_arg20 (by decide))).trans (W20_main_arg20 m ρ c),
       (h c _ (mem_uc main_arg21 (by decide))).trans (W20_main_arg21 m ρ c),
       (h c _ (mem_uc main_arg22 (by decide))).trans (W20_main_arg22 m ρ c),
       (h c _ (mem_uc main_arg23 (by decide))).trans (W20_main_arg23 m ρ c),
       (h c _ (mem_uc main_arg24 (by decide))).trans (W20_main_arg24 m ρ c)⟩)

end Cert.KernelIdeal.Run

end
-- ==== Proof.Keep.lean ====
/-
  What the launches and the later host stretches leave alone.

  The memory is followed boundary by boundary: `W1` after the first host stretch, `W(2k+2)` after launch k,
  `W(2k+3)` after the host stretch that follows it. The 25 argument arrays are written by no host operation, and a
  launch only reads them (through an input window, whose array ends as it was found). The two rows of the edge list,
  cut out by the first host stretch, are written by nothing afterwards. So at every boundary from `W1` on each of
  these buffers holds what it held at `W1`: the argument as launched, the row as cut.
-/
import proofs.«175860_j29935922053254_2_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- One of the 25 argument arrays. -/
def IsArg (b : Ref sig .tc) : Prop :=
  b = main_arg0 ∨ b = main_arg1 ∨ b = main_arg2 ∨ b = main_arg3 ∨ b = main_arg4 ∨ b = main_arg5 ∨ b = main_arg6
  ∨ b = main_arg7 ∨ b = main_arg8 ∨ b = main_arg9 ∨ b = main_arg10 ∨ b = main_arg11 ∨ b = main_arg12 ∨ b = main_arg13
  ∨ b = main_arg14 ∨ b = main_arg15 ∨ b = main_arg16 ∨ b = main_arg17 ∨ b = main_arg18 ∨ b = main_arg19 ∨ b = main_arg20
  ∨ b = main_arg21 ∨ b = main_arg22 ∨ b = main_arg23 ∨ b = main_arg24

/-- An argument array, or one of the two rows of the edge list (sources, destinations). -/
def Kept (b : Ref sig .tc) : Prop := IsArg b ∨ b = main_v1 ∨ b = main_v3

set_option hygiene false in
/-- Case analysis over the 25 arguments. -/
local macro "arg_cases " h:ident : tactic =>
  `(tactic| (unfold IsArg at $h:ident
             rcases $h:ident with rfl | rfl | rfl | rfl | rfl | rfl | rfl | rfl | rfl | rfl | rfl | rfl | rfl | rfl | rfl | rfl | rfl | rfl | rfl | rfl | rfl | rfl | rfl | rfl | rfl))

set_option hygiene false in
/-- Case analysis over the 27 kept buffers. -/
local macro "kept_cases " h:ident : tactic =>
  `(tactic| (unfold Kept IsArg at $h:ident
             rcases $h:ident with (rfl | rfl | rfl | rfl | rfl | rfl | rfl | rfl | rfl | rfl | rfl | rfl | rfl | rfl | rfl | rfl | rfl | rfl | rfl | rfl | rfl | rfl | rfl | rfl | rfl) | rfl | rfl))

/-- A host stretch writes none of the buffers in question: every operation's result buffer is another reference. -/
local macro "keep_host " ops:ident : tactic =>
  `(tactic| exact StableHlo.after_of_forall_not_mem (b := Proc.devRef .tc _) _ _ (List.forall_iff_forall_mem.mp (by
      simp only [$ops:ident, List.Forall, StableHlo.nullary_writes, StableHlo.unary_writes, StableHlo.binary_writes,
        StableHlo.ternary_writes, StableHlo.quaternary_writes, StableHlo.reshape_writes, Finset.mem_singleton]
      repeat' apply And.intro
      all_goals exact StableHlo.devRef_ne_of_ne (by decide))))

/-! ## The first host stretch -/

/-- The first host stretch writes no argument: after it every argument is as launched. -/
theorem arg_at1 {b : Ref sig .tc} (hb : IsArg b) : W1 m ρ c (Proc.devRef .tc b) = m ((c : Thread nD τ).loc b) := by
  arg_cases hb
  all_goals exact (show W1 m ρ c (Proc.devRef .tc _) = W0 m ρ c (Proc.devRef .tc _) by keep_host hostOps0).trans rfl

/-! ## One step: a host stretch, or a launch -/

set_option hygiene false in
/-- A later host stretch writes no kept buffer. -/
local macro "host_step " n:ident w1:ident w0:ident ops:ident : command =>
  `(theorem $n {b : Ref sig .tc} (hb : Kept b) : $w1 m ρ c (Proc.devRef .tc b) = $w0 m ρ c (Proc.devRef .tc b) := by
      kept_cases hb
      all_goals keep_host $ops)

host_step host1 W3 W2 hostOps1
host_step host2 W5 W4 hostOps2
host_step host3 W7 W6 hostOps3
host_step host4 W9 W8 hostOps4
host_step host5 W11 W10 hostOps5
host_step host6 W13 W12 hostOps6
host_step host7 W15 W14 hostOps7
host_step host8 W17 W16 hostOps8
host_step host9 W19 W18 hostOps9

set_option hygiene false in
/-- A launch none of whose arrays is a kept buffer leaves every kept buffer as it found it. -/
local macro "launch_step " n:ident w1:ident w0:ident ofne:ident : command =>
  `(theorem $n {b : Ref sig .tc} (hb : Kept b) : $w1 m ρ c (Proc.devRef .tc b) = $w0 m ρ c (Proc.devRef .tc b) := by
      kept_cases hb
      all_goals exact $ofne m ρ c _ (by decide))

/-- Launch 0 reads the node features through an input window: that array ends as it was found; no other kept
    buffer is one of its arrays. -/
theorem launch0 {b : Ref sig .tc} (hb : Kept b) : W2 m ρ c (Proc.devRef .tc b) = W1 m ρ c (Proc.devRef .tc b) := by
  kept_cases hb
  all_goals first
    | exact W2_of_ne m ρ c _ (by decide)
    | exact (W2_arr m ρ c 0).trans (((dat0 (V1 m ρ) c).arrAt_in 0 rfl _).trans (A_eq0 (V1 m ρ) c 0))

/-- Launch 1 reads the edge attributes through an input window. -/
theorem launch1 {b : Ref sig .tc} (hb : Kept b) : W4 m ρ c (Proc.devRef .tc b) = W3 m ρ c (Proc.devRef .tc b) := by
  kept_cases hb
  all_goals first
    | exact W4_of_ne m ρ c _ (by decide)
    | exact (W4_arr m ρ c 1).trans (((dat1 (V3 m ρ) c).arrAt_in 1 rfl _).trans (A_eq1 (V3 m ρ) c 1))

launch_step launch2 W6 W5 W6_of_ne
launch_step launch3 W8 W7 W8_of_ne

/-- Launch 4 reads the edge attributes through an input window. -/
theorem launch4 {b : Ref sig .tc} (hb : Kept b) : W10 m ρ c (Proc.devRef .tc b) = W9 m ρ c (Proc.devRef .tc b) := by
  kept_cases hb
  all_goals first
    | exact W10_of_ne m ρ c _ (by decide)
    | exact (W10_arr m ρ c 1).trans (((dat4 (V9 m ρ) c).arrAt_in 1 rfl _).trans (A_eq4 (V9 m ρ) c 1))

launch_step launch5 W12 W11 W12_of_ne
launch_step launch6 W14 W13 W14_of_ne

/-- Launch 7 reads the edge attributes through an input window. -/
theorem launch7 {b : Ref sig .tc} (hb : Kept b) : W16 m ρ c (Proc.devRef .tc b) = W15 m ρ c (Proc.devRef .tc b) := by
  kept_cases hb
  all_goals first
    | exact W16_of_ne m ρ c _ (by decide)
    | exact (W16_arr m ρ c 1).trans (((dat7 (V15 m ρ) c).arrAt_in 1 rfl _).trans (A_eq7 (V15 m ρ) c 1))

launch_step launch8 W18 W17 W18_of_ne
launch_step launch9 W20 W19 W20_of_ne

/-! ## From every later boundary back to `W1` -/

/-- After launch 0 a kept buffer holds what it held after the first host stretch. -/
theorem at2 {b : Ref sig .tc} (hb : Kept b) : W2 m ρ c (Proc.devRef .tc b) = W1 m ρ c (Proc.devRef .tc b) := launch0 m ρ c hb

set_option hygiene false in
/-- One more step back: the boundary's step, then the previous boundary's fact. -/
local macro "back_step " n:ident w:ident step:ident prev:ident : command =>
  `(theorem $n {b : Ref sig .tc} (hb : Kept b) : $w m ρ c (Proc.devRef .tc b) = W1 m ρ c (Proc.devRef .tc b) :=
      ($step m ρ c hb).trans ($prev m ρ c hb))

back_step at3 W3 host1 at2
back_step at4 W4 launch1 at3
back_step at5 W5 host2 at4
back_step at6 W6 launch2 at5
back_step at7 W7 host3 at6
back_step at8 W8 launch3 at7
back_step at9 W9 host4 at8
back_step at10 W10 launch4 at9
back_step at11 W11 host5 at10
back_step at12 W12 launch5 at11
back_step at13 W13 host6 at12
back_step at14 W14 launch6 at13
back_step at15 W15 host7 at14
back_step at16 W16 launch7 at15
back_step at17 W17 host8 at16
back_step at18 W18 launch8 at17
back_step at19 W19 host9 at18
back_step at20 W20 launch9 at19

/-! ## An argument at any boundary is the argument as launched -/

set_option hygiene false in
/-- At a later boundary an argument still holds its launch contents. -/
local macro "arg_step " n:ident w:ident prev:ident : command =>
  `(theorem $n {b : Ref sig .tc} (hb : IsArg b) : $w m ρ c (Proc.devRef .tc b) = m ((c : Thread nD τ).loc b) :=
      ($prev m ρ c (Or.inl hb)).trans (arg_at1 m ρ c hb))

arg_step arg_at2 W2 at2
arg_step arg_at3 W3 at3
arg_step arg_at4 W4 at4
arg_step arg_at5 W5 at5
arg_step arg_at6 W6 at6
arg_step arg_at7 W7 at7
arg_step arg_at8 W8 at8
arg_step arg_at9 W9 at9
arg_step arg_at10 W10 at10
arg_step arg_at11 W11 at11
arg_step arg_at12 W12 at12
arg_step arg_at13 W13 at13
arg_step arg_at14 W14 at14
arg_step arg_at15 W15 at15
arg_step arg_at16 W16 at16
arg_step arg_at17 W17 at17
arg_step arg_at18 W18 at18
arg_step arg_at19 W19 at19

end Cert.KernelIdeal.Keep

end
-- ==== Proof.Spec.lean ====
/-
  The network both programs compute, written once as whole-array functions.

  A node feature array `h` of N = 1 500 000 rows goes through three message-passing layers and a read-out head.
  One layer is: a linear map on the nodes, `hx = h · Wxᵀ + bx`; every edge e takes the row of its source node,
  `hx[src e]`, and multiplies it entrywise by a linear map of the edge's two attributes, `ea e · Weᵀ + be`; the
  messages are summed at the destination nodes (a segment sum); a second linear map and a rectifier follow,
  `max (agg · Woᵀ + bo) 0`. The head regroups the 4 features of 6 consecutive nodes into rows of 24, applies
  `max (· W1ᵀ + b1) 0`, then `· W2ᵀ + b2`, and a row-wise log-softmax `z - log Σ exp z` with `z = y - max y`.

  Every stage below takes the weight already transposed and the bias already laid out as ONE ROW, because that is
  how both programs hand them to the stage; the two programs differ only in how a bias vector becomes a row
  (a reshape on one side, a broadcast on the other), so the whole network takes the three "vector to row" maps as
  parameters.
-/
import proofs.«175860_j29935922053254_2_alg».proof.ReferenceIdeal

noncomputable section

namespace Cert.Net

open Idealize.ShloMosaic Cert.ReferenceIdeal

variable {F : FTy → Type} [FloatOps F] [Facts₀]
open Facts₀

/-- A float array of shape `s`. -/
abbrev FA (F : FTy → Type) (s : Shape) : Type := (⟨s, .f32⟩ : BufTy).Contents (Elt F)
/-- A 32-bit integer array of shape `s`. -/
abbrev IA (F : FTy → Type) (s : Shape) : Type := (⟨s, .i32⟩ : BufTy).Contents (Elt F)

/-! ## The edge list -/

/-- Row 0 of the edge list: the source node of every edge. -/
def srcVec (ei : IA F S2x12000000) : IA F S12000000 :=
  shapeCast _ (extractStridedSlice S1x12000000 ![0, 0] ei slices_S2x12000000_S1x12000000_0_0) shapeCasts_S1x12000000_S12000000

/-- Row 1 of the edge list: the destination node of every edge. -/
def dstVec (ei : IA F S2x12000000) : IA F S12000000 :=
  shapeCast _ (extractStridedSlice S1x12000000 ![1, 0] ei slices_S2x12000000_S1x12000000_1_0) shapeCasts_S1x12000000_S12000000

/-- The gather's start indices: a negative source index counts from the end (N is added), kept as a column. -/
def srcIdx (s : IA F S12000000) : IA F S12000000x1 :=
  broadcastInDim S12000000x1 ![0] bcast_S12000000_S12000000x1_0
    (select (cmpi .slt s (broadcastInDim S12000000 ![] bcast_S_S12000000 (constantI S_ 32 0#32)))
      (addi s (broadcastInDim S12000000 ![] bcast_S_S12000000 (constantI S_ 32 1500000#32))) s)

/-- The segment sum's indices: the destination nodes as a column. -/
def dstIdx (d : IA F S12000000) : IA F S12000000x1 :=
  broadcastInDim S12000000x1 ![0] bcast_S12000000_S12000000x1_0 d

/-! ## The stages -/

/-- `x · wT + b` on the nodes, one input feature (layer 1). -/
def lin1 (x : FA F S1500000x1) (wT : FA F S1x9) (b : FA F S1x9) : FA F S1500000x9 :=
  addf (Host.dotGeneral dot_S1500000x1_S1x9_S1500000x9_1_0_0_1_n_n none x wT)
    (broadcastInDim S1500000x9 ![0, 1] bcast_S1x9_S1500000x9_0_1 b)

/-- `h · wT + b` on the nodes, nine features to nine. -/
def lin9 (h : FA F S1500000x9) (wT : FA F S9x9) (b : FA F S1x9) : FA F S1500000x9 :=
  addf (Host.dotGeneral dot_S1500000x9_S9x9_S1500000x9_1_0_0_1_n_n none h wT)
    (broadcastInDim S1500000x9 ![0, 1] bcast_S1x9_S1500000x9_0_1 b)

/-- `h · wT + b` on the nodes, nine features to four. -/
def lin4 (h : FA F S1500000x9) (wT : FA F S9x4) (b : FA F S1x4) : FA F S1500000x4 :=
  addf (Host.dotGeneral dot_S1500000x9_S9x4_S1500000x4_1_0_0_1_n_n none h wT)
    (broadcastInDim S1500000x4 ![0, 1] bcast_S1x4_S1500000x4_0_1 b)

/-- The rectifier `max y 0`, nine columns. -/
def relu9 (y : FA F S1500000x9) : FA F S1500000x9 :=
  maximumf y (broadcastInDim S1500000x9 ![] bcast_S_S1500000x9 (constant S_ .f32 0x00000000#32))

/-- The rectifier `max y 0`, four columns. -/
def relu4 (y : FA F S1500000x4) : FA F S1500000x4 :=
  maximumf y (broadcastInDim S1500000x4 ![] bcast_S_S1500000x4 (constant S_ .f32 0x00000000#32))

/-- The source node's row for every edge. -/
def take (h : FA F S1500000x9) (i : IA F S12000000x1) : FA F S12000000x9 :=
  Host.gather gather_S1500000x9_S12000000x1_S12000000x9_1_0_n_n_0_1_19 h i

/-- The message of every edge: the gathered row times `ea · wT + b`, entrywise. -/
def edge (hs : FA F S12000000x9) (ea : FA F S12000000x2) (wT : FA F S2x9) (b : FA F S1x9) : FA F S12000000x9 :=
  mulf hs (addf (Host.dotGeneral dot_S12000000x2_S2x9_S12000000x9_1_0_0_1_n_n none ea wT)
    (broadcastInDim S12000000x9 ![0, 1] bcast_S1x9_S12000000x9_0_1 b))

/-- The messages summed at their destination nodes, from zero. -/
def segsum (i : IA F S12000000x1) (u : FA F S12000000x9) : FA F S1500000x9 :=
  Host.scatterAdd scatter_S1500000x9_S12000000x1_S12000000x9_1_0_0_1
    (broadcastInDim S1500000x9 ![] bcast_S_S1500000x9 (constant S_ .f32 0x00000000#32)) i u

/-- Row-wise `z - log Σ exp z` with `z = y - max y` (the maximum started from -∞). -/
def logSoftmax (y : FA F S250000x4) : FA F S250000x4 :=
  subf
    (subf y (broadcastInDim S250000x4 ![0, 1] bcast_S250000x1_S250000x4_0_1 (broadcastInDim S250000x1 ![0] bcast_S250000_S250000x1_0
      (maximumf (broadcastInDim S250000 ![] bcast_S_S250000 (constant S_ .f32 0xFF800000#32))
        (Host.reduce FloatOps.maximumf y (constant S_ .f32 0xFF800000#32) reducesTo_S250000x4_S250000_d1 h_S_)))))
    (broadcastInDim S250000x4 ![0, 1] bcast_S250000x1_S250000x4_0_1 (Host.log (broadcastInDim S250000x1 ![0] bcast_S250000_S250000x1_0
      (Host.reduceAdd (Host.exp
        (subf y (broadcastInDim S250000x4 ![0, 1] bcast_S250000x1_S250000x4_0_1 (broadcastInDim S250000x1 ![0] bcast_S250000_S250000x1_0
          (maximumf (broadcastInDim S250000 ![] bcast_S_S250000 (constant S_ .f32 0xFF800000#32))
            (Host.reduce FloatOps.maximumf y (constant S_ .f32 0xFF800000#32) reducesTo_S250000x4_S250000_d1 h_S_))))))
        (constant S_ .f32 0x00000000#32) reducesTo_S250000x4_S250000_d1 h_S_))))

/-- The head on rows of 24: `max (g · w1T + b1) 0`, then `· w2T + b2`, then the row-wise log-softmax. -/
def head (g : FA F S250000x24) (w1T : FA F S24x8) (b1 : FA F S1x8) (w2T : FA F S8x4) (b2 : FA F S1x4) : FA F S250000x4 :=
  logSoftmax (addf (Host.dotGeneral dot_S250000x8_S8x4_S250000x4_1_0_0_1_n_n none
      (maximumf (addf (Host.dotGeneral dot_S250000x24_S24x8_S250000x8_1_0_0_1_n_n none g w1T)
          (broadcastInDim S250000x8 ![0, 1] bcast_S1x8_S250000x8_0_1 b1))
        (broadcastInDim S250000x8 ![] bcast_S_S250000x8 (constant S_ .f32 0x00000000#32))) w2T)
    (broadcastInDim S250000x4 ![0, 1] bcast_S1x4_S250000x4_0_1 b2))

/-! ## The network -/

/-- Layer 1 (one input feature): node map, gather at the sources, edge map and product, segment sum at the
    destinations, output map, rectifier. `row9` lays a bias vector out as one row. -/
def layer1 (row9 : FA F S9 → FA F S1x9) (x : FA F S1500000x1) (ei : IA F S2x12000000) (ea : FA F S12000000x2)
    (Wx : FA F S9x1) (bx : FA F S9) (We : FA F S9x2) (be : FA F S9) (Wo : FA F S9x9) (bo : FA F S9) : FA F S1500000x9 :=
  relu9 (lin9 (segsum (dstIdx (dstVec ei))
      (edge (take (lin1 x (transpose S1x9 [1, 0] Wx transposes_S9x1_S1x9_1_0) (row9 bx)) (srcIdx (srcVec ei)))
        ea (transpose S2x9 [1, 0] We transposes_S9x2_S2x9_1_0) (row9 be)))
    (transpose S9x9 [1, 0] Wo transposes_S9x9_S9x9_1_0) (row9 bo))

/-- Layer 2 (nine features to nine): the same steps on the previous layer's output `h`. -/
def layer2 (row9 : FA F S9 → FA F S1x9) (h : FA F S1500000x9) (ei : IA F S2x12000000) (ea : FA F S12000000x2)
    (Wx : FA F S9x9) (bx : FA F S9) (We : FA F S9x2) (be : FA F S9) (Wo : FA F S9x9) (bo : FA F S9) : FA F S1500000x9 :=
  relu9 (lin9 (segsum (dstIdx (dstVec ei))
      (edge (take (lin9 h (transpose S9x9 [1, 0] Wx transposes_S9x9_S9x9_1_0) (row9 bx)) (srcIdx (srcVec ei)))
        ea (transpose S2x9 [1, 0] We transposes_S9x2_S2x9_1_0) (row9 be)))
    (transpose S9x9 [1, 0] Wo transposes_S9x9_S9x9_1_0) (row9 bo))

/-- Layer 3 (nine features to four). -/
def layer3 (row9 : FA F S9 → FA F S1x9) (row4 : FA F S4 → FA F S1x4) (h : FA F S1500000x9) (ei : IA F S2x12000000)
    (ea : FA F S12000000x2) (Wx : FA F S9x9) (bx : FA F S9) (We : FA F S9x2) (be : FA F S9) (Wo : FA F S4x9) (bo : FA F S4) :
    FA F S1500000x4 :=
  relu4 (lin4 (segsum (dstIdx (dstVec ei))
      (edge (take (lin9 h (transpose S9x9 [1, 0] Wx transposes_S9x9_S9x9_1_0) (row9 bx)) (srcIdx (srcVec ei)))
        ea (transpose S2x9 [1, 0] We transposes_S9x2_S2x9_1_0) (row9 be)))
    (transpose S9x4 [1, 0] Wo transposes_S4x9_S9x4_1_0) (row4 bo))

/-- The whole network: three layers, the four features of six consecutive nodes regrouped into rows of 24, the head. -/
def net (row9 : FA F S9 → FA F S1x9) (row4 : FA F S4 → FA F S1x4) (row8 : FA F S8 → FA F S1x8)
    (x : FA F S1500000x1) (ei : IA F S2x12000000) (ea : FA F S12000000x2)
    (Wx1 : FA F S9x1) (bx1 : FA F S9) (We1 : FA F S9x2) (be1 : FA F S9) (Wo1 : FA F S9x9) (bo1 : FA F S9)
    (Wx2 : FA F S9x9) (bx2 : FA F S9) (We2 : FA F S9x2) (be2 : FA F S9) (Wo2 : FA F S9x9) (bo2 : FA F S9)
    (Wx3 : FA F S9x9) (bx3 : FA F S9) (We3 : FA F S9x2) (be3 : FA F S9) (Wo3 : FA F S4x9) (bo3 : FA F S4)
    (W1 : FA F S8x24) (b1 : FA F S8) (W2 : FA F S4x8) (b2 : FA F S4) : FA F S250000x4 :=
  head (shapeCast _ (layer3 row9 row4 (layer2 row9 (layer1 row9 x ei ea Wx1 bx1 We1 be1 Wo1 bo1) ei ea Wx2 bx2 We2 be2 Wo2 bo2)
      ei ea Wx3 bx3 We3 be3 Wo3 bo3) shapeCasts_S1500000x4_S250000x24)
    (transpose S24x8 [1, 0] W1 transposes_S8x24_S24x8_1_0) (row8 b1) (transpose S8x4 [1, 0] W2 transposes_S4x8_S8x4_1_0) (row4 b2)

/-- A bias vector as one row, by a broadcast along the new leading axis (nine entries). -/
def rowB9 (b : FA F S9) : FA F S1x9 := broadcastInDim S1x9 ![1] bcast_S9_S1x9_1 b
/-- The same for four entries. -/
def rowB4 (b : FA F S4) : FA F S1x4 := broadcastInDim S1x4 ![1] bcast_S4_S1x4_1 b
/-- The same for eight entries. -/
def rowB8 (b : FA F S8) : FA F S1x8 := broadcastInDim S1x8 ![1] bcast_S8_S1x8_1 b

end Cert.Net

end
-- ==== Proof.LibRowBias.lean ====
/-
  A bias vector laid out as a one-row matrix: reshaping a vector of length n to [1, n] and broadcasting it into
  [1, n] along the second axis are the same array, entry (0, q) being entry q of the vector.
-/
import Idealize.ShloMosaic.Lib.Pipeline.Value
import Idealize.ShloMosaic.Lib.ValueIdx
import Idealize.ShloMosaic.Lib.ValueLayout

noncomputable section

namespace Cert.Gcn

open Idealize.ShloMosaic Idealize.ShloMosaic.ValueIdx

theorem shapeCast_row {α : Type} {n : Nat} (b : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) (hn : n ≠ 1) :
    shapeCast ⟨2, ![1, n]⟩ b h = broadcastInDim ⟨2, ![1, n]⟩ (![1] : Fin 1 → Fin 2) h' b := by
  funext j
  obtain ⟨u, q, rfl⟩ : ∃ (u : Fin 1) (q : Fin n), j = ix2 u q := ⟨j 0, j 1, eq_ix2 j⟩
  rw [shapeCast_a_1a_apply]
  refine (broadcastInDim_apply _ h' b _ (ix1 q) fun a => ?_).symm
  match a with
  | ⟨0, _⟩ =>
    show q.val = if n = 1 then 0 else q.val
    rw [if_neg hn]

end Cert.Gcn

end
-- ==== Proof.Rows.lean ====
/-
  A bias vector laid out as one row, two ways.

  The kernel program reshapes a bias vector of length n to a 1 × n matrix; the reference broadcasts it into a 1 × n
  matrix along the second axis. Both put entry q of the vector at (0, q): the two row maps are one function, for
  n = 9, 4 and 8.
-/
import proofs.«175860_j29935922053254_2_alg».proof.Proof.Gen.KernelIdeal
import proofs.«175860_j29935922053254_2_alg».proof.Proof.Gen.ReferenceIdeal
import proofs.«175860_j29935922053254_2_alg».proof.Proof.Spec
import Idealize.ShloMosaic.PureOps.Ideal.Laws
import proofs.«175860_j29935922053254_2_alg».proof.Proof.LibRowBias

noncomputable section

namespace Cert.KernelIdeal.Rows

open Cert.KernelIdeal Cert.KernelIdeal.Facts₀
open Idealize.ShloMosaic
open Cert.Net (FA)

/-- A bias vector as one row, by a reshape (nine entries). -/
def rowS9 (b : FA Ideal S9) : FA Ideal S1x9 := shapeCast _ b shapeCasts_S9_S1x9
/-- The same for four entries. -/
def rowS4 (b : FA Ideal S4) : FA Ideal S1x4 := shapeCast _ b shapeCasts_S4_S1x4
/-- The same for eight entries. -/
def rowS8 (b : FA Ideal S8) : FA Ideal S1x8 := shapeCast _ b shapeCasts_S8_S1x8

/-- Reshaping nine entries to one row is broadcasting them into one row. -/
theorem rowS9_eq : rowS9 = Cert.Net.rowB9 (F := Ideal) :=
  funext fun b => Cert.Gcn.shapeCast_row (n := 9) b _ _ (by decide)

/-- Reshaping four entries to one row is broadcasting them into one row. -/
theorem rowS4_eq : rowS4 = Cert.Net.rowB4 (F := Ideal) :=
  funext fun b => Cert.Gcn.shapeCast_row (n := 4) b _ _ (by decide)

/-- Reshaping eight entries to one row is broadcasting them into one row. -/
theorem rowS8_eq : rowS8 = Cert.Net.rowB8 (F := Ideal) :=
  funext fun b => Cert.Gcn.shapeCast_row (n := 8) b _ _ (by decide)

end Cert.KernelIdeal.Rows

end
-- ==== Proof.Reg0.lean ====
/-
  Launch 0: the node map `h · wT + b` (one input feature to nine), tiled over the 1 500 000 nodes in 125 blocks of
  12 000 rows.

  At grid point t the body reads rows 12000·t … 12000·t + 11999 of the node array, the whole transposed weight and the
  bias row, and stores, at row p and column q of its block, the sum over the input features k of
  `h(12000·t + p, k) · wT(k, q)` (a matrix product accumulated from zero, its operands narrowed to bf16 first: the
  identity on the extended reals) plus `b(0, q)`. That is entry (12000·t + p, q) of the reference's stage — a
  `dot_general` plus the bias row broadcast down the rows — of the same arrays: an output entry depends on its own row
  only. The 125 blocks tile the array, so the array the launch leaves is that stage.
-/
import proofs.«175860_j29935922053254_2_alg».proof.Proof.Gen.KernelIdeal.Frame
import proofs.«175860_j29935922053254_2_alg».proof.Proof.Gen.ReferenceIdeal
import proofs.«175860_j29935922053254_2_alg».proof.Proof.Spec
import Idealize.ShloMosaic.PureOps.Ideal.Laws
import Idealize.ShloMosaic.Lib.ValueIdx
import Idealize.ShloMosaic.Lib.Pipeline.Value
import Idealize.ShloMosaic.Lib.ValueLayout
noncomputable section
namespace Cert.KernelIdeal.Reg0
open Cert.KernelIdeal Cert.KernelIdeal.Gen Idealize.ShloMosaic Idealize.ShloMosaic.TcCoe Idealize.SL.Sem
variable (V : (c : Dev nD) → (b : Ref sig .tc) → Buf (Elt Ideal) ((c : Thread nD τ).loc b)) (c : Dev nD)

open Idealize.ShloMosaic.ValueIdx
open scoped BigOperators

/-! # Region 0: the node map of layer 1, `x · wT + b` with one input feature

The region's grid has 125 points; point `t` holds rows `12000 t … 12000 t + 11999` of the node array, and the
weight and bias rows are the same at every point. The body computes, at row `p` and column `q` of its block,
`Σ_k x[p, k] · wT[k, q] + b[0, q]`; the stage `Cert.Net.lin1` read at row `r` and column `q` is the same sum at
row `r`. The blocks tile the rows, so the array the region leaves is the stage of the arrays it found. -/

/-! ## The contraction's operand indices -/

/-- The left operand's row is the result's row. -/
theorem lhs_row (i : S12000x9.Idx) (k : dot_S12000x1_S1x9_S12000x9_1_0_0_1_n_n.contr.Idx) :
    (dot_S12000x1_S1x9_S12000x9_1_0_0_1_n_n.lhsIdx i k 0).val = (i 0).val := by
  unfold DotDims.lhsIdx
  rw [dif_neg (show ¬(0 : Fin S12000x1.rank) ∈ dot_S12000x1_S1x9_S12000x9_1_0_0_1_n_n.lhsBatch by decide),
    dif_pos (show (0 : Fin S12000x1.rank) ∈ dot_S12000x1_S1x9_S12000x9_1_0_0_1_n_n.lhsNonContracting by decide)]
  rfl

/-- The left operand's column is the contraction index. -/
theorem lhs_col (i : S12000x9.Idx) (k : dot_S12000x1_S1x9_S12000x9_1_0_0_1_n_n.contr.Idx) :
    (dot_S12000x1_S1x9_S12000x9_1_0_0_1_n_n.lhsIdx i k 1).val = (k ⟨0, by decide⟩).val :=
  dot_S12000x1_S1x9_S12000x9_1_0_0_1_n_n.lhsIdx_val_of_single rfl i k

/-- The right operand's row is the contraction index. -/
theorem rhs_row (i : S12000x9.Idx) (k : dot_S12000x1_S1x9_S12000x9_1_0_0_1_n_n.contr.Idx) :
    (dot_S12000x1_S1x9_S12000x9_1_0_0_1_n_n.rhsIdx i k 0).val = (k ⟨0, by decide⟩).val :=
  dot_S12000x1_S1x9_S12000x9_1_0_0_1_n_n.rhsIdx_val_of_single rfl i k

/-- The right operand's column is the result's column. -/
theorem rhs_col (i : S12000x9.Idx) (k : dot_S12000x1_S1x9_S12000x9_1_0_0_1_n_n.contr.Idx) :
    (dot_S12000x1_S1x9_S12000x9_1_0_0_1_n_n.rhsIdx i k 1).val = (i 1).val := by
  unfold DotDims.rhsIdx
  rw [dif_neg (show ¬(1 : Fin S1x9.rank) ∈ dot_S12000x1_S1x9_S12000x9_1_0_0_1_n_n.rhsBatch by decide),
    dif_pos (show (1 : Fin S1x9.rank) ∈ dot_S12000x1_S1x9_S12000x9_1_0_0_1_n_n.rhsNonContracting by decide)]
  rfl

/-- The same four facts for the stage's contraction over the whole array. -/
theorem ref_lhs_row (i : Cert.ReferenceIdeal.S1500000x9.Idx) (k : Cert.ReferenceIdeal.dot_S1500000x1_S1x9_S1500000x9_1_0_0_1_n_n.contr.Idx) :
    (Cert.ReferenceIdeal.dot_S1500000x1_S1x9_S1500000x9_1_0_0_1_n_n.lhsIdx i k 0).val = (i 0).val := by
  unfold DotDims.lhsIdx
  rw [dif_neg (show ¬(0 : Fin Cert.ReferenceIdeal.S1500000x1.rank) ∈ Cert.ReferenceIdeal.dot_S1500000x1_S1x9_S1500000x9_1_0_0_1_n_n.lhsBatch by decide),
    dif_pos (show (0 : Fin Cert.ReferenceIdeal.S1500000x1.rank) ∈ Cert.ReferenceIdeal.dot_S1500000x1_S1x9_S1500000x9_1_0_0_1_n_n.lhsNonContracting by decide)]
  rfl

theorem ref_lhs_col (i : Cert.ReferenceIdeal.S1500000x9.Idx) (k : Cert.ReferenceIdeal.dot_S1500000x1_S1x9_S1500000x9_1_0_0_1_n_n.contr.Idx) :
    (Cert.ReferenceIdeal.dot_S1500000x1_S1x9_S1500000x9_1_0_0_1_n_n.lhsIdx i k 1).val = (k ⟨0, by decide⟩).val :=
  Cert.ReferenceIdeal.dot_S1500000x1_S1x9_S1500000x9_1_0_0_1_n_n.lhsIdx_val_of_single rfl i k

theorem ref_rhs_row (i : Cert.ReferenceIdeal.S1500000x9.Idx) (k : Cert.ReferenceIdeal.dot_S1500000x1_S1x9_S1500000x9_1_0_0_1_n_n.contr.Idx) :
    (Cert.ReferenceIdeal.dot_S1500000x1_S1x9_S1500000x9_1_0_0_1_n_n.rhsIdx i k 0).val = (k ⟨0, by decide⟩).val :=
  Cert.ReferenceIdeal.dot_S1500000x1_S1x9_S1500000x9_1_0_0_1_n_n.rhsIdx_val_of_single rfl i k

theorem ref_rhs_col (i : Cert.ReferenceIdeal.S1500000x9.Idx) (k : Cert.ReferenceIdeal.dot_S1500000x1_S1x9_S1500000x9_1_0_0_1_n_n.contr.Idx) :
    (Cert.ReferenceIdeal.dot_S1500000x1_S1x9_S1500000x9_1_0_0_1_n_n.rhsIdx i k 1).val = (i 1).val := by
  unfold DotDims.rhsIdx
  rw [dif_neg (show ¬(1 : Fin Cert.ReferenceIdeal.S1x9.rank) ∈ Cert.ReferenceIdeal.dot_S1500000x1_S1x9_S1500000x9_1_0_0_1_n_n.rhsBatch by decide),
    dif_pos (show (1 : Fin Cert.ReferenceIdeal.S1x9.rank) ∈ Cert.ReferenceIdeal.dot_S1500000x1_S1x9_S1500000x9_1_0_0_1_n_n.rhsNonContracting by decide)]
  rfl

/-! ## The body's payload and the stage, at an index -/

/-- The body's result at row `p`, column `q` of its block: the row of `x` times the column of `w`, plus the bias entry. -/
theorem pay_apply (x : Vec Ideal S12000x1 .f32) (w : Vec Ideal S1x9 .f32) (b : Vec Ideal S1x9 .f32) (p : Fin 12000) (q : Fin 9) :
    k0_pay1 (F := Ideal) x w b (ix2 p q) = (∑ k : Fin 1, x (ix2 p k) * w (ix2 k q)) + b (ix2 (0 : Fin 1) q) := by
  unfold k0_pay1
  simp only [shapeCast_self]
  rw [addf_apply, broadcastTo_1b_ab_apply]
  congr 1
  show FloatOps.matmul dot_S12000x1_S1x9_S12000x9_1_0_0_1_n_n none (truncf (F := Ideal) .bf16 x bitsLt_bf16_f32) (truncf (F := Ideal) .bf16 w bitsLt_bf16_f32)
    (constant S12000x9 .f32 0x00000000#32) (ix2 p q) = _
  rw [Ideal.matmul_constant_zero_apply, ← Equiv.sum_comp (contrEquiv1 dot_S12000x1_S1x9_S12000x9_1_0_0_1_n_n 1 rfl rfl).symm]
  refine Finset.sum_congr rfl fun k _ => ?_
  have hk := contrEquiv1_symm_val dot_S12000x1_S1x9_S12000x9_1_0_0_1_n_n 1 rfl rfl k
  have el : dot_S12000x1_S1x9_S12000x9_1_0_0_1_n_n.lhsIdx (ix2 p q) ((contrEquiv1 dot_S12000x1_S1x9_S12000x9_1_0_0_1_n_n 1 rfl rfl).symm k) = ix2 p k :=
    funext fun a => Fin.ext (by
      match a with
      | ⟨0, _⟩ => exact lhs_row _ _
      | ⟨1, _⟩ => exact (lhs_col _ _).trans hk)
  have er : dot_S12000x1_S1x9_S12000x9_1_0_0_1_n_n.rhsIdx (ix2 p q) ((contrEquiv1 dot_S12000x1_S1x9_S12000x9_1_0_0_1_n_n 1 rfl rfl).symm k) = ix2 k q :=
    funext fun a => Fin.ext (by
      match a with
      | ⟨0, _⟩ => exact (rhs_row _ _).trans hk
      | ⟨1, _⟩ => exact rhs_col _ _)
  rw [el, er]
  rfl

/-- The stage at row `r`, column `q` of the whole array: the same sum at row `r`. -/
theorem lin1_apply (x : Cert.Net.FA Ideal Cert.ReferenceIdeal.S1500000x1) (wT : Cert.Net.FA Ideal Cert.ReferenceIdeal.S1x9)
    (b : Cert.Net.FA Ideal Cert.ReferenceIdeal.S1x9) (r : Fin 1500000) (q : Fin 9) :
    Cert.Net.lin1 (F := Ideal) x wT b (ix2 r q) = (∑ k : Fin 1, x (ix2 r k) * wT (ix2 k q)) + b (ix2 (0 : Fin 1) q) := by
  unfold Cert.Net.lin1
  rw [addf_apply]
  congr 1
  · simp only [Host.dotGeneral]
    rw [Ideal.dotGeneral_apply, ← Equiv.sum_comp (contrEquiv1 Cert.ReferenceIdeal.dot_S1500000x1_S1x9_S1500000x9_1_0_0_1_n_n 1 rfl rfl).symm]
    refine Finset.sum_congr rfl fun k _ => ?_
    have hk := contrEquiv1_symm_val Cert.ReferenceIdeal.dot_S1500000x1_S1x9_S1500000x9_1_0_0_1_n_n 1 rfl rfl k
    have el : Cert.ReferenceIdeal.dot_S1500000x1_S1x9_S1500000x9_1_0_0_1_n_n.lhsIdx (ix2 r q) ((contrEquiv1 Cert.ReferenceIdeal.dot_S1500000x1_S1x9_S1500000x9_1_0_0_1_n_n 1 rfl rfl).symm k) = ix2 r k :=
      funext fun a => Fin.ext (by
        match a with
        | ⟨0, _⟩ => exact ref_lhs_row _ _
        | ⟨1, _⟩ => exact (ref_lhs_col _ _).trans hk)
    have er : Cert.ReferenceIdeal.dot_S1500000x1_S1x9_S1500000x9_1_0_0_1_n_n.rhsIdx (ix2 r q) ((contrEquiv1 Cert.ReferenceIdeal.dot_S1500000x1_S1x9_S1500000x9_1_0_0_1_n_n 1 rfl rfl).symm k) = ix2 k q :=
      funext fun a => Fin.ext (by
        match a with
        | ⟨0, _⟩ => exact (ref_rhs_row _ _).trans hk
        | ⟨1, _⟩ => exact ref_rhs_col _ _)
    rw [el, er]
  · exact broadcastInDim_apply _ _ b (ix2 r q) (ix2 (0 : Fin 1) q) (fun a => match a with
      | ⟨0, _⟩ => by show 0 = if (1 : Nat) = 1 then 0 else r.val; rw [if_pos rfl]
      | ⟨1, _⟩ => by show q.val = if (9 : Nat) = 1 then 0 else q.val; rw [if_neg (by decide)])

/-! ## From the blocks to the array -/

theorem hz : (![0, 0] : Fin 2 → Nat) = fun _ => 0 := funext fun a => by fin_cases a <;> rfl

/-- The index maps over the grid: the node rows' windows (input and output) are at block `t` at point `t`, the weight
    and bias windows at their one block. -/
theorem idx_facts : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Row `p` of point `t`'s block is row `12000 t + p` of the array. -/
theorem row_lt (t : Fin cfg0.N) (p : Fin 12000) : t.val * 12000 + p.val < 1500000 := by
  have ht : t.val < 125 := lt_of_lt_of_eq t.isLt N_0
  have hp := p.isLt
  omega

/-- WHAT POINT `t` WRITES BACK is block `t` of the stage of the arrays as the region finds them. -/
theorem flushed_eq (t : Fin cfg0.N) :
    (dat0 (F := Ideal) V c).flushed 3 t
      = ((cfg0.win 3).blk t).view.read (Elt Ideal) (Cert.Net.lin1 (F := Ideal) (V c main_arg0) (V c main_v4) (V c main_v5)) := by
  show (cfg0.win 3).cut (grid0.coords t) ((dat0 (F := Ideal) V c).after 3 t) = _
  rw [after0_3]
  unfold out0_3
  rw [View.canon_unit_zero hz]
  simp only [View.ld_unit_zero (S := S12000x1) hz, View.ld_unit_zero (S := S1x9) hz]
  obtain ⟨e30, e31, e00, e01, e10, e11, e20, e21⟩ := idx_facts t
  funext j
  obtain ⟨p, q, rfl⟩ : ∃ (p : Fin 12000) (q : Fin 9), j = ix2 p q := ⟨j 0, j 1, eq_ix2 j⟩
  show k0_pay1 (F := Ideal) (iblk0 V c 0 t) (iblk0 V c 1 t) (iblk0 V c 2 t) (ix2 p q)
    = Cert.Net.lin1 (F := Ideal) (V c main_arg0) (V c main_v4) (V c main_v5) (((cfg0.win 3).blk t).view.emb (ix2 p q))
  have hout : ((cfg0.win 3).blk t).view.emb (ix2 p q) = ix2 (⟨t.val * 12000 + p.val, row_lt t p⟩ : Fin 1500000) q := by
    funext a; apply Fin.ext
    match a with
    | ⟨0, _⟩ => show win0_3.index t (0 : Fin 2) * 12000 + 1 * p.val = t.val * 12000 + p.val; rw [e30]; omega
    | ⟨1, _⟩ => show win0_3.index t (1 : Fin 2) * 9 + 1 * q.val = q.val; rw [e31]; omega
  rw [hout, pay_apply (iblk0 V c 0 t) (iblk0 V c 1 t) (iblk0 V c 2 t) p q,
    lin1_apply (V c main_arg0) (V c main_v4) (V c main_v5) _ q]
  have hx : ∀ k : Fin 1, iblk0 V c 0 t (ix2 p k) = V c main_arg0 (ix2 (⟨t.val * 12000 + p.val, row_lt t p⟩ : Fin 1500000) k) := fun k => by
    show V c main_arg0 (((cfg0.win 0).blk t).view.emb (ix2 p k)) = _
    refine congrArg (V c main_arg0) ?_
    funext a; apply Fin.ext
    match a with
    | ⟨0, _⟩ => show win0_0.index t (0 : Fin 2) * 12000 + 1 * p.val = t.val * 12000 + p.val; rw [e00]; omega
    | ⟨1, _⟩ => show win0_0.index t (1 : Fin 2) * 1 + 1 * k.val = k.val; rw [e01]; omega
  have hw : ∀ k : Fin 1, iblk0 V c 1 t (ix2 k q) = V c main_v4 (ix2 k q) := fun k => by
    show V c main_v4 (((cfg0.win 1).blk t).view.emb (ix2 k q)) = _
    refine congrArg (V c main_v4) ?_
    funext a; apply Fin.ext
    match a with
    | ⟨0, _⟩ => show win0_1.index t (0 : Fin 2) * 1 + 1 * k.val = k.val; rw [e10]; omega
    | ⟨1, _⟩ => show win0_1.index t (1 : Fin 2) * 9 + 1 * q.val = q.val; rw [e11]; omega
  have hb : iblk0 V c 2 t (ix2 (0 : Fin 1) q) = V c main_v5 (ix2 (0 : Fin 1) q) := by
    show V c main_v5 (((cfg0.win 2).blk t).view.emb (ix2 (0 : Fin 1) q)) = _
    refine congrArg (V c main_v5) ?_
    funext a; apply Fin.ext
    match a with
    | ⟨0, _⟩ => show win0_2.index t (0 : Fin 2) * 1 + 1 * 0 = 0; rw [e20]
    | ⟨1, _⟩ => show win0_2.index t (1 : Fin 2) * 9 + 1 * q.val = q.val; rw [e21]; omega
  rw [hb]
  refine congrArg (· + V c main_v5 (ix2 (0 : Fin 1) q)) ?_
  exact Finset.sum_congr rfl fun k _ => by rw [hx k, hw k]

/-- An index of the array is in point `t`'s block iff each coordinate is in the block's range on its axis. -/
theorem mem_blk (t : Fin cfg0.N) (i : S1500000x9.Idx) :
    i ∈ ((cfg0.win 3).blk t).view.set ↔ ∀ a : Fin 2, win0_3.index t a * S12000x9.size a ≤ (i a).val ∧ (i a).val < win0_3.index t a * S12000x9.size a + S12000x9.size a := by
  show i ∈ ((View.whole main_v6).slice (win0_3.rect t)).set ↔ _
  rw [View.set_slice_whole, Rect.mem_set_unit]
  exact Iff.rfl

/-- Every index of the array is in the block of the point its row falls in: row `r` in that of point `r / 12000`. -/
theorem cover (i : S1500000x9.Idx) : ∃ t : Fin cfg0.N, (cfg0.win 3).flush t = true ∧ i ∈ ((cfg0.win 3).blk t).view.set := by
  have hi0 : (i 0).val < 1500000 := (i 0).isLt
  have hi1 : (i 1).val < 9 := (i 1).isLt
  have hN : cfg0.N = 125 := N_0
  have ht : (i 0).val / 12000 < cfg0.N := by rw [hN]; omega
  refine ⟨⟨(i 0).val / 12000, ht⟩, flush0_3 _, ?_⟩
  obtain ⟨e30, e31, -⟩ := idx_facts ⟨(i 0).val / 12000, ht⟩
  rw [mem_blk]
  intro a
  match a with
  | ⟨0, _⟩ =>
    show win0_3.index ⟨(i 0).val / 12000, ht⟩ (0 : Fin 2) * 12000 ≤ (i 0).val ∧ (i 0).val < win0_3.index ⟨(i 0).val / 12000, ht⟩ (0 : Fin 2) * 12000 + 12000
    rw [e30]
    show (i 0).val / 12000 * 12000 ≤ (i 0).val ∧ (i 0).val < (i 0).val / 12000 * 12000 + 12000
    omega
  | ⟨1, _⟩ =>
    show win0_3.index ⟨(i 0).val / 12000, ht⟩ (1 : Fin 2) * 9 ≤ (i 1).val ∧ (i 1).val < win0_3.index ⟨(i 0).val / 12000, ht⟩ (1 : Fin 2) * 9 + 9
    rw [e31]
    omega

/-- The array region 0 leaves is the node map `x · wT + b` (one input feature) of the node array, the transposed weight and
    the bias row as the region finds them, whatever the buffer contents `V` at its entry. -/
theorem final : (dat0 (F := Ideal) V c).arrAt 3 cfg0.N = Cert.Net.lin1 (F := Ideal) (V c main_arg0) (V c main_v4) (V c main_v5) :=
  (dat0 (F := Ideal) V c).arrAt_eq_of_cover 3 _ (fun t _ => flushed_eq V c t) cover

end Cert.KernelIdeal.Reg0
end
-- ==== Proof.Reg1.lean ====
/-
  Launch 1: the edge messages `hs * (ea · wT + b)`, tiled over the 12 000 000 edges in 1000 blocks of 12 000 rows.

  At grid point t the body reads rows 12000·t … 12000·t + 11999 of the gathered source rows `hs` and of the edge
  attributes `ea`, the whole transposed weight (2 × 9) and the bias row, and stores, at row p and column q of its block,
  `hs(12000·t + p, q)` times the sum over the two attributes k of `ea(12000·t + p, k) · wT(k, q)` plus `b(0, q)` (the
  product accumulated from zero, its operands narrowed to bf16 first: the identity on the extended reals). That is entry
  (12000·t + p, q) of the reference's stage — an entrywise product with a `dot_general` plus the bias row broadcast down
  the rows — of the same arrays: an output entry depends on its own edge only. The 1000 blocks tile the array, so the
  array the launch leaves is that stage.
-/
import proofs.«175860_j29935922053254_2_alg».proof.Proof.Gen.KernelIdeal.Frame
import proofs.«175860_j29935922053254_2_alg».proof.Proof.Gen.ReferenceIdeal
import proofs.«175860_j29935922053254_2_alg».proof.Proof.Spec
import Idealize.ShloMosaic.PureOps.Ideal.Laws
import Idealize.ShloMosaic.Lib.ValueIdx
import Idealize.ShloMosaic.Lib.Pipeline.Value
import Idealize.ShloMosaic.Lib.ValueLayout
noncomputable section
namespace Cert.KernelIdeal.Reg1
open Cert.KernelIdeal Cert.KernelIdeal.Gen Idealize.ShloMosaic Idealize.ShloMosaic.TcCoe Idealize.SL.Sem
variable (V : (c : Dev nD) → (b : Ref sig .tc) → Buf (Elt Ideal) ((c : Thread nD τ).loc b)) (c : Dev nD)

open Idealize.ShloMosaic.ValueIdx

/-! ## The body's arithmetic at one entry -/

/-- The left operand's row coordinate in the block product is the output's row. -/
theorem lhs_row (i : S12000x9.Idx) (z : dot_S12000x2_S2x9_S12000x9_1_0_0_1_n_n.contr.Idx) :
    (dot_S12000x2_S2x9_S12000x9_1_0_0_1_n_n.lhsIdx i z 0).val = (i 0).val := by
  unfold DotDims.lhsIdx
  rw [dif_neg (show ¬(0 : Fin S12000x2.rank) ∈ dot_S12000x2_S2x9_S12000x9_1_0_0_1_n_n.lhsBatch by decide),
    dif_pos (show (0 : Fin S12000x2.rank) ∈ dot_S12000x2_S2x9_S12000x9_1_0_0_1_n_n.lhsNonContracting by decide)]
  rfl

/-- The left operand's column coordinate is the summation index. -/
theorem lhs_col (i : S12000x9.Idx) (z : dot_S12000x2_S2x9_S12000x9_1_0_0_1_n_n.contr.Idx) :
    (dot_S12000x2_S2x9_S12000x9_1_0_0_1_n_n.lhsIdx i z 1).val = (z ⟨0, by decide⟩).val :=
  dot_S12000x2_S2x9_S12000x9_1_0_0_1_n_n.lhsIdx_val_of_single rfl i z

/-- The right operand's row coordinate is the summation index. -/
theorem rhs_row (i : S12000x9.Idx) (z : dot_S12000x2_S2x9_S12000x9_1_0_0_1_n_n.contr.Idx) :
    (dot_S12000x2_S2x9_S12000x9_1_0_0_1_n_n.rhsIdx i z 0).val = (z ⟨0, by decide⟩).val :=
  dot_S12000x2_S2x9_S12000x9_1_0_0_1_n_n.rhsIdx_val_of_single rfl i z

/-- The right operand's column coordinate is the output's column. -/
theorem rhs_col (i : S12000x9.Idx) (z : dot_S12000x2_S2x9_S12000x9_1_0_0_1_n_n.contr.Idx) :
    (dot_S12000x2_S2x9_S12000x9_1_0_0_1_n_n.rhsIdx i z 1).val = (i 1).val := by
  unfold DotDims.rhsIdx
  rw [dif_neg (show ¬(1 : Fin S2x9.rank) ∈ dot_S12000x2_S2x9_S12000x9_1_0_0_1_n_n.rhsBatch by decide),
    dif_pos (show (1 : Fin S2x9.rank) ∈ dot_S12000x2_S2x9_S12000x9_1_0_0_1_n_n.rhsNonContracting by decide)]
  rfl

/-- One entry of the block the body stores: the gathered row's entry times the entry of
    `ea · wT + b`, the product over the two edge attributes written as a sum. -/
theorem pay_apply (x0 : Vec Ideal S12000x9 .f32) (x1 : Vec Ideal S12000x2 .f32) (x2 : Vec Ideal S2x9 .f32)
    (x3 : Vec Ideal S1x9 .f32) (p : Fin 12000) (q : Fin 9) :
    k1_pay1 x0 x1 x2 x3 (ix2 p q)
      = x0 (ix2 p q) * ((∑ k : Fin 2, x1 (ix2 p k) * x2 (ix2 k q)) + x3 (ix2 (0 : Fin 1) q)) := by
  unfold k1_pay1
  rw [mulf_apply, addf_apply, shapeCast_self, shapeCast_self, shapeCast_self, broadcastTo_1b_ab_apply]
  simp only [matmul]
  rw [Ideal.matmul_constant_zero_apply, ← Equiv.sum_comp (contrEquiv1 dot_S12000x2_S2x9_S12000x9_1_0_0_1_n_n 2 rfl rfl).symm]
  refine congrArg (fun z => x0 (ix2 p q) * (z + x3 (ix2 (0 : Fin 1) q))) (Finset.sum_congr rfl fun k _ => ?_)
  have hk := contrEquiv1_symm_val dot_S12000x2_S2x9_S12000x9_1_0_0_1_n_n 2 rfl rfl k
  rw [truncf_apply, truncf_apply]
  have el : dot_S12000x2_S2x9_S12000x9_1_0_0_1_n_n.lhsIdx (ix2 p q) ((contrEquiv1 dot_S12000x2_S2x9_S12000x9_1_0_0_1_n_n 2 rfl rfl).symm k) = ix2 p k :=
    funext fun a => Fin.ext (by
      match a with
      | ⟨0, _⟩ => exact lhs_row _ _
      | ⟨1, _⟩ => exact (lhs_col _ _).trans hk)
  have er : dot_S12000x2_S2x9_S12000x9_1_0_0_1_n_n.rhsIdx (ix2 p q) ((contrEquiv1 dot_S12000x2_S2x9_S12000x9_1_0_0_1_n_n 2 rfl rfl).symm k) = ix2 k q :=
    funext fun a => Fin.ext (by
      match a with
      | ⟨0, _⟩ => exact (rhs_row _ _).trans hk
      | ⟨1, _⟩ => exact rhs_col _ _)
  rw [el, er]

/-! ## The stage at one entry of the whole array -/

/-- The left operand's row coordinate in the whole-array product is the output's row. -/
theorem net_lhs_row (i : S12000000x9.Idx) (z : Cert.ReferenceIdeal.dot_S12000000x2_S2x9_S12000000x9_1_0_0_1_n_n.contr.Idx) :
    (Cert.ReferenceIdeal.dot_S12000000x2_S2x9_S12000000x9_1_0_0_1_n_n.lhsIdx i z 0).val = (i 0).val := by
  unfold DotDims.lhsIdx
  rw [dif_neg (show ¬(0 : Fin S12000000x2.rank) ∈ Cert.ReferenceIdeal.dot_S12000000x2_S2x9_S12000000x9_1_0_0_1_n_n.lhsBatch by decide),
    dif_pos (show (0 : Fin S12000000x2.rank) ∈ Cert.ReferenceIdeal.dot_S12000000x2_S2x9_S12000000x9_1_0_0_1_n_n.lhsNonContracting by decide)]
  rfl

/-- The left operand's column coordinate is the summation index. -/
theorem net_lhs_col (i : S12000000x9.Idx) (z : Cert.ReferenceIdeal.dot_S12000000x2_S2x9_S12000000x9_1_0_0_1_n_n.contr.Idx) :
    (Cert.ReferenceIdeal.dot_S12000000x2_S2x9_S12000000x9_1_0_0_1_n_n.lhsIdx i z 1).val = (z ⟨0, by decide⟩).val :=
  Cert.ReferenceIdeal.dot_S12000000x2_S2x9_S12000000x9_1_0_0_1_n_n.lhsIdx_val_of_single rfl i z

/-- The right operand's row coordinate is the summation index. -/
theorem net_rhs_row (i : S12000000x9.Idx) (z : Cert.ReferenceIdeal.dot_S12000000x2_S2x9_S12000000x9_1_0_0_1_n_n.contr.Idx) :
    (Cert.ReferenceIdeal.dot_S12000000x2_S2x9_S12000000x9_1_0_0_1_n_n.rhsIdx i z 0).val = (z ⟨0, by decide⟩).val :=
  Cert.ReferenceIdeal.dot_S12000000x2_S2x9_S12000000x9_1_0_0_1_n_n.rhsIdx_val_of_single rfl i z

/-- The right operand's column coordinate is the output's column. -/
theorem net_rhs_col (i : S12000000x9.Idx) (z : Cert.ReferenceIdeal.dot_S12000000x2_S2x9_S12000000x9_1_0_0_1_n_n.contr.Idx) :
    (Cert.ReferenceIdeal.dot_S12000000x2_S2x9_S12000000x9_1_0_0_1_n_n.rhsIdx i z 1).val = (i 1).val := by
  unfold DotDims.rhsIdx
  rw [dif_neg (show ¬(1 : Fin S2x9.rank) ∈ Cert.ReferenceIdeal.dot_S12000000x2_S2x9_S12000000x9_1_0_0_1_n_n.rhsBatch by decide),
    dif_pos (show (1 : Fin S2x9.rank) ∈ Cert.ReferenceIdeal.dot_S12000000x2_S2x9_S12000000x9_1_0_0_1_n_n.rhsNonContracting by decide)]
  rfl

/-- One entry of the edge message over all edges: `hs r q * (Σ_k ea r k * wT k q + b 0 q)`. -/
theorem edge_apply (hs : Cert.Net.FA Ideal S12000000x9) (ea : Cert.Net.FA Ideal S12000000x2)
    (wT : Cert.Net.FA Ideal S2x9) (b : Cert.Net.FA Ideal S1x9) (r : Fin 12000000) (q : Fin 9) :
    Cert.Net.edge (F := Ideal) hs ea wT b (ix2 r q)
      = hs (ix2 r q) * ((∑ k : Fin 2, ea (ix2 r k) * wT (ix2 k q)) + b (ix2 (0 : Fin 1) q)) := by
  unfold Cert.Net.edge
  rw [mulf_apply, addf_apply]
  rw [broadcastInDim_apply _ Cert.ReferenceIdeal.Facts₀.bcast_S1x9_S12000000x9_0_1 b (ix2 r q) (ix2 (0 : Fin 1) q) (fun a => match a with
    | ⟨0, _⟩ => by show 0 = if (1 : Nat) = 1 then 0 else r.val; rw [if_pos rfl]
    | ⟨1, _⟩ => by show q.val = if (9 : Nat) = 1 then 0 else q.val; rw [if_neg (by decide)])]
  simp only [Host.dotGeneral]
  rw [Ideal.dotGeneral_apply, ← Equiv.sum_comp (contrEquiv1 Cert.ReferenceIdeal.dot_S12000000x2_S2x9_S12000000x9_1_0_0_1_n_n 2 rfl rfl).symm]
  refine congrArg (fun z => hs (ix2 r q) * (z + b (ix2 (0 : Fin 1) q))) (Finset.sum_congr rfl fun k _ => ?_)
  have hk := contrEquiv1_symm_val Cert.ReferenceIdeal.dot_S12000000x2_S2x9_S12000000x9_1_0_0_1_n_n 2 rfl rfl k
  have el : Cert.ReferenceIdeal.dot_S12000000x2_S2x9_S12000000x9_1_0_0_1_n_n.lhsIdx (ix2 r q) ((contrEquiv1 Cert.ReferenceIdeal.dot_S12000000x2_S2x9_S12000000x9_1_0_0_1_n_n 2 rfl rfl).symm k) = ix2 r k :=
    funext fun a => Fin.ext (by
      match a with
      | ⟨0, _⟩ => exact net_lhs_row _ _
      | ⟨1, _⟩ => exact (net_lhs_col _ _).trans hk)
  have er : Cert.ReferenceIdeal.dot_S12000000x2_S2x9_S12000000x9_1_0_0_1_n_n.rhsIdx (ix2 r q) ((contrEquiv1 Cert.ReferenceIdeal.dot_S12000000x2_S2x9_S12000000x9_1_0_0_1_n_n 2 rfl rfl).symm k) = ix2 k q :=
    funext fun a => Fin.ext (by
      match a with
      | ⟨0, _⟩ => exact (net_rhs_row _ _).trans hk
      | ⟨1, _⟩ => exact net_rhs_col _ _)
  rw [el, er]

/-! ## From blocks to the array -/

/-- The zero offsets of a whole-block load or store. -/
theorem hz : (![0, 0] : Fin 2 → Nat) = fun _ => 0 := funext fun a => by fin_cases a <;> rfl

/-- The index maps over the grid: at point `t` the gathered rows, the edge attributes and the
    messages are at block row `t`, block column 0; the weight and the bias at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The block of gathered rows at point `t` is rows `12000 t, …, 12000 t + 11999` of the array. -/
theorem rows_apply (t : Fin cfg1.N) (p : Fin 12000) (q : Fin 9) (r : Fin 12000000)
    (hr : r.val = t.val * 12000 + p.val) :
    (iblk1 V c 0 t : Vec Ideal S12000x9 .f32) (ix2 p q)
      = (V c main_v13 : S12000000x9.Idx → Elt Ideal .f32) (ix2 r q) := by
  obtain ⟨e0, e1, -⟩ := idx_facts t
  unfold iblk1
  rw [View.read_apply]
  show V c main_v13 _ = V c main_v13 _
  congr 1
  funext a
  apply Fin.ext
  match a with
  | ⟨0, _⟩ => show win1_0.index t (0 : Fin 2) * 12000 + 1 * p.val = r.val; rw [e0, hr]; omega
  | ⟨1, _⟩ => show win1_0.index t (1 : Fin 2) * 9 + 1 * q.val = q.val; rw [e1]; omega

/-- The block of edge attributes at point `t` is the same rows of the attribute array. -/
theorem attrs_apply (t : Fin cfg1.N) (p : Fin 12000) (k : Fin 2) (r : Fin 12000000)
    (hr : r.val = t.val * 12000 + p.val) :
    (iblk1 V c 1 t : Vec Ideal S12000x2 .f32) (ix2 p k)
      = (V c main_arg2 : S12000000x2.Idx → Elt Ideal .f32) (ix2 r k) := by
  obtain ⟨-, -, e0, e1, -⟩ := idx_facts t
  unfold iblk1
  rw [View.read_apply]
  show V c main_arg2 _ = V c main_arg2 _
  congr 1
  funext a
  apply Fin.ext
  match a with
  | ⟨0, _⟩ => show win1_1.index t (0 : Fin 2) * 12000 + 1 * p.val = r.val; rw [e0, hr]; omega
  | ⟨1, _⟩ => show win1_1.index t (1 : Fin 2) * 2 + 1 * k.val = k.val; rw [e1]; omega

/-- The weight block at every point is the whole weight. -/
theorem weight_apply (t : Fin cfg1.N) (k : Fin 2) (q : Fin 9) :
    (iblk1 V c 2 t : Vec Ideal S2x9 .f32) (ix2 k q)
      = (V c main_v14 : S2x9.Idx → Elt Ideal .f32) (ix2 k q) := by
  obtain ⟨-, -, -, -, e0, e1, -⟩ := idx_facts t
  unfold iblk1
  rw [View.read_apply]
  show V c main_v14 _ = V c main_v14 _
  congr 1
  funext a
  apply Fin.ext
  match a with
  | ⟨0, _⟩ => show win1_2.index t (0 : Fin 2) * 2 + 1 * k.val = k.val; rw [e0]; omega
  | ⟨1, _⟩ => show win1_2.index t (1 : Fin 2) * 9 + 1 * q.val = q.val; rw [e1]; omega

/-- The bias block at every point is the whole bias row. -/
theorem bias_apply (t : Fin cfg1.N) (z : Fin 1) (q : Fin 9) :
    (iblk1 V c 3 t : Vec Ideal S1x9 .f32) (ix2 z q)
      = (V c main_v15 : S1x9.Idx → Elt Ideal .f32) (ix2 z q) := by
  obtain ⟨-, -, -, -, -, -, e0, e1, -⟩ := idx_facts t
  unfold iblk1
  rw [View.read_apply]
  show V c main_v15 _ = V c main_v15 _
  congr 1
  funext a
  apply Fin.ext
  match a with
  | ⟨0, _⟩ => show win1_3.index t (0 : Fin 2) * 1 + 1 * z.val = z.val; rw [e0]; omega
  | ⟨1, _⟩ => show win1_3.index t (1 : Fin 2) * 9 + 1 * q.val = q.val; rw [e1]; omega

/-- What grid point `t` writes back is block `t` of the edge message of the arrays as the region
    finds them. -/
theorem flushed_eq (t : Fin cfg1.N) :
    (dat1 (F := Ideal) V c).flushed 4 t
      = ((cfg1.win 4).blk t).view.read (Elt Ideal) (Cert.Net.edge (F := Ideal) (V c main_v13) (V c main_arg2) (V c main_v14) (V c main_v15)) := by
  show (cfg1.win 4).cut (grid1.coords t) ((dat1 V c).after 4 t) = _
  rw [after1_4]
  unfold out1_4
  rw [View.canon_unit_zero hz]
  simp only [View.ld_unit_zero (S := S12000x9) hz, View.ld_unit_zero (S := S12000x2) hz,
    View.ld_unit_zero (S := S2x9) hz, View.ld_unit_zero (S := S1x9) hz]
  refine funext fun (j : S12000x9.Idx) => ?_
  obtain ⟨p, q, rfl⟩ : ∃ (p : Fin 12000) (q : Fin 9), j = ix2 p q := ⟨j 0, j 1, eq_ix2 j⟩
  obtain ⟨-, -, -, -, -, -, -, -, e0, e1⟩ := idx_facts t
  have hN : cfg1.N = 1000 := N_1
  have ht : t.val < 1000 := hN ▸ t.isLt
  have hp : p.val < 12000 := p.isLt
  obtain ⟨r, hr⟩ : ∃ r : Fin 12000000, r.val = t.val * 12000 + p.val := ⟨⟨t.val * 12000 + p.val, by omega⟩, rfl⟩
  show k1_pay1 (iblk1 V c 0 t) (iblk1 V c 1 t) (iblk1 V c 2 t) (iblk1 V c 3 t) (ix2 p q)
      = Cert.Net.edge (F := Ideal) (V c main_v13) (V c main_arg2) (V c main_v14) (V c main_v15)
          (((cfg1.win 4).blk t).view.emb (ix2 p q))
  have hemb : (((cfg1.win 4).blk t).view.emb (ix2 p q) : S12000000x9.Idx) = ix2 r q := by
    funext a
    apply Fin.ext
    match a with
    | ⟨0, _⟩ => show win1_4.index t (0 : Fin 2) * 12000 + 1 * p.val = r.val; rw [e0, hr]; omega
    | ⟨1, _⟩ => show win1_4.index t (1 : Fin 2) * 9 + 1 * q.val = q.val; rw [e1]; omega
  rw [hemb, edge_apply]
  refine (pay_apply _ _ _ _ p q).trans ?_
  simp only [rows_apply V c t p q r hr, bias_apply V c t 0 q, attrs_apply V c t p _ r hr,
    weight_apply V c t _ q]

/-- An index of the message array lies in point `t`'s block iff each coordinate lies in the block's
    range on its axis. -/
theorem mem_blk (t : Fin cfg1.N) (i : S12000000x9.Idx) :
    i ∈ ((cfg1.win 4).blk t).view.set ↔ ∀ a : Fin 2, win1_4.index t a * S12000x9.size a ≤ (i a).val
      ∧ (i a).val < win1_4.index t a * S12000x9.size a + S12000x9.size a := by
  show i ∈ ((View.whole main_v16).slice (win1_4.rect t)).set ↔ _
  rw [View.set_slice_whole, Rect.mem_set_unit]
  exact Iff.rfl

/-- The blocks cover the array: edge `e` lies in the block of point `e / 12000`, and every column
    in the one column block. -/
theorem cover (i : S12000000x9.Idx) :
    ∃ t : Fin cfg1.N, (cfg1.win 4).flush t = true ∧ i ∈ ((cfg1.win 4).blk t).view.set := by
  have hN : cfg1.N = 1000 := N_1
  have hi0 : (i 0).val < 12000000 := (i 0).isLt
  have hi1 : (i 1).val < 9 := (i 1).isLt
  obtain ⟨t, ht⟩ : ∃ t : Fin cfg1.N, t.val = (i 0).val / 12000 :=
    ⟨⟨(i 0).val / 12000, by rw [hN]; omega⟩, rfl⟩
  obtain ⟨-, -, -, -, -, -, -, -, e0, e1⟩ := idx_facts t
  refine ⟨t, flush1_4 t, ?_⟩
  rw [mem_blk]
  intro a
  match a with
  | ⟨0, _⟩ =>
    show win1_4.index t (0 : Fin 2) * 12000 ≤ (i 0).val
      ∧ (i 0).val < win1_4.index t (0 : Fin 2) * 12000 + 12000
    rw [e0, ht]; omega
  | ⟨1, _⟩ =>
    show win1_4.index t (1 : Fin 2) * 9 ≤ (i 1).val ∧ (i 1).val < win1_4.index t (1 : Fin 2) * 9 + 9
    rw [e1]; omega

/-- The array the launch leaves is the edge message `hs * (ea · wT + b)`, entrywise, of the four
    input arrays as the region finds them, whatever those are. -/
theorem final : (dat1 (F := Ideal) V c).arrAt 4 cfg1.N = Cert.Net.edge (F := Ideal) (V c main_v13) (V c main_arg2) (V c main_v14) (V c main_v15) :=
  (dat1 (F := Ideal) V c).arrAt_eq_of_cover 4 _ (fun t _ => flushed_eq V c t) cover

end Cert.KernelIdeal.Reg1
end
-- ==== Proof.Reg2.lean ====
/-
  Launch 2: the output map with rectifier, `max (a · wT + b) 0` (nine features to nine), tiled over the 1 500 000 nodes
  in 125 blocks of 12 000 rows.

  At grid point t the body reads rows 12000·t … 12000·t + 11999 of the aggregated messages `a`, the whole transposed
  weight and the bias row, and stores, at row p and column q of its block, the larger of 0 and the sum over the nine
  features k of `a(12000·t + p, k) · wT(k, q)` plus `b(0, q)` (a matrix product accumulated from zero, its operands
  narrowed to bf16 first: the identity on the extended reals). That is entry (12000·t + p, q) of the reference's stage —
  a `dot_general`, the bias row broadcast down the rows, and a maximum with the zero array — of the same arrays: an
  output entry depends on its own row only. The 125 blocks tile the array, so the array the launch leaves is that stage.
-/
import proofs.«175860_j29935922053254_2_alg».proof.Proof.Gen.KernelIdeal.Frame
import proofs.«175860_j29935922053254_2_alg».proof.Proof.Gen.ReferenceIdeal
import proofs.«175860_j29935922053254_2_alg».proof.Proof.Spec
import Idealize.ShloMosaic.PureOps.Ideal.Laws
import Idealize.ShloMosaic.Lib.ValueIdx
import Idealize.ShloMosaic.Lib.Pipeline.Value
import Idealize.ShloMosaic.Lib.ValueLayout
noncomputable section
namespace Cert.KernelIdeal.Reg2
open Cert.KernelIdeal Cert.KernelIdeal.Gen Idealize.ShloMosaic Idealize.ShloMosaic.TcCoe Idealize.SL.Sem
variable (V : (c : Dev nD) → (b : Ref sig .tc) → Buf (Elt Ideal) ((c : Thread nD τ).loc b)) (c : Dev nD)

open ValueIdx

/-! ## The two dot products' operand indices -/

/-- The block product's left operand is read at the output's row, -/
private theorem klhs0 (i : S12000x9.Idx) (u : dot_S12000x9_S9x9_S12000x9_1_0_0_1_n_n.contr.Idx) : (dot_S12000x9_S9x9_S12000x9_1_0_0_1_n_n.lhsIdx i u 0).val = (i 0).val := by
  unfold DotDims.lhsIdx
  rw [dif_neg (show ¬(0 : Fin S12000x9.rank) ∈ dot_S12000x9_S9x9_S12000x9_1_0_0_1_n_n.lhsBatch by decide),
    dif_pos (show (0 : Fin S12000x9.rank) ∈ dot_S12000x9_S9x9_S12000x9_1_0_0_1_n_n.lhsNonContracting by decide)]
  rfl
/-- and at the contraction index as its column; -/
private theorem klhs1 (i : S12000x9.Idx) (u : dot_S12000x9_S9x9_S12000x9_1_0_0_1_n_n.contr.Idx) : (dot_S12000x9_S9x9_S12000x9_1_0_0_1_n_n.lhsIdx i u 1).val = (u ⟨0, by decide⟩).val :=
  dot_S12000x9_S9x9_S12000x9_1_0_0_1_n_n.lhsIdx_val_of_single rfl i u
/-- its right operand at the contraction index as its row, -/
private theorem krhs0 (i : S12000x9.Idx) (u : dot_S12000x9_S9x9_S12000x9_1_0_0_1_n_n.contr.Idx) : (dot_S12000x9_S9x9_S12000x9_1_0_0_1_n_n.rhsIdx i u 0).val = (u ⟨0, by decide⟩).val :=
  dot_S12000x9_S9x9_S12000x9_1_0_0_1_n_n.rhsIdx_val_of_single rfl i u
/-- and at the output's column. -/
private theorem krhs1 (i : S12000x9.Idx) (u : dot_S12000x9_S9x9_S12000x9_1_0_0_1_n_n.contr.Idx) : (dot_S12000x9_S9x9_S12000x9_1_0_0_1_n_n.rhsIdx i u 1).val = (i 1).val := by
  unfold DotDims.rhsIdx
  rw [dif_neg (show ¬(1 : Fin S9x9.rank) ∈ dot_S12000x9_S9x9_S12000x9_1_0_0_1_n_n.rhsBatch by decide),
    dif_pos (show (1 : Fin S9x9.rank) ∈ dot_S12000x9_S9x9_S12000x9_1_0_0_1_n_n.rhsNonContracting by decide)]
  rfl

/-- The whole-array product's left operand is read at the output's row, -/
private theorem rlhs0 (i : Cert.ReferenceIdeal.S1500000x9.Idx) (u : Cert.ReferenceIdeal.dot_S1500000x9_S9x9_S1500000x9_1_0_0_1_n_n.contr.Idx) :
    (Cert.ReferenceIdeal.dot_S1500000x9_S9x9_S1500000x9_1_0_0_1_n_n.lhsIdx i u 0).val = (i 0).val := by
  unfold DotDims.lhsIdx
  rw [dif_neg (show ¬(0 : Fin Cert.ReferenceIdeal.S1500000x9.rank) ∈ Cert.ReferenceIdeal.dot_S1500000x9_S9x9_S1500000x9_1_0_0_1_n_n.lhsBatch by decide),
    dif_pos (show (0 : Fin Cert.ReferenceIdeal.S1500000x9.rank) ∈ Cert.ReferenceIdeal.dot_S1500000x9_S9x9_S1500000x9_1_0_0_1_n_n.lhsNonContracting by decide)]
  rfl
/-- and at the contraction index as its column; -/
private theorem rlhs1 (i : Cert.ReferenceIdeal.S1500000x9.Idx) (u : Cert.ReferenceIdeal.dot_S1500000x9_S9x9_S1500000x9_1_0_0_1_n_n.contr.Idx) :
    (Cert.ReferenceIdeal.dot_S1500000x9_S9x9_S1500000x9_1_0_0_1_n_n.lhsIdx i u 1).val = (u ⟨0, by decide⟩).val :=
  Cert.ReferenceIdeal.dot_S1500000x9_S9x9_S1500000x9_1_0_0_1_n_n.lhsIdx_val_of_single rfl i u
/-- its right operand at the contraction index as its row, -/
private theorem rrhs0 (i : Cert.ReferenceIdeal.S1500000x9.Idx) (u : Cert.ReferenceIdeal.dot_S1500000x9_S9x9_S1500000x9_1_0_0_1_n_n.contr.Idx) :
    (Cert.ReferenceIdeal.dot_S1500000x9_S9x9_S1500000x9_1_0_0_1_n_n.rhsIdx i u 0).val = (u ⟨0, by decide⟩).val :=
  Cert.ReferenceIdeal.dot_S1500000x9_S9x9_S1500000x9_1_0_0_1_n_n.rhsIdx_val_of_single rfl i u
/-- and at the output's column. -/
private theorem rrhs1 (i : Cert.ReferenceIdeal.S1500000x9.Idx) (u : Cert.ReferenceIdeal.dot_S1500000x9_S9x9_S1500000x9_1_0_0_1_n_n.contr.Idx) :
    (Cert.ReferenceIdeal.dot_S1500000x9_S9x9_S1500000x9_1_0_0_1_n_n.rhsIdx i u 1).val = (i 1).val := by
  unfold DotDims.rhsIdx
  rw [dif_neg (show ¬(1 : Fin Cert.ReferenceIdeal.S9x9.rank) ∈ Cert.ReferenceIdeal.dot_S1500000x9_S9x9_S1500000x9_1_0_0_1_n_n.rhsBatch by decide),
    dif_pos (show (1 : Fin Cert.ReferenceIdeal.S9x9.rank) ∈ Cert.ReferenceIdeal.dot_S1500000x9_S9x9_S1500000x9_1_0_0_1_n_n.rhsNonContracting by decide)]
  rfl

/-! ## The body at an entry, the stage at an entry -/

/-- The body's result at row `p`, column `q` of a block: the row of the block times the column of the weight,
    plus the bias entry, rectified. -/
theorem pay_apply (x0 : Vec Ideal S12000x9 .f32) (x1 : Vec Ideal S9x9 .f32) (x2 : Vec Ideal S1x9 .f32)
    (p : Fin 12000) (q : Fin 9) :
    k2_pay1 (F := Ideal) x0 x1 x2 (ix2 p q)
      = max ((∑ k : Fin 9, x0 (ix2 p k) * x1 (ix2 k q)) + x2 (ix2 (0 : Fin 1) q)) 0 := by
  unfold k2_pay1
  simp only [shapeCast_self, matmul]
  rw [maximumf_apply, addf_apply, broadcast_apply, broadcastTo_1b_ab_apply, Ideal.matmul_constant_zero_apply,
    ← Equiv.sum_comp (contrEquiv1 dot_S12000x9_S9x9_S12000x9_1_0_0_1_n_n 9 rfl rfl).symm]
  refine congrArg₂ max (congrArg₂ (· + ·) (Finset.sum_congr rfl fun k _ => ?_) rfl) Ideal.ofBits_zero_f32
  have hk := contrEquiv1_symm_val dot_S12000x9_S9x9_S12000x9_1_0_0_1_n_n 9 rfl rfl k
  have el : dot_S12000x9_S9x9_S12000x9_1_0_0_1_n_n.lhsIdx (ix2 p q) ((contrEquiv1 dot_S12000x9_S9x9_S12000x9_1_0_0_1_n_n 9 rfl rfl).symm k) = ix2 p k :=
    funext fun a => Fin.ext (by
      match a with
      | ⟨0, _⟩ => exact klhs0 _ _
      | ⟨1, _⟩ => exact (klhs1 _ _).trans hk)
  have er : dot_S12000x9_S9x9_S12000x9_1_0_0_1_n_n.rhsIdx (ix2 p q) ((contrEquiv1 dot_S12000x9_S9x9_S12000x9_1_0_0_1_n_n 9 rfl rfl).symm k) = ix2 k q :=
    funext fun a => Fin.ext (by
      match a with
      | ⟨0, _⟩ => exact (krhs0 _ _).trans hk
      | ⟨1, _⟩ => exact krhs1 _ _)
  rw [truncf_apply, truncf_apply, el, er]

/-- The stage at row `r`, column `q` of the whole array: the same formula of the whole arrays. -/
theorem stage_apply (a : Cert.Net.FA Ideal Cert.ReferenceIdeal.S1500000x9) (w : Cert.Net.FA Ideal Cert.ReferenceIdeal.S9x9)
    (b : Cert.Net.FA Ideal Cert.ReferenceIdeal.S1x9) (r : Fin 1500000) (q : Fin 9) :
    Cert.Net.relu9 (F := Ideal) (Cert.Net.lin9 (F := Ideal) a w b) (ix2 r q)
      = max ((∑ k : Fin 9, a (ix2 r k) * w (ix2 k q)) + b (ix2 (0 : Fin 1) q)) 0 := by
  unfold Cert.Net.relu9 Cert.Net.lin9
  rw [maximumf_apply, addf_apply]
  rw [broadcastInDim_apply _ Cert.ReferenceIdeal.Facts₀.bcast_S1x9_S1500000x9_0_1 b (ix2 r q) (ix2 (0 : Fin 1) q) (fun a => match a with
      | ⟨0, _⟩ => by show 0 = if (1 : Nat) = 1 then 0 else r.val; rw [if_pos rfl]
      | ⟨1, _⟩ => by show q.val = if (9 : Nat) = 1 then 0 else q.val; rw [if_neg (by decide)]),
    broadcastInDim_apply _ Cert.ReferenceIdeal.Facts₀.bcast_S_S1500000x9 (constant (F := Ideal) Cert.ReferenceIdeal.S_ .f32 0x00000000#32) (ix2 r q) ix0 (fun a => a.elim0),
    constant_apply]
  simp only [Host.dotGeneral]
  rw [Ideal.dotGeneral_apply, ← Equiv.sum_comp (contrEquiv1 Cert.ReferenceIdeal.dot_S1500000x9_S9x9_S1500000x9_1_0_0_1_n_n 9 rfl rfl).symm]
  refine congrArg₂ max (congrArg₂ (· + ·) (Finset.sum_congr rfl fun k _ => ?_) rfl) Ideal.ofBits_zero_f32
  have hk := contrEquiv1_symm_val Cert.ReferenceIdeal.dot_S1500000x9_S9x9_S1500000x9_1_0_0_1_n_n 9 rfl rfl k
  have el : Cert.ReferenceIdeal.dot_S1500000x9_S9x9_S1500000x9_1_0_0_1_n_n.lhsIdx (ix2 r q) ((contrEquiv1 Cert.ReferenceIdeal.dot_S1500000x9_S9x9_S1500000x9_1_0_0_1_n_n 9 rfl rfl).symm k) = ix2 r k :=
    funext fun a => Fin.ext (by
      match a with
      | ⟨0, _⟩ => exact rlhs0 _ _
      | ⟨1, _⟩ => exact (rlhs1 _ _).trans hk)
  have er : Cert.ReferenceIdeal.dot_S1500000x9_S9x9_S1500000x9_1_0_0_1_n_n.rhsIdx (ix2 r q) ((contrEquiv1 Cert.ReferenceIdeal.dot_S1500000x9_S9x9_S1500000x9_1_0_0_1_n_n 9 rfl rfl).symm k) = ix2 k q :=
    funext fun a => Fin.ext (by
      match a with
      | ⟨0, _⟩ => exact (rrhs0 _ _).trans hk
      | ⟨1, _⟩ => exact rrhs1 _ _)
  rw [el, er]

/-! ## From the blocks to the array -/

/-- The zero offsets of a whole-block access. -/
private theorem hz : (![0, 0] : Fin 2 → Nat) = fun _ => 0 := funext fun a => by fin_cases a <;> rfl

/-- The index maps over the grid: point `t` reads row block `t` of the features and the whole of the weight
    and of the bias, and writes row block `t` of the result. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row `p` of the feature block at point `t` is row `12000 t + p` of the feature array. -/
theorem blk0_apply (t : Fin cfg2.N) (p : Fin 12000) (k : Fin 9) (hr : t.val * 12000 + p.val < 1500000) :
    iblk2 (F := Ideal) V c 0 t (ix2 p k) = V c main_v19 (ix2 (⟨t.val * 12000 + p.val, hr⟩ : Fin 1500000) k) := by
  obtain ⟨e00, e01, -⟩ := idx_facts t
  unfold iblk2
  rw [View.read_apply]
  show V c main_v19 (((cfg2.win 0).blk t).view.emb (ix2 p k)) = V c main_v19 _
  refine congrArg (V c main_v19) (funext fun a => Fin.ext ?_)
  match a with
  | ⟨0, _⟩ => show win2_0.index t (0 : Fin 2) * 12000 + 1 * p.val = t.val * 12000 + p.val; rw [e00]; omega
  | ⟨1, _⟩ => show win2_0.index t (1 : Fin 2) * 9 + 1 * k.val = k.val; rw [e01]; omega

/-- The weight block at every point is the weight array. -/
theorem blk1_apply (t : Fin cfg2.N) (k : Fin 9) (q : Fin 9) :
    iblk2 (F := Ideal) V c 1 t (ix2 k q) = V c main_v20 (ix2 k q) := by
  obtain ⟨-, -, e10, e11, -⟩ := idx_facts t
  unfold iblk2
  rw [View.read_apply]
  show V c main_v20 (((cfg2.win 1).blk t).view.emb (ix2 k q)) = V c main_v20 _
  refine congrArg (V c main_v20) (funext fun a => Fin.ext ?_)
  match a with
  | ⟨0, _⟩ => show win2_1.index t (0 : Fin 2) * 9 + 1 * k.val = k.val; rw [e10]; omega
  | ⟨1, _⟩ => show win2_1.index t (1 : Fin 2) * 9 + 1 * q.val = q.val; rw [e11]; omega

/-- The bias block at every point is the bias row. -/
theorem blk2_apply (t : Fin cfg2.N) (q : Fin 9) :
    iblk2 (F := Ideal) V c 2 t (ix2 (0 : Fin 1) q) = V c main_v21 (ix2 (0 : Fin 1) q) := by
  obtain ⟨-, -, -, -, e20, e21, -⟩ := idx_facts t
  unfold iblk2
  rw [View.read_apply]
  show V c main_v21 (((cfg2.win 2).blk t).view.emb (ix2 (0 : Fin 1) q)) = V c main_v21 _
  refine congrArg (V c main_v21) (funext fun a => Fin.ext ?_)
  match a with
  | ⟨0, _⟩ => show win2_2.index t (0 : Fin 2) * 1 + 1 * 0 = 0; rw [e20]
  | ⟨1, _⟩ => show win2_2.index t (1 : Fin 2) * 9 + 1 * q.val = q.val; rw [e21]; omega

/-- What point `t` writes back is row block `t` of the stage applied to the arrays the region finds. -/
theorem flushed_eq (t : Fin cfg2.N) :
    (dat2 (F := Ideal) V c).flushed 3 t = ((cfg2.win 3).blk t).view.read (Elt Ideal)
      (Cert.Net.relu9 (F := Ideal) (Cert.Net.lin9 (F := Ideal) (V c main_v19) (V c main_v20) (V c main_v21))) := by
  show (cfg2.win 3).cut (grid2.coords t) ((dat2 (F := Ideal) V c).after 3 t) = _
  rw [after2_3]
  unfold out2_3
  rw [View.canon_unit_zero hz]
  simp only [View.ld_unit_zero (S := S12000x9) hz, View.ld_unit_zero (S := S9x9) hz, View.ld_unit_zero (S := S1x9) hz]
  obtain ⟨-, -, -, -, -, -, e30, e31⟩ := idx_facts t
  funext j
  obtain ⟨p, q, rfl⟩ : ∃ (p : Fin 12000) (q : Fin 9), j = ix2 p q := ⟨j 0, j 1, eq_ix2 j⟩
  have hN : grid2.N = 125 := N_2
  have hr : t.val * 12000 + p.val < 1500000 := by
    have h1 : t.val < 125 := lt_of_lt_of_eq t.isLt hN
    have h2 : p.val < 12000 := p.isLt
    omega
  have he : ((cfg2.win 3).blk t).view.emb (ix2 p q) = ix2 (⟨t.val * 12000 + p.val, hr⟩ : Fin 1500000) q := by
    funext a; apply Fin.ext
    match a with
    | ⟨0, _⟩ => show win2_3.index t (0 : Fin 2) * 12000 + 1 * p.val = t.val * 12000 + p.val; rw [e30]; omega
    | ⟨1, _⟩ => show win2_3.index t (1 : Fin 2) * 9 + 1 * q.val = q.val; rw [e31]; omega
  rw [View.read_apply, he]
  refine (pay_apply (iblk2 (F := Ideal) V c 0 t) (iblk2 (F := Ideal) V c 1 t) (iblk2 (F := Ideal) V c 2 t) p q).trans
    (Eq.trans ?_ (stage_apply (V c main_v19) (V c main_v20) (V c main_v21) ⟨_, hr⟩ q).symm)
  exact congrArg₂ max (congrArg₂ (· + ·)
    (Finset.sum_congr rfl fun k _ => congrArg₂ (· * ·) (blk0_apply V c t p k hr) (blk1_apply V c t k q))
    (blk2_apply V c t q)) rfl

/-- An index of the result array is in point `t`'s block iff each coordinate is in the block's range. -/
theorem mem_blk (t : Fin cfg2.N) (i : S1500000x9.Idx) :
    i ∈ ((cfg2.win 3).blk t).view.set ↔ ∀ a : Fin 2, win2_3.index t a * S12000x9.size a ≤ (i a).val
      ∧ (i a).val < win2_3.index t a * S12000x9.size a + S12000x9.size a := by
  show i ∈ ((View.whole main_v22).slice (win2_3.rect t)).set ↔ _
  rw [View.set_slice_whole, Rect.mem_set_unit]
  exact Iff.rfl

/-- Every entry of the result array is written: row `r` by point `r / 12000`. -/
theorem cover (i : S1500000x9.Idx) :
    ∃ t : Fin cfg2.N, (cfg2.win 3).flush t = true ∧ i ∈ ((cfg2.win 3).blk t).view.set := by
  have hi0 : (i 0).val < 1500000 := (i 0).isLt
  have hi1 : (i 1).val < 9 := (i 1).isLt
  have hN : grid2.N = 125 := N_2
  have ht : (i 0).val / 12000 < grid2.N := by rw [hN]; omega
  obtain ⟨-, -, -, -, -, -, e30, e31⟩ := idx_facts ⟨(i 0).val / 12000, ht⟩
  refine ⟨⟨(i 0).val / 12000, ht⟩, flush2_3 _, ?_⟩
  rw [mem_blk]
  intro a
  match a with
  | ⟨0, _⟩ =>
    show win2_3.index ⟨(i 0).val / 12000, ht⟩ (0 : Fin 2) * 12000 ≤ (i 0).val
      ∧ (i 0).val < win2_3.index ⟨(i 0).val / 12000, ht⟩ (0 : Fin 2) * 12000 + 12000
    rw [e30]; show (i 0).val / 12000 * 12000 ≤ (i 0).val ∧ (i 0).val < (i 0).val / 12000 * 12000 + 12000; omega
  | ⟨1, _⟩ =>
    show win2_3.index ⟨(i 0).val / 12000, ht⟩ (1 : Fin 2) * 9 ≤ (i 1).val
      ∧ (i 1).val < win2_3.index ⟨(i 0).val / 12000, ht⟩ (1 : Fin 2) * 9 + 9
    rw [e31]; omega

/-- The array the launch leaves is the rectified output map `max (a · wT + b) 0` of the three arrays it finds: the aggregated features, the transposed weight and the bias row. -/
theorem final : (dat2 (F := Ideal) V c).arrAt 3 cfg2.N = Cert.Net.relu9 (F := Ideal) (Cert.Net.lin9 (F := Ideal) (V c main_v19) (V c main_v20) (V c main_v21)) :=
  (dat2 (F := Ideal) V c).arrAt_eq_of_cover 3 _ (fun t _ => flushed_eq V c t) (cover)

end Cert.KernelIdeal.Reg2
end
-- ==== Proof.Reg3.lean ====
/-
  Launch 3: the node map `h · wT + b` (nine features to nine), tiled over the 1 500 000 nodes in 125 blocks of
  12 000 rows.

  At grid point t the body reads rows 12000·t … 12000·t + 11999 of the node array, the whole transposed weight and the
  bias row, and stores, at row p and column q of its block, the sum over the input features k of
  `h(12000·t + p, k) · wT(k, q)` (a matrix product accumulated from zero, its operands narrowed to bf16 first: the
  identity on the extended reals) plus `b(0, q)`. That is entry (12000·t + p, q) of the reference's stage — a
  `dot_general` plus the bias row broadcast down the rows — of the same arrays: an output entry depends on its own row
  only. The 125 blocks tile the array, so the array the launch leaves is that stage.
-/
import proofs.«175860_j29935922053254_2_alg».proof.Proof.Gen.KernelIdeal.Frame
import proofs.«175860_j29935922053254_2_alg».proof.Proof.Gen.ReferenceIdeal
import proofs.«175860_j29935922053254_2_alg».proof.Proof.Spec
import Idealize.ShloMosaic.PureOps.Ideal.Laws
import Idealize.ShloMosaic.Lib.ValueIdx
import Idealize.ShloMosaic.Lib.Pipeline.Value
import Idealize.ShloMosaic.Lib.ValueLayout
noncomputable section
namespace Cert.KernelIdeal.Reg3
open Cert.KernelIdeal Cert.KernelIdeal.Gen Idealize.ShloMosaic Idealize.ShloMosaic.TcCoe Idealize.SL.Sem
variable (V : (c : Dev nD) → (b : Ref sig .tc) → Buf (Elt Ideal) ((c : Thread nD τ).loc b)) (c : Dev nD)

open ValueIdx

/-! ## The two dot products' operand indices -/

/-- The block product's left operand is read at the output's row, -/
private theorem klhs0 (i : S12000x9.Idx) (u : dot_S12000x9_S9x9_S12000x9_1_0_0_1_n_n.contr.Idx) : (dot_S12000x9_S9x9_S12000x9_1_0_0_1_n_n.lhsIdx i u 0).val = (i 0).val := by
  unfold DotDims.lhsIdx
  rw [dif_neg (show ¬(0 : Fin S12000x9.rank) ∈ dot_S12000x9_S9x9_S12000x9_1_0_0_1_n_n.lhsBatch by decide),
    dif_pos (show (0 : Fin S12000x9.rank) ∈ dot_S12000x9_S9x9_S12000x9_1_0_0_1_n_n.lhsNonContracting by decide)]
  rfl
/-- and at the contraction index as its column; -/
private theorem klhs1 (i : S12000x9.Idx) (u : dot_S12000x9_S9x9_S12000x9_1_0_0_1_n_n.contr.Idx) : (dot_S12000x9_S9x9_S12000x9_1_0_0_1_n_n.lhsIdx i u 1).val = (u ⟨0, by decide⟩).val :=
  dot_S12000x9_S9x9_S12000x9_1_0_0_1_n_n.lhsIdx_val_of_single rfl i u
/-- its right operand at the contraction index as its row, -/
private theorem krhs0 (i : S12000x9.Idx) (u : dot_S12000x9_S9x9_S12000x9_1_0_0_1_n_n.contr.Idx) : (dot_S12000x9_S9x9_S12000x9_1_0_0_1_n_n.rhsIdx i u 0).val = (u ⟨0, by decide⟩).val :=
  dot_S12000x9_S9x9_S12000x9_1_0_0_1_n_n.rhsIdx_val_of_single rfl i u
/-- and at the output's column. -/
private theorem krhs1 (i : S12000x9.Idx) (u : dot_S12000x9_S9x9_S12000x9_1_0_0_1_n_n.contr.Idx) : (dot_S12000x9_S9x9_S12000x9_1_0_0_1_n_n.rhsIdx i u 1).val = (i 1).val := by
  unfold DotDims.rhsIdx
  rw [dif_neg (show ¬(1 : Fin S9x9.rank) ∈ dot_S12000x9_S9x9_S12000x9_1_0_0_1_n_n.rhsBatch by decide),
    dif_pos (show (1 : Fin S9x9.rank) ∈ dot_S12000x9_S9x9_S12000x9_1_0_0_1_n_n.rhsNonContracting by decide)]
  rfl

/-- The whole-array product's left operand is read at the output's row, -/
private theorem rlhs0 (i : Cert.ReferenceIdeal.S1500000x9.Idx) (u : Cert.ReferenceIdeal.dot_S1500000x9_S9x9_S1500000x9_1_0_0_1_n_n.contr.Idx) :
    (Cert.ReferenceIdeal.dot_S1500000x9_S9x9_S1500000x9_1_0_0_1_n_n.lhsIdx i u 0).val = (i 0).val := by
  unfold DotDims.lhsIdx
  rw [dif_neg (show ¬(0 : Fin Cert.ReferenceIdeal.S1500000x9.rank) ∈ Cert.ReferenceIdeal.dot_S1500000x9_S9x9_S1500000x9_1_0_0_1_n_n.lhsBatch by decide),
    dif_pos (show (0 : Fin Cert.ReferenceIdeal.S1500000x9.rank) ∈ Cert.ReferenceIdeal.dot_S1500000x9_S9x9_S1500000x9_1_0_0_1_n_n.lhsNonContracting by decide)]
  rfl
/-- and at the contraction index as its column; -/
private theorem rlhs1 (i : Cert.ReferenceIdeal.S1500000x9.Idx) (u : Cert.ReferenceIdeal.dot_S1500000x9_S9x9_S1500000x9_1_0_0_1_n_n.contr.Idx) :
    (Cert.ReferenceIdeal.dot_S1500000x9_S9x9_S1500000x9_1_0_0_1_n_n.lhsIdx i u 1).val = (u ⟨0, by decide⟩).val :=
  Cert.ReferenceIdeal.dot_S1500000x9_S9x9_S1500000x9_1_0_0_1_n_n.lhsIdx_val_of_single rfl i u
/-- its right operand at the contraction index as its row, -/
private theorem rrhs0 (i : Cert.ReferenceIdeal.S1500000x9.Idx) (u : Cert.ReferenceIdeal.dot_S1500000x9_S9x9_S1500000x9_1_0_0_1_n_n.contr.Idx) :
    (Cert.ReferenceIdeal.dot_S1500000x9_S9x9_S1500000x9_1_0_0_1_n_n.rhsIdx i u 0).val = (u ⟨0, by decide⟩).val :=
  Cert.ReferenceIdeal.dot_S1500000x9_S9x9_S1500000x9_1_0_0_1_n_n.rhsIdx_val_of_single rfl i u
/-- and at the output's column. -/
private theorem rrhs1 (i : Cert.ReferenceIdeal.S1500000x9.Idx) (u : Cert.ReferenceIdeal.dot_S1500000x9_S9x9_S1500000x9_1_0_0_1_n_n.contr.Idx) :
    (Cert.ReferenceIdeal.dot_S1500000x9_S9x9_S1500000x9_1_0_0_1_n_n.rhsIdx i u 1).val = (i 1).val := by
  unfold DotDims.rhsIdx
  rw [dif_neg (show ¬(1 : Fin Cert.ReferenceIdeal.S9x9.rank) ∈ Cert.ReferenceIdeal.dot_S1500000x9_S9x9_S1500000x9_1_0_0_1_n_n.rhsBatch by decide),
    dif_pos (show (1 : Fin Cert.ReferenceIdeal.S9x9.rank) ∈ Cert.ReferenceIdeal.dot_S1500000x9_S9x9_S1500000x9_1_0_0_1_n_n.rhsNonContracting by decide)]
  rfl

/-! ## The body at an entry, the stage at an entry -/

/-- The body's result at row `p`, column `q` of a block: the row of the block times the column of the weight,
    plus the bias entry. -/
theorem pay_apply (x0 : Vec Ideal S12000x9 .f32) (x1 : Vec Ideal S9x9 .f32) (x2 : Vec Ideal S1x9 .f32)
    (p : Fin 12000) (q : Fin 9) :
    k3_pay1 (F := Ideal) x0 x1 x2 (ix2 p q)
      = (∑ k : Fin 9, x0 (ix2 p k) * x1 (ix2 k q)) + x2 (ix2 (0 : Fin 1) q) := by
  unfold k3_pay1
  simp only [shapeCast_self, matmul]
  rw [addf_apply, broadcastTo_1b_ab_apply, Ideal.matmul_constant_zero_apply,
    ← Equiv.sum_comp (contrEquiv1 dot_S12000x9_S9x9_S12000x9_1_0_0_1_n_n 9 rfl rfl).symm]
  refine congrArg₂ (· + ·) (Finset.sum_congr rfl fun k _ => ?_) rfl
  have hk := contrEquiv1_symm_val dot_S12000x9_S9x9_S12000x9_1_0_0_1_n_n 9 rfl rfl k
  have el : dot_S12000x9_S9x9_S12000x9_1_0_0_1_n_n.lhsIdx (ix2 p q) ((contrEquiv1 dot_S12000x9_S9x9_S12000x9_1_0_0_1_n_n 9 rfl rfl).symm k) = ix2 p k :=
    funext fun a => Fin.ext (by
      match a with
      | ⟨0, _⟩ => exact klhs0 _ _
      | ⟨1, _⟩ => exact (klhs1 _ _).trans hk)
  have er : dot_S12000x9_S9x9_S12000x9_1_0_0_1_n_n.rhsIdx (ix2 p q) ((contrEquiv1 dot_S12000x9_S9x9_S12000x9_1_0_0_1_n_n 9 rfl rfl).symm k) = ix2 k q :=
    funext fun a => Fin.ext (by
      match a with
      | ⟨0, _⟩ => exact (krhs0 _ _).trans hk
      | ⟨1, _⟩ => exact krhs1 _ _)
  rw [truncf_apply, truncf_apply, el, er]

/-- The stage at row `r`, column `q` of the whole array: the same formula of the whole arrays. -/
theorem stage_apply (a : Cert.Net.FA Ideal Cert.ReferenceIdeal.S1500000x9) (w : Cert.Net.FA Ideal Cert.ReferenceIdeal.S9x9)
    (b : Cert.Net.FA Ideal Cert.ReferenceIdeal.S1x9) (r : Fin 1500000) (q : Fin 9) :
    Cert.Net.lin9 (F := Ideal) a w b (ix2 r q)
      = (∑ k : Fin 9, a (ix2 r k) * w (ix2 k q)) + b (ix2 (0 : Fin 1) q) := by
  unfold Cert.Net.lin9
  rw [addf_apply]
  rw [broadcastInDim_apply _ Cert.ReferenceIdeal.Facts₀.bcast_S1x9_S1500000x9_0_1 b (ix2 r q) (ix2 (0 : Fin 1) q) (fun a => match a with
      | ⟨0, _⟩ => by show 0 = if (1 : Nat) = 1 then 0 else r.val; rw [if_pos rfl]
      | ⟨1, _⟩ => by show q.val = if (9 : Nat) = 1 then 0 else q.val; rw [if_neg (by decide)])]
  simp only [Host.dotGeneral]
  rw [Ideal.dotGeneral_apply, ← Equiv.sum_comp (contrEquiv1 Cert.ReferenceIdeal.dot_S1500000x9_S9x9_S1500000x9_1_0_0_1_n_n 9 rfl rfl).symm]
  refine congrArg₂ (· + ·) (Finset.sum_congr rfl fun k _ => ?_) rfl
  have hk := contrEquiv1_symm_val Cert.ReferenceIdeal.dot_S1500000x9_S9x9_S1500000x9_1_0_0_1_n_n 9 rfl rfl k
  have el : Cert.ReferenceIdeal.dot_S1500000x9_S9x9_S1500000x9_1_0_0_1_n_n.lhsIdx (ix2 r q) ((contrEquiv1 Cert.ReferenceIdeal.dot_S1500000x9_S9x9_S1500000x9_1_0_0_1_n_n 9 rfl rfl).symm k) = ix2 r k :=
    funext fun a => Fin.ext (by
      match a with
      | ⟨0, _⟩ => exact rlhs0 _ _
      | ⟨1, _⟩ => exact (rlhs1 _ _).trans hk)
  have er : Cert.ReferenceIdeal.dot_S1500000x9_S9x9_S1500000x9_1_0_0_1_n_n.rhsIdx (ix2 r q) ((contrEquiv1 Cert.ReferenceIdeal.dot_S1500000x9_S9x9_S1500000x9_1_0_0_1_n_n 9 rfl rfl).symm k) = ix2 k q :=
    funext fun a => Fin.ext (by
      match a with
      | ⟨0, _⟩ => exact (rrhs0 _ _).trans hk
      | ⟨1, _⟩ => exact rrhs1 _ _)
  rw [el, er]

/-! ## From the blocks to the array -/

/-- The zero offsets of a whole-block access. -/
private theorem hz : (![0, 0] : Fin 2 → Nat) = fun _ => 0 := funext fun a => by fin_cases a <;> rfl

/-- The index maps over the grid: point `t` reads row block `t` of the features and the whole of the weight
    and of the bias, and writes row block `t` of the result. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row `p` of the feature block at point `t` is row `12000 t + p` of the feature array. -/
theorem blk0_apply (t : Fin cfg3.N) (p : Fin 12000) (k : Fin 9) (hr : t.val * 12000 + p.val < 1500000) :
    iblk3 (F := Ideal) V c 0 t (ix2 p k) = V c main_v22 (ix2 (⟨t.val * 12000 + p.val, hr⟩ : Fin 1500000) k) := by
  obtain ⟨e00, e01, -⟩ := idx_facts t
  unfold iblk3
  rw [View.read_apply]
  show V c main_v22 (((cfg3.win 0).blk t).view.emb (ix2 p k)) = V c main_v22 _
  refine congrArg (V c main_v22) (funext fun a => Fin.ext ?_)
  match a with
  | ⟨0, _⟩ => show win3_0.index t (0 : Fin 2) * 12000 + 1 * p.val = t.val * 12000 + p.val; rw [e00]; omega
  | ⟨1, _⟩ => show win3_0.index t (1 : Fin 2) * 9 + 1 * k.val = k.val; rw [e01]; omega

/-- The weight block at every point is the weight array. -/
theorem blk1_apply (t : Fin cfg3.N) (k : Fin 9) (q : Fin 9) :
    iblk3 (F := Ideal) V c 1 t (ix2 k q) = V c main_v23 (ix2 k q) := by
  obtain ⟨-, -, e10, e11, -⟩ := idx_facts t
  unfold iblk3
  rw [View.read_apply]
  show V c main_v23 (((cfg3.win 1).blk t).view.emb (ix2 k q)) = V c main_v23 _
  refine congrArg (V c main_v23) (funext fun a => Fin.ext ?_)
  match a with
  | ⟨0, _⟩ => show win3_1.index t (0 : Fin 2) * 9 + 1 * k.val = k.val; rw [e10]; omega
  | ⟨1, _⟩ => show win3_1.index t (1 : Fin 2) * 9 + 1 * q.val = q.val; rw [e11]; omega

/-- The bias block at every point is the bias row. -/
theorem blk2_apply (t : Fin cfg3.N) (q : Fin 9) :
    iblk3 (F := Ideal) V c 2 t (ix2 (0 : Fin 1) q) = V c main_v24 (ix2 (0 : Fin 1) q) := by
  obtain ⟨-, -, -, -, e20, e21, -⟩ := idx_facts t
  unfold iblk3
  rw [View.read_apply]
  show V c main_v24 (((cfg3.win 2).blk t).view.emb (ix2 (0 : Fin 1) q)) = V c main_v24 _
  refine congrArg (V c main_v24) (funext fun a => Fin.ext ?_)
  match a with
  | ⟨0, _⟩ => show win3_2.index t (0 : Fin 2) * 1 + 1 * 0 = 0; rw [e20]
  | ⟨1, _⟩ => show win3_2.index t (1 : Fin 2) * 9 + 1 * q.val = q.val; rw [e21]; omega

/-- What point `t` writes back is row block `t` of the stage applied to the arrays the region finds. -/
theorem flushed_eq (t : Fin cfg3.N) :
    (dat3 (F := Ideal) V c).flushed 3 t = ((cfg3.win 3).blk t).view.read (Elt Ideal)
      (Cert.Net.lin9 (F := Ideal) (V c main_v22) (V c main_v23) (V c main_v24)) := by
  show (cfg3.win 3).cut (grid3.coords t) ((dat3 (F := Ideal) V c).after 3 t) = _
  rw [after3_3]
  unfold out3_3
  rw [View.canon_unit_zero hz]
  simp only [View.ld_unit_zero (S := S12000x9) hz, View.ld_unit_zero (S := S9x9) hz, View.ld_unit_zero (S := S1x9) hz]
  obtain ⟨-, -, -, -, -, -, e30, e31⟩ := idx_facts t
  funext j
  obtain ⟨p, q, rfl⟩ : ∃ (p : Fin 12000) (q : Fin 9), j = ix2 p q := ⟨j 0, j 1, eq_ix2 j⟩
  have hN : grid3.N = 125 := N_3
  have hr : t.val * 12000 + p.val < 1500000 := by
    have h1 : t.val < 125 := lt_of_lt_of_eq t.isLt hN
    have h2 : p.val < 12000 := p.isLt
    omega
  have he : ((cfg3.win 3).blk t).view.emb (ix2 p q) = ix2 (⟨t.val * 12000 + p.val, hr⟩ : Fin 1500000) q := by
    funext a; apply Fin.ext
    match a with
    | ⟨0, _⟩ => show win3_3.index t (0 : Fin 2) * 12000 + 1 * p.val = t.val * 12000 + p.val; rw [e30]; omega
    | ⟨1, _⟩ => show win3_3.index t (1 : Fin 2) * 9 + 1 * q.val = q.val; rw [e31]; omega
  rw [View.read_apply, he]
  refine (pay_apply (iblk3 (F := Ideal) V c 0 t) (iblk3 (F := Ideal) V c 1 t) (iblk3 (F := Ideal) V c 2 t) p q).trans
    (Eq.trans ?_ (stage_apply (V c main_v22) (V c main_v23) (V c main_v24) ⟨_, hr⟩ q).symm)
  exact congrArg₂ (· + ·)
    (Finset.sum_congr rfl fun k _ => congrArg₂ (· * ·) (blk0_apply V c t p k hr) (blk1_apply V c t k q))
    (blk2_apply V c t q)

/-- An index of the result array is in point `t`'s block iff each coordinate is in the block's range. -/
theorem mem_blk (t : Fin cfg3.N) (i : S1500000x9.Idx) :
    i ∈ ((cfg3.win 3).blk t).view.set ↔ ∀ a : Fin 2, win3_3.index t a * S12000x9.size a ≤ (i a).val
      ∧ (i a).val < win3_3.index t a * S12000x9.size a + S12000x9.size a := by
  show i ∈ ((View.whole main_v25).slice (win3_3.rect t)).set ↔ _
  rw [View.set_slice_whole, Rect.mem_set_unit]
  exact Iff.rfl

/-- Every entry of the result array is written: row `r` by point `r / 12000`. -/
theorem cover (i : S1500000x9.Idx) :
    ∃ t : Fin cfg3.N, (cfg3.win 3).flush t = true ∧ i ∈ ((cfg3.win 3).blk t).view.set := by
  have hi0 : (i 0).val < 1500000 := (i 0).isLt
  have hi1 : (i 1).val < 9 := (i 1).isLt
  have hN : grid3.N = 125 := N_3
  have ht : (i 0).val / 12000 < grid3.N := by rw [hN]; omega
  obtain ⟨-, -, -, -, -, -, e30, e31⟩ := idx_facts ⟨(i 0).val / 12000, ht⟩
  refine ⟨⟨(i 0).val / 12000, ht⟩, flush3_3 _, ?_⟩
  rw [mem_blk]
  intro a
  match a with
  | ⟨0, _⟩ =>
    show win3_3.index ⟨(i 0).val / 12000, ht⟩ (0 : Fin 2) * 12000 ≤ (i 0).val
      ∧ (i 0).val < win3_3.index ⟨(i 0).val / 12000, ht⟩ (0 : Fin 2) * 12000 + 12000
    rw [e30]; show (i 0).val / 12000 * 12000 ≤ (i 0).val ∧ (i 0).val < (i 0).val / 12000 * 12000 + 12000; omega
  | ⟨1, _⟩ =>
    show win3_3.index ⟨(i 0).val / 12000, ht⟩ (1 : Fin 2) * 9 ≤ (i 1).val
      ∧ (i 1).val < win3_3.index ⟨(i 0).val / 12000, ht⟩ (1 : Fin 2) * 9 + 9
    rw [e31]; omega

/-- The array the launch leaves is the linear map `a · wT + b`, nine features to nine, of the three arrays it finds:
    the node features, the transposed weight and the bias row. -/
theorem final : (dat3 (F := Ideal) V c).arrAt 3 cfg3.N = Cert.Net.lin9 (F := Ideal) (V c main_v22) (V c main_v23) (V c main_v24) :=
  (dat3 (F := Ideal) V c).arrAt_eq_of_cover 3 _ (fun t _ => flushed_eq V c t) (cover)

end Cert.KernelIdeal.Reg3
end
-- ==== Proof.Reg4.lean ====
/-
  Launch 4: the edge messages `hs * (ea · wT + b)`, tiled over the 12 000 000 edges in 1000 blocks of 12 000 rows.

  At grid point t the body reads rows 12000·t … 12000·t + 11999 of the gathered source rows `hs` and of the edge
  attributes `ea`, the whole transposed weight (2 × 9) and the bias row, and stores, at row p and column q of its block,
  `hs(12000·t + p, q)` times the sum over the two attributes k of `ea(12000·t + p, k) · wT(k, q)` plus `b(0, q)` (the
  product accumulated from zero, its operands narrowed to bf16 first: the identity on the extended reals). That is entry
  (12000·t + p, q) of the reference's stage — an entrywise product with a `dot_general` plus the bias row broadcast down
  the rows — of the same arrays: an output entry depends on its own edge only. The 1000 blocks tile the array, so the
  array the launch leaves is that stage.
-/
import proofs.«175860_j29935922053254_2_alg».proof.Proof.Gen.KernelIdeal.Frame
import proofs.«175860_j29935922053254_2_alg».proof.Proof.Gen.ReferenceIdeal
import proofs.«175860_j29935922053254_2_alg».proof.Proof.Spec
import Idealize.ShloMosaic.PureOps.Ideal.Laws
import Idealize.ShloMosaic.Lib.ValueIdx
import Idealize.ShloMosaic.Lib.Pipeline.Value
import Idealize.ShloMosaic.Lib.ValueLayout
noncomputable section
namespace Cert.KernelIdeal.Reg4
open Cert.KernelIdeal Cert.KernelIdeal.Gen Idealize.ShloMosaic Idealize.ShloMosaic.TcCoe Idealize.SL.Sem
variable (V : (c : Dev nD) → (b : Ref sig .tc) → Buf (Elt Ideal) ((c : Thread nD τ).loc b)) (c : Dev nD)

open Idealize.ShloMosaic.ValueIdx

/-! ## The body's arithmetic at one entry -/

/-- The left operand's row coordinate in the block product is the output's row. -/
theorem lhs_row (i : S12000x9.Idx) (z : dot_S12000x2_S2x9_S12000x9_1_0_0_1_n_n.contr.Idx) :
    (dot_S12000x2_S2x9_S12000x9_1_0_0_1_n_n.lhsIdx i z 0).val = (i 0).val := by
  unfold DotDims.lhsIdx
  rw [dif_neg (show ¬(0 : Fin S12000x2.rank) ∈ dot_S12000x2_S2x9_S12000x9_1_0_0_1_n_n.lhsBatch by decide),
    dif_pos (show (0 : Fin S12000x2.rank) ∈ dot_S12000x2_S2x9_S12000x9_1_0_0_1_n_n.lhsNonContracting by decide)]
  rfl

/-- The left operand's column coordinate is the summation index. -/
theorem lhs_col (i : S12000x9.Idx) (z : dot_S12000x2_S2x9_S12000x9_1_0_0_1_n_n.contr.Idx) :
    (dot_S12000x2_S2x9_S12000x9_1_0_0_1_n_n.lhsIdx i z 1).val = (z ⟨0, by decide⟩).val :=
  dot_S12000x2_S2x9_S12000x9_1_0_0_1_n_n.lhsIdx_val_of_single rfl i z

/-- The right operand's row coordinate is the summation index. -/
theorem rhs_row (i : S12000x9.Idx) (z : dot_S12000x2_S2x9_S12000x9_1_0_0_1_n_n.contr.Idx) :
    (dot_S12000x2_S2x9_S12000x9_1_0_0_1_n_n.rhsIdx i z 0).val = (z ⟨0, by decide⟩).val :=
  dot_S12000x2_S2x9_S12000x9_1_0_0_1_n_n.rhsIdx_val_of_single rfl i z

/-- The right operand's column coordinate is the output's column. -/
theorem rhs_col (i : S12000x9.Idx) (z : dot_S12000x2_S2x9_S12000x9_1_0_0_1_n_n.contr.Idx) :
    (dot_S12000x2_S2x9_S12000x9_1_0_0_1_n_n.rhsIdx i z 1).val = (i 1).val := by
  unfold DotDims.rhsIdx
  rw [dif_neg (show ¬(1 : Fin S2x9.rank) ∈ dot_S12000x2_S2x9_S12000x9_1_0_0_1_n_n.rhsBatch by decide),
    dif_pos (show (1 : Fin S2x9.rank) ∈ dot_S12000x2_S2x9_S12000x9_1_0_0_1_n_n.rhsNonContracting by decide)]
  rfl

/-- One entry of the block the body stores: the gathered row's entry times the entry of
    `ea · wT + b`, the product over the two edge attributes written as a sum. -/
theorem pay_apply (x0 : Vec Ideal S12000x9 .f32) (x1 : Vec Ideal S12000x2 .f32) (x2 : Vec Ideal S2x9 .f32)
    (x3 : Vec Ideal S1x9 .f32) (p : Fin 12000) (q : Fin 9) :
    k4_pay1 x0 x1 x2 x3 (ix2 p q)
      = x0 (ix2 p q) * ((∑ k : Fin 2, x1 (ix2 p k) * x2 (ix2 k q)) + x3 (ix2 (0 : Fin 1) q)) := by
  unfold k4_pay1
  rw [mulf_apply, addf_apply, shapeCast_self, shapeCast_self, shapeCast_self, broadcastTo_1b_ab_apply]
  simp only [matmul]
  rw [Ideal.matmul_constant_zero_apply, ← Equiv.sum_comp (contrEquiv1 dot_S12000x2_S2x9_S12000x9_1_0_0_1_n_n 2 rfl rfl).symm]
  refine congrArg (fun z => x0 (ix2 p q) * (z + x3 (ix2 (0 : Fin 1) q))) (Finset.sum_congr rfl fun k _ => ?_)
  have hk := contrEquiv1_symm_val dot_S12000x2_S2x9_S12000x9_1_0_0_1_n_n 2 rfl rfl k
  rw [truncf_apply, truncf_apply]
  have el : dot_S12000x2_S2x9_S12000x9_1_0_0_1_n_n.lhsIdx (ix2 p q) ((contrEquiv1 dot_S12000x2_S2x9_S12000x9_1_0_0_1_n_n 2 rfl rfl).symm k) = ix2 p k :=
    funext fun a => Fin.ext (by
      match a with
      | ⟨0, _⟩ => exact lhs_row _ _
      | ⟨1, _⟩ => exact (lhs_col _ _).trans hk)
  have er : dot_S12000x2_S2x9_S12000x9_1_0_0_1_n_n.rhsIdx (ix2 p q) ((contrEquiv1 dot_S12000x2_S2x9_S12000x9_1_0_0_1_n_n 2 rfl rfl).symm k) = ix2 k q :=
    funext fun a => Fin.ext (by
      match a with
      | ⟨0, _⟩ => exact (rhs_row _ _).trans hk
      | ⟨1, _⟩ => exact rhs_col _ _)
  rw [el, er]

/-! ## The stage at one entry of the whole array -/

/-- The left operand's row coordinate in the whole-array product is the output's row. -/
theorem net_lhs_row (i : S12000000x9.Idx) (z : Cert.ReferenceIdeal.dot_S12000000x2_S2x9_S12000000x9_1_0_0_1_n_n.contr.Idx) :
    (Cert.ReferenceIdeal.dot_S12000000x2_S2x9_S12000000x9_1_0_0_1_n_n.lhsIdx i z 0).val = (i 0).val := by
  unfold DotDims.lhsIdx
  rw [dif_neg (show ¬(0 : Fin S12000000x2.rank) ∈ Cert.ReferenceIdeal.dot_S12000000x2_S2x9_S12000000x9_1_0_0_1_n_n.lhsBatch by decide),
    dif_pos (show (0 : Fin S12000000x2.rank) ∈ Cert.ReferenceIdeal.dot_S12000000x2_S2x9_S12000000x9_1_0_0_1_n_n.lhsNonContracting by decide)]
  rfl

/-- The left operand's column coordinate is the summation index. -/
theorem net_lhs_col (i : S12000000x9.Idx) (z : Cert.ReferenceIdeal.dot_S12000000x2_S2x9_S12000000x9_1_0_0_1_n_n.contr.Idx) :
    (Cert.ReferenceIdeal.dot_S12000000x2_S2x9_S12000000x9_1_0_0_1_n_n.lhsIdx i z 1).val = (z ⟨0, by decide⟩).val :=
  Cert.ReferenceIdeal.dot_S12000000x2_S2x9_S12000000x9_1_0_0_1_n_n.lhsIdx_val_of_single rfl i z

/-- The right operand's row coordinate is the summation index. -/
theorem net_rhs_row (i : S12000000x9.Idx) (z : Cert.ReferenceIdeal.dot_S12000000x2_S2x9_S12000000x9_1_0_0_1_n_n.contr.Idx) :
    (Cert.ReferenceIdeal.dot_S12000000x2_S2x9_S12000000x9_1_0_0_1_n_n.rhsIdx i z 0).val = (z ⟨0, by decide⟩).val :=
  Cert.ReferenceIdeal.dot_S12000000x2_S2x9_S12000000x9_1_0_0_1_n_n.rhsIdx_val_of_single rfl i z

/-- The right operand's column coordinate is the output's column. -/
theorem net_rhs_col (i : S12000000x9.Idx) (z : Cert.ReferenceIdeal.dot_S12000000x2_S2x9_S12000000x9_1_0_0_1_n_n.contr.Idx) :
    (Cert.ReferenceIdeal.dot_S12000000x2_S2x9_S12000000x9_1_0_0_1_n_n.rhsIdx i z 1).val = (i 1).val := by
  unfold DotDims.rhsIdx
  rw [dif_neg (show ¬(1 : Fin S2x9.rank) ∈ Cert.ReferenceIdeal.dot_S12000000x2_S2x9_S12000000x9_1_0_0_1_n_n.rhsBatch by decide),
    dif_pos (show (1 : Fin S2x9.rank) ∈ Cert.ReferenceIdeal.dot_S12000000x2_S2x9_S12000000x9_1_0_0_1_n_n.rhsNonContracting by decide)]
  rfl

/-- One entry of the edge message over all edges: `hs r q * (Σ_k ea r k * wT k q + b 0 q)`. -/
theorem edge_apply (hs : Cert.Net.FA Ideal S12000000x9) (ea : Cert.Net.FA Ideal S12000000x2)
    (wT : Cert.Net.FA Ideal S2x9) (b : Cert.Net.FA Ideal S1x9) (r : Fin 12000000) (q : Fin 9) :
    Cert.Net.edge (F := Ideal) hs ea wT b (ix2 r q)
      = hs (ix2 r q) * ((∑ k : Fin 2, ea (ix2 r k) * wT (ix2 k q)) + b (ix2 (0 : Fin 1) q)) := by
  unfold Cert.Net.edge
  rw [mulf_apply, addf_apply]
  rw [broadcastInDim_apply _ Cert.ReferenceIdeal.Facts₀.bcast_S1x9_S12000000x9_0_1 b (ix2 r q) (ix2 (0 : Fin 1) q) (fun a => match a with
    | ⟨0, _⟩ => by show 0 = if (1 : Nat) = 1 then 0 else r.val; rw [if_pos rfl]
    | ⟨1, _⟩ => by show q.val = if (9 : Nat) = 1 then 0 else q.val; rw [if_neg (by decide)])]
  simp only [Host.dotGeneral]
  rw [Ideal.dotGeneral_apply, ← Equiv.sum_comp (contrEquiv1 Cert.ReferenceIdeal.dot_S12000000x2_S2x9_S12000000x9_1_0_0_1_n_n 2 rfl rfl).symm]
  refine congrArg (fun z => hs (ix2 r q) * (z + b (ix2 (0 : Fin 1) q))) (Finset.sum_congr rfl fun k _ => ?_)
  have hk := contrEquiv1_symm_val Cert.ReferenceIdeal.dot_S12000000x2_S2x9_S12000000x9_1_0_0_1_n_n 2 rfl rfl k
  have el : Cert.ReferenceIdeal.dot_S12000000x2_S2x9_S12000000x9_1_0_0_1_n_n.lhsIdx (ix2 r q) ((contrEquiv1 Cert.ReferenceIdeal.dot_S12000000x2_S2x9_S12000000x9_1_0_0_1_n_n 2 rfl rfl).symm k) = ix2 r k :=
    funext fun a => Fin.ext (by
      match a with
      | ⟨0, _⟩ => exact net_lhs_row _ _
      | ⟨1, _⟩ => exact (net_lhs_col _ _).trans hk)
  have er : Cert.ReferenceIdeal.dot_S12000000x2_S2x9_S12000000x9_1_0_0_1_n_n.rhsIdx (ix2 r q) ((contrEquiv1 Cert.ReferenceIdeal.dot_S12000000x2_S2x9_S12000000x9_1_0_0_1_n_n 2 rfl rfl).symm k) = ix2 k q :=
    funext fun a => Fin.ext (by
      match a with
      | ⟨0, _⟩ => exact (net_rhs_row _ _).trans hk
      | ⟨1, _⟩ => exact net_rhs_col _ _)
  rw [el, er]

/-! ## From blocks to the array -/

/-- The zero offsets of a whole-block load or store. -/
theorem hz : (![0, 0] : Fin 2 → Nat) = fun _ => 0 := funext fun a => by fin_cases a <;> rfl

/-- The index maps over the grid: at point `t` the gathered rows, the edge attributes and the
    messages are at block row `t`, block column 0; the weight and the bias at block (0, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- The block of gathered rows at point `t` is rows `12000 t, …, 12000 t + 11999` of the array. -/
theorem rows_apply (t : Fin cfg4.N) (p : Fin 12000) (q : Fin 9) (r : Fin 12000000)
    (hr : r.val = t.val * 12000 + p.val) :
    (iblk4 V c 0 t : Vec Ideal S12000x9 .f32) (ix2 p q)
      = (V c main_v32 : S12000000x9.Idx → Elt Ideal .f32) (ix2 r q) := by
  obtain ⟨e0, e1, -⟩ := idx_facts t
  unfold iblk4
  rw [View.read_apply]
  show V c main_v32 _ = V c main_v32 _
  congr 1
  funext a
  apply Fin.ext
  match a with
  | ⟨0, _⟩ => show win4_0.index t (0 : Fin 2) * 12000 + 1 * p.val = r.val; rw [e0, hr]; omega
  | ⟨1, _⟩ => show win4_0.index t (1 : Fin 2) * 9 + 1 * q.val = q.val; rw [e1]; omega

/-- The block of edge attributes at point `t` is the same rows of the attribute array. -/
theorem attrs_apply (t : Fin cfg4.N) (p : Fin 12000) (k : Fin 2) (r : Fin 12000000)
    (hr : r.val = t.val * 12000 + p.val) :
    (iblk4 V c 1 t : Vec Ideal S12000x2 .f32) (ix2 p k)
      = (V c main_arg2 : S12000000x2.Idx → Elt Ideal .f32) (ix2 r k) := by
  obtain ⟨-, -, e0, e1, -⟩ := idx_facts t
  unfold iblk4
  rw [View.read_apply]
  show V c main_arg2 _ = V c main_arg2 _
  congr 1
  funext a
  apply Fin.ext
  match a with
  | ⟨0, _⟩ => show win4_1.index t (0 : Fin 2) * 12000 + 1 * p.val = r.val; rw [e0, hr]; omega
  | ⟨1, _⟩ => show win4_1.index t (1 : Fin 2) * 2 + 1 * k.val = k.val; rw [e1]; omega

/-- The weight block at every point is the whole weight. -/
theorem weight_apply (t : Fin cfg4.N) (k : Fin 2) (q : Fin 9) :
    (iblk4 V c 2 t : Vec Ideal S2x9 .f32) (ix2 k q)
      = (V c main_v33 : S2x9.Idx → Elt Ideal .f32) (ix2 k q) := by
  obtain ⟨-, -, -, -, e0, e1, -⟩ := idx_facts t
  unfold iblk4
  rw [View.read_apply]
  show V c main_v33 _ = V c main_v33 _
  congr 1
  funext a
  apply Fin.ext
  match a with
  | ⟨0, _⟩ => show win4_2.index t (0 : Fin 2) * 2 + 1 * k.val = k.val; rw [e0]; omega
  | ⟨1, _⟩ => show win4_2.index t (1 : Fin 2) * 9 + 1 * q.val = q.val; rw [e1]; omega

/-- The bias block at every point is the whole bias row. -/
theorem bias_apply (t : Fin cfg4.N) (z : Fin 1) (q : Fin 9) :
    (iblk4 V c 3 t : Vec Ideal S1x9 .f32) (ix2 z q)
      = (V c main_v34 : S1x9.Idx → Elt Ideal .f32) (ix2 z q) := by
  obtain ⟨-, -, -, -, -, -, e0, e1, -⟩ := idx_facts t
  unfold iblk4
  rw [View.read_apply]
  show V c main_v34 _ = V c main_v34 _
  congr 1
  funext a
  apply Fin.ext
  match a with
  | ⟨0, _⟩ => show win4_3.index t (0 : Fin 2) * 1 + 1 * z.val = z.val; rw [e0]; omega
  | ⟨1, _⟩ => show win4_3.index t (1 : Fin 2) * 9 + 1 * q.val = q.val; rw [e1]; omega

/-- What grid point `t` writes back is block `t` of the edge message of the arrays as the region
    finds them. -/
theorem flushed_eq (t : Fin cfg4.N) :
    (dat4 (F := Ideal) V c).flushed 4 t
      = ((cfg4.win 4).blk t).view.read (Elt Ideal) (Cert.Net.edge (F := Ideal) (V c main_v32) (V c main_arg2) (V c main_v33) (V c main_v34)) := by
  show (cfg4.win 4).cut (grid4.coords t) ((dat4 V c).after 4 t) = _
  rw [after4_4]
  unfold out4_4
  rw [View.canon_unit_zero hz]
  simp only [View.ld_unit_zero (S := S12000x9) hz, View.ld_unit_zero (S := S12000x2) hz,
    View.ld_unit_zero (S := S2x9) hz, View.ld_unit_zero (S := S1x9) hz]
  refine funext fun (j : S12000x9.Idx) => ?_
  obtain ⟨p, q, rfl⟩ : ∃ (p : Fin 12000) (q : Fin 9), j = ix2 p q := ⟨j 0, j 1, eq_ix2 j⟩
  obtain ⟨-, -, -, -, -, -, -, -, e0, e1⟩ := idx_facts t
  have hN : cfg4.N = 1000 := N_4
  have ht : t.val < 1000 := hN ▸ t.isLt
  have hp : p.val < 12000 := p.isLt
  obtain ⟨r, hr⟩ : ∃ r : Fin 12000000, r.val = t.val * 12000 + p.val := ⟨⟨t.val * 12000 + p.val, by omega⟩, rfl⟩
  show k4_pay1 (iblk4 V c 0 t) (iblk4 V c 1 t) (iblk4 V c 2 t) (iblk4 V c 3 t) (ix2 p q)
      = Cert.Net.edge (F := Ideal) (V c main_v32) (V c main_arg2) (V c main_v33) (V c main_v34)
          (((cfg4.win 4).blk t).view.emb (ix2 p q))
  have hemb : (((cfg4.win 4).blk t).view.emb (ix2 p q) : S12000000x9.Idx) = ix2 r q := by
    funext a
    apply Fin.ext
    match a with
    | ⟨0, _⟩ => show win4_4.index t (0 : Fin 2) * 12000 + 1 * p.val = r.val; rw [e0, hr]; omega
    | ⟨1, _⟩ => show win4_4.index t (1 : Fin 2) * 9 + 1 * q.val = q.val; rw [e1]; omega
  rw [hemb, edge_apply]
  refine (pay_apply _ _ _ _ p q).trans ?_
  simp only [rows_apply V c t p q r hr, bias_apply V c t 0 q, attrs_apply V c t p _ r hr,
    weight_apply V c t _ q]

/-- An index of the message array lies in point `t`'s block iff each coordinate lies in the block's
    range on its axis. -/
theorem mem_blk (t : Fin cfg4.N) (i : S12000000x9.Idx) :
    i ∈ ((cfg4.win 4).blk t).view.set ↔ ∀ a : Fin 2, win4_4.index t a * S12000x9.size a ≤ (i a).val
      ∧ (i a).val < win4_4.index t a * S12000x9.size a + S12000x9.size a := by
  show i ∈ ((View.whole main_v35).slice (win4_4.rect t)).set ↔ _
  rw [View.set_slice_whole, Rect.mem_set_unit]
  exact Iff.rfl

/-- The blocks cover the array: edge `e` lies in the block of point `e / 12000`, and every column
    in the one column block. -/
theorem cover (i : S12000000x9.Idx) :
    ∃ t : Fin cfg4.N, (cfg4.win 4).flush t = true ∧ i ∈ ((cfg4.win 4).blk t).view.set := by
  have hN : cfg4.N = 1000 := N_4
  have hi0 : (i 0).val < 12000000 := (i 0).isLt
  have hi1 : (i 1).val < 9 := (i 1).isLt
  obtain ⟨t, ht⟩ : ∃ t : Fin cfg4.N, t.val = (i 0).val / 12000 :=
    ⟨⟨(i 0).val / 12000, by rw [hN]; omega⟩, rfl⟩
  obtain ⟨-, -, -, -, -, -, -, -, e0, e1⟩ := idx_facts t
  refine ⟨t, flush4_4 t, ?_⟩
  rw [mem_blk]
  intro a
  match a with
  | ⟨0, _⟩ =>
    show win4_4.index t (0 : Fin 2) * 12000 ≤ (i 0).val
      ∧ (i 0).val < win4_4.index t (0 : Fin 2) * 12000 + 12000
    rw [e0, ht]; omega
  | ⟨1, _⟩ =>
    show win4_4.index t (1 : Fin 2) * 9 ≤ (i 1).val ∧ (i 1).val < win4_4.index t (1 : Fin 2) * 9 + 9
    rw [e1]; omega

/-- The array the launch leaves is the edge message `hs * (ea · wT + b)`, entrywise, of the four
    input arrays as the region finds them, whatever those are. -/
theorem final : (dat4 (F := Ideal) V c).arrAt 4 cfg4.N = Cert.Net.edge (F := Ideal) (V c main_v32) (V c main_arg2) (V c main_v33) (V c main_v34) :=
  (dat4 (F := Ideal) V c).arrAt_eq_of_cover 4 _ (fun t _ => flushed_eq V c t) cover

end Cert.KernelIdeal.Reg4
end
-- ==== Proof.Reg5.lean ====
/-
  Launch 5: the output map with rectifier, `max (a · wT + b) 0` (nine features to nine), tiled over the 1 500 000 nodes
  in 125 blocks of 12 000 rows.

  At grid point t the body reads rows 12000·t … 12000·t + 11999 of the aggregated messages `a`, the whole transposed
  weight and the bias row, and stores, at row p and column q of its block, the larger of 0 and the sum over the nine
  features k of `a(12000·t + p, k) · wT(k, q)` plus `b(0, q)` (a matrix product accumulated from zero, its operands
  narrowed to bf16 first: the identity on the extended reals). That is entry (12000·t + p, q) of the reference's stage —
  a `dot_general`, the bias row broadcast down the rows, and a maximum with the zero array — of the same arrays: an
  output entry depends on its own row only. The 125 blocks tile the array, so the array the launch leaves is that stage.
-/
import proofs.«175860_j29935922053254_2_alg».proof.Proof.Gen.KernelIdeal.Frame
import proofs.«175860_j29935922053254_2_alg».proof.Proof.Gen.ReferenceIdeal
import proofs.«175860_j29935922053254_2_alg».proof.Proof.Spec
import Idealize.ShloMosaic.PureOps.Ideal.Laws
import Idealize.ShloMosaic.Lib.ValueIdx
import Idealize.ShloMosaic.Lib.Pipeline.Value
import Idealize.ShloMosaic.Lib.ValueLayout
noncomputable section
namespace Cert.KernelIdeal.Reg5
open Cert.KernelIdeal Cert.KernelIdeal.Gen Idealize.ShloMosaic Idealize.ShloMosaic.TcCoe Idealize.SL.Sem
variable (V : (c : Dev nD) → (b : Ref sig .tc) → Buf (Elt Ideal) ((c : Thread nD τ).loc b)) (c : Dev nD)

open ValueIdx

/-! ## The two dot products' operand indices -/

/-- The block product's left operand is read at the output's row, -/
private theorem klhs0 (i : S12000x9.Idx) (u : dot_S12000x9_S9x9_S12000x9_1_0_0_1_n_n.contr.Idx) : (dot_S12000x9_S9x9_S12000x9_1_0_0_1_n_n.lhsIdx i u 0).val = (i 0).val := by
  unfold DotDims.lhsIdx
  rw [dif_neg (show ¬(0 : Fin S12000x9.rank) ∈ dot_S12000x9_S9x9_S12000x9_1_0_0_1_n_n.lhsBatch by decide),
    dif_pos (show (0 : Fin S12000x9.rank) ∈ dot_S12000x9_S9x9_S12000x9_1_0_0_1_n_n.lhsNonContracting by decide)]
  rfl
/-- and at the contraction index as its column; -/
private theorem klhs1 (i : S12000x9.Idx) (u : dot_S12000x9_S9x9_S12000x9_1_0_0_1_n_n.contr.Idx) : (dot_S12000x9_S9x9_S12000x9_1_0_0_1_n_n.lhsIdx i u 1).val = (u ⟨0, by decide⟩).val :=
  dot_S12000x9_S9x9_S12000x9_1_0_0_1_n_n.lhsIdx_val_of_single rfl i u
/-- its right operand at the contraction index as its row, -/
private theorem krhs0 (i : S12000x9.Idx) (u : dot_S12000x9_S9x9_S12000x9_1_0_0_1_n_n.contr.Idx) : (dot_S12000x9_S9x9_S12000x9_1_0_0_1_n_n.rhsIdx i u 0).val = (u ⟨0, by decide⟩).val :=
  dot_S12000x9_S9x9_S12000x9_1_0_0_1_n_n.rhsIdx_val_of_single rfl i u
/-- and at the output's column. -/
private theorem krhs1 (i : S12000x9.Idx) (u : dot_S12000x9_S9x9_S12000x9_1_0_0_1_n_n.contr.Idx) : (dot_S12000x9_S9x9_S12000x9_1_0_0_1_n_n.rhsIdx i u 1).val = (i 1).val := by
  unfold DotDims.rhsIdx
  rw [dif_neg (show ¬(1 : Fin S9x9.rank) ∈ dot_S12000x9_S9x9_S12000x9_1_0_0_1_n_n.rhsBatch by decide),
    dif_pos (show (1 : Fin S9x9.rank) ∈ dot_S12000x9_S9x9_S12000x9_1_0_0_1_n_n.rhsNonContracting by decide)]
  rfl

/-- The whole-array product's left operand is read at the output's row, -/
private theorem rlhs0 (i : Cert.ReferenceIdeal.S1500000x9.Idx) (u : Cert.ReferenceIdeal.dot_S1500000x9_S9x9_S1500000x9_1_0_0_1_n_n.contr.Idx) :
    (Cert.ReferenceIdeal.dot_S1500000x9_S9x9_S1500000x9_1_0_0_1_n_n.lhsIdx i u 0).val = (i 0).val := by
  unfold DotDims.lhsIdx
  rw [dif_neg (show ¬(0 : Fin Cert.ReferenceIdeal.S1500000x9.rank) ∈ Cert.ReferenceIdeal.dot_S1500000x9_S9x9_S1500000x9_1_0_0_1_n_n.lhsBatch by decide),
    dif_pos (show (0 : Fin Cert.ReferenceIdeal.S1500000x9.rank) ∈ Cert.ReferenceIdeal.dot_S1500000x9_S9x9_S1500000x9_1_0_0_1_n_n.lhsNonContracting by decide)]
  rfl
/-- and at the contraction index as its column; -/
private theorem rlhs1 (i : Cert.ReferenceIdeal.S1500000x9.Idx) (u : Cert.ReferenceIdeal.dot_S1500000x9_S9x9_S1500000x9_1_0_0_1_n_n.contr.Idx) :
    (Cert.ReferenceIdeal.dot_S1500000x9_S9x9_S1500000x9_1_0_0_1_n_n.lhsIdx i u 1).val = (u ⟨0, by decide⟩).val :=
  Cert.ReferenceIdeal.dot_S1500000x9_S9x9_S1500000x9_1_0_0_1_n_n.lhsIdx_val_of_single rfl i u
/-- its right operand at the contraction index as its row, -/
private theorem rrhs0 (i : Cert.ReferenceIdeal.S1500000x9.Idx) (u : Cert.ReferenceIdeal.dot_S1500000x9_S9x9_S1500000x9_1_0_0_1_n_n.contr.Idx) :
    (Cert.ReferenceIdeal.dot_S1500000x9_S9x9_S1500000x9_1_0_0_1_n_n.rhsIdx i u 0).val = (u ⟨0, by decide⟩).val :=
  Cert.ReferenceIdeal.dot_S1500000x9_S9x9_S1500000x9_1_0_0_1_n_n.rhsIdx_val_of_single rfl i u
/-- and at the output's column. -/
private theorem rrhs1 (i : Cert.ReferenceIdeal.S1500000x9.Idx) (u : Cert.ReferenceIdeal.dot_S1500000x9_S9x9_S1500000x9_1_0_0_1_n_n.contr.Idx) :
    (Cert.ReferenceIdeal.dot_S1500000x9_S9x9_S1500000x9_1_0_0_1_n_n.rhsIdx i u 1).val = (i 1).val := by
  unfold DotDims.rhsIdx
  rw [dif_neg (show ¬(1 : Fin Cert.ReferenceIdeal.S9x9.rank) ∈ Cert.ReferenceIdeal.dot_S1500000x9_S9x9_S1500000x9_1_0_0_1_n_n.rhsBatch by decide),
    dif_pos (show (1 : Fin Cert.ReferenceIdeal.S9x9.rank) ∈ Cert.ReferenceIdeal.dot_S1500000x9_S9x9_S1500000x9_1_0_0_1_n_n.rhsNonContracting by decide)]
  rfl

/-! ## The body at an entry, the stage at an entry -/

/-- The body's result at row `p`, column `q` of a block: the row of the block times the column of the weight,
    plus the bias entry, rectified. -/
theorem pay_apply (x0 : Vec Ideal S12000x9 .f32) (x1 : Vec Ideal S9x9 .f32) (x2 : Vec Ideal S1x9 .f32)
    (p : Fin 12000) (q : Fin 9) :
    k5_pay1 (F := Ideal) x0 x1 x2 (ix2 p q)
      = max ((∑ k : Fin 9, x0 (ix2 p k) * x1 (ix2 k q)) + x2 (ix2 (0 : Fin 1) q)) 0 := by
  unfold k5_pay1
  simp only [shapeCast_self, matmul]
  rw [maximumf_apply, addf_apply, broadcast_apply, broadcastTo_1b_ab_apply, Ideal.matmul_constant_zero_apply,
    ← Equiv.sum_comp (contrEquiv1 dot_S12000x9_S9x9_S12000x9_1_0_0_1_n_n 9 rfl rfl).symm]
  refine congrArg₂ max (congrArg₂ (· + ·) (Finset.sum_congr rfl fun k _ => ?_) rfl) Ideal.ofBits_zero_f32
  have hk := contrEquiv1_symm_val dot_S12000x9_S9x9_S12000x9_1_0_0_1_n_n 9 rfl rfl k
  have el : dot_S12000x9_S9x9_S12000x9_1_0_0_1_n_n.lhsIdx (ix2 p q) ((contrEquiv1 dot_S12000x9_S9x9_S12000x9_1_0_0_1_n_n 9 rfl rfl).symm k) = ix2 p k :=
    funext fun a => Fin.ext (by
      match a with
      | ⟨0, _⟩ => exact klhs0 _ _
      | ⟨1, _⟩ => exact (klhs1 _ _).trans hk)
  have er : dot_S12000x9_S9x9_S12000x9_1_0_0_1_n_n.rhsIdx (ix2 p q) ((contrEquiv1 dot_S12000x9_S9x9_S12000x9_1_0_0_1_n_n 9 rfl rfl).symm k) = ix2 k q :=
    funext fun a => Fin.ext (by
      match a with
      | ⟨0, _⟩ => exact (krhs0 _ _).trans hk
      | ⟨1, _⟩ => exact krhs1 _ _)
  rw [truncf_apply, truncf_apply, el, er]

/-- The stage at row `r`, column `q` of the whole array: the same formula of the whole arrays. -/
theorem stage_apply (a : Cert.Net.FA Ideal Cert.ReferenceIdeal.S1500000x9) (w : Cert.Net.FA Ideal Cert.ReferenceIdeal.S9x9)
    (b : Cert.Net.FA Ideal Cert.ReferenceIdeal.S1x9) (r : Fin 1500000) (q : Fin 9) :
    Cert.Net.relu9 (F := Ideal) (Cert.Net.lin9 (F := Ideal) a w b) (ix2 r q)
      = max ((∑ k : Fin 9, a (ix2 r k) * w (ix2 k q)) + b (ix2 (0 : Fin 1) q)) 0 := by
  unfold Cert.Net.relu9 Cert.Net.lin9
  rw [maximumf_apply, addf_apply]
  rw [broadcastInDim_apply _ Cert.ReferenceIdeal.Facts₀.bcast_S1x9_S1500000x9_0_1 b (ix2 r q) (ix2 (0 : Fin 1) q) (fun a => match a with
      | ⟨0, _⟩ => by show 0 = if (1 : Nat) = 1 then 0 else r.val; rw [if_pos rfl]
      | ⟨1, _⟩ => by show q.val = if (9 : Nat) = 1 then 0 else q.val; rw [if_neg (by decide)]),
    broadcastInDim_apply _ Cert.ReferenceIdeal.Facts₀.bcast_S_S1500000x9 (constant (F := Ideal) Cert.ReferenceIdeal.S_ .f32 0x00000000#32) (ix2 r q) ix0 (fun a => a.elim0),
    constant_apply]
  simp only [Host.dotGeneral]
  rw [Ideal.dotGeneral_apply, ← Equiv.sum_comp (contrEquiv1 Cert.ReferenceIdeal.dot_S1500000x9_S9x9_S1500000x9_1_0_0_1_n_n 9 rfl rfl).symm]
  refine congrArg₂ max (congrArg₂ (· + ·) (Finset.sum_congr rfl fun k _ => ?_) rfl) Ideal.ofBits_zero_f32
  have hk := contrEquiv1_symm_val Cert.ReferenceIdeal.dot_S1500000x9_S9x9_S1500000x9_1_0_0_1_n_n 9 rfl rfl k
  have el : Cert.ReferenceIdeal.dot_S1500000x9_S9x9_S1500000x9_1_0_0_1_n_n.lhsIdx (ix2 r q) ((contrEquiv1 Cert.ReferenceIdeal.dot_S1500000x9_S9x9_S1500000x9_1_0_0_1_n_n 9 rfl rfl).symm k) = ix2 r k :=
    funext fun a => Fin.ext (by
      match a with
      | ⟨0, _⟩ => exact rlhs0 _ _
      | ⟨1, _⟩ => exact (rlhs1 _ _).trans hk)
  have er : Cert.ReferenceIdeal.dot_S1500000x9_S9x9_S1500000x9_1_0_0_1_n_n.rhsIdx (ix2 r q) ((contrEquiv1 Cert.ReferenceIdeal.dot_S1500000x9_S9x9_S1500000x9_1_0_0_1_n_n 9 rfl rfl).symm k) = ix2 k q :=
    funext fun a => Fin.ext (by
      match a with
      | ⟨0, _⟩ => exact (rrhs0 _ _).trans hk
      | ⟨1, _⟩ => exact rrhs1 _ _)
  rw [el, er]

/-! ## From the blocks to the array -/

/-- The zero offsets of a whole-block access. -/
private theorem hz : (![0, 0] : Fin 2 → Nat) = fun _ => 0 := funext fun a => by fin_cases a <;> rfl

/-- The index maps over the grid: point `t` reads row block `t` of the features and the whole of the weight
    and of the bias, and writes row block `t` of the result. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Row `p` of the feature block at point `t` is row `12000 t + p` of the feature array. -/
theorem blk0_apply (t : Fin cfg5.N) (p : Fin 12000) (k : Fin 9) (hr : t.val * 12000 + p.val < 1500000) :
    iblk5 (F := Ideal) V c 0 t (ix2 p k) = V c main_v38 (ix2 (⟨t.val * 12000 + p.val, hr⟩ : Fin 1500000) k) := by
  obtain ⟨e00, e01, -⟩ := idx_facts t
  unfold iblk5
  rw [View.read_apply]
  show V c main_v38 (((cfg5.win 0).blk t).view.emb (ix2 p k)) = V c main_v38 _
  refine congrArg (V c main_v38) (funext fun a => Fin.ext ?_)
  match a with
  | ⟨0, _⟩ => show win5_0.index t (0 : Fin 2) * 12000 + 1 * p.val = t.val * 12000 + p.val; rw [e00]; omega
  | ⟨1, _⟩ => show win5_0.index t (1 : Fin 2) * 9 + 1 * k.val = k.val; rw [e01]; omega

/-- The weight block at every point is the weight array. -/
theorem blk1_apply (t : Fin cfg5.N) (k : Fin 9) (q : Fin 9) :
    iblk5 (F := Ideal) V c 1 t (ix2 k q) = V c main_v39 (ix2 k q) := by
  obtain ⟨-, -, e10, e11, -⟩ := idx_facts t
  unfold iblk5
  rw [View.read_apply]
  show V c main_v39 (((cfg5.win 1).blk t).view.emb (ix2 k q)) = V c main_v39 _
  refine congrArg (V c main_v39) (funext fun a => Fin.ext ?_)
  match a with
  | ⟨0, _⟩ => show win5_1.index t (0 : Fin 2) * 9 + 1 * k.val = k.val; rw [e10]; omega
  | ⟨1, _⟩ => show win5_1.index t (1 : Fin 2) * 9 + 1 * q.val = q.val; rw [e11]; omega

/-- The bias block at every point is the bias row. -/
theorem blk2_apply (t : Fin cfg5.N) (q : Fin 9) :
    iblk5 (F := Ideal) V c 2 t (ix2 (0 : Fin 1) q) = V c main_v40 (ix2 (0 : Fin 1) q) := by
  obtain ⟨-, -, -, -, e20, e21, -⟩ := idx_facts t
  unfold iblk5
  rw [View.read_apply]
  show V c main_v40 (((cfg5.win 2).blk t).view.emb (ix2 (0 : Fin 1) q)) = V c main_v40 _
  refine congrArg (V c main_v40) (funext fun a => Fin.ext ?_)
  match a with
  | ⟨0, _⟩ => show win5_2.index t (0 : Fin 2) * 1 + 1 * 0 = 0; rw [e20]
  | ⟨1, _⟩ => show win5_2.index t (1 : Fin 2) * 9 + 1 * q.val = q.val; rw [e21]; omega

/-- What point `t` writes back is row block `t` of the stage applied to the arrays the region finds. -/
theorem flushed_eq (t : Fin cfg5.N) :
    (dat5 (F := Ideal) V c).flushed 3 t = ((cfg5.win 3).blk t).view.read (Elt Ideal)
      (Cert.Net.relu9 (F := Ideal) (Cert.Net.lin9 (F := Ideal) (V c main_v38) (V c main_v39) (V c main_v40))) := by
  show (cfg5.win 3).cut (grid5.coords t) ((dat5 (F := Ideal) V c).after 3 t) = _
  rw [after5_3]
  unfold out5_3
  rw [View.canon_unit_zero hz]
  simp only [View.ld_unit_zero (S := S12000x9) hz, View.ld_unit_zero (S := S9x9) hz, View.ld_unit_zero (S := S1x9) hz]
  obtain ⟨-, -, -, -, -, -, e30, e31⟩ := idx_facts t
  funext j
  obtain ⟨p, q, rfl⟩ : ∃ (p : Fin 12000) (q : Fin 9), j = ix2 p q := ⟨j 0, j 1, eq_ix2 j⟩
  have hN : grid5.N = 125 := N_5
  have hr : t.val * 12000 + p.val < 1500000 := by
    have h1 : t.val < 125 := lt_of_lt_of_eq t.isLt hN
    have h2 : p.val < 12000 := p.isLt
    omega
  have he : ((cfg5.win 3).blk t).view.emb (ix2 p q) = ix2 (⟨t.val * 12000 + p.val, hr⟩ : Fin 1500000) q := by
    funext a; apply Fin.ext
    match a with
    | ⟨0, _⟩ => show win5_3.index t (0 : Fin 2) * 12000 + 1 * p.val = t.val * 12000 + p.val; rw [e30]; omega
    | ⟨1, _⟩ => show win5_3.index t (1 : Fin 2) * 9 + 1 * q.val = q.val; rw [e31]; omega
  rw [View.read_apply, he]
  refine (pay_apply (iblk5 (F := Ideal) V c 0 t) (iblk5 (F := Ideal) V c 1 t) (iblk5 (F := Ideal) V c 2 t) p q).trans
    (Eq.trans ?_ (stage_apply (V c main_v38) (V c main_v39) (V c main_v40) ⟨_, hr⟩ q).symm)
  exact congrArg₂ max (congrArg₂ (· + ·)
    (Finset.sum_congr rfl fun k _ => congrArg₂ (· * ·) (blk0_apply V c t p k hr) (blk1_apply V c t k q))
    (blk2_apply V c t q)) rfl

/-- An index of the result array is in point `t`'s block iff each coordinate is in the block's range. -/
theorem mem_blk (t : Fin cfg5.N) (i : S1500000x9.Idx) :
    i ∈ ((cfg5.win 3).blk t).view.set ↔ ∀ a : Fin 2, win5_3.index t a * S12000x9.size a ≤ (i a).val
      ∧ (i a).val < win5_3.index t a * S12000x9.size a + S12000x9.size a := by
  show i ∈ ((View.whole main_v41).slice (win5_3.rect t)).set ↔ _
  rw [View.set_slice_whole, Rect.mem_set_unit]
  exact Iff.rfl

/-- Every entry of the result array is written: row `r` by point `r / 12000`. -/
theorem cover (i : S1500000x9.Idx) :
    ∃ t : Fin cfg5.N, (cfg5.win 3).flush t = true ∧ i ∈ ((cfg5.win 3).blk t).view.set := by
  have hi0 : (i 0).val < 1500000 := (i 0).isLt
  have hi1 : (i 1).val < 9 := (i 1).isLt
  have hN : grid5.N = 125 := N_5
  have ht : (i 0).val / 12000 < grid5.N := by rw [hN]; omega
  obtain ⟨-, -, -, -, -, -, e30, e31⟩ := idx_facts ⟨(i 0).val / 12000, ht⟩
  refine ⟨⟨(i 0).val / 12000, ht⟩, flush5_3 _, ?_⟩
  rw [mem_blk]
  intro a
  match a with
  | ⟨0, _⟩ =>
    show win5_3.index ⟨(i 0).val / 12000, ht⟩ (0 : Fin 2) * 12000 ≤ (i 0).val
      ∧ (i 0).val < win5_3.index ⟨(i 0).val / 12000, ht⟩ (0 : Fin 2) * 12000 + 12000
    rw [e30]; show (i 0).val / 12000 * 12000 ≤ (i 0).val ∧ (i 0).val < (i 0).val / 12000 * 12000 + 12000; omega
  | ⟨1, _⟩ =>
    show win5_3.index ⟨(i 0).val / 12000, ht⟩ (1 : Fin 2) * 9 ≤ (i 1).val
      ∧ (i 1).val < win5_3.index ⟨(i 0).val / 12000, ht⟩ (1 : Fin 2) * 9 + 9
    rw [e31]; omega

/-- The array the launch leaves is the rectified output map `max (a · wT + b) 0` of the three arrays it finds: the aggregated features, the transposed weight and the bias row. -/
theorem final : (dat5 (F := Ideal) V c).arrAt 3 cfg5.N = Cert.Net.relu9 (F := Ideal) (Cert.Net.lin9 (F := Ideal) (V c main_v38) (V c main_v39) (V c main_v40)) :=
  (dat5 (F := Ideal) V c).arrAt_eq_of_cover 3 _ (fun t _ => flushed_eq V c t) (cover)

end Cert.KernelIdeal.Reg5
end
-- ==== Proof.Reg6.lean ====
/-
  Launch 6: the node map `h · wT + b` (nine features to nine), tiled over the 1 500 000 nodes in 125 blocks of
  12 000 rows.

  At grid point t the body reads rows 12000·t … 12000·t + 11999 of the node array, the whole transposed weight and the
  bias row, and stores, at row p and column q of its block, the sum over the input features k of
  `h(12000·t + p, k) · wT(k, q)` (a matrix product accumulated from zero, its operands narrowed to bf16 first: the
  identity on the extended reals) plus `b(0, q)`. That is entry (12000·t + p, q) of the reference's stage — a
  `dot_general` plus the bias row broadcast down the rows — of the same arrays: an output entry depends on its own row
  only. The 125 blocks tile the array, so the array the launch leaves is that stage.
-/
import proofs.«175860_j29935922053254_2_alg».proof.Proof.Gen.KernelIdeal.Frame
import proofs.«175860_j29935922053254_2_alg».proof.Proof.Gen.ReferenceIdeal
import proofs.«175860_j29935922053254_2_alg».proof.Proof.Spec
import Idealize.ShloMosaic.PureOps.Ideal.Laws
import Idealize.ShloMosaic.Lib.ValueIdx
import Idealize.ShloMosaic.Lib.Pipeline.Value
import Idealize.ShloMosaic.Lib.ValueLayout
noncomputable section
namespace Cert.KernelIdeal.Reg6
open Cert.KernelIdeal Cert.KernelIdeal.Gen Idealize.ShloMosaic Idealize.ShloMosaic.TcCoe Idealize.SL.Sem
variable (V : (c : Dev nD) → (b : Ref sig .tc) → Buf (Elt Ideal) ((c : Thread nD τ).loc b)) (c : Dev nD)

open ValueIdx

/-! ## The two dot products' operand indices -/

/-- The block product's left operand is read at the output's row, -/
private theorem klhs0 (i : S12000x9.Idx) (u : dot_S12000x9_S9x9_S12000x9_1_0_0_1_n_n.contr.Idx) : (dot_S12000x9_S9x9_S12000x9_1_0_0_1_n_n.lhsIdx i u 0).val = (i 0).val := by
  unfold DotDims.lhsIdx
  rw [dif_neg (show ¬(0 : Fin S12000x9.rank) ∈ dot_S12000x9_S9x9_S12000x9_1_0_0_1_n_n.lhsBatch by decide),
    dif_pos (show (0 : Fin S12000x9.rank) ∈ dot_S12000x9_S9x9_S12000x9_1_0_0_1_n_n.lhsNonContracting by decide)]
  rfl
/-- and at the contraction index as its column; -/
private theorem klhs1 (i : S12000x9.Idx) (u : dot_S12000x9_S9x9_S12000x9_1_0_0_1_n_n.contr.Idx) : (dot_S12000x9_S9x9_S12000x9_1_0_0_1_n_n.lhsIdx i u 1).val = (u ⟨0, by decide⟩).val :=
  dot_S12000x9_S9x9_S12000x9_1_0_0_1_n_n.lhsIdx_val_of_single rfl i u
/-- its right operand at the contraction index as its row, -/
private theorem krhs0 (i : S12000x9.Idx) (u : dot_S12000x9_S9x9_S12000x9_1_0_0_1_n_n.contr.Idx) : (dot_S12000x9_S9x9_S12000x9_1_0_0_1_n_n.rhsIdx i u 0).val = (u ⟨0, by decide⟩).val :=
  dot_S12000x9_S9x9_S12000x9_1_0_0_1_n_n.rhsIdx_val_of_single rfl i u
/-- and at the output's column. -/
private theorem krhs1 (i : S12000x9.Idx) (u : dot_S12000x9_S9x9_S12000x9_1_0_0_1_n_n.contr.Idx) : (dot_S12000x9_S9x9_S12000x9_1_0_0_1_n_n.rhsIdx i u 1).val = (i 1).val := by
  unfold DotDims.rhsIdx
  rw [dif_neg (show ¬(1 : Fin S9x9.rank) ∈ dot_S12000x9_S9x9_S12000x9_1_0_0_1_n_n.rhsBatch by decide),
    dif_pos (show (1 : Fin S9x9.rank) ∈ dot_S12000x9_S9x9_S12000x9_1_0_0_1_n_n.rhsNonContracting by decide)]
  rfl

/-- The whole-array product's left operand is read at the output's row, -/
private theorem rlhs0 (i : Cert.ReferenceIdeal.S1500000x9.Idx) (u : Cert.ReferenceIdeal.dot_S1500000x9_S9x9_S1500000x9_1_0_0_1_n_n.contr.Idx) :
    (Cert.ReferenceIdeal.dot_S1500000x9_S9x9_S1500000x9_1_0_0_1_n_n.lhsIdx i u 0).val = (i 0).val := by
  unfold DotDims.lhsIdx
  rw [dif_neg (show ¬(0 : Fin Cert.ReferenceIdeal.S1500000x9.rank) ∈ Cert.ReferenceIdeal.dot_S1500000x9_S9x9_S1500000x9_1_0_0_1_n_n.lhsBatch by decide),
    dif_pos (show (0 : Fin Cert.ReferenceIdeal.S1500000x9.rank) ∈ Cert.ReferenceIdeal.dot_S1500000x9_S9x9_S1500000x9_1_0_0_1_n_n.lhsNonContracting by decide)]
  rfl
/-- and at the contraction index as its column; -/
private theorem rlhs1 (i : Cert.ReferenceIdeal.S1500000x9.Idx) (u : Cert.ReferenceIdeal.dot_S1500000x9_S9x9_S1500000x9_1_0_0_1_n_n.contr.Idx) :
    (Cert.ReferenceIdeal.dot_S1500000x9_S9x9_S1500000x9_1_0_0_1_n_n.lhsIdx i u 1).val = (u ⟨0, by decide⟩).val :=
  Cert.ReferenceIdeal.dot_S1500000x9_S9x9_S1500000x9_1_0_0_1_n_n.lhsIdx_val_of_single rfl i u
/-- its right operand at the contraction index as its row, -/
private theorem rrhs0 (i : Cert.ReferenceIdeal.S1500000x9.Idx) (u : Cert.ReferenceIdeal.dot_S1500000x9_S9x9_S1500000x9_1_0_0_1_n_n.contr.Idx) :
    (Cert.ReferenceIdeal.dot_S1500000x9_S9x9_S1500000x9_1_0_0_1_n_n.rhsIdx i u 0).val = (u ⟨0, by decide⟩).val :=
  Cert.ReferenceIdeal.dot_S1500000x9_S9x9_S1500000x9_1_0_0_1_n_n.rhsIdx_val_of_single rfl i u
/-- and at the output's column. -/
private theorem rrhs1 (i : Cert.ReferenceIdeal.S1500000x9.Idx) (u : Cert.ReferenceIdeal.dot_S1500000x9_S9x9_S1500000x9_1_0_0_1_n_n.contr.Idx) :
    (Cert.ReferenceIdeal.dot_S1500000x9_S9x9_S1500000x9_1_0_0_1_n_n.rhsIdx i u 1).val = (i 1).val := by
  unfold DotDims.rhsIdx
  rw [dif_neg (show ¬(1 : Fin Cert.ReferenceIdeal.S9x9.rank) ∈ Cert.ReferenceIdeal.dot_S1500000x9_S9x9_S1500000x9_1_0_0_1_n_n.rhsBatch by decide),
    dif_pos (show (1 : Fin Cert.ReferenceIdeal.S9x9.rank) ∈ Cert.ReferenceIdeal.dot_S1500000x9_S9x9_S1500000x9_1_0_0_1_n_n.rhsNonContracting by decide)]
  rfl

/-! ## The body at an entry, the stage at an entry -/

/-- The body's result at row `p`, column `q` of a block: the row of the block times the column of the weight,
    plus the bias entry. -/
theorem pay_apply (x0 : Vec Ideal S12000x9 .f32) (x1 : Vec Ideal S9x9 .f32) (x2 : Vec Ideal S1x9 .f32)
    (p : Fin 12000) (q : Fin 9) :
    k6_pay1 (F := Ideal) x0 x1 x2 (ix2 p q)
      = (∑ k : Fin 9, x0 (ix2 p k) * x1 (ix2 k q)) + x2 (ix2 (0 : Fin 1) q) := by
  unfold k6_pay1
  simp only [shapeCast_self, matmul]
  rw [addf_apply, broadcastTo_1b_ab_apply, Ideal.matmul_constant_zero_apply,
    ← Equiv.sum_comp (contrEquiv1 dot_S12000x9_S9x9_S12000x9_1_0_0_1_n_n 9 rfl rfl).symm]
  refine congrArg₂ (· + ·) (Finset.sum_congr rfl fun k _ => ?_) rfl
  have hk := contrEquiv1_symm_val dot_S12000x9_S9x9_S12000x9_1_0_0_1_n_n 9 rfl rfl k
  have el : dot_S12000x9_S9x9_S12000x9_1_0_0_1_n_n.lhsIdx (ix2 p q) ((contrEquiv1 dot_S12000x9_S9x9_S12000x9_1_0_0_1_n_n 9 rfl rfl).symm k) = ix2 p k :=
    funext fun a => Fin.ext (by
      match a with
      | ⟨0, _⟩ => exact klhs0 _ _
      | ⟨1, _⟩ => exact (klhs1 _ _).trans hk)
  have er : dot_S12000x9_S9x9_S12000x9_1_0_0_1_n_n.rhsIdx (ix2 p q) ((contrEquiv1 dot_S12000x9_S9x9_S12000x9_1_0_0_1_n_n 9 rfl rfl).symm k) = ix2 k q :=
    funext fun a => Fin.ext (by
      match a with
      | ⟨0, _⟩ => exact (krhs0 _ _).trans hk
      | ⟨1, _⟩ => exact krhs1 _ _)
  rw [truncf_apply, truncf_apply, el, er]

/-- The stage at row `r`, column `q` of the whole array: the same formula of the whole arrays. -/
theorem stage_apply (a : Cert.Net.FA Ideal Cert.ReferenceIdeal.S1500000x9) (w : Cert.Net.FA Ideal Cert.ReferenceIdeal.S9x9)
    (b : Cert.Net.FA Ideal Cert.ReferenceIdeal.S1x9) (r : Fin 1500000) (q : Fin 9) :
    Cert.Net.lin9 (F := Ideal) a w b (ix2 r q)
      = (∑ k : Fin 9, a (ix2 r k) * w (ix2 k q)) + b (ix2 (0 : Fin 1) q) := by
  unfold Cert.Net.lin9
  rw [addf_apply]
  rw [broadcastInDim_apply _ Cert.ReferenceIdeal.Facts₀.bcast_S1x9_S1500000x9_0_1 b (ix2 r q) (ix2 (0 : Fin 1) q) (fun a => match a with
      | ⟨0, _⟩ => by show 0 = if (1 : Nat) = 1 then 0 else r.val; rw [if_pos rfl]
      | ⟨1, _⟩ => by show q.val = if (9 : Nat) = 1 then 0 else q.val; rw [if_neg (by decide)])]
  simp only [Host.dotGeneral]
  rw [Ideal.dotGeneral_apply, ← Equiv.sum_comp (contrEquiv1 Cert.ReferenceIdeal.dot_S1500000x9_S9x9_S1500000x9_1_0_0_1_n_n 9 rfl rfl).symm]
  refine congrArg₂ (· + ·) (Finset.sum_congr rfl fun k _ => ?_) rfl
  have hk := contrEquiv1_symm_val Cert.ReferenceIdeal.dot_S1500000x9_S9x9_S1500000x9_1_0_0_1_n_n 9 rfl rfl k
  have el : Cert.ReferenceIdeal.dot_S1500000x9_S9x9_S1500000x9_1_0_0_1_n_n.lhsIdx (ix2 r q) ((contrEquiv1 Cert.ReferenceIdeal.dot_S1500000x9_S9x9_S1500000x9_1_0_0_1_n_n 9 rfl rfl).symm k) = ix2 r k :=
    funext fun a => Fin.ext (by
      match a with
      | ⟨0, _⟩ => exact rlhs0 _ _
      | ⟨1, _⟩ => exact (rlhs1 _ _).trans hk)
  have er : Cert.ReferenceIdeal.dot_S1500000x9_S9x9_S1500000x9_1_0_0_1_n_n.rhsIdx (ix2 r q) ((contrEquiv1 Cert.ReferenceIdeal.dot_S1500000x9_S9x9_S1500000x9_1_0_0_1_n_n 9 rfl rfl).symm k) = ix2 k q :=
    funext fun a => Fin.ext (by
      match a with
      | ⟨0, _⟩ => exact (rrhs0 _ _).trans hk
      | ⟨1, _⟩ => exact rrhs1 _ _)
  rw [el, er]

/-! ## From the blocks to the array -/

/-- The zero offsets of a whole-block access. -/
private theorem hz : (![0, 0] : Fin 2 → Nat) = fun _ => 0 := funext fun a => by fin_cases a <;> rfl

/-- The index maps over the grid: point `t` reads row block `t` of the features and the whole of the weight
    and of the bias, and writes row block `t` of the result. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- Row `p` of the feature block at point `t` is row `12000 t + p` of the feature array. -/
theorem blk0_apply (t : Fin cfg6.N) (p : Fin 12000) (k : Fin 9) (hr : t.val * 12000 + p.val < 1500000) :
    iblk6 (F := Ideal) V c 0 t (ix2 p k) = V c main_v41 (ix2 (⟨t.val * 12000 + p.val, hr⟩ : Fin 1500000) k) := by
  obtain ⟨e00, e01, -⟩ := idx_facts t
  unfold iblk6
  rw [View.read_apply]
  show V c main_v41 (((cfg6.win 0).blk t).view.emb (ix2 p k)) = V c main_v41 _
  refine congrArg (V c main_v41) (funext fun a => Fin.ext ?_)
  match a with
  | ⟨0, _⟩ => show win6_0.index t (0 : Fin 2) * 12000 + 1 * p.val = t.val * 12000 + p.val; rw [e00]; omega
  | ⟨1, _⟩ => show win6_0.index t (1 : Fin 2) * 9 + 1 * k.val = k.val; rw [e01]; omega

/-- The weight block at every point is the weight array. -/
theorem blk1_apply (t : Fin cfg6.N) (k : Fin 9) (q : Fin 9) :
    iblk6 (F := Ideal) V c 1 t (ix2 k q) = V c main_v42 (ix2 k q) := by
  obtain ⟨-, -, e10, e11, -⟩ := idx_facts t
  unfold iblk6
  rw [View.read_apply]
  show V c main_v42 (((cfg6.win 1).blk t).view.emb (ix2 k q)) = V c main_v42 _
  refine congrArg (V c main_v42) (funext fun a => Fin.ext ?_)
  match a with
  | ⟨0, _⟩ => show win6_1.index t (0 : Fin 2) * 9 + 1 * k.val = k.val; rw [e10]; omega
  | ⟨1, _⟩ => show win6_1.index t (1 : Fin 2) * 9 + 1 * q.val = q.val; rw [e11]; omega

/-- The bias block at every point is the bias row. -/
theorem blk2_apply (t : Fin cfg6.N) (q : Fin 9) :
    iblk6 (F := Ideal) V c 2 t (ix2 (0 : Fin 1) q) = V c main_v43 (ix2 (0 : Fin 1) q) := by
  obtain ⟨-, -, -, -, e20, e21, -⟩ := idx_facts t
  unfold iblk6
  rw [View.read_apply]
  show V c main_v43 (((cfg6.win 2).blk t).view.emb (ix2 (0 : Fin 1) q)) = V c main_v43 _
  refine congrArg (V c main_v43) (funext fun a => Fin.ext ?_)
  match a with
  | ⟨0, _⟩ => show win6_2.index t (0 : Fin 2) * 1 + 1 * 0 = 0; rw [e20]
  | ⟨1, _⟩ => show win6_2.index t (1 : Fin 2) * 9 + 1 * q.val = q.val; rw [e21]; omega

/-- What point `t` writes back is row block `t` of the stage applied to the arrays the region finds. -/
theorem flushed_eq (t : Fin cfg6.N) :
    (dat6 (F := Ideal) V c).flushed 3 t = ((cfg6.win 3).blk t).view.read (Elt Ideal)
      (Cert.Net.lin9 (F := Ideal) (V c main_v41) (V c main_v42) (V c main_v43)) := by
  show (cfg6.win 3).cut (grid6.coords t) ((dat6 (F := Ideal) V c).after 3 t) = _
  rw [after6_3]
  unfold out6_3
  rw [View.canon_unit_zero hz]
  simp only [View.ld_unit_zero (S := S12000x9) hz, View.ld_unit_zero (S := S9x9) hz, View.ld_unit_zero (S := S1x9) hz]
  obtain ⟨-, -, -, -, -, -, e30, e31⟩ := idx_facts t
  funext j
  obtain ⟨p, q, rfl⟩ : ∃ (p : Fin 12000) (q : Fin 9), j = ix2 p q := ⟨j 0, j 1, eq_ix2 j⟩
  have hN : grid6.N = 125 := N_6
  have hr : t.val * 12000 + p.val < 1500000 := by
    have h1 : t.val < 125 := lt_of_lt_of_eq t.isLt hN
    have h2 : p.val < 12000 := p.isLt
    omega
  have he : ((cfg6.win 3).blk t).view.emb (ix2 p q) = ix2 (⟨t.val * 12000 + p.val, hr⟩ : Fin 1500000) q := by
    funext a; apply Fin.ext
    match a with
    | ⟨0, _⟩ => show win6_3.index t (0 : Fin 2) * 12000 + 1 * p.val = t.val * 12000 + p.val; rw [e30]; omega
    | ⟨1, _⟩ => show win6_3.index t (1 : Fin 2) * 9 + 1 * q.val = q.val; rw [e31]; omega
  rw [View.read_apply, he]
  refine (pay_apply (iblk6 (F := Ideal) V c 0 t) (iblk6 (F := Ideal) V c 1 t) (iblk6 (F := Ideal) V c 2 t) p q).trans
    (Eq.trans ?_ (stage_apply (V c main_v41) (V c main_v42) (V c main_v43) ⟨_, hr⟩ q).symm)
  exact congrArg₂ (· + ·)
    (Finset.sum_congr rfl fun k _ => congrArg₂ (· * ·) (blk0_apply V c t p k hr) (blk1_apply V c t k q))
    (blk2_apply V c t q)

/-- An index of the result array is in point `t`'s block iff each coordinate is in the block's range. -/
theorem mem_blk (t : Fin cfg6.N) (i : S1500000x9.Idx) :
    i ∈ ((cfg6.win 3).blk t).view.set ↔ ∀ a : Fin 2, win6_3.index t a * S12000x9.size a ≤ (i a).val
      ∧ (i a).val < win6_3.index t a * S12000x9.size a + S12000x9.size a := by
  show i ∈ ((View.whole main_v44).slice (win6_3.rect t)).set ↔ _
  rw [View.set_slice_whole, Rect.mem_set_unit]
  exact Iff.rfl

/-- Every entry of the result array is written: row `r` by point `r / 12000`. -/
theorem cover (i : S1500000x9.Idx) :
    ∃ t : Fin cfg6.N, (cfg6.win 3).flush t = true ∧ i ∈ ((cfg6.win 3).blk t).view.set := by
  have hi0 : (i 0).val < 1500000 := (i 0).isLt
  have hi1 : (i 1).val < 9 := (i 1).isLt
  have hN : grid6.N = 125 := N_6
  have ht : (i 0).val / 12000 < grid6.N := by rw [hN]; omega
  obtain ⟨-, -, -, -, -, -, e30, e31⟩ := idx_facts ⟨(i 0).val / 12000, ht⟩
  refine ⟨⟨(i 0).val / 12000, ht⟩, flush6_3 _, ?_⟩
  rw [mem_blk]
  intro a
  match a with
  | ⟨0, _⟩ =>
    show win6_3.index ⟨(i 0).val / 12000, ht⟩ (0 : Fin 2) * 12000 ≤ (i 0).val
      ∧ (i 0).val < win6_3.index ⟨(i 0).val / 12000, ht⟩ (0 : Fin 2) * 12000 + 12000
    rw [e30]; show (i 0).val / 12000 * 12000 ≤ (i 0).val ∧ (i 0).val < (i 0).val / 12000 * 12000 + 12000; omega
  | ⟨1, _⟩ =>
    show win6_3.index ⟨(i 0).val / 12000, ht⟩ (1 : Fin 2) * 9 ≤ (i 1).val
      ∧ (i 1).val < win6_3.index ⟨(i 0).val / 12000, ht⟩ (1 : Fin 2) * 9 + 9
    rw [e31]; omega

/-- The array the launch leaves is the linear map `a · wT + b`, nine features to nine, of the three arrays it finds:
    the node features, the transposed weight and the bias row. -/
theorem final : (dat6 (F := Ideal) V c).arrAt 3 cfg6.N = Cert.Net.lin9 (F := Ideal) (V c main_v41) (V c main_v42) (V c main_v43) :=
  (dat6 (F := Ideal) V c).arrAt_eq_of_cover 3 _ (fun t _ => flushed_eq V c t) (cover)

end Cert.KernelIdeal.Reg6
end
-- ==== Proof.Reg7.lean ====
/-
  Launch 7: the edge messages `hs * (ea · wT + b)`, tiled over the 12 000 000 edges in 1000 blocks of 12 000 rows.

  At grid point t the body reads rows 12000·t … 12000·t + 11999 of the gathered source rows `hs` and of the edge
  attributes `ea`, the whole transposed weight (2 × 9) and the bias row, and stores, at row p and column q of its block,
  `hs(12000·t + p, q)` times the sum over the two attributes k of `ea(12000·t + p, k) · wT(k, q)` plus `b(0, q)` (the
  product accumulated from zero, its operands narrowed to bf16 first: the identity on the extended reals). That is entry
  (12000·t + p, q) of the reference's stage — an entrywise product with a `dot_general` plus the bias row broadcast down
  the rows — of the same arrays: an output entry depends on its own edge only. The 1000 blocks tile the array, so the
  array the launch leaves is that stage.
-/
import proofs.«175860_j29935922053254_2_alg».proof.Proof.Gen.KernelIdeal.Frame
import proofs.«175860_j29935922053254_2_alg».proof.Proof.Gen.ReferenceIdeal
import proofs.«175860_j29935922053254_2_alg».proof.Proof.Spec
import Idealize.ShloMosaic.PureOps.Ideal.Laws
import Idealize.ShloMosaic.Lib.ValueIdx
import Idealize.ShloMosaic.Lib.Pipeline.Value
import Idealize.ShloMosaic.Lib.ValueLayout
noncomputable section
namespace Cert.KernelIdeal.Reg7
open Cert.KernelIdeal Cert.KernelIdeal.Gen Idealize.ShloMosaic Idealize.ShloMosaic.TcCoe Idealize.SL.Sem
variable (V : (c : Dev nD) → (b : Ref sig .tc) → Buf (Elt Ideal) ((c : Thread nD τ).loc b)) (c : Dev nD)

open Idealize.ShloMosaic.ValueIdx

/-! ## The body's arithmetic at one entry -/

/-- The left operand's row coordinate in the block product is the output's row. -/
theorem lhs_row (i : S12000x9.Idx) (z : dot_S12000x2_S2x9_S12000x9_1_0_0_1_n_n.contr.Idx) :
    (dot_S12000x2_S2x9_S12000x9_1_0_0_1_n_n.lhsIdx i z 0).val = (i 0).val := by
  unfold DotDims.lhsIdx
  rw [dif_neg (show ¬(0 : Fin S12000x2.rank) ∈ dot_S12000x2_S2x9_S12000x9_1_0_0_1_n_n.lhsBatch by decide),
    dif_pos (show (0 : Fin S12000x2.rank) ∈ dot_S12000x2_S2x9_S12000x9_1_0_0_1_n_n.lhsNonContracting by decide)]
  rfl

/-- The left operand's column coordinate is the summation index. -/
theorem lhs_col (i : S12000x9.Idx) (z : dot_S12000x2_S2x9_S12000x9_1_0_0_1_n_n.contr.Idx) :
    (dot_S12000x2_S2x9_S12000x9_1_0_0_1_n_n.lhsIdx i z 1).val = (z ⟨0, by decide⟩).val :=
  dot_S12000x2_S2x9_S12000x9_1_0_0_1_n_n.lhsIdx_val_of_single rfl i z

/-- The right operand's row coordinate is the summation index. -/
theorem rhs_row (i : S12000x9.Idx) (z : dot_S12000x2_S2x9_S12000x9_1_0_0_1_n_n.contr.Idx) :
    (dot_S12000x2_S2x9_S12000x9_1_0_0_1_n_n.rhsIdx i z 0).val = (z ⟨0, by decide⟩).val :=
  dot_S12000x2_S2x9_S12000x9_1_0_0_1_n_n.rhsIdx_val_of_single rfl i z

/-- The right operand's column coordinate is the output's column. -/
theorem rhs_col (i : S12000x9.Idx) (z : dot_S12000x2_S2x9_S12000x9_1_0_0_1_n_n.contr.Idx) :
    (dot_S12000x2_S2x9_S12000x9_1_0_0_1_n_n.rhsIdx i z 1).val = (i 1).val := by
  unfold DotDims.rhsIdx
  rw [dif_neg (show ¬(1 : Fin S2x9.rank) ∈ dot_S12000x2_S2x9_S12000x9_1_0_0_1_n_n.rhsBatch by decide),
    dif_pos (show (1 : Fin S2x9.rank) ∈ dot_S12000x2_S2x9_S12000x9_1_0_0_1_n_n.rhsNonContracting by decide)]
  rfl

/-- One entry of the block the body stores: the gathered row's entry times the entry of
    `ea · wT + b`, the product over the two edge attributes written as a sum. -/
theorem pay_apply (x0 : Vec Ideal S12000x9 .f32) (x1 : Vec Ideal S12000x2 .f32) (x2 : Vec Ideal S2x9 .f32)
    (x3 : Vec Ideal S1x9 .f32) (p : Fin 12000) (q : Fin 9) :
    k7_pay1 x0 x1 x2 x3 (ix2 p q)
      = x0 (ix2 p q) * ((∑ k : Fin 2, x1 (ix2 p k) * x2 (ix2 k q)) + x3 (ix2 (0 : Fin 1) q)) := by
  unfold k7_pay1
  rw [mulf_apply, addf_apply, shapeCast_self, shapeCast_self, shapeCast_self, broadcastTo_1b_ab_apply]
  simp only [matmul]
  rw [Ideal.matmul_constant_zero_apply, ← Equiv.sum_comp (contrEquiv1 dot_S12000x2_S2x9_S12000x9_1_0_0_1_n_n 2 rfl rfl).symm]
  refine congrArg (fun z => x0 (ix2 p q) * (z + x3 (ix2 (0 : Fin 1) q))) (Finset.sum_congr rfl fun k _ => ?_)
  have hk := contrEquiv1_symm_val dot_S12000x2_S2x9_S12000x9_1_0_0_1_n_n 2 rfl rfl k
  rw [truncf_apply, truncf_apply]
  have el : dot_S12000x2_S2x9_S12000x9_1_0_0_1_n_n.lhsIdx (ix2 p q) ((contrEquiv1 dot_S12000x2_S2x9_S12000x9_1_0_0_1_n_n 2 rfl rfl).symm k) = ix2 p k :=
    funext fun a => Fin.ext (by
      match a with
      | ⟨0, _⟩ => exact lhs_row _ _
      | ⟨1, _⟩ => exact (lhs_col _ _).trans hk)
  have er : dot_S12000x2_S2x9_S12000x9_1_0_0_1_n_n.rhsIdx (ix2 p q) ((contrEquiv1 dot_S12000x2_S2x9_S12000x9_1_0_0_1_n_n 2 rfl rfl).symm k) = ix2 k q :=
    funext fun a => Fin.ext (by
      match a with
      | ⟨0, _⟩ => exact (rhs_row _ _).trans hk
      | ⟨1, _⟩ => exact rhs_col _ _)
  rw [el, er]

/-! ## The stage at one entry of the whole array -/

/-- The left operand's row coordinate in the whole-array product is the output's row. -/
theorem net_lhs_row (i : S12000000x9.Idx) (z : Cert.ReferenceIdeal.dot_S12000000x2_S2x9_S12000000x9_1_0_0_1_n_n.contr.Idx) :
    (Cert.ReferenceIdeal.dot_S12000000x2_S2x9_S12000000x9_1_0_0_1_n_n.lhsIdx i z 0).val = (i 0).val := by
  unfold DotDims.lhsIdx
  rw [dif_neg (show ¬(0 : Fin S12000000x2.rank) ∈ Cert.ReferenceIdeal.dot_S12000000x2_S2x9_S12000000x9_1_0_0_1_n_n.lhsBatch by decide),
    dif_pos (show (0 : Fin S12000000x2.rank) ∈ Cert.ReferenceIdeal.dot_S12000000x2_S2x9_S12000000x9_1_0_0_1_n_n.lhsNonContracting by decide)]
  rfl

/-- The left operand's column coordinate is the summation index. -/
theorem net_lhs_col (i : S12000000x9.Idx) (z : Cert.ReferenceIdeal.dot_S12000000x2_S2x9_S12000000x9_1_0_0_1_n_n.contr.Idx) :
    (Cert.ReferenceIdeal.dot_S12000000x2_S2x9_S12000000x9_1_0_0_1_n_n.lhsIdx i z 1).val = (z ⟨0, by decide⟩).val :=
  Cert.ReferenceIdeal.dot_S12000000x2_S2x9_S12000000x9_1_0_0_1_n_n.lhsIdx_val_of_single rfl i z

/-- The right operand's row coordinate is the summation index. -/
theorem net_rhs_row (i : S12000000x9.Idx) (z : Cert.ReferenceIdeal.dot_S12000000x2_S2x9_S12000000x9_1_0_0_1_n_n.contr.Idx) :
    (Cert.ReferenceIdeal.dot_S12000000x2_S2x9_S12000000x9_1_0_0_1_n_n.rhsIdx i z 0).val = (z ⟨0, by decide⟩).val :=
  Cert.ReferenceIdeal.dot_S12000000x2_S2x9_S12000000x9_1_0_0_1_n_n.rhsIdx_val_of_single rfl i z

/-- The right operand's column coordinate is the output's column. -/
theorem net_rhs_col (i : S12000000x9.Idx) (z : Cert.ReferenceIdeal.dot_S12000000x2_S2x9_S12000000x9_1_0_0_1_n_n.contr.Idx) :
    (Cert.ReferenceIdeal.dot_S12000000x2_S2x9_S12000000x9_1_0_0_1_n_n.rhsIdx i z 1).val = (i 1).val := by
  unfold DotDims.rhsIdx
  rw [dif_neg (show ¬(1 : Fin S2x9.rank) ∈ Cert.ReferenceIdeal.dot_S12000000x2_S2x9_S12000000x9_1_0_0_1_n_n.rhsBatch by decide),
    dif_pos (show (1 : Fin S2x9.rank) ∈ Cert.ReferenceIdeal.dot_S12000000x2_S2x9_S12000000x9_1_0_0_1_n_n.rhsNonContracting by decide)]
  rfl

/-- One entry of the edge message over all edges: `hs r q * (Σ_k ea r k * wT k q + b 0 q)`. -/
theorem edge_apply (hs : Cert.Net.FA Ideal S12000000x9) (ea : Cert.Net.FA Ideal S12000000x2)
    (wT : Cert.Net.FA Ideal S2x9) (b : Cert.Net.FA Ideal S1x9) (r : Fin 12000000) (q : Fin 9) :
    Cert.Net.edge (F := Ideal) hs ea wT b (ix2 r q)
      = hs (ix2 r q) * ((∑ k : Fin 2, ea (ix2 r k) * wT (ix2 k q)) + b (ix2 (0 : Fin 1) q)) := by
  unfold Cert.Net.edge
  rw [mulf_apply, addf_apply]
  rw [broadcastInDim_apply _ Cert.ReferenceIdeal.Facts₀.bcast_S1x9_S12000000x9_0_1 b (ix2 r q) (ix2 (0 : Fin 1) q) (fun a => match a with
    | ⟨0, _⟩ => by show 0 = if (1 : Nat) = 1 then 0 else r.val; rw [if_pos rfl]
    | ⟨1, _⟩ => by show q.val = if (9 : Nat) = 1 then 0 else q.val; rw [if_neg (by decide)])]
  simp only [Host.dotGeneral]
  rw [Ideal.dotGeneral_apply, ← Equiv.sum_comp (contrEquiv1 Cert.ReferenceIdeal.dot_S12000000x2_S2x9_S12000000x9_1_0_0_1_n_n 2 rfl rfl).symm]
  refine congrArg (fun z => hs (ix2 r q) * (z + b (ix2 (0 : Fin 1) q))) (Finset.sum_congr rfl fun k _ => ?_)
  have hk := contrEquiv1_symm_val Cert.ReferenceIdeal.dot_S12000000x2_S2x9_S12000000x9_1_0_0_1_n_n 2 rfl rfl k
  have el : Cert.ReferenceIdeal.dot_S12000000x2_S2x9_S12000000x9_1_0_0_1_n_n.lhsIdx (ix2 r q) ((contrEquiv1 Cert.ReferenceIdeal.dot_S12000000x2_S2x9_S12000000x9_1_0_0_1_n_n 2 rfl rfl).symm k) = ix2 r k :=
    funext fun a => Fin.ext (by
      match a with
      | ⟨0, _⟩ => exact net_lhs_row _ _
      | ⟨1, _⟩ => exact (net_lhs_col _ _).trans hk)
  have er : Cert.ReferenceIdeal.dot_S12000000x2_S2x9_S12000000x9_1_0_0_1_n_n.rhsIdx (ix2 r q) ((contrEquiv1 Cert.ReferenceIdeal.dot_S12000000x2_S2x9_S12000000x9_1_0_0_1_n_n 2 rfl rfl).symm k) = ix2 k q :=
    funext fun a => Fin.ext (by
      match a with
      | ⟨0, _⟩ => exact (net_rhs_row _ _).trans hk
      | ⟨1, _⟩ => exact net_rhs_col _ _)
  rw [el, er]

/-! ## From blocks to the array -/

/-- The zero offsets of a whole-block load or store. -/
theorem hz : (![0, 0] : Fin 2 → Nat) = fun _ => 0 := funext fun a => by fin_cases a <;> rfl

/-- The index maps over the grid: at point `t` the gathered rows, the edge attributes and the
    messages are at block row `t`, block column 0; the weight and the bias at block (0, 0). -/
theorem idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

/-- The block of gathered rows at point `t` is rows `12000 t, …, 12000 t + 11999` of the array. -/
theorem rows_apply (t : Fin cfg7.N) (p : Fin 12000) (q : Fin 9) (r : Fin 12000000)
    (hr : r.val = t.val * 12000 + p.val) :
    (iblk7 V c 0 t : Vec Ideal S12000x9 .f32) (ix2 p q)
      = (V c main_v51 : S12000000x9.Idx → Elt Ideal .f32) (ix2 r q) := by
  obtain ⟨e0, e1, -⟩ := idx_facts t
  unfold iblk7
  rw [View.read_apply]
  show V c main_v51 _ = V c main_v51 _
  congr 1
  funext a
  apply Fin.ext
  match a with
  | ⟨0, _⟩ => show win7_0.index t (0 : Fin 2) * 12000 + 1 * p.val = r.val; rw [e0, hr]; omega
  | ⟨1, _⟩ => show win7_0.index t (1 : Fin 2) * 9 + 1 * q.val = q.val; rw [e1]; omega

/-- The block of edge attributes at point `t` is the same rows of the attribute array. -/
theorem attrs_apply (t : Fin cfg7.N) (p : Fin 12000) (k : Fin 2) (r : Fin 12000000)
    (hr : r.val = t.val * 12000 + p.val) :
    (iblk7 V c 1 t : Vec Ideal S12000x2 .f32) (ix2 p k)
      = (V c main_arg2 : S12000000x2.Idx → Elt Ideal .f32) (ix2 r k) := by
  obtain ⟨-, -, e0, e1, -⟩ := idx_facts t
  unfold iblk7
  rw [View.read_apply]
  show V c main_arg2 _ = V c main_arg2 _
  congr 1
  funext a
  apply Fin.ext
  match a with
  | ⟨0, _⟩ => show win7_1.index t (0 : Fin 2) * 12000 + 1 * p.val = r.val; rw [e0, hr]; omega
  | ⟨1, _⟩ => show win7_1.index t (1 : Fin 2) * 2 + 1 * k.val = k.val; rw [e1]; omega

/-- The weight block at every point is the whole weight. -/
theorem weight_apply (t : Fin cfg7.N) (k : Fin 2) (q : Fin 9) :
    (iblk7 V c 2 t : Vec Ideal S2x9 .f32) (ix2 k q)
      = (V c main_v52 : S2x9.Idx → Elt Ideal .f32) (ix2 k q) := by
  obtain ⟨-, -, -, -, e0, e1, -⟩ := idx_facts t
  unfold iblk7
  rw [View.read_apply]
  show V c main_v52 _ = V c main_v52 _
  congr 1
  funext a
  apply Fin.ext
  match a with
  | ⟨0, _⟩ => show win7_2.index t (0 : Fin 2) * 2 + 1 * k.val = k.val; rw [e0]; omega
  | ⟨1, _⟩ => show win7_2.index t (1 : Fin 2) * 9 + 1 * q.val = q.val; rw [e1]; omega

/-- The bias block at every point is the whole bias row. -/
theorem bias_apply (t : Fin cfg7.N) (z : Fin 1) (q : Fin 9) :
    (iblk7 V c 3 t : Vec Ideal S1x9 .f32) (ix2 z q)
      = (V c main_v53 : S1x9.Idx → Elt Ideal .f32) (ix2 z q) := by
  obtain ⟨-, -, -, -, -, -, e0, e1, -⟩ := idx_facts t
  unfold iblk7
  rw [View.read_apply]
  show V c main_v53 _ = V c main_v53 _
  congr 1
  funext a
  apply Fin.ext
  match a with
  | ⟨0, _⟩ => show win7_3.index t (0 : Fin 2) * 1 + 1 * z.val = z.val; rw [e0]; omega
  | ⟨1, _⟩ => show win7_3.index t (1 : Fin 2) * 9 + 1 * q.val = q.val; rw [e1]; omega

/-- What grid point `t` writes back is block `t` of the edge message of the arrays as the region
    finds them. -/
theorem flushed_eq (t : Fin cfg7.N) :
    (dat7 (F := Ideal) V c).flushed 4 t
      = ((cfg7.win 4).blk t).view.read (Elt Ideal) (Cert.Net.edge (F := Ideal) (V c main_v51) (V c main_arg2) (V c main_v52) (V c main_v53)) := by
  show (cfg7.win 4).cut (grid7.coords t) ((dat7 V c).after 4 t) = _
  rw [after7_4]
  unfold out7_4
  rw [View.canon_unit_zero hz]
  simp only [View.ld_unit_zero (S := S12000x9) hz, View.ld_unit_zero (S := S12000x2) hz,
    View.ld_unit_zero (S := S2x9) hz, View.ld_unit_zero (S := S1x9) hz]
  refine funext fun (j : S12000x9.Idx) => ?_
  obtain ⟨p, q, rfl⟩ : ∃ (p : Fin 12000) (q : Fin 9), j = ix2 p q := ⟨j 0, j 1, eq_ix2 j⟩
  obtain ⟨-, -, -, -, -, -, -, -, e0, e1⟩ := idx_facts t
  have hN : cfg7.N = 1000 := N_7
  have ht : t.val < 1000 := hN ▸ t.isLt
  have hp : p.val < 12000 := p.isLt
  obtain ⟨r, hr⟩ : ∃ r : Fin 12000000, r.val = t.val * 12000 + p.val := ⟨⟨t.val * 12000 + p.val, by omega⟩, rfl⟩
  show k7_pay1 (iblk7 V c 0 t) (iblk7 V c 1 t) (iblk7 V c 2 t) (iblk7 V c 3 t) (ix2 p q)
      = Cert.Net.edge (F := Ideal) (V c main_v51) (V c main_arg2) (V c main_v52) (V c main_v53)
          (((cfg7.win 4).blk t).view.emb (ix2 p q))
  have hemb : (((cfg7.win 4).blk t).view.emb (ix2 p q) : S12000000x9.Idx) = ix2 r q := by
    funext a
    apply Fin.ext
    match a with
    | ⟨0, _⟩ => show win7_4.index t (0 : Fin 2) * 12000 + 1 * p.val = r.val; rw [e0, hr]; omega
    | ⟨1, _⟩ => show win7_4.index t (1 : Fin 2) * 9 + 1 * q.val = q.val; rw [e1]; omega
  rw [hemb, edge_apply]
  refine (pay_apply _ _ _ _ p q).trans ?_
  simp only [rows_apply V c t p q r hr, bias_apply V c t 0 q, attrs_apply V c t p _ r hr,
    weight_apply V c t _ q]

/-- An index of the message array lies in point `t`'s block iff each coordinate lies in the block's
    range on its axis. -/
theorem mem_blk (t : Fin cfg7.N) (i : S12000000x9.Idx) :
    i ∈ ((cfg7.win 4).blk t).view.set ↔ ∀ a : Fin 2, win7_4.index t a * S12000x9.size a ≤ (i a).val
      ∧ (i a).val < win7_4.index t a * S12000x9.size a + S12000x9.size a := by
  show i ∈ ((View.whole main_v54).slice (win7_4.rect t)).set ↔ _
  rw [View.set_slice_whole, Rect.mem_set_unit]
  exact Iff.rfl

/-- The blocks cover the array: edge `e` lies in the block of point `e / 12000`, and every column
    in the one column block. -/
theorem cover (i : S12000000x9.Idx) :
    ∃ t : Fin cfg7.N, (cfg7.win 4).flush t = true ∧ i ∈ ((cfg7.win 4).blk t).view.set := by
  have hN : cfg7.N = 1000 := N_7
  have hi0 : (i 0).val < 12000000 := (i 0).isLt
  have hi1 : (i 1).val < 9 := (i 1).isLt
  obtain ⟨t, ht⟩ : ∃ t : Fin cfg7.N, t.val = (i 0).val / 12000 :=
    ⟨⟨(i 0).val / 12000, by rw [hN]; omega⟩, rfl⟩
  obtain ⟨-, -, -, -, -, -, -, -, e0, e1⟩ := idx_facts t
  refine ⟨t, flush7_4 t, ?_⟩
  rw [mem_blk]
  intro a
  match a with
  | ⟨0, _⟩ =>
    show win7_4.index t (0 : Fin 2) * 12000 ≤ (i 0).val
      ∧ (i 0).val < win7_4.index t (0 : Fin 2) * 12000 + 12000
    rw [e0, ht]; omega
  | ⟨1, _⟩ =>
    show win7_4.index t (1 : Fin 2) * 9 ≤ (i 1).val ∧ (i 1).val < win7_4.index t (1 : Fin 2) * 9 + 9
    rw [e1]; omega

/-- The array the launch leaves is the edge message `hs * (ea · wT + b)`, entrywise, of the four
    input arrays as the region finds them, whatever those are. -/
theorem final : (dat7 (F := Ideal) V c).arrAt 4 cfg7.N = Cert.Net.edge (F := Ideal) (V c main_v51) (V c main_arg2) (V c main_v52) (V c main_v53) :=
  (dat7 (F := Ideal) V c).arrAt_eq_of_cover 4 _ (fun t _ => flushed_eq V c t) cover

end Cert.KernelIdeal.Reg7
end
-- ==== Proof.Reg8.lean ====
/-
  Launch 8: the output map with rectifier, `max (a · wT + b) 0` (nine features to four), tiled over the 1 500 000 nodes
  in 125 blocks of 12 000 rows.

  At grid point t the body reads rows 12000·t … 12000·t + 11999 of the aggregated messages `a`, the whole transposed
  weight and the bias row, and stores, at row p and column q of its block, the larger of 0 and the sum over the nine
  features k of `a(12000·t + p, k) · wT(k, q)` plus `b(0, q)` (a matrix product accumulated from zero, its operands
  narrowed to bf16 first: the identity on the extended reals). That is entry (12000·t + p, q) of the reference's stage —
  a `dot_general`, the bias row broadcast down the rows, and a maximum with the zero array — of the same arrays: an
  output entry depends on its own row only. The 125 blocks tile the array, so the array the launch leaves is that stage.
-/
import proofs.«175860_j29935922053254_2_alg».proof.Proof.Gen.KernelIdeal.Frame
import proofs.«175860_j29935922053254_2_alg».proof.Proof.Gen.ReferenceIdeal
import proofs.«175860_j29935922053254_2_alg».proof.Proof.Spec
import Idealize.ShloMosaic.PureOps.Ideal.Laws
import Idealize.ShloMosaic.Lib.ValueIdx
import Idealize.ShloMosaic.Lib.Pipeline.Value
import Idealize.ShloMosaic.Lib.ValueLayout
noncomputable section
namespace Cert.KernelIdeal.Reg8
open Cert.KernelIdeal Cert.KernelIdeal.Gen Idealize.ShloMosaic Idealize.ShloMosaic.TcCoe Idealize.SL.Sem
variable (V : (c : Dev nD) → (b : Ref sig .tc) → Buf (Elt Ideal) ((c : Thread nD τ).loc b)) (c : Dev nD)

open ValueIdx

/-! ## The two dot products' operand indices -/

/-- The block product's left operand is read at the output's row, -/
private theorem klhs0 (i : S12000x4.Idx) (u : dot_S12000x9_S9x4_S12000x4_1_0_0_1_n_n.contr.Idx) : (dot_S12000x9_S9x4_S12000x4_1_0_0_1_n_n.lhsIdx i u 0).val = (i 0).val := by
  unfold DotDims.lhsIdx
  rw [dif_neg (show ¬(0 : Fin S12000x9.rank) ∈ dot_S12000x9_S9x4_S12000x4_1_0_0_1_n_n.lhsBatch by decide),
    dif_pos (show (0 : Fin S12000x9.rank) ∈ dot_S12000x9_S9x4_S12000x4_1_0_0_1_n_n.lhsNonContracting by decide)]
  rfl
/-- and at the contraction index as its column; -/
private theorem klhs1 (i : S12000x4.Idx) (u : dot_S12000x9_S9x4_S12000x4_1_0_0_1_n_n.contr.Idx) : (dot_S12000x9_S9x4_S12000x4_1_0_0_1_n_n.lhsIdx i u 1).val = (u ⟨0, by decide⟩).val :=
  dot_S12000x9_S9x4_S12000x4_1_0_0_1_n_n.lhsIdx_val_of_single rfl i u
/-- its right operand at the contraction index as its row, -/
private theorem krhs0 (i : S12000x4.Idx) (u : dot_S12000x9_S9x4_S12000x4_1_0_0_1_n_n.contr.Idx) : (dot_S12000x9_S9x4_S12000x4_1_0_0_1_n_n.rhsIdx i u 0).val = (u ⟨0, by decide⟩).val :=
  dot_S12000x9_S9x4_S12000x4_1_0_0_1_n_n.rhsIdx_val_of_single rfl i u
/-- and at the output's column. -/
private theorem krhs1 (i : S12000x4.Idx) (u : dot_S12000x9_S9x4_S12000x4_1_0_0_1_n_n.contr.Idx) : (dot_S12000x9_S9x4_S12000x4_1_0_0_1_n_n.rhsIdx i u 1).val = (i 1).val := by
  unfold DotDims.rhsIdx
  rw [dif_neg (show ¬(1 : Fin S9x4.rank) ∈ dot_S12000x9_S9x4_S12000x4_1_0_0_1_n_n.rhsBatch by decide),
    dif_pos (show (1 : Fin S9x4.rank) ∈ dot_S12000x9_S9x4_S12000x4_1_0_0_1_n_n.rhsNonContracting by decide)]
  rfl

/-- The whole-array product's left operand is read at the output's row, -/
private theorem rlhs0 (i : Cert.ReferenceIdeal.S1500000x4.Idx) (u : Cert.ReferenceIdeal.dot_S1500000x9_S9x4_S1500000x4_1_0_0_1_n_n.contr.Idx) :
    (Cert.ReferenceIdeal.dot_S1500000x9_S9x4_S1500000x4_1_0_0_1_n_n.lhsIdx i u 0).val = (i 0).val := by
  unfold DotDims.lhsIdx
  rw [dif_neg (show ¬(0 : Fin Cert.ReferenceIdeal.S1500000x9.rank) ∈ Cert.ReferenceIdeal.dot_S1500000x9_S9x4_S1500000x4_1_0_0_1_n_n.lhsBatch by decide),
    dif_pos (show (0 : Fin Cert.ReferenceIdeal.S1500000x9.rank) ∈ Cert.ReferenceIdeal.dot_S1500000x9_S9x4_S1500000x4_1_0_0_1_n_n.lhsNonContracting by decide)]
  rfl
/-- and at the contraction index as its column; -/
private theorem rlhs1 (i : Cert.ReferenceIdeal.S1500000x4.Idx) (u : Cert.ReferenceIdeal.dot_S1500000x9_S9x4_S1500000x4_1_0_0_1_n_n.contr.Idx) :
    (Cert.ReferenceIdeal.dot_S1500000x9_S9x4_S1500000x4_1_0_0_1_n_n.lhsIdx i u 1).val = (u ⟨0, by decide⟩).val :=
  Cert.ReferenceIdeal.dot_S1500000x9_S9x4_S1500000x4_1_0_0_1_n_n.lhsIdx_val_of_single rfl i u
/-- its right operand at the contraction index as its row, -/
private theorem rrhs0 (i : Cert.ReferenceIdeal.S1500000x4.Idx) (u : Cert.ReferenceIdeal.dot_S1500000x9_S9x4_S1500000x4_1_0_0_1_n_n.contr.Idx) :
    (Cert.ReferenceIdeal.dot_S1500000x9_S9x4_S1500000x4_1_0_0_1_n_n.rhsIdx i u 0).val = (u ⟨0, by decide⟩).val :=
  Cert.ReferenceIdeal.dot_S1500000x9_S9x4_S1500000x4_1_0_0_1_n_n.rhsIdx_val_of_single rfl i u
/-- and at the output's column. -/
private theorem rrhs1 (i : Cert.ReferenceIdeal.S1500000x4.Idx) (u : Cert.ReferenceIdeal.dot_S1500000x9_S9x4_S1500000x4_1_0_0_1_n_n.contr.Idx) :
    (Cert.ReferenceIdeal.dot_S1500000x9_S9x4_S1500000x4_1_0_0_1_n_n.rhsIdx i u 1).val = (i 1).val := by
  unfold DotDims.rhsIdx
  rw [dif_neg (show ¬(1 : Fin Cert.ReferenceIdeal.S9x4.rank) ∈ Cert.ReferenceIdeal.dot_S1500000x9_S9x4_S1500000x4_1_0_0_1_n_n.rhsBatch by decide),
    dif_pos (show (1 : Fin Cert.ReferenceIdeal.S9x4.rank) ∈ Cert.ReferenceIdeal.dot_S1500000x9_S9x4_S1500000x4_1_0_0_1_n_n.rhsNonContracting by decide)]
  rfl

/-! ## The body at an entry, the stage at an entry -/

/-- The body's result at row `p`, column `q` of a block: the row of the block times the column of the weight,
    plus the bias entry, rectified. -/
theorem pay_apply (x0 : Vec Ideal S12000x9 .f32) (x1 : Vec Ideal S9x4 .f32) (x2 : Vec Ideal S1x4 .f32)
    (p : Fin 12000) (q : Fin 4) :
    k8_pay1 (F := Ideal) x0 x1 x2 (ix2 p q)
      = max ((∑ k : Fin 9, x0 (ix2 p k) * x1 (ix2 k q)) + x2 (ix2 (0 : Fin 1) q)) 0 := by
  unfold k8_pay1
  simp only [shapeCast_self, matmul]
  rw [maximumf_apply, addf_apply, broadcast_apply, broadcastTo_1b_ab_apply, Ideal.matmul_constant_zero_apply,
    ← Equiv.sum_comp (contrEquiv1 dot_S12000x9_S9x4_S12000x4_1_0_0_1_n_n 9 rfl rfl).symm]
  refine congrArg₂ max (congrArg₂ (· + ·) (Finset.sum_congr rfl fun k _ => ?_) rfl) Ideal.ofBits_zero_f32
  have hk := contrEquiv1_symm_val dot_S12000x9_S9x4_S12000x4_1_0_0_1_n_n 9 rfl rfl k
  have el : dot_S12000x9_S9x4_S12000x4_1_0_0_1_n_n.lhsIdx (ix2 p q) ((contrEquiv1 dot_S12000x9_S9x4_S12000x4_1_0_0_1_n_n 9 rfl rfl).symm k) = ix2 p k :=
    funext fun a => Fin.ext (by
      match a with
      | ⟨0, _⟩ => exact klhs0 _ _
      | ⟨1, _⟩ => exact (klhs1 _ _).trans hk)
  have er : dot_S12000x9_S9x4_S12000x4_1_0_0_1_n_n.rhsIdx (ix2 p q) ((contrEquiv1 dot_S12000x9_S9x4_S12000x4_1_0_0_1_n_n 9 rfl rfl).symm k) = ix2 k q :=
    funext fun a => Fin.ext (by
      match a with
      | ⟨0, _⟩ => exact (krhs0 _ _).trans hk
      | ⟨1, _⟩ => exact krhs1 _ _)
  rw [truncf_apply, truncf_apply, el, er]

/-- The stage at row `r`, column `q` of the whole array: the same formula of the whole arrays. -/
theorem stage_apply (a : Cert.Net.FA Ideal Cert.ReferenceIdeal.S1500000x9) (w : Cert.Net.FA Ideal Cert.ReferenceIdeal.S9x4)
    (b : Cert.Net.FA Ideal Cert.ReferenceIdeal.S1x4) (r : Fin 1500000) (q : Fin 4) :
    Cert.Net.relu4 (F := Ideal) (Cert.Net.lin4 (F := Ideal) a w b) (ix2 r q)
      = max ((∑ k : Fin 9, a (ix2 r k) * w (ix2 k q)) + b (ix2 (0 : Fin 1) q)) 0 := by
  unfold Cert.Net.relu4 Cert.Net.lin4
  rw [maximumf_apply, addf_apply]
  rw [broadcastInDim_apply _ Cert.ReferenceIdeal.Facts₀.bcast_S1x4_S1500000x4_0_1 b (ix2 r q) (ix2 (0 : Fin 1) q) (fun a => match a with
      | ⟨0, _⟩ => by show 0 = if (1 : Nat) = 1 then 0 else r.val; rw [if_pos rfl]
      | ⟨1, _⟩ => by show q.val = if (4 : Nat) = 1 then 0 else q.val; rw [if_neg (by decide)]),
    broadcastInDim_apply _ Cert.ReferenceIdeal.Facts₀.bcast_S_S1500000x4 (constant (F := Ideal) Cert.ReferenceIdeal.S_ .f32 0x00000000#32) (ix2 r q) ix0 (fun a => a.elim0),
    constant_apply]
  simp only [Host.dotGeneral]
  rw [Ideal.dotGeneral_apply, ← Equiv.sum_comp (contrEquiv1 Cert.ReferenceIdeal.dot_S1500000x9_S9x4_S1500000x4_1_0_0_1_n_n 9 rfl rfl).symm]
  refine congrArg₂ max (congrArg₂ (· + ·) (Finset.sum_congr rfl fun k _ => ?_) rfl) Ideal.ofBits_zero_f32
  have hk := contrEquiv1_symm_val Cert.ReferenceIdeal.dot_S1500000x9_S9x4_S1500000x4_1_0_0_1_n_n 9 rfl rfl k
  have el : Cert.ReferenceIdeal.dot_S1500000x9_S9x4_S1500000x4_1_0_0_1_n_n.lhsIdx (ix2 r q) ((contrEquiv1 Cert.ReferenceIdeal.dot_S1500000x9_S9x4_S1500000x4_1_0_0_1_n_n 9 rfl rfl).symm k) = ix2 r k :=
    funext fun a => Fin.ext (by
      match a with
      | ⟨0, _⟩ => exact rlhs0 _ _
      | ⟨1, _⟩ => exact (rlhs1 _ _).trans hk)
  have er : Cert.ReferenceIdeal.dot_S1500000x9_S9x4_S1500000x4_1_0_0_1_n_n.rhsIdx (ix2 r q) ((contrEquiv1 Cert.ReferenceIdeal.dot_S1500000x9_S9x4_S1500000x4_1_0_0_1_n_n 9 rfl rfl).symm k) = ix2 k q :=
    funext fun a => Fin.ext (by
      match a with
      | ⟨0, _⟩ => exact (rrhs0 _ _).trans hk
      | ⟨1, _⟩ => exact rrhs1 _ _)
  rw [el, er]

/-! ## From the blocks to the array -/

/-- The zero offsets of a whole-block access. -/
private theorem hz : (![0, 0] : Fin 2 → Nat) = fun _ => 0 := funext fun a => by fin_cases a <;> rfl

/-- The index maps over the grid: point `t` reads row block `t` of the features and the whole of the weight
    and of the bias, and writes row block `t` of the result. -/
theorem idx_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- Row `p` of the feature block at point `t` is row `12000 t + p` of the feature array. -/
theorem blk0_apply (t : Fin cfg8.N) (p : Fin 12000) (k : Fin 9) (hr : t.val * 12000 + p.val < 1500000) :
    iblk8 (F := Ideal) V c 0 t (ix2 p k) = V c main_v57 (ix2 (⟨t.val * 12000 + p.val, hr⟩ : Fin 1500000) k) := by
  obtain ⟨e00, e01, -⟩ := idx_facts t
  unfold iblk8
  rw [View.read_apply]
  show V c main_v57 (((cfg8.win 0).blk t).view.emb (ix2 p k)) = V c main_v57 _
  refine congrArg (V c main_v57) (funext fun a => Fin.ext ?_)
  match a with
  | ⟨0, _⟩ => show win8_0.index t (0 : Fin 2) * 12000 + 1 * p.val = t.val * 12000 + p.val; rw [e00]; omega
  | ⟨1, _⟩ => show win8_0.index t (1 : Fin 2) * 9 + 1 * k.val = k.val; rw [e01]; omega

/-- The weight block at every point is the weight array. -/
theorem blk1_apply (t : Fin cfg8.N) (k : Fin 9) (q : Fin 4) :
    iblk8 (F := Ideal) V c 1 t (ix2 k q) = V c main_v58 (ix2 k q) := by
  obtain ⟨-, -, e10, e11, -⟩ := idx_facts t
  unfold iblk8
  rw [View.read_apply]
  show V c main_v58 (((cfg8.win 1).blk t).view.emb (ix2 k q)) = V c main_v58 _
  refine congrArg (V c main_v58) (funext fun a => Fin.ext ?_)
  match a with
  | ⟨0, _⟩ => show win8_1.index t (0 : Fin 2) * 9 + 1 * k.val = k.val; rw [e10]; omega
  | ⟨1, _⟩ => show win8_1.index t (1 : Fin 2) * 4 + 1 * q.val = q.val; rw [e11]; omega

/-- The bias block at every point is the bias row. -/
theorem blk2_apply (t : Fin cfg8.N) (q : Fin 4) :
    iblk8 (F := Ideal) V c 2 t (ix2 (0 : Fin 1) q) = V c main_v59 (ix2 (0 : Fin 1) q) := by
  obtain ⟨-, -, -, -, e20, e21, -⟩ := idx_facts t
  unfold iblk8
  rw [View.read_apply]
  show V c main_v59 (((cfg8.win 2).blk t).view.emb (ix2 (0 : Fin 1) q)) = V c main_v59 _
  refine congrArg (V c main_v59) (funext fun a => Fin.ext ?_)
  match a with
  | ⟨0, _⟩ => show win8_2.index t (0 : Fin 2) * 1 + 1 * 0 = 0; rw [e20]
  | ⟨1, _⟩ => show win8_2.index t (1 : Fin 2) * 4 + 1 * q.val = q.val; rw [e21]; omega

/-- What point `t` writes back is row block `t` of the stage applied to the arrays the region finds. -/
theorem flushed_eq (t : Fin cfg8.N) :
    (dat8 (F := Ideal) V c).flushed 3 t = ((cfg8.win 3).blk t).view.read (Elt Ideal)
      (Cert.Net.relu4 (F := Ideal) (Cert.Net.lin4 (F := Ideal) (V c main_v57) (V c main_v58) (V c main_v59))) := by
  show (cfg8.win 3).cut (grid8.coords t) ((dat8 (F := Ideal) V c).after 3 t) = _
  rw [after8_3]
  unfold out8_3
  rw [View.canon_unit_zero hz]
  simp only [View.ld_unit_zero (S := S12000x9) hz, View.ld_unit_zero (S := S9x4) hz, View.ld_unit_zero (S := S1x4) hz]
  obtain ⟨-, -, -, -, -, -, e30, e31⟩ := idx_facts t
  funext j
  obtain ⟨p, q, rfl⟩ : ∃ (p : Fin 12000) (q : Fin 4), j = ix2 p q := ⟨j 0, j 1, eq_ix2 j⟩
  have hN : grid8.N = 125 := N_8
  have hr : t.val * 12000 + p.val < 1500000 := by
    have h1 : t.val < 125 := lt_of_lt_of_eq t.isLt hN
    have h2 : p.val < 12000 := p.isLt
    omega
  have he : ((cfg8.win 3).blk t).view.emb (ix2 p q) = ix2 (⟨t.val * 12000 + p.val, hr⟩ : Fin 1500000) q := by
    funext a; apply Fin.ext
    match a with
    | ⟨0, _⟩ => show win8_3.index t (0 : Fin 2) * 12000 + 1 * p.val = t.val * 12000 + p.val; rw [e30]; omega
    | ⟨1, _⟩ => show win8_3.index t (1 : Fin 2) * 4 + 1 * q.val = q.val; rw [e31]; omega
  rw [View.read_apply, he]
  refine (pay_apply (iblk8 (F := Ideal) V c 0 t) (iblk8 (F := Ideal) V c 1 t) (iblk8 (F := Ideal) V c 2 t) p q).trans
    (Eq.trans ?_ (stage_apply (V c main_v57) (V c main_v58) (V c main_v59) ⟨_, hr⟩ q).symm)
  exact congrArg₂ max (congrArg₂ (· + ·)
    (Finset.sum_congr rfl fun k _ => congrArg₂ (· * ·) (blk0_apply V c t p k hr) (blk1_apply V c t k q))
    (blk2_apply V c t q)) rfl

/-- An index of the result array is in point `t`'s block iff each coordinate is in the block's range. -/
theorem mem_blk (t : Fin cfg8.N) (i : S1500000x4.Idx) :
    i ∈ ((cfg8.win 3).blk t).view.set ↔ ∀ a : Fin 2, win8_3.index t a * S12000x4.size a ≤ (i a).val
      ∧ (i a).val < win8_3.index t a * S12000x4.size a + S12000x4.size a := by
  show i ∈ ((View.whole main_v60).slice (win8_3.rect t)).set ↔ _
  rw [View.set_slice_whole, Rect.mem_set_unit]
  exact Iff.rfl

/-- Every entry of the result array is written: row `r` by point `r / 12000`. -/
theorem cover (i : S1500000x4.Idx) :
    ∃ t : Fin cfg8.N, (cfg8.win 3).flush t = true ∧ i ∈ ((cfg8.win 3).blk t).view.set := by
  have hi0 : (i 0).val < 1500000 := (i 0).isLt
  have hi1 : (i 1).val < 4 := (i 1).isLt
  have hN : grid8.N = 125 := N_8
  have ht : (i 0).val / 12000 < grid8.N := by rw [hN]; omega
  obtain ⟨-, -, -, -, -, -, e30, e31⟩ := idx_facts ⟨(i 0).val / 12000, ht⟩
  refine ⟨⟨(i 0).val / 12000, ht⟩, flush8_3 _, ?_⟩
  rw [mem_blk]
  intro a
  match a with
  | ⟨0, _⟩ =>
    show win8_3.index ⟨(i 0).val / 12000, ht⟩ (0 : Fin 2) * 12000 ≤ (i 0).val
      ∧ (i 0).val < win8_3.index ⟨(i 0).val / 12000, ht⟩ (0 : Fin 2) * 12000 + 12000
    rw [e30]; show (i 0).val / 12000 * 12000 ≤ (i 0).val ∧ (i 0).val < (i 0).val / 12000 * 12000 + 12000; omega
  | ⟨1, _⟩ =>
    show win8_3.index ⟨(i 0).val / 12000, ht⟩ (1 : Fin 2) * 4 ≤ (i 1).val
      ∧ (i 1).val < win8_3.index ⟨(i 0).val / 12000, ht⟩ (1 : Fin 2) * 4 + 4
    rw [e31]; omega

/-- The array the launch leaves is the rectified output map `max (a · wT + b) 0`, nine features to four, of the three arrays it finds: the aggregated features, the transposed weight and the bias row. -/
theorem final : (dat8 (F := Ideal) V c).arrAt 3 cfg8.N = Cert.Net.relu4 (F := Ideal) (Cert.Net.lin4 (F := Ideal) (V c main_v57) (V c main_v58) (V c main_v59)) :=
  (dat8 (F := Ideal) V c).arrAt_eq_of_cover 3 _ (fun t _ => flushed_eq V c t) (cover)

end Cert.KernelIdeal.Reg8
end
-- ==== Proof.LibSliceSum.lean ====
/-
  Three more layout and reduction steps read at an index written by coordinates, for any extents:
  one column cut out of a matrix, one row cut out of a matrix, and the sum over the columns of each
  row (the vector unit's add-reduction over axis 1) at the ideal values.
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.LibSliceSum

open Idealize.ShloMosaic Idealize.ShloMosaic.ValueIdx

variable {α : Type}

/-- Column c of a matrix, cut out as a one-column matrix: entry (p, 0) is entry (p, c). -/
theorem colSlice_apply {a b : Nat} (c : Nat) (hc : c < b) (x : (⟨2, ![a, b]⟩ : Shape).Idx → α)
    (h : (⟨2, ![a, b]⟩ : Shape).Slices ![0, c] ⟨2, ![a, 1]⟩) (p : Fin a) :
    extractStridedSlice ⟨2, ![a, 1]⟩ ![0, c] x h (ix2 p (0 : Fin 1)) = x (ix2 p (⟨c, hc⟩ : Fin b)) :=
  extractStridedSlice_apply ![0, c] x h (ix2 p (0 : Fin 1)) (ix2 p (⟨c, hc⟩ : Fin b)) (fun d => match d with
    | ⟨0, _⟩ => by show p.val = 0 + p.val; omega
    | ⟨1, _⟩ => by show c = c + 0; omega)

/-- Row r of a matrix, cut out as a one-row matrix: entry (0, q) is entry (r, q). -/
theorem rowSlice_apply {a b : Nat} (r : Nat) (hr : r < a) (x : (⟨2, ![a, b]⟩ : Shape).Idx → α)
    (h : (⟨2, ![a, b]⟩ : Shape).Slices ![r, 0] ⟨2, ![1, b]⟩) (q : Fin b) :
    extractStridedSlice ⟨2, ![1, b]⟩ ![r, 0] x h (ix2 (0 : Fin 1) q) = x (ix2 (⟨r, hr⟩ : Fin a) q) :=
  extractStridedSlice_apply ![r, 0] x h (ix2 (0 : Fin 1) q) (ix2 (⟨r, hr⟩ : Fin a) q) (fun d => match d with
    | ⟨0, _⟩ => by show r = r + 0; omega
    | ⟨1, _⟩ => by show q.val = 0 + q.val; omega)

/-- Row p of a matrix with column k put back is (p, k). -/
theorem lift_cols {a b : Nat} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The vector unit's sum over the columns of each row, at row p: the sum of that row's entries. -/
theorem rowSum_apply {a b : Nat} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ k : Fin b, src (ix2 p k) := by
  rw [Ideal.multiReduction_add_single]
  have hf : (fun k => src (h.lift (ix1 p) k)) = fun k : Fin b => src (ix2 p k) :=
    funext fun k => congrArg src (lift_cols h p k)
  exact congrArg (fun f => ∑ k : Fin b, f k) hf

/-- The same sum, with the accumulator the zero word and the side facts spelt as a printed program
    spells them. -/
theorem rowSum_zero_apply {a b : Nat} (src : FVec Ideal ⟨2, ![a, b]⟩ .f32)
    (h : (⟨2, ![a, b]⟩ : Shape).Reduces [1] (⟨1, ![a]⟩ : Shape)) (hφ : FTy.f32 = FTy.f32 ∨ FTy.f32 = FTy.bf16)
    (hacc : (0x00000000#32 : BitVec 32) = 0x00000000#32) (p : Fin a) :
    multiReduction .add [1] ⟨1, ![a]⟩ src 0x00000000#32 h hφ hacc (ix1 p) = ∑ k : Fin b, src (ix2 p k) :=
  rowSum_apply src _ h hφ hacc p

/-- The vector unit's maximum over the columns of each row started from the word of −∞, at row p:
    the fold of `max` from that word's value over the row's entries. -/
theorem rowMax_negInf_apply {a b : Nat} (src : FVec Ideal ⟨2, ![a, b]⟩ .f32)
    (h : (⟨2, ![a, b]⟩ : Shape).Reduces [1] (⟨1, ![a]⟩ : Shape)) (hφ : FTy.f32 = FTy.f32 ∨ FTy.f32 = FTy.bf16)
    (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  have hf : (src ∘ h.lift (ix1 p)) = fun k : Fin b => src (ix2 p k) :=
    funext fun k => congrArg src (lift_cols h p k)
  exact congrArg (fun f => Finset.fold max (Ideal.ofBits .f32 0xFF800000#32) f (Finset.univ : Finset (Fin b))) hf

end Cert.LibSliceSum

end
-- ==== Proof.LibAxisReduce.lean ====
/-
  Reductions over one axis of a matrix, read at an index written by coordinates, for any extents:

  * the vector unit's sum over the rows of each column, and over the columns of each row, as a sum
    over that axis's coordinates;
  * the host's maximum and the host's sum over the columns of each row, as the fold of max from the
    starting value, and the starting value plus the sum, over that row's entries;
  * a maximum against the starting value of such a fold changes nothing.
-/
import Idealize.ShloMosaic.Lib.Pipeline.Value
import Idealize.ShloMosaic.Lib.ValueIdx
import Idealize.ShloMosaic.PureOps.Ideal.Laws
import Idealize.ShloMosaic.PureOps.Reduce

noncomputable section

namespace Cert.LibAxisReduce

open Idealize.ShloMosaic Idealize.ShloMosaic.ValueIdx

/-- Column q of a matrix with row k put back is (k, q). -/
theorem lift_rows {a b : Nat} (h : (⟨2, ![a, b]⟩ : Shape).Reduces [0] (⟨1, ![b]⟩ : Shape)) (q : Fin b)
    (k : Fin ((⟨2, ![a, b]⟩ : Shape).size 0)) : h.lift (ix1 q) k = ix2 (⟨k.val, k.isLt⟩ : Fin a) q := by
  funext c; apply Fin.ext
  fin_cases c <;> rfl

/-- Row p of a matrix with column k put back is (p, k). -/
theorem lift_cols {a b : Nat} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The vector unit's sum over the rows of each column, at column q: the sum of that column's entries. -/
theorem colSum_apply {a b : Nat} (src : FVec Ideal ⟨2, ![a, b]⟩ .f32) (acc : BitVec 32)
    (h : (⟨2, ![a, b]⟩ : Shape).Reduces [0] (⟨1, ![b]⟩ : Shape)) (hφ : FKind.Formats .f32)
    (hacc : acc = FKind.add.neutral .f32 hφ) (q : Fin b) :
    multiReduction .add [0] ⟨1, ![b]⟩ src acc h hφ hacc (ix1 q) = ∑ k : Fin a, src (ix2 k q) := by
  rw [Ideal.multiReduction_add_single]
  have hf : (fun k => src (h.lift (ix1 q) k)) = fun k : Fin a => src (ix2 k q) :=
    funext fun k => congrArg src (lift_rows h q k)
  exact congrArg (fun f => ∑ k : Fin a, f k) hf

/-- The vector unit's sum over the columns of each row, at row p: the sum of that row's entries. -/
theorem rowSum_apply {a b : Nat} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ k : Fin b, src (ix2 p k) := by
  rw [Ideal.multiReduction_add_single]
  have hf : (fun k => src (h.lift (ix1 p) k)) = fun k : Fin b => src (ix2 p k) :=
    funext fun k => congrArg src (lift_cols h p k)
  exact congrArg (fun f => ∑ k : Fin b, f k) hf

/-- The host's maximum over the columns of each row of a matrix, at row p: the fold of max from the
    starting value over the entries (p, ·). -/
theorem hostRowMax_apply {a b : Nat} (x : FVec Ideal ⟨2, ![a, b]⟩ .f32) (init : FVec Ideal ⟨0, ![]⟩ .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel)
    (p : Fin a) :
    Host.reduce FloatOps.maximumf x init h' hu (ix1 p)
      = (Finset.univ : Finset (Fin b)).fold max (init ix0) (fun k => x (ix2 p k)) := by
  rw [Host.reduce_eq_fold_single FloatOps.maximumf x init h' h hu]
  have hi : init (Shape.Idx.first hu) = init ix0 := congrArg init (eq_ix0 _)
  have hf : (x ∘ h.lift (ix1 p)) = fun k : Fin b => x (ix2 p k) :=
    funext fun k => congrArg x (lift_cols h p k)
  rw [hi]
  exact congrArg (fun f => Finset.fold max (init ix0) f (Finset.univ : Finset (Fin b))) hf

/-- The host's sum over the columns of each row of a matrix, at row p: the starting value plus the sum of
    the entries (p, ·). -/
theorem hostRowSum_apply {a b : Nat} (x : FVec Ideal ⟨2, ![a, b]⟩ .f32) (init : FVec Ideal ⟨0, ![]⟩ .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel)
    (p : Fin a) :
    Host.reduceAdd x init h' hu (ix1 p) = init ix0 + ∑ k : Fin b, x (ix2 p k) := by
  unfold Host.reduceAdd
  rw [Ideal.hostReduceAdd_def, Ideal.hostReduceAdd_single h' h]
  have hi : init (Shape.Idx.first hu) = init ix0 := congrArg init (eq_ix0 _)
  have hf : (fun k => x (h.lift (ix1 p) k)) = fun k : Fin b => x (ix2 p k) :=
    funext fun k => congrArg x (lift_cols h p k)
  rw [hi]
  exact congrArg (fun f => init ix0 + ∑ k : Fin b, f k) hf

/-- A fold of max is at least its starting value, so a further maximum against that value changes nothing. -/
theorem max_start_fold {ι : Type} (s : Finset ι) (b : EReal) (f : ι → EReal) :
    max b (s.fold max b f) = s.fold max b f :=
  max_eq_right (Finset.le_fold_max (b := b) (f := f) (s := s) b |>.mpr (Or.inl le_rfl))

end Cert.LibAxisReduce

end
-- ==== Proof.Reg9.lean ====
/-
  Launch 9: the head, tiled over the 250 000 rows of 24 in 25 blocks of 10 000 rows.

  At grid point t the body reads rows 10000·t … 10000·t + 9999 of the regrouped features and the two transposed weights
  and bias rows, and computes per row: `y1 = max (g · w1T + b1) 0` (8 entries), the logits `y = y1 · w2T + b2` (4
  entries), their maximum `M` (a fold of max from -∞ over the row), `z = y - M`, and `z - log (Σ exp z)`. The reference's
  stage computes the same per row of the whole array, its maximum taken as `max (-∞) (the fold of max from -∞)`, which
  is the fold. An output row depends on its own input row only, and the 25 blocks tile the array, so the array the
  launch leaves is the reference's head of the arrays the launch finds.
-/
import proofs.«175860_j29935922053254_2_alg».proof.Proof.Gen.KernelIdeal.Frame
import proofs.«175860_j29935922053254_2_alg».proof.Proof.Gen.ReferenceIdeal
import proofs.«175860_j29935922053254_2_alg».proof.Proof.Spec
import Idealize.ShloMosaic.PureOps.Ideal.Laws
import Idealize.ShloMosaic.Lib.ValueIdx
import Idealize.ShloMosaic.Lib.Pipeline.Value
import Idealize.ShloMosaic.Lib.ValueLayout
import proofs.«175860_j29935922053254_2_alg».proof.Proof.LibSliceSum
import proofs.«175860_j29935922053254_2_alg».proof.Proof.LibAxisReduce
noncomputable section
namespace Cert.KernelIdeal.Reg9
open Cert.KernelIdeal Cert.KernelIdeal.Gen Idealize.ShloMosaic Idealize.ShloMosaic.TcCoe Idealize.SL.Sem
variable (V : (c : Dev nD) → (b : Ref sig .tc) → Buf (Elt Ideal) ((c : Thread nD τ).loc b)) (c : Dev nD)
open Idealize.ShloMosaic.ValueIdx
open scoped BigOperators

/-!
  The read-out head on rows of 24 features, over the extended reals.

  A row g goes to eight hidden units max (g · W₁ + b₁) 0, these to four logits y = hidden · W₂ + b₂, and the logits to
  z − log Σ exp z with z = y − max y, the maximum started from −∞. Both programs compute exactly this on every row:
  one of them 10000 rows at a time, 25 times, writing each group of rows back to its place; the other on all 250000
  rows at once, with one more maximum against −∞ that changes nothing. Below: the row arithmetic once; each program's
  term read at one entry as that arithmetic of the row's entries; then the 25 groups of rows put together.
-/

/-! ## Two layout steps at an index written by coordinates -/

/-- A vector of length a cast to an [a, 1] column reads, at (p, u), its entry p. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] column broadcast over b columns reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The head's arithmetic on one row of 24 features -/

/-- The maximum of four extended reals, started from the value of the word of −∞. -/
def rowMax (y : Fin 4 → EReal) : EReal :=
  (Finset.univ : Finset (Fin 4)).fold max (Ideal.ofBits .f32 0xFF800000#32) y

/-- Hidden unit k of a row g: max (g · W₁[:, k] + b₁[k]) 0. -/
def hid (g : Fin 24 → EReal) (w1 : Fin 24 → Fin 8 → EReal) (b1 : Fin 8 → EReal) (k : Fin 8) : EReal :=
  max ((∑ i : Fin 24, g i * w1 i k) + b1 k) 0

/-- Logit q of a row g: hidden · W₂[:, q] + b₂[q]. -/
def logit (g : Fin 24 → EReal) (w1 : Fin 24 → Fin 8 → EReal) (b1 : Fin 8 → EReal) (w2 : Fin 8 → Fin 4 → EReal)
    (b2 : Fin 4 → EReal) (q : Fin 4) : EReal :=
  (∑ k : Fin 8, hid g w1 b1 k * w2 k q) + b2 q

/-- The log-softmax of four logits at q: z q − log Σ exp z, with z = y − max y. -/
def lsm (y : Fin 4 → EReal) (q : Fin 4) : EReal :=
  (y q - rowMax y) - Ideal.log (∑ k : Fin 4, Ideal.exp (y k - rowMax y))

/-! ## The kernel body at an index (p, q) of its block -/

/-- With one contracted axis, the left operand's row coordinate is the result's. -/
private theorem kdot1_l0 (p : Fin 10000) (q : Fin 8) (k : dot_S10000x24_S24x8_S10000x8_1_0_0_1_n_n.contr.Idx) :
    (dot_S10000x24_S24x8_S10000x8_1_0_0_1_n_n.lhsIdx (ix2 p q) k 0).val = p.val := by
  unfold DotDims.lhsIdx
  rw [dif_neg (show ¬(0 : Fin S10000x24.rank) ∈ dot_S10000x24_S24x8_S10000x8_1_0_0_1_n_n.lhsBatch by decide),
    dif_pos (show (0 : Fin S10000x24.rank) ∈ dot_S10000x24_S24x8_S10000x8_1_0_0_1_n_n.lhsNonContracting by decide)]
  rfl
/-- … and the right operand's column coordinate is the result's. -/
private theorem kdot1_r1 (p : Fin 10000) (q : Fin 8) (k : dot_S10000x24_S24x8_S10000x8_1_0_0_1_n_n.contr.Idx) :
    (dot_S10000x24_S24x8_S10000x8_1_0_0_1_n_n.rhsIdx (ix2 p q) k 1).val = q.val := by
  unfold DotDims.rhsIdx
  rw [dif_neg (show ¬(1 : Fin S24x8.rank) ∈ dot_S10000x24_S24x8_S10000x8_1_0_0_1_n_n.rhsBatch by decide),
    dif_pos (show (1 : Fin S24x8.rank) ∈ dot_S10000x24_S24x8_S10000x8_1_0_0_1_n_n.rhsNonContracting by decide)]
  rfl
/-- The contraction of a [10000, 24] by a [24, 8] matrix at (p, q): the sum over j of A(p, j) · B(j, q). -/
theorem kdot1_sum (A : S10000x24.Idx → EReal) (B : S24x8.Idx → EReal) (p : Fin 10000) (q : Fin 8) :
    ∑ k : dot_S10000x24_S24x8_S10000x8_1_0_0_1_n_n.contr.Idx, A (dot_S10000x24_S24x8_S10000x8_1_0_0_1_n_n.lhsIdx (ix2 p q) k) * B (dot_S10000x24_S24x8_S10000x8_1_0_0_1_n_n.rhsIdx (ix2 p q) k)
      = ∑ j : Fin 24, A (ix2 p j) * B (ix2 j q) := by
  rw [← Equiv.sum_comp (contrEquiv1 dot_S10000x24_S24x8_S10000x8_1_0_0_1_n_n 24 rfl rfl).symm]
  refine Finset.sum_congr rfl fun j _ => ?_
  have hk := contrEquiv1_symm_val dot_S10000x24_S24x8_S10000x8_1_0_0_1_n_n 24 rfl rfl j
  have el : dot_S10000x24_S24x8_S10000x8_1_0_0_1_n_n.lhsIdx (ix2 p q) ((contrEquiv1 dot_S10000x24_S24x8_S10000x8_1_0_0_1_n_n 24 rfl rfl).symm j) = ix2 p j :=
    funext fun x => Fin.ext (by
      match x with
      | ⟨0, _⟩ => exact kdot1_l0 p q _
      | ⟨1, _⟩ => exact (dot_S10000x24_S24x8_S10000x8_1_0_0_1_n_n.lhsIdx_val_of_single rfl _ _).trans hk)
  have er : dot_S10000x24_S24x8_S10000x8_1_0_0_1_n_n.rhsIdx (ix2 p q) ((contrEquiv1 dot_S10000x24_S24x8_S10000x8_1_0_0_1_n_n 24 rfl rfl).symm j) = ix2 j q :=
    funext fun x => Fin.ext (by
      match x with
      | ⟨0, _⟩ => exact (dot_S10000x24_S24x8_S10000x8_1_0_0_1_n_n.rhsIdx_val_of_single rfl _ _).trans hk
      | ⟨1, _⟩ => exact kdot1_r1 p q _)
  rw [el, er]

/-- With one contracted axis, the left operand's row coordinate is the result's. -/
private theorem kdot2_l0 (p : Fin 10000) (q : Fin 4) (k : dot_S10000x8_S8x4_S10000x4_1_0_0_1_n_n.contr.Idx) :
    (dot_S10000x8_S8x4_S10000x4_1_0_0_1_n_n.lhsIdx (ix2 p q) k 0).val = p.val := by
  unfold DotDims.lhsIdx
  rw [dif_neg (show ¬(0 : Fin S10000x8.rank) ∈ dot_S10000x8_S8x4_S10000x4_1_0_0_1_n_n.lhsBatch by decide),
    dif_pos (show (0 : Fin S10000x8.rank) ∈ dot_S10000x8_S8x4_S10000x4_1_0_0_1_n_n.lhsNonContracting by decide)]
  rfl
/-- … and the right operand's column coordinate is the result's. -/
private theorem kdot2_r1 (p : Fin 10000) (q : Fin 4) (k : dot_S10000x8_S8x4_S10000x4_1_0_0_1_n_n.contr.Idx) :
    (dot_S10000x8_S8x4_S10000x4_1_0_0_1_n_n.rhsIdx (ix2 p q) k 1).val = q.val := by
  unfold DotDims.rhsIdx
  rw [dif_neg (show ¬(1 : Fin S8x4.rank) ∈ dot_S10000x8_S8x4_S10000x4_1_0_0_1_n_n.rhsBatch by decide),
    dif_pos (show (1 : Fin S8x4.rank) ∈ dot_S10000x8_S8x4_S10000x4_1_0_0_1_n_n.rhsNonContracting by decide)]
  rfl
/-- The contraction of a [10000, 8] by a [8, 4] matrix at (p, q): the sum over j of A(p, j) · B(j, q). -/
theorem kdot2_sum (A : S10000x8.Idx → EReal) (B : S8x4.Idx → EReal) (p : Fin 10000) (q : Fin 4) :
    ∑ k : dot_S10000x8_S8x4_S10000x4_1_0_0_1_n_n.contr.Idx, A (dot_S10000x8_S8x4_S10000x4_1_0_0_1_n_n.lhsIdx (ix2 p q) k) * B (dot_S10000x8_S8x4_S10000x4_1_0_0_1_n_n.rhsIdx (ix2 p q) k)
      = ∑ j : Fin 8, A (ix2 p j) * B (ix2 j q) := by
  rw [← Equiv.sum_comp (contrEquiv1 dot_S10000x8_S8x4_S10000x4_1_0_0_1_n_n 8 rfl rfl).symm]
  refine Finset.sum_congr rfl fun j _ => ?_
  have hk := contrEquiv1_symm_val dot_S10000x8_S8x4_S10000x4_1_0_0_1_n_n 8 rfl rfl j
  have el : dot_S10000x8_S8x4_S10000x4_1_0_0_1_n_n.lhsIdx (ix2 p q) ((contrEquiv1 dot_S10000x8_S8x4_S10000x4_1_0_0_1_n_n 8 rfl rfl).symm j) = ix2 p j :=
    funext fun x => Fin.ext (by
      match x with
      | ⟨0, _⟩ => exact kdot2_l0 p q _
      | ⟨1, _⟩ => exact (dot_S10000x8_S8x4_S10000x4_1_0_0_1_n_n.lhsIdx_val_of_single rfl _ _).trans hk)
  have er : dot_S10000x8_S8x4_S10000x4_1_0_0_1_n_n.rhsIdx (ix2 p q) ((contrEquiv1 dot_S10000x8_S8x4_S10000x4_1_0_0_1_n_n 8 rfl rfl).symm j) = ix2 j q :=
    funext fun x => Fin.ext (by
      match x with
      | ⟨0, _⟩ => exact (dot_S10000x8_S8x4_S10000x4_1_0_0_1_n_n.rhsIdx_val_of_single rfl _ _).trans hk
      | ⟨1, _⟩ => exact kdot2_r1 p q _)
  rw [el, er]

/-- The body's hidden layer at (p, j): hidden unit j of row p of the block. -/
theorem khid_apply (x0 : FVec Ideal S10000x24 .f32) (x1 : FVec Ideal S24x8 .f32) (x2 : FVec Ideal S1x8 .f32)
    (p : Fin 10000) (j : Fin 8) :
    maximumf (addf (matmul dot_S10000x24_S24x8_S10000x8_1_0_0_1_n_n none (truncf .bf16 x0 bitsLt_bf16_f32)
          (truncf .bf16 x1 bitsLt_bf16_f32) (constant S10000x8 .f32 0x00000000#32))
        (broadcastTo S10000x8 x2 broadcasts_S1x8_S10000x8))
      (broadcast S10000x8 (FloatOps.ofBits .f32 0x00000000#32)) (ix2 p j)
    = hid (fun i => x0 (ix2 p i)) (fun i k => x1 (ix2 i k)) (fun k => x2 (ix2 (0 : Fin 1) k)) j := by
  rw [maximumf_apply, addf_apply, broadcastTo_1b_ab_apply, broadcast_apply, Ideal.ofBits_def, Ideal.ofBits_zero_f32]
  refine congrArg (fun t => max (t + x2 (ix2 (0 : Fin 1) j)) 0) ?_
  exact (Ideal.matmul_constant_zero_apply (φ₁ := .bf16) (φ₂ := .bf16) dot_S10000x24_S24x8_S10000x8_1_0_0_1_n_n none _ _ (ix2 p j)).trans (kdot1_sum _ _ p j)

/-- The body's logits at (p, q): logit q of row p of the block. -/
theorem klogit_apply (x0 : FVec Ideal S10000x24 .f32) (x1 : FVec Ideal S24x8 .f32) (x2 : FVec Ideal S1x8 .f32)
    (x3 : FVec Ideal S8x4 .f32) (x4 : FVec Ideal S1x4 .f32) (p : Fin 10000) (q : Fin 4) :
    addf (matmul dot_S10000x8_S8x4_S10000x4_1_0_0_1_n_n none
        (truncf .bf16 (maximumf (addf (matmul dot_S10000x24_S24x8_S10000x8_1_0_0_1_n_n none (truncf .bf16 x0 bitsLt_bf16_f32)
              (truncf .bf16 x1 bitsLt_bf16_f32) (constant S10000x8 .f32 0x00000000#32))
            (broadcastTo S10000x8 x2 broadcasts_S1x8_S10000x8))
          (broadcast S10000x8 (FloatOps.ofBits .f32 0x00000000#32))) bitsLt_bf16_f32)
        (truncf .bf16 x3 bitsLt_bf16_f32) (constant S10000x4 .f32 0x00000000#32))
      (broadcastTo S10000x4 x4 broadcasts_S1x4_S10000x4) (ix2 p q)
    = logit (fun i => x0 (ix2 p i)) (fun i k => x1 (ix2 i k)) (fun k => x2 (ix2 (0 : Fin 1) k))
        (fun k q => x3 (ix2 k q)) (fun q => x4 (ix2 (0 : Fin 1) q)) q := by
  rw [addf_apply, broadcastTo_1b_ab_apply]
  refine congrArg (fun t => t + x4 (ix2 (0 : Fin 1) q)) ?_
  refine ((Ideal.matmul_constant_zero_apply (φ₁ := .bf16) (φ₂ := .bf16) dot_S10000x8_S8x4_S10000x4_1_0_0_1_n_n none _ _ (ix2 p q)).trans (kdot2_sum _ _ p q)).trans ?_
  exact Finset.sum_congr rfl fun k _ => congrArg (fun t => t * x3 (ix2 k q)) (khid_apply x0 x1 x2 p k)

/-- The row maximum of the body, laid back over the row: at (p, k) it is the maximum of row p. -/
theorem kmax_apply (y : FVec Ideal S10000x4 .f32) (hφ : FTy.f32 = FTy.f32 ∨ FTy.f32 = FTy.bf16)
    (hm : (0xFF800000#32 : BitVec 32) = 0xFF800000#32) (p : Fin 10000) (k : Fin 4) :
    broadcastTo S10000x4 (shapeCast S10000x1
        (multiReduction .maximumf [1] S10000 y 0xFF800000#32 reduces_S10000x4_S10000 hφ hm)
        shapeCasts_S10000_S10000x1) broadcasts_S10000x1_S10000x4 (ix2 p k)
      = rowMax (fun k => y (ix2 p k)) :=
  (broadcastTo_a1_ab_apply _ _ p k).trans ((shapeCast_a_a1_apply _ _ p 0).trans
    (Cert.LibSliceSum.rowMax_negInf_apply y reduces_S10000x4_S10000 hφ hm p))

/-- The body's last steps for any array M that is constantly μ on row p: (y − M) − log Σ exp (y − M) at (p, q). -/
theorem klsm_core (y M : FVec Ideal S10000x4 .f32) (μ : EReal) (p : Fin 10000) (hM : ∀ k : Fin 4, M (ix2 p k) = μ)
    (hφ : FTy.f32 = FTy.f32 ∨ FTy.f32 = FTy.bf16) (hs : (0x00000000#32 : BitVec 32) = 0x00000000#32) (q : Fin 4) :
    subf (subf y M) (broadcastTo S10000x4 (log (shapeCast S10000x1
        (multiReduction .add [1] S10000 (exp (subf y M)) 0x00000000#32 reduces_S10000x4_S10000 hφ hs)
        shapeCasts_S10000_S10000x1)) broadcasts_S10000x1_S10000x4) (ix2 p q)
      = (y (ix2 p q) - μ) - Ideal.log (∑ k : Fin 4, Ideal.exp (y (ix2 p k) - μ)) := by
  have hsum : multiReduction .add [1] S10000 (exp (subf y M)) 0x00000000#32 reduces_S10000x4_S10000 hφ hs (ix1 p)
      = ∑ k : Fin 4, Ideal.exp (y (ix2 p k) - μ) :=
    (Cert.LibSliceSum.rowSum_zero_apply _ reduces_S10000x4_S10000 hφ hs p).trans
      (Finset.sum_congr rfl fun k _ => by
        show Ideal.exp (y (ix2 p k) - M (ix2 p k)) = _
        rw [hM k])
  rw [subf_apply, subf_apply, broadcastTo_a1_ab_apply]
  show _ - Ideal.log (shapeCast S10000x1 _ shapeCasts_S10000_S10000x1 (ix2 p (0 : Fin 1))) = _
  rw [shapeCast_a_a1_apply, hsum, hM q]

/-- The kernel body's result at (p, q): the log-softmax at q of the logits of row p of the block. -/
theorem pay_apply (x0 : Vec Ideal S10000x24 .f32) (x1 : Vec Ideal S24x8 .f32) (x2 : Vec Ideal S1x8 .f32)
    (x3 : Vec Ideal S8x4 .f32) (x4 : Vec Ideal S1x4 .f32) (p : Fin 10000) (q : Fin 4) :
    k9_pay1 (F := Ideal) x0 x1 x2 x3 x4 (ix2 p q)
      = lsm (logit (fun i => x0 (ix2 p i)) (fun i k => x1 (ix2 i k)) (fun k => x2 (ix2 (0 : Fin 1) k))
          (fun k q => x3 (ix2 k q)) (fun q => x4 (ix2 (0 : Fin 1) q))) q := by
  unfold k9_pay1
  simp only [shapeCast_self]
  refine (klsm_core _ _ _ p (fun k => kmax_apply _ _ _ p k) _ _ q).trans ?_
  exact congrArg (fun f => lsm f q) (funext fun k => klogit_apply x0 x1 x2 x3 x4 p k)

/-! ## The reference's head at an index (r, q) of the whole array -/

/-- With one contracted axis, the left operand's row coordinate is the result's. -/
private theorem rdot1_l0 (p : Fin 250000) (q : Fin 8) (k : Cert.ReferenceIdeal.dot_S250000x24_S24x8_S250000x8_1_0_0_1_n_n.contr.Idx) :
    (Cert.ReferenceIdeal.dot_S250000x24_S24x8_S250000x8_1_0_0_1_n_n.lhsIdx (ix2 p q) k 0).val = p.val := by
  unfold DotDims.lhsIdx
  rw [dif_neg (show ¬(0 : Fin Cert.ReferenceIdeal.S250000x24.rank) ∈ Cert.ReferenceIdeal.dot_S250000x24_S24x8_S250000x8_1_0_0_1_n_n.lhsBatch by decide),
    dif_pos (show (0 : Fin Cert.ReferenceIdeal.S250000x24.rank) ∈ Cert.ReferenceIdeal.dot_S250000x24_S24x8_S250000x8_1_0_0_1_n_n.lhsNonContracting by decide)]
  rfl
/-- … and the right operand's column coordinate is the result's. -/
private theorem rdot1_r1 (p : Fin 250000) (q : Fin 8) (k : Cert.ReferenceIdeal.dot_S250000x24_S24x8_S250000x8_1_0_0_1_n_n.contr.Idx) :
    (Cert.ReferenceIdeal.dot_S250000x24_S24x8_S250000x8_1_0_0_1_n_n.rhsIdx (ix2 p q) k 1).val = q.val := by
  unfold DotDims.rhsIdx
  rw [dif_neg (show ¬(1 : Fin Cert.ReferenceIdeal.S24x8.rank) ∈ Cert.ReferenceIdeal.dot_S250000x24_S24x8_S250000x8_1_0_0_1_n_n.rhsBatch by decide),
    dif_pos (show (1 : Fin Cert.ReferenceIdeal.S24x8.rank) ∈ Cert.ReferenceIdeal.dot_S250000x24_S24x8_S250000x8_1_0_0_1_n_n.rhsNonContracting by decide)]
  rfl
/-- The contraction of a [250000, 24] by a [24, 8] matrix at (p, q): the sum over j of A(p, j) · B(j, q). -/
theorem rdot1_sum (A : Cert.ReferenceIdeal.S250000x24.Idx → EReal) (B : Cert.ReferenceIdeal.S24x8.Idx → EReal) (p : Fin 250000) (q : Fin 8) :
    ∑ k : Cert.ReferenceIdeal.dot_S250000x24_S24x8_S250000x8_1_0_0_1_n_n.contr.Idx, A (Cert.ReferenceIdeal.dot_S250000x24_S24x8_S250000x8_1_0_0_1_n_n.lhsIdx (ix2 p q) k) * B (Cert.ReferenceIdeal.dot_S250000x24_S24x8_S250000x8_1_0_0_1_n_n.rhsIdx (ix2 p q) k)
      = ∑ j : Fin 24, A (ix2 p j) * B (ix2 j q) := by
  rw [← Equiv.sum_comp (contrEquiv1 Cert.ReferenceIdeal.dot_S250000x24_S24x8_S250000x8_1_0_0_1_n_n 24 rfl rfl).symm]
  refine Finset.sum_congr rfl fun j _ => ?_
  have hk := contrEquiv1_symm_val Cert.ReferenceIdeal.dot_S250000x24_S24x8_S250000x8_1_0_0_1_n_n 24 rfl rfl j
  have el : Cert.ReferenceIdeal.dot_S250000x24_S24x8_S250000x8_1_0_0_1_n_n.lhsIdx (ix2 p q) ((contrEquiv1 Cert.ReferenceIdeal.dot_S250000x24_S24x8_S250000x8_1_0_0_1_n_n 24 rfl rfl).symm j) = ix2 p j :=
    funext fun x => Fin.ext (by
      match x with
      | ⟨0, _⟩ => exact rdot1_l0 p q _
      | ⟨1, _⟩ => exact (Cert.ReferenceIdeal.dot_S250000x24_S24x8_S250000x8_1_0_0_1_n_n.lhsIdx_val_of_single rfl _ _).trans hk)
  have er : Cert.ReferenceIdeal.dot_S250000x24_S24x8_S250000x8_1_0_0_1_n_n.rhsIdx (ix2 p q) ((contrEquiv1 Cert.ReferenceIdeal.dot_S250000x24_S24x8_S250000x8_1_0_0_1_n_n 24 rfl rfl).symm j) = ix2 j q :=
    funext fun x => Fin.ext (by
      match x with
      | ⟨0, _⟩ => exact (Cert.ReferenceIdeal.dot_S250000x24_S24x8_S250000x8_1_0_0_1_n_n.rhsIdx_val_of_single rfl _ _).trans hk
      | ⟨1, _⟩ => exact rdot1_r1 p q _)
  rw [el, er]

/-- With one contracted axis, the left operand's row coordinate is the result's. -/
private theorem rdot2_l0 (p : Fin 250000) (q : Fin 4) (k : Cert.ReferenceIdeal.dot_S250000x8_S8x4_S250000x4_1_0_0_1_n_n.contr.Idx) :
    (Cert.ReferenceIdeal.dot_S250000x8_S8x4_S250000x4_1_0_0_1_n_n.lhsIdx (ix2 p q) k 0).val = p.val := by
  unfold DotDims.lhsIdx
  rw [dif_neg (show ¬(0 : Fin Cert.ReferenceIdeal.S250000x8.rank) ∈ Cert.ReferenceIdeal.dot_S250000x8_S8x4_S250000x4_1_0_0_1_n_n.lhsBatch by decide),
    dif_pos (show (0 : Fin Cert.ReferenceIdeal.S250000x8.rank) ∈ Cert.ReferenceIdeal.dot_S250000x8_S8x4_S250000x4_1_0_0_1_n_n.lhsNonContracting by decide)]
  rfl
/-- … and the right operand's column coordinate is the result's. -/
private theorem rdot2_r1 (p : Fin 250000) (q : Fin 4) (k : Cert.ReferenceIdeal.dot_S250000x8_S8x4_S250000x4_1_0_0_1_n_n.contr.Idx) :
    (Cert.ReferenceIdeal.dot_S250000x8_S8x4_S250000x4_1_0_0_1_n_n.rhsIdx (ix2 p q) k 1).val = q.val := by
  unfold DotDims.rhsIdx
  rw [dif_neg (show ¬(1 : Fin Cert.ReferenceIdeal.S8x4.rank) ∈ Cert.ReferenceIdeal.dot_S250000x8_S8x4_S250000x4_1_0_0_1_n_n.rhsBatch by decide),
    dif_pos (show (1 : Fin Cert.ReferenceIdeal.S8x4.rank) ∈ Cert.ReferenceIdeal.dot_S250000x8_S8x4_S250000x4_1_0_0_1_n_n.rhsNonContracting by decide)]
  rfl
/-- The contraction of a [250000, 8] by a [8, 4] matrix at (p, q): the sum over j of A(p, j) · B(j, q). -/
theorem rdot2_sum (A : Cert.ReferenceIdeal.S250000x8.Idx → EReal) (B : Cert.ReferenceIdeal.S8x4.Idx → EReal) (p : Fin 250000) (q : Fin 4) :
    ∑ k : Cert.ReferenceIdeal.dot_S250000x8_S8x4_S250000x4_1_0_0_1_n_n.contr.Idx, A (Cert.ReferenceIdeal.dot_S250000x8_S8x4_S250000x4_1_0_0_1_n_n.lhsIdx (ix2 p q) k) * B (Cert.ReferenceIdeal.dot_S250000x8_S8x4_S250000x4_1_0_0_1_n_n.rhsIdx (ix2 p q) k)
      = ∑ j : Fin 8, A (ix2 p j) * B (ix2 j q) := by
  rw [← Equiv.sum_comp (contrEquiv1 Cert.ReferenceIdeal.dot_S250000x8_S8x4_S250000x4_1_0_0_1_n_n 8 rfl rfl).symm]
  refine Finset.sum_congr rfl fun j _ => ?_
  have hk := contrEquiv1_symm_val Cert.ReferenceIdeal.dot_S250000x8_S8x4_S250000x4_1_0_0_1_n_n 8 rfl rfl j
  have el : Cert.ReferenceIdeal.dot_S250000x8_S8x4_S250000x4_1_0_0_1_n_n.lhsIdx (ix2 p q) ((contrEquiv1 Cert.ReferenceIdeal.dot_S250000x8_S8x4_S250000x4_1_0_0_1_n_n 8 rfl rfl).symm j) = ix2 p j :=
    funext fun x => Fin.ext (by
      match x with
      | ⟨0, _⟩ => exact rdot2_l0 p q _
      | ⟨1, _⟩ => exact (Cert.ReferenceIdeal.dot_S250000x8_S8x4_S250000x4_1_0_0_1_n_n.lhsIdx_val_of_single rfl _ _).trans hk)
  have er : Cert.ReferenceIdeal.dot_S250000x8_S8x4_S250000x4_1_0_0_1_n_n.rhsIdx (ix2 p q) ((contrEquiv1 Cert.ReferenceIdeal.dot_S250000x8_S8x4_S250000x4_1_0_0_1_n_n 8 rfl rfl).symm j) = ix2 j q :=
    funext fun x => Fin.ext (by
      match x with
      | ⟨0, _⟩ => exact (Cert.ReferenceIdeal.dot_S250000x8_S8x4_S250000x4_1_0_0_1_n_n.rhsIdx_val_of_single rfl _ _).trans hk
      | ⟨1, _⟩ => exact rdot2_r1 p q _)
  rw [el, er]

/-- A scalar spread over a vector reads the scalar. -/
theorem bc_scalar {α : Type} (x : Cert.ReferenceIdeal.S_.Idx → α) (i : Cert.ReferenceIdeal.S250000.Idx) :
    broadcastInDim Cert.ReferenceIdeal.S250000 ![] Cert.ReferenceIdeal.Facts₀.bcast_S_S250000 x i = x ix0 :=
  broadcastInDim_apply _ Cert.ReferenceIdeal.Facts₀.bcast_S_S250000 x i ix0 (fun a => a.elim0)
/-- A scalar spread over the [250000, 8] array reads the scalar. -/
theorem bc_scalar8 {α : Type} (x : Cert.ReferenceIdeal.S_.Idx → α) (i : Cert.ReferenceIdeal.S250000x8.Idx) :
    broadcastInDim Cert.ReferenceIdeal.S250000x8 ![] Cert.ReferenceIdeal.Facts₀.bcast_S_S250000x8 x i = x ix0 :=
  broadcastInDim_apply _ Cert.ReferenceIdeal.Facts₀.bcast_S_S250000x8 x i ix0 (fun a => a.elim0)
/-- A vector as a column: (r, u) reads entry r. -/
theorem bc_vec {α : Type} (x : Cert.ReferenceIdeal.S250000.Idx → α) (r : Fin 250000) (u : Fin 1) :
    broadcastInDim Cert.ReferenceIdeal.S250000x1 ![0] Cert.ReferenceIdeal.Facts₀.bcast_S250000_S250000x1_0 x (ix2 r u) = x (ix1 r) :=
  broadcastInDim_apply _ Cert.ReferenceIdeal.Facts₀.bcast_S250000_S250000x1_0 x (ix2 r u) (ix1 r) (fun a => match a with
    | ⟨0, _⟩ => by show r.val = if (250000 : Nat) = 1 then 0 else r.val; rw [if_neg (by decide)])
/-- A column spread over four columns: (r, q) reads the column's entry r. -/
theorem bc_col {α : Type} (x : Cert.ReferenceIdeal.S250000x1.Idx → α) (r : Fin 250000) (q : Fin 4) :
    broadcastInDim Cert.ReferenceIdeal.S250000x4 ![0, 1] Cert.ReferenceIdeal.Facts₀.bcast_S250000x1_S250000x4_0_1 x (ix2 r q) = x (ix2 r (0 : Fin 1)) :=
  broadcastInDim_apply _ Cert.ReferenceIdeal.Facts₀.bcast_S250000x1_S250000x4_0_1 x (ix2 r q) (ix2 r (0 : Fin 1)) (fun a => match a with
    | ⟨0, _⟩ => by show r.val = if (250000 : Nat) = 1 then 0 else r.val; rw [if_neg (by decide)]
    | ⟨1, _⟩ => by show 0 = if (1 : Nat) = 1 then 0 else q.val; rw [if_pos rfl])
/-- A row of eight spread over the rows: (r, k) reads the row's entry k. -/
theorem bc_row8 {α : Type} (x : Cert.ReferenceIdeal.S1x8.Idx → α) (r : Fin 250000) (k : Fin 8) :
    broadcastInDim Cert.ReferenceIdeal.S250000x8 ![0, 1] Cert.ReferenceIdeal.Facts₀.bcast_S1x8_S250000x8_0_1 x (ix2 r k) = x (ix2 (0 : Fin 1) k) :=
  broadcastInDim_apply _ Cert.ReferenceIdeal.Facts₀.bcast_S1x8_S250000x8_0_1 x (ix2 r k) (ix2 (0 : Fin 1) k) (fun a => match a with
    | ⟨0, _⟩ => by show 0 = if (1 : Nat) = 1 then 0 else r.val; rw [if_pos rfl]
    | ⟨1, _⟩ => by show k.val = if (8 : Nat) = 1 then 0 else k.val; rw [if_neg (by decide)])
/-- A row of four spread over the rows: (r, q) reads the row's entry q. -/
theorem bc_row4 {α : Type} (x : Cert.ReferenceIdeal.S1x4.Idx → α) (r : Fin 250000) (q : Fin 4) :
    broadcastInDim Cert.ReferenceIdeal.S250000x4 ![0, 1] Cert.ReferenceIdeal.Facts₀.bcast_S1x4_S250000x4_0_1 x (ix2 r q) = x (ix2 (0 : Fin 1) q) :=
  broadcastInDim_apply _ Cert.ReferenceIdeal.Facts₀.bcast_S1x4_S250000x4_0_1 x (ix2 r q) (ix2 (0 : Fin 1) q) (fun a => match a with
    | ⟨0, _⟩ => by show 0 = if (1 : Nat) = 1 then 0 else r.val; rw [if_pos rfl]
    | ⟨1, _⟩ => by show q.val = if (4 : Nat) = 1 then 0 else q.val; rw [if_neg (by decide)])

/-- The reference's hidden layer at (r, j): hidden unit j of row r. -/
theorem rhid_apply (g : FVec Ideal Cert.ReferenceIdeal.S250000x24 .f32) (w1 : FVec Ideal Cert.ReferenceIdeal.S24x8 .f32) (b1 : FVec Ideal Cert.ReferenceIdeal.S1x8 .f32)
    (r : Fin 250000) (j : Fin 8) :
    maximumf (addf (Host.dotGeneral Cert.ReferenceIdeal.dot_S250000x24_S24x8_S250000x8_1_0_0_1_n_n none g w1)
          (broadcastInDim Cert.ReferenceIdeal.S250000x8 ![0, 1] Cert.ReferenceIdeal.Facts₀.bcast_S1x8_S250000x8_0_1 b1))
        (broadcastInDim Cert.ReferenceIdeal.S250000x8 ![] Cert.ReferenceIdeal.Facts₀.bcast_S_S250000x8 (constant (F := Ideal) Cert.ReferenceIdeal.S_ .f32 0x00000000#32)) (ix2 r j)
      = hid (fun i => g (ix2 r i)) (fun i k => w1 (ix2 i k)) (fun k => b1 (ix2 (0 : Fin 1) k)) j := by
  rw [maximumf_apply, addf_apply, bc_row8, bc_scalar8, constant_apply, Ideal.ofBits_zero_f32]
  refine congrArg (fun t => max (t + b1 (ix2 (0 : Fin 1) j)) 0) ?_
  exact (Ideal.dotGeneral_apply (φ₁ := .f32) (φ₂ := .f32) Cert.ReferenceIdeal.dot_S250000x24_S24x8_S250000x8_1_0_0_1_n_n none .single g w1 (ix2 r j)).trans (rdot1_sum _ _ r j)

/-- The reference's logits at (r, q): logit q of row r. -/
theorem rlogit_apply (g : FVec Ideal Cert.ReferenceIdeal.S250000x24 .f32) (w1 : FVec Ideal Cert.ReferenceIdeal.S24x8 .f32) (b1 : FVec Ideal Cert.ReferenceIdeal.S1x8 .f32)
    (w2 : FVec Ideal Cert.ReferenceIdeal.S8x4 .f32) (b2 : FVec Ideal Cert.ReferenceIdeal.S1x4 .f32) (r : Fin 250000) (q : Fin 4) :
    addf (Host.dotGeneral Cert.ReferenceIdeal.dot_S250000x8_S8x4_S250000x4_1_0_0_1_n_n none
        (maximumf (addf (Host.dotGeneral Cert.ReferenceIdeal.dot_S250000x24_S24x8_S250000x8_1_0_0_1_n_n none g w1)
            (broadcastInDim Cert.ReferenceIdeal.S250000x8 ![0, 1] Cert.ReferenceIdeal.Facts₀.bcast_S1x8_S250000x8_0_1 b1))
          (broadcastInDim Cert.ReferenceIdeal.S250000x8 ![] Cert.ReferenceIdeal.Facts₀.bcast_S_S250000x8 (constant (F := Ideal) Cert.ReferenceIdeal.S_ .f32 0x00000000#32))) w2)
      (broadcastInDim Cert.ReferenceIdeal.S250000x4 ![0, 1] Cert.ReferenceIdeal.Facts₀.bcast_S1x4_S250000x4_0_1 b2) (ix2 r q)
    = logit (fun i => g (ix2 r i)) (fun i k => w1 (ix2 i k)) (fun k => b1 (ix2 (0 : Fin 1) k))
        (fun k q => w2 (ix2 k q)) (fun q => b2 (ix2 (0 : Fin 1) q)) q := by
  rw [addf_apply, bc_row4]
  refine congrArg (fun t => t + b2 (ix2 (0 : Fin 1) q)) ?_
  refine ((Ideal.dotGeneral_apply (φ₁ := .f32) (φ₂ := .f32) Cert.ReferenceIdeal.dot_S250000x8_S8x4_S250000x4_1_0_0_1_n_n none .single _ w2 (ix2 r q)).trans (rdot2_sum _ _ r q)).trans ?_
  exact Finset.sum_congr rfl fun k _ => congrArg (fun t => t * w2 (ix2 k q)) (rhid_apply g w1 b1 r k)

/-- The reference's row maximum (a further maximum against −∞ changes nothing), laid back over the row. -/
theorem rmax_apply (y : FVec Ideal Cert.ReferenceIdeal.S250000x4 .f32) (r : Fin 250000) (k : Fin 4) :
    broadcastInDim Cert.ReferenceIdeal.S250000x4 ![0, 1] Cert.ReferenceIdeal.Facts₀.bcast_S250000x1_S250000x4_0_1
      (broadcastInDim Cert.ReferenceIdeal.S250000x1 ![0] Cert.ReferenceIdeal.Facts₀.bcast_S250000_S250000x1_0
        (maximumf (broadcastInDim Cert.ReferenceIdeal.S250000 ![] Cert.ReferenceIdeal.Facts₀.bcast_S_S250000 (constant (F := Ideal) Cert.ReferenceIdeal.S_ .f32 0xFF800000#32))
          (Host.reduce FloatOps.maximumf y (constant (F := Ideal) Cert.ReferenceIdeal.S_ .f32 0xFF800000#32)
            Cert.ReferenceIdeal.Facts₀.reducesTo_S250000x4_S250000_d1 Cert.ReferenceIdeal.Facts₀.h_S_))) (ix2 r k)
      = rowMax (fun k => y (ix2 r k)) := by
  rw [bc_col, bc_vec, maximumf_apply, bc_scalar, constant_apply,
    Cert.LibAxisReduce.hostRowMax_apply y _ Cert.ReferenceIdeal.Facts₀.reducesTo_S250000x4_S250000_d1 (by decide) Cert.ReferenceIdeal.Facts₀.h_S_ r]
  exact Cert.LibAxisReduce.max_start_fold _ _ _

/-- The reference's last steps for any array M that is constantly μ on row r. -/
theorem rlsm_core (y M : FVec Ideal Cert.ReferenceIdeal.S250000x4 .f32) (μ : EReal) (r : Fin 250000) (hM : ∀ k : Fin 4, M (ix2 r k) = μ)
    (q : Fin 4) :
    subf (subf y M) (broadcastInDim Cert.ReferenceIdeal.S250000x4 ![0, 1] Cert.ReferenceIdeal.Facts₀.bcast_S250000x1_S250000x4_0_1
      (Host.log (broadcastInDim Cert.ReferenceIdeal.S250000x1 ![0] Cert.ReferenceIdeal.Facts₀.bcast_S250000_S250000x1_0
        (Host.reduceAdd (Host.exp (subf y M)) (constant (F := Ideal) Cert.ReferenceIdeal.S_ .f32 0x00000000#32)
          Cert.ReferenceIdeal.Facts₀.reducesTo_S250000x4_S250000_d1 Cert.ReferenceIdeal.Facts₀.h_S_)))) (ix2 r q)
      = (y (ix2 r q) - μ) - Ideal.log (∑ k : Fin 4, Ideal.exp (y (ix2 r k) - μ)) := by
  have hsum : Host.reduceAdd (Host.exp (subf y M)) (constant (F := Ideal) Cert.ReferenceIdeal.S_ .f32 0x00000000#32)
        Cert.ReferenceIdeal.Facts₀.reducesTo_S250000x4_S250000_d1 Cert.ReferenceIdeal.Facts₀.h_S_ (ix1 r)
      = ∑ k : Fin 4, Ideal.exp (y (ix2 r k) - μ) := by
    rw [Cert.LibAxisReduce.hostRowSum_apply _ _ Cert.ReferenceIdeal.Facts₀.reducesTo_S250000x4_S250000_d1 (by decide) Cert.ReferenceIdeal.Facts₀.h_S_ r,
      constant_apply, Ideal.ofBits_zero_f32, zero_add]
    exact Finset.sum_congr rfl fun k _ => by
      show Ideal.exp (y (ix2 r k) - M (ix2 r k)) = _
      rw [hM k]
  rw [subf_apply, subf_apply, bc_col]
  simp only [Host.log, Ideal.hostUnary_log_def]
  rw [bc_vec, hsum, hM q]

/-- The reference's row-wise log-softmax at (r, q): the log-softmax at q of row r. -/
theorem rlsm_apply (y : FVec Ideal Cert.ReferenceIdeal.S250000x4 .f32) (r : Fin 250000) (q : Fin 4) :
    Cert.Net.logSoftmax (F := Ideal) y (ix2 r q) = lsm (fun k => y (ix2 r k)) q := by
  unfold Cert.Net.logSoftmax
  exact rlsm_core y _ _ r (fun k => rmax_apply y r k) q

/-- The reference's head at (r, q): the log-softmax at q of the logits of row r of g. -/
theorem head_apply (g : Cert.Net.FA Ideal Cert.ReferenceIdeal.S250000x24) (w1 : Cert.Net.FA Ideal Cert.ReferenceIdeal.S24x8) (b1 : Cert.Net.FA Ideal Cert.ReferenceIdeal.S1x8)
    (w2 : Cert.Net.FA Ideal Cert.ReferenceIdeal.S8x4) (b2 : Cert.Net.FA Ideal Cert.ReferenceIdeal.S1x4) (r : Fin 250000) (q : Fin 4) :
    Cert.Net.head (F := Ideal) g w1 b1 w2 b2 (ix2 r q)
      = lsm (logit (fun i => g (ix2 r i)) (fun i k => w1 (ix2 i k)) (fun k => b1 (ix2 (0 : Fin 1) k))
          (fun k q => w2 (ix2 k q)) (fun q => b2 (ix2 (0 : Fin 1) q))) q := by
  unfold Cert.Net.head
  exact (rlsm_apply _ r q).trans (congrArg (fun f => lsm f q) (funext fun k => rlogit_apply g w1 b1 w2 b2 r k))

/-! ## From the blocks to the array -/

/-- The offsets (0, 0), however spelt. -/
theorem zero_offsets : (![0, 0] : Fin 2 → Nat) = fun _ => 0 := funext fun a => by fin_cases a <;> rfl

/-- The index maps over the 25 grid points: the feature window and the output window sit at block row t, column block 0;
    the two weight matrices and the two bias rows are one block each. -/
theorem block_indices : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

/-- Row p of block t of the feature array is row 10000·t + p of the array. -/
theorem blk0_apply (t : Fin cfg9.N) (p : Fin 10000) (i : Fin 24) (hr : t.val * 10000 + p.val < 250000) :
    iblk9 (F := Ideal) V c 0 t (ix2 p i) = V c main_v61 (ix2 (⟨t.val * 10000 + p.val, hr⟩ : Fin 250000) i) := by
  obtain ⟨e0, e1, -⟩ := block_indices t
  have h : ((cfg9.win 0).blk t).view.emb (ix2 p i) = ix2 (⟨t.val * 10000 + p.val, hr⟩ : Fin 250000) i := by
    funext x; apply Fin.ext
    match x with
    | ⟨0, _⟩ => show win9_0.index t (0 : Fin 2) * 10000 + 1 * p.val = t.val * 10000 + p.val; omega
    | ⟨1, _⟩ => show win9_0.index t (1 : Fin 2) * 24 + 1 * i.val = i.val; omega
  show V c main_v61 (((cfg9.win 0).blk t).view.emb (ix2 p i)) = _
  rw [h]

/-- Window 1's block at any point is its whole array: entry (i, k) of the block is entry (i, k) of the array. -/
theorem blk1_apply (t : Fin cfg9.N) (i : Fin 24) (k : Fin 8) :
    iblk9 (F := Ideal) V c 1 t (ix2 i k) = V c main_v62 (ix2 i k) := by
  obtain ⟨-, -, e0, e1, -, -, -, -, -, -, -, -⟩ := block_indices t
  have h : ((cfg9.win 1).blk t).view.emb (ix2 i k) = ix2 i k := by
    funext x; apply Fin.ext
    match x with
    | ⟨0, _⟩ => show win9_1.index t (0 : Fin 2) * 24 + 1 * i.val = i.val; omega
    | ⟨1, _⟩ => show win9_1.index t (1 : Fin 2) * 8 + 1 * k.val = k.val; omega
  show V c main_v62 (((cfg9.win 1).blk t).view.emb (ix2 i k)) = _
  rw [h]

/-- Window 2's block at any point is its whole array: entry (u, k) of the block is entry (u, k) of the array. -/
theorem blk2_apply (t : Fin cfg9.N) (u : Fin 1) (k : Fin 8) :
    iblk9 (F := Ideal) V c 2 t (ix2 u k) = V c main_v64 (ix2 u k) := by
  obtain ⟨-, -, -, -, e0, e1, -, -, -, -, -, -⟩ := block_indices t
  have h : ((cfg9.win 2).blk t).view.emb (ix2 u k) = ix2 u k := by
    funext x; apply Fin.ext
    match x with
    | ⟨0, _⟩ => show win9_2.index t (0 : Fin 2) * 1 + 1 * u.val = u.val; omega
    | ⟨1, _⟩ => show win9_2.index t (1 : Fin 2) * 8 + 1 * k.val = k.val; omega
  show V c main_v64 (((cfg9.win 2).blk t).view.emb (ix2 u k)) = _
  rw [h]

/-- Window 3's block at any point is its whole array: entry (k, q) of the block is entry (k, q) of the array. -/
theorem blk3_apply (t : Fin cfg9.N) (k : Fin 8) (q : Fin 4) :
    iblk9 (F := Ideal) V c 3 t (ix2 k q) = V c main_v63 (ix2 k q) := by
  obtain ⟨-, -, -, -, -, -, e0, e1, -, -, -, -⟩ := block_indices t
  have h : ((cfg9.win 3).blk t).view.emb (ix2 k q) = ix2 k q := by
    funext x; apply Fin.ext
    match x with
    | ⟨0, _⟩ => show win9_3.index t (0 : Fin 2) * 8 + 1 * k.val = k.val; omega
    | ⟨1, _⟩ => show win9_3.index t (1 : Fin 2) * 4 + 1 * q.val = q.val; omega
  show V c main_v63 (((cfg9.win 3).blk t).view.emb (ix2 k q)) = _
  rw [h]

/-- Window 4's block at any point is its whole array: entry (u, q) of the block is entry (u, q) of the array. -/
theorem blk4_apply (t : Fin cfg9.N) (u : Fin 1) (q : Fin 4) :
    iblk9 (F := Ideal) V c 4 t (ix2 u q) = V c main_v65 (ix2 u q) := by
  obtain ⟨-, -, -, -, -, -, -, -, e0, e1, -, -⟩ := block_indices t
  have h : ((cfg9.win 4).blk t).view.emb (ix2 u q) = ix2 u q := by
    funext x; apply Fin.ext
    match x with
    | ⟨0, _⟩ => show win9_4.index t (0 : Fin 2) * 1 + 1 * u.val = u.val; omega
    | ⟨1, _⟩ => show win9_4.index t (1 : Fin 2) * 4 + 1 * q.val = q.val; omega
  show V c main_v65 (((cfg9.win 4).blk t).view.emb (ix2 u q)) = _
  rw [h]

/-- Grid point t leaves, in rows 10000·t … 10000·t + 9999 of the output, the head of the same rows of the feature array
    (with the two weight matrices and the two bias rows whole). -/
theorem rows_written_eq (t : Fin cfg9.N) :
    (dat9 (F := Ideal) V c).flushed 5 t = ((cfg9.win 5).blk t).view.read (Elt Ideal)
      (Cert.Net.head (F := Ideal) (V c main_v61) (V c main_v62) (V c main_v64) (V c main_v63) (V c main_v65)) := by
  show (cfg9.win 5).cut (grid9.coords t) ((dat9 (F := Ideal) V c).after 5 t) = _
  rw [after9_5]
  unfold out9_5
  rw [View.canon_unit_zero zero_offsets]
  simp only [View.ld_unit_zero (S := S10000x24) zero_offsets, View.ld_unit_zero (S := S24x8) zero_offsets, View.ld_unit_zero (S := S1x8) zero_offsets,
    View.ld_unit_zero (S := S8x4) zero_offsets, View.ld_unit_zero (S := S1x4) zero_offsets]
  funext j
  obtain ⟨p, q, rfl⟩ : ∃ (p : Fin 10000) (q : Fin 4), j = ix2 p q := ⟨j 0, j 1, eq_ix2 j⟩
  obtain ⟨-, -, -, -, -, -, -, -, -, -, e10, e11⟩ := block_indices t
  have hr : t.val * 10000 + p.val < 250000 := by
    have ht : t.val < 25 := t.isLt
    omega
  have hemb : ((cfg9.win 5).blk t).view.emb (ix2 p q) = ix2 (⟨t.val * 10000 + p.val, hr⟩ : Fin 250000) q := by
    funext x; apply Fin.ext
    match x with
    | ⟨0, _⟩ => show win9_5.index t (0 : Fin 2) * 10000 + 1 * p.val = t.val * 10000 + p.val; omega
    | ⟨1, _⟩ => show win9_5.index t (1 : Fin 2) * 4 + 1 * q.val = q.val; omega
  show k9_pay1 (F := Ideal) (iblk9 V c 0 t) (iblk9 V c 1 t) (iblk9 V c 2 t) (iblk9 V c 3 t) (iblk9 V c 4 t) (ix2 p q)
    = Cert.Net.head (F := Ideal) (V c main_v61) (V c main_v62) (V c main_v64) (V c main_v63) (V c main_v65)
        (((cfg9.win 5).blk t).view.emb (ix2 p q))
  rw [hemb]
  refine (pay_apply (iblk9 V c 0 t) (iblk9 V c 1 t) (iblk9 V c 2 t) (iblk9 V c 3 t) (iblk9 V c 4 t) p q).trans ?_
  refine Eq.trans ?_ (head_apply (V c main_v61) (V c main_v62) (V c main_v64) (V c main_v63) (V c main_v65) ⟨_, hr⟩ q).symm
  have hA : (fun i => iblk9 (F := Ideal) V c 0 t (ix2 p i))
      = fun i => V c main_v61 (ix2 (⟨t.val * 10000 + p.val, hr⟩ : Fin 250000) i) :=
    funext fun i => blk0_apply V c t p i hr
  have hB : (fun i k => iblk9 (F := Ideal) V c 1 t (ix2 i k)) = fun (i : Fin 24) (k : Fin 8) => V c main_v62 (ix2 i k) :=
    funext fun i => funext fun k => blk1_apply V c t i k
  have hC : (fun k => iblk9 (F := Ideal) V c 2 t (ix2 (0 : Fin 1) k)) = fun (k : Fin 8) => V c main_v64 (ix2 (0 : Fin 1) k) :=
    funext fun k => blk2_apply V c t 0 k
  have hD : (fun k q => iblk9 (F := Ideal) V c 3 t (ix2 k q)) = fun (k : Fin 8) (q : Fin 4) => V c main_v63 (ix2 k q) :=
    funext fun k => funext fun q => blk3_apply V c t k q
  have hE : (fun q => iblk9 (F := Ideal) V c 4 t (ix2 (0 : Fin 1) q)) = fun (q : Fin 4) => V c main_v65 (ix2 (0 : Fin 1) q) :=
    funext fun q => blk4_apply V c t 0 q
  rw [hA, hB, hC, hD, hE]

/-- A row and column of the array lie in point t's block iff the row is among the 10000 rows from 10000·t on. -/
theorem mem_rows_iff (t : Fin cfg9.N) (i : S250000x4.Idx) :
    i ∈ ((cfg9.win 5).blk t).view.set ↔ ∀ a : Fin 2, win9_5.index t a * S10000x4.size a ≤ (i a).val
      ∧ (i a).val < win9_5.index t a * S10000x4.size a + S10000x4.size a := by
  show i ∈ ((View.whole main_v66).slice (win9_5.rect t)).set ↔ _
  rw [View.set_slice_whole, Rect.mem_set_unit]
  exact Iff.rfl

/-- Every entry of the array is written back by some point: row r by point r / 10000. -/
theorem all_rows_written (i : S250000x4.Idx) :
    ∃ t : Fin cfg9.N, (cfg9.win 5).flush t = true ∧ i ∈ ((cfg9.win 5).blk t).view.set := by
  have hi0 : (i 0).val < 250000 := (i 0).isLt
  have hi1 : (i 1).val < 4 := (i 1).isLt
  obtain ⟨t, ht⟩ : ∃ t : Fin cfg9.N, t.val = (i 0).val / 10000 :=
    ⟨⟨(i 0).val / 10000, by show (i 0).val / 10000 < 25; omega⟩, rfl⟩
  refine ⟨t, flush9_5 t, ?_⟩
  rw [mem_rows_iff]
  obtain ⟨-, -, -, -, -, -, -, -, -, -, e10, e11⟩ := block_indices t
  intro a
  match a with
  | ⟨0, _⟩ =>
    show win9_5.index t (0 : Fin 2) * 10000 ≤ (i 0).val ∧ (i 0).val < win9_5.index t (0 : Fin 2) * 10000 + 10000
    omega
  | ⟨1, _⟩ =>
    show win9_5.index t (1 : Fin 2) * 4 ≤ (i 1).val ∧ (i 1).val < win9_5.index t (1 : Fin 2) * 4 + 4
    omega

/-- The array the head launch leaves is the head (two linear maps, the rectifier between them, the row-wise log-softmax)
    of the five arrays as the launch finds them, whatever they hold. -/
theorem final : (dat9 (F := Ideal) V c).arrAt 5 cfg9.N = Cert.Net.head (F := Ideal) (V c main_v61) (V c main_v62) (V c main_v64) (V c main_v63) (V c main_v65) :=
  (dat9 (F := Ideal) V c).arrAt_eq_of_cover 5 _ (fun t _ => rows_written_eq V c t) all_rows_written

end Cert.KernelIdeal.Reg9
end
-- ==== Proof.Chain.lean ====
/-
  The idealized kernel program computes the network.

  The kernel program runs ten launches among host stretches. Launch by launch the output buffer is read at the
  boundary after it: the array a launch leaves is the stage of the specification applied to the launch's input
  arrays as it finds them (the per-launch theorems), those input arrays are what the preceding host stretch wrote
  (a transposed weight, a bias reshaped to one row, the gathered rows, the segment sum) from buffers that the
  earlier launches left, and every argument and both rows of the edge list are still what they were at the start.
  Composing the ten steps, the result buffer ends holding the network of the argument arrays, every bias laid
  out as a row by a reshape.
-/
import proofs.«175860_j29935922053254_2_alg».proof.Proof.Keep
import proofs.«175860_j29935922053254_2_alg».proof.Proof.Spec
import Idealize.ShloMosaic.PureOps.Ideal.Laws
import proofs.«175860_j29935922053254_2_alg».proof.Proof.Rows
import proofs.«175860_j29935922053254_2_alg».proof.Proof.Gen.ReferenceIdeal
import proofs.«175860_j29935922053254_2_alg».proof.Proof.Reg0
import proofs.«175860_j29935922053254_2_alg».proof.Proof.Reg1
import proofs.«175860_j29935922053254_2_alg».proof.Proof.Reg2
import proofs.«175860_j29935922053254_2_alg».proof.Proof.Reg3
import proofs.«175860_j29935922053254_2_alg».proof.Proof.Reg4
import proofs.«175860_j29935922053254_2_alg».proof.Proof.Reg5
import proofs.«175860_j29935922053254_2_alg».proof.Proof.Reg6
import proofs.«175860_j29935922053254_2_alg».proof.Proof.Reg7
import proofs.«175860_j29935922053254_2_alg».proof.Proof.Reg8
import proofs.«175860_j29935922053254_2_alg».proof.Proof.Reg9
import Idealize.ShloMosaic.Lib.StableHlo.Run

set_option maxRecDepth 16384
-- reading a host stretch rewrites once per (operation, buffer) pair and decides each inequality of references
set_option maxHeartbeats 4000000

noncomputable section

namespace Cert.KernelIdeal.Chain

open Cert.KernelIdeal Cert.KernelIdeal.Gen Cert.KernelIdeal.Keep
open Idealize.ShloMosaic Idealize.ShloMosaic.TcCoe Idealize.SL.Sem Idealize.ShloMosaic.StableHlo
open Cert.Net (FA IA)
open Cert.KernelIdeal.Rows

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

/-! ## The stage values, as functions of the argument arrays -/

/-- The sources of the edges. -/
def SRC : IA Ideal S12000000 := Cert.Net.srcVec (arg m c main_arg1)
/-- The destinations of the edges. -/
def DST : IA Ideal S12000000 := Cert.Net.dstVec (arg m c main_arg1)

/-- Layer 1, the node map. -/
def HX1 : FA Ideal S1500000x9 :=
  Cert.Net.lin1 (arg m c main_arg0) (transpose S1x9 [1, 0] (arg m c main_arg3) transposes_S9x1_S1x9_1_0) (rowS9 (arg m c main_arg4))
/-- Layer 1, the messages. -/
def MS1 : FA Ideal S12000000x9 :=
  Cert.Net.edge (Cert.Net.take (HX1 m c) (Cert.Net.srcIdx (SRC m c))) (arg m c main_arg2)
    (transpose S2x9 [1, 0] (arg m c main_arg5) transposes_S9x2_S2x9_1_0) (rowS9 (arg m c main_arg6))
/-- Layer 1, the output. -/
def H1 : FA Ideal S1500000x9 :=
  Cert.Net.relu9 (Cert.Net.lin9 (Cert.Net.segsum (Cert.Net.dstIdx (DST m c)) (MS1 m c))
    (transpose S9x9 [1, 0] (arg m c main_arg7) transposes_S9x9_S9x9_1_0) (rowS9 (arg m c main_arg8)))

/-- Layer 2, the node map. -/
def HX2 : FA Ideal S1500000x9 :=
  Cert.Net.lin9 (H1 m c) (transpose S9x9 [1, 0] (arg m c main_arg9) transposes_S9x9_S9x9_1_0) (rowS9 (arg m c main_arg10))
/-- Layer 2, the messages. -/
def MS2 : FA Ideal S12000000x9 :=
  Cert.Net.edge (Cert.Net.take (HX2 m c) (Cert.Net.srcIdx (SRC m c))) (arg m c main_arg2)
    (transpose S2x9 [1, 0] (arg m c main_arg11) transposes_S9x2_S2x9_1_0) (rowS9 (arg m c main_arg12))
/-- Layer 2, the output. -/
def H2 : FA Ideal S1500000x9 :=
  Cert.Net.relu9 (Cert.Net.lin9 (Cert.Net.segsum (Cert.Net.dstIdx (DST m c)) (MS2 m c))
    (transpose S9x9 [1, 0] (arg m c main_arg13) transposes_S9x9_S9x9_1_0) (rowS9 (arg m c main_arg14)))

/-- Layer 3, the node map. -/
def HX3 : FA Ideal S1500000x9 :=
  Cert.Net.lin9 (H2 m c) (transpose S9x9 [1, 0] (arg m c main_arg15) transposes_S9x9_S9x9_1_0) (rowS9 (arg m c main_arg16))
/-- Layer 3, the messages. -/
def MS3 : FA Ideal S12000000x9 :=
  Cert.Net.edge (Cert.Net.take (HX3 m c) (Cert.Net.srcIdx (SRC m c))) (arg m c main_arg2)
    (transpose S2x9 [1, 0] (arg m c main_arg17) transposes_S9x2_S2x9_1_0) (rowS9 (arg m c main_arg18))
/-- Layer 3, the output (four features). -/
def H3 : FA Ideal S1500000x4 :=
  Cert.Net.relu4 (Cert.Net.lin4 (Cert.Net.segsum (Cert.Net.dstIdx (DST m c)) (MS3 m c))
    (transpose S9x4 [1, 0] (arg m c main_arg19) transposes_S4x9_S9x4_1_0) (rowS4 (arg m c main_arg20)))

/-- The head's output. -/
def OUT : FA Ideal S250000x4 :=
  Cert.Net.head (shapeCast _ (H3 m c) shapeCasts_S1500000x4_S250000x24)
    (transpose S24x8 [1, 0] (arg m c main_arg21) transposes_S8x24_S24x8_1_0) (rowS8 (arg m c main_arg22))
    (transpose S8x4 [1, 0] (arg m c main_arg23) transposes_S4x8_S8x4_1_0) (rowS4 (arg m c main_arg24))

/-- The stage values compose to the network, the biases laid out as rows by reshapes. -/
theorem OUT_eq : OUT m c = Cert.Net.net (F := Ideal) rowS9 rowS4 rowS8
    (arg m c main_arg0) (arg m c main_arg1) (arg m c main_arg2) (arg m c main_arg3) (arg m c main_arg4)
    (arg m c main_arg5) (arg m c main_arg6) (arg m c main_arg7) (arg m c main_arg8) (arg m c main_arg9)
    (arg m c main_arg10) (arg m c main_arg11) (arg m c main_arg12) (arg m c main_arg13) (arg m c main_arg14)
    (arg m c main_arg15) (arg m c main_arg16) (arg m c main_arg17) (arg m c main_arg18) (arg m c main_arg19)
    (arg m c main_arg20) (arg m c main_arg21) (arg m c main_arg22) (arg m c main_arg23) (arg m c main_arg24) := by
  unfold OUT H3 MS3 HX3 H2 MS2 HX2 H1 MS1 HX1 SRC DST Cert.Net.net Cert.Net.layer3 Cert.Net.layer2 Cert.Net.layer1
  rfl

/-! ## Reading a host stretch, and membership among the kept buffers -/

set_option hygiene false in
/-- What a host stretch writes at one of its result buffers: its operations applied to the contents it starts from. -/
local macro "host_read " ops:ident W:ident : tactic =>
  `(tactic| (show StableHlo.after $ops ($W m ρ c) (Proc.devRef .tc _) = _; after_results <;> rfl))

/-- Membership among the 25 arguments, decided. -/
local macro "is_arg" : tactic => `(tactic| (unfold IsArg; decide))

/-- The sources at a later boundary. -/
theorem src_at {W : Valuation τ sig (Elt Ideal)} (h : W (Proc.devRef .tc main_v1) = W1 m ρ c (Proc.devRef .tc main_v1)) :
    W (Proc.devRef .tc main_v1) = SRC m c := by
  rw [h]; unfold SRC Cert.Net.srcVec arg; host_read hostOps0 W0

/-- The destinations at a later boundary. -/
theorem dst_at {W : Valuation τ sig (Elt Ideal)} (h : W (Proc.devRef .tc main_v3) = W1 m ρ c (Proc.devRef .tc main_v3)) :
    W (Proc.devRef .tc main_v3) = DST m c := by
  rw [h]; unfold DST Cert.Net.dstVec arg; host_read hostOps0 W0

/-! ## Layer 1 -/

/-- After launch 0 its output buffer holds the node map of layer 1. -/
theorem hx1 : W2 m ρ c (Proc.devRef .tc main_v6) = HX1 m c := by
  refine (W2_arr m ρ c 3).trans ((Cert.KernelIdeal.Reg0.final (V1 m ρ) c).trans ?_)
  have e0 : V1 m ρ c main_arg0 = arg m c main_arg0 := arg_at1 m ρ c (by is_arg)
  have e1 : V1 m ρ c main_v4 = transpose S1x9 [1, 0] (arg m c main_arg3) transposes_S9x1_S1x9_1_0 := by
    host_read hostOps0 W0
  have e2 : V1 m ρ c main_v5 = rowS9 (arg m c main_arg4) := by
    unfold rowS9; host_read hostOps0 W0
  rw [e0, e1, e2] <;> rfl

/-- After launch 1 its output buffer holds the messages of layer 1. -/
theorem ms1 : W4 m ρ c (Proc.devRef .tc main_v16) = MS1 m c := by
  refine (W4_arr m ρ c 4).trans ((Cert.KernelIdeal.Reg1.final (V3 m ρ) c).trans ?_)
  have e0 : V3 m ρ c main_v13 = Cert.Net.take (HX1 m c) (Cert.Net.srcIdx (SRC m c)) := by
    rw [← hx1 m ρ c, ← src_at m ρ c (at2 m ρ c (b := main_v1) (Or.inr (Or.inl rfl)))]
    unfold Cert.Net.take Cert.Net.srcIdx; host_read hostOps1 W2
  have e1 : V3 m ρ c main_arg2 = arg m c main_arg2 := arg_at3 m ρ c (by is_arg)
  have e2 : V3 m ρ c main_v14 = transpose S2x9 [1, 0] (arg m c main_arg5) transposes_S9x2_S2x9_1_0 := by
    rw [show arg m c main_arg5 = W2 m ρ c (Proc.devRef .tc main_arg5) from (arg_at2 m ρ c (by is_arg)).symm]; host_read hostOps1 W2
  have e3 : V3 m ρ c main_v15 = rowS9 (arg m c main_arg6) := by
    rw [show arg m c main_arg6 = W2 m ρ c (Proc.devRef .tc main_arg6) from (arg_at2 m ρ c (by is_arg)).symm]; unfold rowS9; host_read hostOps1 W2
  rw [e0, e1, e2, e3] <;> rfl

/-- After launch 2 its output buffer holds layer 1's output. -/
theorem h1 : W6 m ρ c (Proc.devRef .tc main_v22) = H1 m c := by
  refine (W6_arr m ρ c 3).trans ((Cert.KernelIdeal.Reg2.final (V5 m ρ) c).trans ?_)
  have e0 : V5 m ρ c main_v19 = Cert.Net.segsum (Cert.Net.dstIdx (DST m c)) (MS1 m c) := by
    rw [← ms1 m ρ c, ← dst_at m ρ c (at4 m ρ c (b := main_v3) (Or.inr (Or.inr rfl)))]
    unfold Cert.Net.segsum Cert.Net.dstIdx; host_read hostOps2 W4
  have e1 : V5 m ρ c main_v20 = transpose S9x9 [1, 0] (arg m c main_arg7) transposes_S9x9_S9x9_1_0 := by
    rw [show arg m c main_arg7 = W4 m ρ c (Proc.devRef .tc main_arg7) from (arg_at4 m ρ c (by is_arg)).symm]; host_read hostOps2 W4
  have e2 : V5 m ρ c main_v21 = rowS9 (arg m c main_arg8) := by
    rw [show arg m c main_arg8 = W4 m ρ c (Proc.devRef .tc main_arg8) from (arg_at4 m ρ c (by is_arg)).symm]; unfold rowS9; host_read hostOps2 W4
  rw [e0, e1, e2] <;> rfl

/-! ## Layer 2 -/

/-- After launch 3 its output buffer holds the node map of layer 2. -/
theorem hx2 : W8 m ρ c (Proc.devRef .tc main_v25) = HX2 m c := by
  refine (W8_arr m ρ c 3).trans ((Cert.KernelIdeal.Reg3.final (V7 m ρ) c).trans ?_)
  have e0 : V7 m ρ c main_v22 = H1 m c := by
    rw [← h1 m ρ c]; host_read hostOps3 W6
  have e1 : V7 m ρ c main_v23 = transpose S9x9 [1, 0] (arg m c main_arg9) transposes_S9x9_S9x9_1_0 := by
    rw [show arg m c main_arg9 = W6 m ρ c (Proc.devRef .tc main_arg9) from (arg_at6 m ρ c (by is_arg)).symm]; host_read hostOps3 W6
  have e2 : V7 m ρ c main_v24 = rowS9 (arg m c main_arg10) := by
    rw [show arg m c main_arg10 = W6 m ρ c (Proc.devRef .tc main_arg10) from (arg_at6 m ρ c (by is_arg)).symm]; unfold rowS9; host_read hostOps3 W6
  rw [e0, e1, e2] <;> rfl

/-- After launch 4 its output buffer holds the messages of layer 2. -/
theorem ms2 : W10 m ρ c (Proc.devRef .tc main_v35) = MS2 m c := by
  refine (W10_arr m ρ c 4).trans ((Cert.KernelIdeal.Reg4.final (V9 m ρ) c).trans ?_)
  have e0 : V9 m ρ c main_v32 = Cert.Net.take (HX2 m c) (Cert.Net.srcIdx (SRC m c)) := by
    rw [← hx2 m ρ c, ← src_at m ρ c (at8 m ρ c (b := main_v1) (Or.inr (Or.inl rfl)))]
    unfold Cert.Net.take Cert.Net.srcIdx; host_read hostOps4 W8
  have e1 : V9 m ρ c main_arg2 = arg m c main_arg2 := arg_at9 m ρ c (by is_arg)
  have e2 : V9 m ρ c main_v33 = transpose S2x9 [1, 0] (arg m c main_arg11) transposes_S9x2_S2x9_1_0 := by
    rw [show arg m c main_arg11 = W8 m ρ c (Proc.devRef .tc main_arg11) from (arg_at8 m ρ c (by is_arg)).symm]; host_read hostOps4 W8
  have e3 : V9 m ρ c main_v34 = rowS9 (arg m c main_arg12) := by
    rw [show arg m c main_arg12 = W8 m ρ c (Proc.devRef .tc main_arg12) from (arg_at8 m ρ c (by is_arg)).symm]; unfold rowS9; host_read hostOps4 W8
  rw [e0, e1, e2, e3] <;> rfl

/-- After launch 5 its output buffer holds layer 2's output. -/
theorem h2 : W12 m ρ c (Proc.devRef .tc main_v41) = H2 m c := by
  refine (W12_arr m ρ c 3).trans ((Cert.KernelIdeal.Reg5.final (V11 m ρ) c).trans ?_)
  have e0 : V11 m ρ c main_v38 = Cert.Net.segsum (Cert.Net.dstIdx (DST m c)) (MS2 m c) := by
    rw [← ms2 m ρ c, ← dst_at m ρ c (at10 m ρ c (b := main_v3) (Or.inr (Or.inr rfl)))]
    unfold Cert.Net.segsum Cert.Net.dstIdx; host_read hostOps5 W10
  have e1 : V11 m ρ c main_v39 = transpose S9x9 [1, 0] (arg m c main_arg13) transposes_S9x9_S9x9_1_0 := by
    rw [show arg m c main_arg13 = W10 m ρ c (Proc.devRef .tc main_arg13) from (arg_at10 m ρ c (by is_arg)).symm]; host_read hostOps5 W10
  have e2 : V11 m ρ c main_v40 = rowS9 (arg m c main_arg14) := by
    rw [show arg m c main_arg14 = W10 m ρ c (Proc.devRef .tc main_arg14) from (arg_at10 m ρ c (by is_arg)).symm]; unfold rowS9; host_read hostOps5 W10
  rw [e0, e1, e2] <;> rfl

/-! ## Layer 3 -/

/-- After launch 6 its output buffer holds the node map of layer 3. -/
theorem hx3 : W14 m ρ c (Proc.devRef .tc main_v44) = HX3 m c := by
  refine (W14_arr m ρ c 3).trans ((Cert.KernelIdeal.Reg6.final (V13 m ρ) c).trans ?_)
  have e0 : V13 m ρ c main_v41 = H2 m c := by
    rw [← h2 m ρ c]; host_read hostOps6 W12
  have e1 : V13 m ρ c main_v42 = transpose S9x9 [1, 0] (arg m c main_arg15) transposes_S9x9_S9x9_1_0 := by
    rw [show arg m c main_arg15 = W12 m ρ c (Proc.devRef .tc main_arg15) from (arg_at12 m ρ c (by is_arg)).symm]; host_read hostOps6 W12
  have e2 : V13 m ρ c main_v43 = rowS9 (arg m c main_arg16) := by
    rw [show arg m c main_arg16 = W12 m ρ c (Proc.devRef .tc main_arg16) from (arg_at12 m ρ c (by is_arg)).symm]; unfold rowS9; host_read hostOps6 W12
  rw [e0, e1, e2] <;> rfl

/-- After launch 7 its output buffer holds the messages of layer 3. -/
theorem ms3 : W16 m ρ c (Proc.devRef .tc main_v54) = MS3 m c := by
  refine (W16_arr m ρ c 4).trans ((Cert.KernelIdeal.Reg7.final (V15 m ρ) c).trans ?_)
  have e0 : V15 m ρ c main_v51 = Cert.Net.take (HX3 m c) (Cert.Net.srcIdx (SRC m c)) := by
    rw [← hx3 m ρ c, ← src_at m ρ c (at14 m ρ c (b := main_v1) (Or.inr (Or.inl rfl)))]
    unfold Cert.Net.take Cert.Net.srcIdx; host_read hostOps7 W14
  have e1 : V15 m ρ c main_arg2 = arg m c main_arg2 := arg_at15 m ρ c (by is_arg)
  have e2 : V15 m ρ c main_v52 = transpose S2x9 [1, 0] (arg m c main_arg17) transposes_S9x2_S2x9_1_0 := by
    rw [show arg m c main_arg17 = W14 m ρ c (Proc.devRef .tc main_arg17) from (arg_at14 m ρ c (by is_arg)).symm]; host_read hostOps7 W14
  have e3 : V15 m ρ c main_v53 = rowS9 (arg m c main_arg18) := by
    rw [show arg m c main_arg18 = W14 m ρ c (Proc.devRef .tc main_arg18) from (arg_at14 m ρ c (by is_arg)).symm]; unfold rowS9; host_read hostOps7 W14
  rw [e0, e1, e2, e3] <;> rfl

/-- After launch 8 its output buffer holds layer 3's output. -/
theorem h3 : W18 m ρ c (Proc.devRef .tc main_v60) = H3 m c := by
  refine (W18_arr m ρ c 3).trans ((Cert.KernelIdeal.Reg8.final (V17 m ρ) c).trans ?_)
  have e0 : V17 m ρ c main_v57 = Cert.Net.segsum (Cert.Net.dstIdx (DST m c)) (MS3 m c) := by
    rw [← ms3 m ρ c, ← dst_at m ρ c (at16 m ρ c (b := main_v3) (Or.inr (Or.inr rfl)))]
    unfold Cert.Net.segsum Cert.Net.dstIdx; host_read hostOps8 W16
  have e1 : V17 m ρ c main_v58 = transpose S9x4 [1, 0] (arg m c main_arg19) transposes_S4x9_S9x4_1_0 := by
    rw [show arg m c main_arg19 = W16 m ρ c (Proc.devRef .tc main_arg19) from (arg_at16 m ρ c (by is_arg)).symm]; host_read hostOps8 W16
  have e2 : V17 m ρ c main_v59 = rowS4 (arg m c main_arg20) := by
    rw [show arg m c main_arg20 = W16 m ρ c (Proc.devRef .tc main_arg20) from (arg_at16 m ρ c (by is_arg)).symm]; unfold rowS4; host_read hostOps8 W16
  rw [e0, e1, e2] <;> rfl

/-! ## The head -/

/-- After the last launch the result buffer holds the head's output. -/
theorem out : W20 m ρ c (Proc.devRef .tc main_v66) = OUT m c := by
  refine (W20_arr m ρ c 5).trans ((Cert.KernelIdeal.Reg9.final (V19 m ρ) c).trans ?_)
  have e0 : V19 m ρ c main_v61 = shapeCast _ (H3 m c) shapeCasts_S1500000x4_S250000x24 := by
    rw [← h3 m ρ c]; host_read hostOps9 W18
  have e1 : V19 m ρ c main_v62 = transpose S24x8 [1, 0] (arg m c main_arg21) transposes_S8x24_S24x8_1_0 := by
    rw [show arg m c main_arg21 = W18 m ρ c (Proc.devRef .tc main_arg21) from (arg_at18 m ρ c (by is_arg)).symm]; host_read hostOps9 W18
  have e2 : V19 m ρ c main_v64 = rowS8 (arg m c main_arg22) := by
    rw [show arg m c main_arg22 = W18 m ρ c (Proc.devRef .tc main_arg22) from (arg_at18 m ρ c (by is_arg)).symm]; unfold rowS8; host_read hostOps9 W18
  have e3 : V19 m ρ c main_v63 = transpose S8x4 [1, 0] (arg m c main_arg23) transposes_S4x8_S8x4_1_0 := by
    rw [show arg m c main_arg23 = W18 m ρ c (Proc.devRef .tc main_arg23) from (arg_at18 m ρ c (by is_arg)).symm]; host_read hostOps9 W18
  have e4 : V19 m ρ c main_v65 = rowS4 (arg m c main_arg24) := by
    rw [show arg m c main_arg24 = W18 m ρ c (Proc.devRef .tc main_arg24) from (arg_at18 m ρ c (by is_arg)).symm]; unfold rowS4; host_read hostOps9 W18
  rw [e0, e1, e2, e3, e4] <;> rfl

end Cert.KernelIdeal.Chain

end
-- ==== Proof.RefChain.lean ====
import proofs.«175860_j29935922053254_2_alg».proof.Proof.RefRunA
import proofs.«175860_j29935922053254_2_alg».proof.Proof.Spec
import Idealize.ShloMosaic.Lib.StableHlo.Run
import Idealize.ShloMosaic.Lib.Pipeline.Frame

noncomputable section

namespace Cert.ReferenceIdeal.RefChain

open Cert.ReferenceIdeal Cert.ReferenceIdeal.Gen Idealize.ShloMosaic Idealize.ShloMosaic.TcCoe Idealize.SL.Sem Idealize.ShloMosaic.StableHlo

variable {F : FTy → Type} [FloatOps F]

/-! # The reference program's result is the network of its arguments

The program is a line of 129 host operations. Cut in consecutive pieces, each piece's output buffer is one stage of
the network (`Cert.Net`) of the buffers the piece reads, from ANY contents; a buffer a piece does not write it
leaves alone. Chaining the pieces from the launch contents gives the whole network of the 25 arguments. -/

/-! ## The program cut in six consecutive pieces

The two rows of the edge list (4 operations), one network layer each (32 operations: 29 and the 3 of the rectifier),
the head's two linear maps with the rectifier between (14 operations), and the row-wise log-softmax (15 operations). -/

/-- The edge list's two rows. -/
def p0 : List (HloOp τ sig (Elt F)) := List.take 4 ValueP.ops
/-- Layer 1. -/
def p1 : List (HloOp τ sig (Elt F)) := List.take 32 (List.drop 4 ValueP.ops)
/-- Layer 2. -/
def p2 : List (HloOp τ sig (Elt F)) := List.take 32 (List.drop 32 (List.drop 4 ValueP.ops))
/-- Layer 3. -/
def p3 : List (HloOp τ sig (Elt F)) := List.take 32 (List.drop 32 (List.drop 32 (List.drop 4 ValueP.ops)))
/-- The head's linear maps. -/
def p4 : List (HloOp τ sig (Elt F)) := List.take 14 (List.drop 32 (List.drop 32 (List.drop 32 (List.drop 4 ValueP.ops))))
/-- The head's log-softmax. -/
def p5 : List (HloOp τ sig (Elt F)) := List.drop 14 (List.drop 32 (List.drop 32 (List.drop 32 (List.drop 4 ValueP.ops))))

/-- The program is its six pieces in a row. -/
theorem ops_split : (ValueP.ops : List (HloOp τ sig (Elt F))) = p0 ++ (p1 ++ (p2 ++ (p3 ++ (p4 ++ p5)))) := by
  unfold p0 p1 p2 p3 p4 p5
  rw [List.take_append_drop, List.take_append_drop, List.take_append_drop, List.take_append_drop, List.take_append_drop]

/-- A one-buffer write set is inside a list of references that has the buffer's reference. -/
theorem sub_of_mem {Wl : List (Ref sig .tc)} {y : Ref sig .tc} (h : y ∈ Wl) :
    ({Proc.devRef (τ := τ) .tc y} : Finset (DevRef τ sig)) ⊆ (Wl.map (Proc.devRef (τ := τ) .tc)).toFinset :=
  Finset.singleton_subset_iff.mpr (List.mem_toFinset.mpr (List.mem_map_of_mem h))

/-- The head before its log-softmax: `max (g · w1T + b1) 0 · w2T + b2`. -/
def headLin (g : Cert.Net.FA F S250000x24) (w1T : Cert.Net.FA F S24x8) (b1 : Cert.Net.FA F S1x8) (w2T : Cert.Net.FA F S8x4)
    (b2 : Cert.Net.FA F S1x4) : Cert.Net.FA F S250000x4 :=
  addf (Host.dotGeneral dot_S250000x8_S8x4_S250000x4_1_0_0_1_n_n none
      (maximumf (addf (Host.dotGeneral dot_S250000x24_S24x8_S250000x8_1_0_0_1_n_n none g w1T)
          (broadcastInDim S250000x8 ![0, 1] bcast_S1x8_S250000x8_0_1 b1))
        (broadcastInDim S250000x8 ![] bcast_S_S250000x8 (constant S_ .f32 0x00000000#32))) w2T)
    (broadcastInDim S250000x4 ![0, 1] bcast_S1x4_S250000x4_0_1 b2)

/-! ## Piece 0: the edge list's rows -/

/-- The references piece 0 writes. -/
abbrev w0 : List (Ref sig .tc) := [main_v0, main_v1, main_v2, main_v3]

theorem writes0 : (p0 : List (HloOp τ sig (Elt F))).Forall fun op => op.writes ⊆ ((w0.map (Proc.devRef (τ := τ) .tc)).toFinset) :=
  ⟨sub_of_mem (by decide), sub_of_mem (by decide), sub_of_mem (by decide), sub_of_mem (by decide)⟩

/-- Piece 0 leaves every other buffer as it found it. -/
theorem keep0 (W : Valuation τ sig (Elt F)) (r : Ref sig .tc) (hr : r ∉ w0) :
    StableHlo.after p0 W (Proc.devRef .tc r) = W (Proc.devRef .tc r) :=
  after_of_writes_sub p0 W writes0 hr

/-- After piece 0 the source row holds row 0 of the edge list. -/
theorem p0_v1 (W : Valuation τ sig (Elt F)) :
    StableHlo.after p0 W (Proc.devRef .tc main_v1) = Cert.Net.srcVec (F := F) (W (Proc.devRef .tc main_arg1)) := by
  unfold p0
  simp only [ValueP.ops, List.drop_succ_cons, List.drop_zero, List.take_succ_cons, List.take_zero]
  after_results_simp
  rfl

/-- After piece 0 the destination row holds row 1 of the edge list. -/
theorem p0_v3 (W : Valuation τ sig (Elt F)) :
    StableHlo.after p0 W (Proc.devRef .tc main_v3) = Cert.Net.dstVec (F := F) (W (Proc.devRef .tc main_arg1)) := by
  unfold p0
  simp only [ValueP.ops, List.drop_succ_cons, List.drop_zero, List.take_succ_cons, List.take_zero]
  after_results_simp
  rfl

/-! ## Piece 1: layer 1 -/

/-- The references piece 1 writes. -/
abbrev w1 : List (Ref sig .tc) := [main_v4, main_v5, main_v6, main_v7, main_v8, main_c, main_v9, main_v10, main_c_0, main_v11, main_v12, main_v13, main_v14, main_v15, main_v16, main_v17, main_v18, main_v19, main_v20, main_v21, main_cst, main_v22, main_v23, main_v24, main_v25, main_v26, main_v27, main_v28, main_v29, main_call0_cst, main_call0_v0, main_v30]

theorem writes1 : (p1 : List (HloOp τ sig (Elt F))).Forall fun op => op.writes ⊆ ((w1.map (Proc.devRef (τ := τ) .tc)).toFinset) :=
  ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- Piece 1 leaves every other buffer as it found it. -/
theorem keep1 (W : Valuation τ sig (Elt F)) (r : Ref sig .tc) (hr : r ∉ w1) :
    StableHlo.after p1 W (Proc.devRef .tc r) = W (Proc.devRef .tc r) :=
  after_of_writes_sub p1 W writes1 hr

/-- After piece 1 the layer's output buffer holds layer 1 of the buffers the piece reads: the node map, the gather at the sources, the edge map and product, the segment sum, the output map and the rectifier. -/
theorem p1_out (W : Valuation τ sig (Elt F)) :
    StableHlo.after p1 W (Proc.devRef .tc main_v30)
      = Cert.Net.relu9 (Cert.Net.lin9 (Cert.Net.segsum (Cert.Net.dstIdx (W (Proc.devRef .tc main_v3))) (Cert.Net.edge (Cert.Net.take (Cert.Net.lin1 (W (Proc.devRef .tc main_arg0)) (transpose S1x9 [1, 0] (W (Proc.devRef .tc main_arg3)) transposes_S9x1_S1x9_1_0) (Cert.Net.rowB9 (W (Proc.devRef .tc main_arg4)))) (Cert.Net.srcIdx (W (Proc.devRef .tc main_v1)))) (W (Proc.devRef .tc main_arg2)) (transpose S2x9 [1, 0] (W (Proc.devRef .tc main_arg5)) transposes_S9x2_S2x9_1_0) (Cert.Net.rowB9 (W (Proc.devRef .tc main_arg6))))) (transpose S9x9 [1, 0] (W (Proc.devRef .tc main_arg7)) transposes_S9x9_S9x9_1_0) (Cert.Net.rowB9 (W (Proc.devRef .tc main_arg8)))) := by
  unfold p1
  simp only [ValueP.ops, List.drop_succ_cons, List.drop_zero, List.take_succ_cons, List.take_zero]
  after_results_simp
  rfl

/-! ## Piece 2: layer 2 -/

/-- The references piece 2 writes. -/
abbrev w2 : List (Ref sig .tc) := [main_v31, main_v32, main_v33, main_v34, main_v35, main_c_1, main_v36, main_v37, main_c_2, main_v38, main_v39, main_v40, main_v41, main_v42, main_v43, main_v44, main_v45, main_v46, main_v47, main_v48, main_cst_3, main_v49, main_v50, main_v51, main_v52, main_v53, main_v54, main_v55, main_v56, main_call1_cst, main_call1_v0, main_v57]

theorem writes2 : (p2 : List (HloOp τ sig (Elt F))).Forall fun op => op.writes ⊆ ((w2.map (Proc.devRef (τ := τ) .tc)).toFinset) :=
  ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- Piece 2 leaves every other buffer as it found it. -/
theorem keep2 (W : Valuation τ sig (Elt F)) (r : Ref sig .tc) (hr : r ∉ w2) :
    StableHlo.after p2 W (Proc.devRef .tc r) = W (Proc.devRef .tc r) :=
  after_of_writes_sub p2 W writes2 hr

/-- After piece 2 the layer's output buffer holds layer 2 of the buffers the piece reads. -/
theorem p2_out (W : Valuation τ sig (Elt F)) :
    StableHlo.after p2 W (Proc.devRef .tc main_v57)
      = Cert.Net.relu9 (Cert.Net.lin9 (Cert.Net.segsum (Cert.Net.dstIdx (W (Proc.devRef .tc main_v3))) (Cert.Net.edge (Cert.Net.take (Cert.Net.lin9 (W (Proc.devRef .tc main_v30)) (transpose S9x9 [1, 0] (W (Proc.devRef .tc main_arg9)) transposes_S9x9_S9x9_1_0) (Cert.Net.rowB9 (W (Proc.devRef .tc main_arg10)))) (Cert.Net.srcIdx (W (Proc.devRef .tc main_v1)))) (W (Proc.devRef .tc main_arg2)) (transpose S2x9 [1, 0] (W (Proc.devRef .tc main_arg11)) transposes_S9x2_S2x9_1_0) (Cert.Net.rowB9 (W (Proc.devRef .tc main_arg12))))) (transpose S9x9 [1, 0] (W (Proc.devRef .tc main_arg13)) transposes_S9x9_S9x9_1_0) (Cert.Net.rowB9 (W (Proc.devRef .tc main_arg14)))) := by
  unfold p2
  simp only [ValueP.ops, List.drop_succ_cons, List.drop_zero, List.take_succ_cons, List.take_zero]
  after_results_simp
  rfl

/-! ## Piece 3: layer 3 -/

/-- The references piece 3 writes. -/
abbrev w3 : List (Ref sig .tc) := [main_v58, main_v59, main_v60, main_v61, main_v62, main_c_4, main_v63, main_v64, main_c_5, main_v65, main_v66, main_v67, main_v68, main_v69, main_v70, main_v71, main_v72, main_v73, main_v74, main_v75, main_cst_6, main_v76, main_v77, main_v78, main_v79, main_v80, main_v81, main_v82, main_v83, main_call2_cst, main_call2_v0, main_v84]

theorem writes3 : (p3 : List (HloOp τ sig (Elt F))).Forall fun op => op.writes ⊆ ((w3.map (Proc.devRef (τ := τ) .tc)).toFinset) :=
  ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- Piece 3 leaves every other buffer as it found it. -/
theorem keep3 (W : Valuation τ sig (Elt F)) (r : Ref sig .tc) (hr : r ∉ w3) :
    StableHlo.after p3 W (Proc.devRef .tc r) = W (Proc.devRef .tc r) :=
  after_of_writes_sub p3 W writes3 hr

/-- After piece 3 the layer's output buffer holds layer 3 (nine features to four) of the buffers the piece reads. -/
theorem p3_out (W : Valuation τ sig (Elt F)) :
    StableHlo.after p3 W (Proc.devRef .tc main_v84)
      = Cert.Net.relu4 (Cert.Net.lin4 (Cert.Net.segsum (Cert.Net.dstIdx (W (Proc.devRef .tc main_v3))) (Cert.Net.edge (Cert.Net.take (Cert.Net.lin9 (W (Proc.devRef .tc main_v57)) (transpose S9x9 [1, 0] (W (Proc.devRef .tc main_arg15)) transposes_S9x9_S9x9_1_0) (Cert.Net.rowB9 (W (Proc.devRef .tc main_arg16)))) (Cert.Net.srcIdx (W (Proc.devRef .tc main_v1)))) (W (Proc.devRef .tc main_arg2)) (transpose S2x9 [1, 0] (W (Proc.devRef .tc main_arg17)) transposes_S9x2_S2x9_1_0) (Cert.Net.rowB9 (W (Proc.devRef .tc main_arg18))))) (transpose S9x4 [1, 0] (W (Proc.devRef .tc main_arg19)) transposes_S4x9_S9x4_1_0) (Cert.Net.rowB4 (W (Proc.devRef .tc main_arg20)))) := by
  unfold p3
  simp only [ValueP.ops, List.drop_succ_cons, List.drop_zero, List.take_succ_cons, List.take_zero]
  after_results_simp
  rfl

/-! ## Piece 4: the head's linear maps -/

/-- The references piece 4 writes. -/
abbrev w4 : List (Ref sig .tc) := [main_v85, main_v86, main_v87, main_v88, main_v89, main_v90, main_call3_cst, main_call3_v0, main_v91, main_v92, main_v93, main_v94, main_v95, main_v96]

theorem writes4 : (p4 : List (HloOp τ sig (Elt F))).Forall fun op => op.writes ⊆ ((w4.map (Proc.devRef (τ := τ) .tc)).toFinset) :=
  ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- Piece 4 leaves every other buffer as it found it. -/
theorem keep4 (W : Valuation τ sig (Elt F)) (r : Ref sig .tc) (hr : r ∉ w4) :
    StableHlo.after p4 W (Proc.devRef .tc r) = W (Proc.devRef .tc r) :=
  after_of_writes_sub p4 W writes4 hr

/-- Piece 4 with each operation of an inlined function written over the buffers themselves (the contents' types are
    the buffers' own, so nothing is transported). -/
def q4 : List (HloOp τ sig (Elt F)) :=
  [ reshape main_v84 main_v85 rfl shapeCasts_S1500000x4_S250000x24,
    unary main_arg21 main_v86 ((transpose S24x8 [1, 0] · transposes_S8x24_S24x8_1_0) : (⟨S8x24, .f32⟩ : BufTy).Contents (Elt F) → (⟨S24x8, .f32⟩ : BufTy).Contents (Elt F)),
    binary main_v85 main_v86 main_v87 ((fun l r => Host.dotGeneral dot_S250000x24_S24x8_S250000x8_1_0_0_1_n_n none l r) : (⟨S250000x24, .f32⟩ : BufTy).Contents (Elt F) → (⟨S24x8, .f32⟩ : BufTy).Contents (Elt F) → (⟨S250000x8, .f32⟩ : BufTy).Contents (Elt F)),
    unary main_arg22 main_v88 (broadcastInDim S1x8 ![1] bcast_S8_S1x8_1 : (⟨S8, .f32⟩ : BufTy).Contents (Elt F) → (⟨S1x8, .f32⟩ : BufTy).Contents (Elt F)),
    unary main_v88 main_v89 (broadcastInDim S250000x8 ![0, 1] bcast_S1x8_S250000x8_0_1 : (⟨S1x8, .f32⟩ : BufTy).Contents (Elt F) → (⟨S250000x8, .f32⟩ : BufTy).Contents (Elt F)),
    binary main_v87 main_v89 main_v90 (addf : (⟨S250000x8, .f32⟩ : BufTy).Contents (Elt F) → (⟨S250000x8, .f32⟩ : BufTy).Contents (Elt F) → (⟨S250000x8, .f32⟩ : BufTy).Contents (Elt F)),
    nullary main_call3_cst (constant S_ .f32 0x00000000#32),
    unary main_call3_cst main_call3_v0 ((broadcastInDim S250000x8 ![] bcast_S_S250000x8) : (⟨S_, .f32⟩ : BufTy).Contents (Elt F) → (⟨S250000x8, .f32⟩ : BufTy).Contents (Elt F)),
    binary main_v90 main_call3_v0 main_v91 ((maximumf) : (⟨S250000x8, .f32⟩ : BufTy).Contents (Elt F) → (⟨S250000x8, .f32⟩ : BufTy).Contents (Elt F) → (⟨S250000x8, .f32⟩ : BufTy).Contents (Elt F)),
    unary main_arg23 main_v92 ((transpose S8x4 [1, 0] · transposes_S4x8_S8x4_1_0) : (⟨S4x8, .f32⟩ : BufTy).Contents (Elt F) → (⟨S8x4, .f32⟩ : BufTy).Contents (Elt F)),
    binary main_v91 main_v92 main_v93 ((fun l r => Host.dotGeneral dot_S250000x8_S8x4_S250000x4_1_0_0_1_n_n none l r) : (⟨S250000x8, .f32⟩ : BufTy).Contents (Elt F) → (⟨S8x4, .f32⟩ : BufTy).Contents (Elt F) → (⟨S250000x4, .f32⟩ : BufTy).Contents (Elt F)),
    unary main_arg24 main_v94 (broadcastInDim S1x4 ![1] bcast_S4_S1x4_1 : (⟨S4, .f32⟩ : BufTy).Contents (Elt F) → (⟨S1x4, .f32⟩ : BufTy).Contents (Elt F)),
    unary main_v94 main_v95 (broadcastInDim S250000x4 ![0, 1] bcast_S1x4_S250000x4_0_1 : (⟨S1x4, .f32⟩ : BufTy).Contents (Elt F) → (⟨S250000x4, .f32⟩ : BufTy).Contents (Elt F)),
    binary main_v93 main_v95 main_v96 (addf : (⟨S250000x4, .f32⟩ : BufTy).Contents (Elt F) → (⟨S250000x4, .f32⟩ : BufTy).Contents (Elt F) → (⟨S250000x4, .f32⟩ : BufTy).Contents (Elt F)) ]

theorem p4_eq : (p4 : List (HloOp τ sig (Elt F))) = q4 := by
  unfold p4 q4
  simp only [ValueP.ops, List.drop_succ_cons, List.drop_zero, List.take_succ_cons, List.take_zero]
  rfl

/-- After piece 4 its output buffer holds the head's two linear maps, with the rectifier between, of the regrouped layer-3 output and the head's weights and biases as the piece finds them. -/
theorem p4_out (W : Valuation τ sig (Elt F)) :
    StableHlo.after p4 W (Proc.devRef .tc main_v96)
      = headLin (shapeCast _ (W (Proc.devRef .tc main_v84)) shapeCasts_S1500000x4_S250000x24) (transpose S24x8 [1, 0] (W (Proc.devRef .tc main_arg21)) transposes_S8x24_S24x8_1_0) (Cert.Net.rowB8 (W (Proc.devRef .tc main_arg22))) (transpose S8x4 [1, 0] (W (Proc.devRef .tc main_arg23)) transposes_S4x8_S8x4_1_0) (Cert.Net.rowB4 (W (Proc.devRef .tc main_arg24))) := by
  rw [p4_eq]
  unfold q4
  after_results_simp
  rfl

/-! ## Piece 5: the row-wise log-softmax -/

/-- The references piece 5 writes. -/
abbrev w5 : List (Ref sig .tc) := [main_call4_cst, main_call4_v0, main_call4_cst_0, main_call4_v1, main_call4_v2, main_call4_v3, main_call4_v4, main_call4_v5, main_call4_v6, main_call4_cst_1, main_call4_v7, main_call4_v8, main_call4_v9, main_call4_v10, main_v97]

theorem writes5 : (p5 : List (HloOp τ sig (Elt F))).Forall fun op => op.writes ⊆ ((w5.map (Proc.devRef (τ := τ) .tc)).toFinset) :=
  ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- Piece 5 leaves every other buffer as it found it. -/
theorem keep5 (W : Valuation τ sig (Elt F)) (r : Ref sig .tc) (hr : r ∉ w5) :
    StableHlo.after p5 W (Proc.devRef .tc r) = W (Proc.devRef .tc r) :=
  after_of_writes_sub p5 W writes5 hr

/-- Piece 5 with each operation of an inlined function written over the buffers themselves (the contents' types are
    the buffers' own, so nothing is transported). -/
def q5 : List (HloOp τ sig (Elt F)) :=
  [ nullary main_call4_cst (constant S_ .f32 0xFF800000#32),
    binary main_v96 main_call4_cst main_call4_v0 ((fun x v => Host.reduce FloatOps.maximumf x v reducesTo_S250000x4_S250000_d1 h_S_) : (⟨S250000x4, .f32⟩ : BufTy).Contents (Elt F) → (⟨S_, .f32⟩ : BufTy).Contents (Elt F) → (⟨S250000, .f32⟩ : BufTy).Contents (Elt F)),
    nullary main_call4_cst_0 (constant S_ .f32 0xFF800000#32),
    unary main_call4_cst_0 main_call4_v1 ((broadcastInDim S250000 ![] bcast_S_S250000) : (⟨S_, .f32⟩ : BufTy).Contents (Elt F) → (⟨S250000, .f32⟩ : BufTy).Contents (Elt F)),
    binary main_call4_v1 main_call4_v0 main_call4_v2 ((maximumf) : (⟨S250000, .f32⟩ : BufTy).Contents (Elt F) → (⟨S250000, .f32⟩ : BufTy).Contents (Elt F) → (⟨S250000, .f32⟩ : BufTy).Contents (Elt F)),
    unary main_call4_v2 main_call4_v3 ((broadcastInDim S250000x1 ![0] bcast_S250000_S250000x1_0) : (⟨S250000, .f32⟩ : BufTy).Contents (Elt F) → (⟨S250000x1, .f32⟩ : BufTy).Contents (Elt F)),
    unary main_call4_v3 main_call4_v4 ((broadcastInDim S250000x4 ![0, 1] bcast_S250000x1_S250000x4_0_1) : (⟨S250000x1, .f32⟩ : BufTy).Contents (Elt F) → (⟨S250000x4, .f32⟩ : BufTy).Contents (Elt F)),
    binary main_v96 main_call4_v4 main_call4_v5 ((subf) : (⟨S250000x4, .f32⟩ : BufTy).Contents (Elt F) → (⟨S250000x4, .f32⟩ : BufTy).Contents (Elt F) → (⟨S250000x4, .f32⟩ : BufTy).Contents (Elt F)),
    unary main_call4_v5 main_call4_v6 ((Host.exp) : (⟨S250000x4, .f32⟩ : BufTy).Contents (Elt F) → (⟨S250000x4, .f32⟩ : BufTy).Contents (Elt F)),
    nullary main_call4_cst_1 (constant S_ .f32 0x00000000#32),
    binary main_call4_v6 main_call4_cst_1 main_call4_v7 ((fun x v => Host.reduceAdd x v reducesTo_S250000x4_S250000_d1 h_S_) : (⟨S250000x4, .f32⟩ : BufTy).Contents (Elt F) → (⟨S_, .f32⟩ : BufTy).Contents (Elt F) → (⟨S250000, .f32⟩ : BufTy).Contents (Elt F)),
    unary main_call4_v7 main_call4_v8 ((broadcastInDim S250000x1 ![0] bcast_S250000_S250000x1_0) : (⟨S250000, .f32⟩ : BufTy).Contents (Elt F) → (⟨S250000x1, .f32⟩ : BufTy).Contents (Elt F)),
    unary main_call4_v8 main_call4_v9 ((Host.log) : (⟨S250000x1, .f32⟩ : BufTy).Contents (Elt F) → (⟨S250000x1, .f32⟩ : BufTy).Contents (Elt F)),
    unary main_call4_v9 main_call4_v10 ((broadcastInDim S250000x4 ![0, 1] bcast_S250000x1_S250000x4_0_1) : (⟨S250000x1, .f32⟩ : BufTy).Contents (Elt F) → (⟨S250000x4, .f32⟩ : BufTy).Contents (Elt F)),
    binary main_call4_v5 main_call4_v10 main_v97 ((subf) : (⟨S250000x4, .f32⟩ : BufTy).Contents (Elt F) → (⟨S250000x4, .f32⟩ : BufTy).Contents (Elt F) → (⟨S250000x4, .f32⟩ : BufTy).Contents (Elt F)) ]

section
attribute [local irreducible] Host.reduce Host.reduceAdd
theorem p5_eq : (p5 : List (HloOp τ sig (Elt F))) = q5 := by
  unfold p5 q5
  simp only [ValueP.ops, List.drop_succ_cons, List.drop_zero, List.take_succ_cons, List.take_zero]
  rfl
end

/-- After piece 5 the result buffer holds the row-wise log-softmax of the buffer piece 4 wrote. -/
theorem p5_out (W : Valuation τ sig (Elt F)) :
    StableHlo.after p5 W (Proc.devRef .tc main_v97)
      = Cert.Net.logSoftmax (W (Proc.devRef .tc main_v96)) := by
  rw [p5_eq]
  unfold q5
  after_results_simp
  rfl

/-! ## The pieces in a row -/

/-- From any contents, the six pieces in a row leave the result buffer at the whole network of the 25 argument
    buffers: each piece's output is its stage of what it reads, and what a later piece reads no earlier piece other
    than its producer writes. -/
theorem chain (W : Valuation τ sig (Elt F)) :
    StableHlo.after p5 (StableHlo.after p4 (StableHlo.after p3 (StableHlo.after p2 (StableHlo.after p1 (StableHlo.after p0 W))))) (Proc.devRef .tc main_v97)
      = Cert.Net.net (F := F) Cert.Net.rowB9 Cert.Net.rowB4 Cert.Net.rowB8
          (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) (W (Proc.devRef .tc main_arg21)) (W (Proc.devRef .tc main_arg22)) (W (Proc.devRef .tc main_arg23)) (W (Proc.devRef .tc main_arg24)) := by
  rw [p5_out, p4_out]
  rw [p3_out, keep3 _ main_arg21 (by decide), keep3 _ main_arg22 (by decide), keep3 _ main_arg23 (by decide), keep3 _ main_arg24 (by decide)]
  rw [p2_out, keep2 _ main_v1 (by decide), keep2 _ main_v3 (by decide), keep2 _ main_arg2 (by decide), keep2 _ main_arg15 (by decide), keep2 _ main_arg16 (by decide), keep2 _ main_arg17 (by decide), keep2 _ main_arg18 (by decide), keep2 _ main_arg19 (by decide), keep2 _ main_arg20 (by decide), keep2 _ main_arg21 (by decide), keep2 _ main_arg22 (by decide), keep2 _ main_arg23 (by decide), keep2 _ main_arg24 (by decide)]
  rw [p1_out, keep1 _ main_v1 (by decide), keep1 _ main_v3 (by decide), keep1 _ main_arg2 (by decide), keep1 _ main_arg9 (by decide), keep1 _ main_arg10 (by decide), keep1 _ main_arg11 (by decide), keep1 _ main_arg12 (by decide), keep1 _ main_arg13 (by decide), keep1 _ main_arg14 (by decide), keep1 _ main_arg15 (by decide), keep1 _ main_arg16 (by decide), keep1 _ main_arg17 (by decide), keep1 _ main_arg18 (by decide), keep1 _ main_arg19 (by decide), keep1 _ main_arg20 (by decide), keep1 _ main_arg21 (by decide), keep1 _ main_arg22 (by decide), keep1 _ main_arg23 (by decide), keep1 _ main_arg24 (by decide)]
  rw [p0_v1, p0_v3, keep0 _ main_arg0 (by decide), keep0 _ main_arg2 (by decide), keep0 _ main_arg3 (by decide), keep0 _ main_arg4 (by decide), keep0 _ main_arg5 (by decide), keep0 _ main_arg6 (by decide), keep0 _ main_arg7 (by decide), keep0 _ main_arg8 (by decide), keep0 _ main_arg9 (by decide), keep0 _ main_arg10 (by decide), keep0 _ main_arg11 (by decide), keep0 _ main_arg12 (by decide), keep0 _ main_arg13 (by decide), keep0 _ main_arg14 (by decide), keep0 _ main_arg15 (by decide), keep0 _ main_arg16 (by decide), keep0 _ main_arg17 (by decide), keep0 _ main_arg18 (by decide), keep0 _ main_arg19 (by decide), keep0 _ main_arg20 (by decide), keep0 _ main_arg21 (by decide), keep0 _ main_arg22 (by decide), keep0 _ main_arg23 (by decide), keep0 _ main_arg24 (by decide)]
  rfl

/-- The reference program's result buffer, after its 129 operations from the launch contents, holds the whole network
    of its 25 arguments (a bias vector laid out as a row by a broadcast). -/
theorem result (m : (ℓ : Loc nD τ sig) → Buf (Elt F) ℓ) (c : Dev nD) :
    StableHlo.after (Cert.ReferenceIdeal.ValueP.ops (F := F)) (launchContents m c) (Proc.devRef .tc main_v97)
      = Cert.Net.net (F := F) Cert.Net.rowB9 Cert.Net.rowB4 Cert.Net.rowB8
          (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) := by
  rw [ops_split, StableHlo.after_append, StableHlo.after_append, StableHlo.after_append, StableHlo.after_append,
    StableHlo.after_append]
  exact chain (launchContents m c)

end Cert.ReferenceIdeal.RefChain

end
-- ==== Proof.RefKeep.lean ====
import proofs.«175860_j29935922053254_2_alg».proof.Proof.RefRunA
import Idealize.ShloMosaic.Lib.StableHlo.Run

noncomputable section

namespace Cert.ReferenceIdeal.RefKeep

open Cert.ReferenceIdeal Cert.ReferenceIdeal.Gen Idealize.ShloMosaic Idealize.ShloMosaic.TcCoe Idealize.SL.Sem Idealize.ShloMosaic.StableHlo

variable {F : FTy → Type} [FloatOps F]

/-- One of the 25 argument arrays. -/
def IsArg (b : Ref sig .tc) : Prop :=
  b = main_arg0 ∨ b = main_arg1 ∨ b = main_arg2 ∨ b = main_arg3 ∨ b = main_arg4 ∨ b = main_arg5 ∨
  b = main_arg6 ∨ b = main_arg7 ∨ b = main_arg8 ∨ b = main_arg9 ∨ b = main_arg10 ∨ b = main_arg11 ∨
  b = main_arg12 ∨ b = main_arg13 ∨ b = main_arg14 ∨ b = main_arg15 ∨ b = main_arg16 ∨ b = main_arg17 ∨
  b = main_arg18 ∨ b = main_arg19 ∨ b = main_arg20 ∨ b = main_arg21 ∨ b = main_arg22 ∨ b = main_arg23 ∨
  b = main_arg24

/-- The references the 129 operations write: each operation's result, in program order. -/
def written : List (Ref sig .tc) :=
  [main_v0, main_v1, main_v2, main_v3, main_v4, main_v5, main_v6, main_v7, main_v8, main_c, main_v9,
   main_v10, main_c_0, main_v11, main_v12, main_v13, main_v14, main_v15, main_v16, main_v17, main_v18,
   main_v19, main_v20, main_v21, main_cst, main_v22, main_v23, main_v24, main_v25, main_v26, main_v27,
   main_v28, main_v29, main_call0_cst, main_call0_v0, main_v30, main_v31, main_v32, main_v33, main_v34,
   main_v35, main_c_1, main_v36, main_v37, main_c_2, main_v38, main_v39, main_v40, main_v41, main_v42,
   main_v43, main_v44, main_v45, main_v46, main_v47, main_v48, main_cst_3, main_v49, main_v50, main_v51,
   main_v52, main_v53, main_v54, main_v55, main_v56, main_call1_cst, main_call1_v0, main_v57, main_v58,
   main_v59, main_v60, main_v61, main_v62, main_c_4, main_v63, main_v64, main_c_5, main_v65, main_v66,
   main_v67, main_v68, main_v69, main_v70, main_v71, main_v72, main_v73, main_v74, main_v75, main_cst_6,
   main_v76, main_v77, main_v78, main_v79, main_v80, main_v81, main_v82, main_v83, main_call2_cst,
   main_call2_v0, main_v84, main_v85, main_v86, main_v87, main_v88, main_v89, main_v90, main_call3_cst,
   main_call3_v0, main_v91, main_v92, main_v93, main_v94, main_v95, main_v96, main_call4_cst, main_call4_v0,
   main_call4_cst_0, main_call4_v1, main_call4_v2, main_call4_v3, main_call4_v4, main_call4_v5,
   main_call4_v6, main_call4_cst_1, main_call4_v7, main_call4_v8, main_call4_v9, main_call4_v10, main_v97]

/-- An operation whose one written reference is in a list writes only references of that list. -/
theorem writes_sub_of_mem {W : List (Ref sig .tc)} {op : HloOp τ sig (Elt F)} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map.mpr ⟨y, hy, rfl⟩

set_option maxRecDepth 8192 in
/-- Every operation writes its own result only, and that result is one of the 129 listed. -/
theorem writes_sub : (Cert.ReferenceIdeal.ValueP.ops (F := F)).Forall fun op =>
    op.writes ⊆ (written.map (Proc.devRef (τ := τ) .tc)).toFinset :=
  ⟨writes_sub_of_mem main_v0 (by rfl) (by decide), writes_sub_of_mem main_v1 (by rfl) (by decide),
    writes_sub_of_mem main_v2 (by rfl) (by decide), writes_sub_of_mem main_v3 (by rfl) (by decide),
    writes_sub_of_mem main_v4 (by rfl) (by decide), writes_sub_of_mem main_v5 (by rfl) (by decide),
    writes_sub_of_mem main_v6 (by rfl) (by decide), writes_sub_of_mem main_v7 (by rfl) (by decide),
    writes_sub_of_mem main_v8 (by rfl) (by decide), writes_sub_of_mem main_c (by rfl) (by decide),
    writes_sub_of_mem main_v9 (by rfl) (by decide), writes_sub_of_mem main_v10 (by rfl) (by decide),
    writes_sub_of_mem main_c_0 (by rfl) (by decide), writes_sub_of_mem main_v11 (by rfl) (by decide),
    writes_sub_of_mem main_v12 (by rfl) (by decide), writes_sub_of_mem main_v13 (by rfl) (by decide),
    writes_sub_of_mem main_v14 (by rfl) (by decide), writes_sub_of_mem main_v15 (by rfl) (by decide),
    writes_sub_of_mem main_v16 (by rfl) (by decide), writes_sub_of_mem main_v17 (by rfl) (by decide),
    writes_sub_of_mem main_v18 (by rfl) (by decide), writes_sub_of_mem main_v19 (by rfl) (by decide),
    writes_sub_of_mem main_v20 (by rfl) (by decide), writes_sub_of_mem main_v21 (by rfl) (by decide),
    writes_sub_of_mem main_cst (by rfl) (by decide), writes_sub_of_mem main_v22 (by rfl) (by decide),
    writes_sub_of_mem main_v23 (by rfl) (by decide), writes_sub_of_mem main_v24 (by rfl) (by decide),
    writes_sub_of_mem main_v25 (by rfl) (by decide), writes_sub_of_mem main_v26 (by rfl) (by decide),
    writes_sub_of_mem main_v27 (by rfl) (by decide), writes_sub_of_mem main_v28 (by rfl) (by decide),
    writes_sub_of_mem main_v29 (by rfl) (by decide), writes_sub_of_mem main_call0_cst (by rfl) (by decide),
    writes_sub_of_mem main_call0_v0 (by rfl) (by decide), writes_sub_of_mem main_v30 (by rfl) (by decide),
    writes_sub_of_mem main_v31 (by rfl) (by decide), writes_sub_of_mem main_v32 (by rfl) (by decide),
    writes_sub_of_mem main_v33 (by rfl) (by decide), writes_sub_of_mem main_v34 (by rfl) (by decide),
    writes_sub_of_mem main_v35 (by rfl) (by decide), writes_sub_of_mem main_c_1 (by rfl) (by decide),
    writes_sub_of_mem main_v36 (by rfl) (by decide), writes_sub_of_mem main_v37 (by rfl) (by decide),
    writes_sub_of_mem main_c_2 (by rfl) (by decide), writes_sub_of_mem main_v38 (by rfl) (by decide),
    writes_sub_of_mem main_v39 (by rfl) (by decide), writes_sub_of_mem main_v40 (by rfl) (by decide),
    writes_sub_of_mem main_v41 (by rfl) (by decide), writes_sub_of_mem main_v42 (by rfl) (by decide),
    writes_sub_of_mem main_v43 (by rfl) (by decide), writes_sub_of_mem main_v44 (by rfl) (by decide),
    writes_sub_of_mem main_v45 (by rfl) (by decide), writes_sub_of_mem main_v46 (by rfl) (by decide),
    writes_sub_of_mem main_v47 (by rfl) (by decide), writes_sub_of_mem main_v48 (by rfl) (by decide),
    writes_sub_of_mem main_cst_3 (by rfl) (by decide), writes_sub_of_mem main_v49 (by rfl) (by decide),
    writes_sub_of_mem main_v50 (by rfl) (by decide), writes_sub_of_mem main_v51 (by rfl) (by decide),
    writes_sub_of_mem main_v52 (by rfl) (by decide), writes_sub_of_mem main_v53 (by rfl) (by decide),
    writes_sub_of_mem main_v54 (by rfl) (by decide), writes_sub_of_mem main_v55 (by rfl) (by decide),
    writes_sub_of_mem main_v56 (by rfl) (by decide), writes_sub_of_mem main_call1_cst (by rfl) (by decide),
    writes_sub_of_mem main_call1_v0 (by rfl) (by decide), writes_sub_of_mem main_v57 (by rfl) (by decide),
    writes_sub_of_mem main_v58 (by rfl) (by decide), writes_sub_of_mem main_v59 (by rfl) (by decide),
    writes_sub_of_mem main_v60 (by rfl) (by decide), writes_sub_of_mem main_v61 (by rfl) (by decide),
    writes_sub_of_mem main_v62 (by rfl) (by decide), writes_sub_of_mem main_c_4 (by rfl) (by decide),
    writes_sub_of_mem main_v63 (by rfl) (by decide), writes_sub_of_mem main_v64 (by rfl) (by decide),
    writes_sub_of_mem main_c_5 (by rfl) (by decide), writes_sub_of_mem main_v65 (by rfl) (by decide),
    writes_sub_of_mem main_v66 (by rfl) (by decide), writes_sub_of_mem main_v67 (by rfl) (by decide),
    writes_sub_of_mem main_v68 (by rfl) (by decide), writes_sub_of_mem main_v69 (by rfl) (by decide),
    writes_sub_of_mem main_v70 (by rfl) (by decide), writes_sub_of_mem main_v71 (by rfl) (by decide),
    writes_sub_of_mem main_v72 (by rfl) (by decide), writes_sub_of_mem main_v73 (by rfl) (by decide),
    writes_sub_of_mem main_v74 (by rfl) (by decide), writes_sub_of_mem main_v75 (by rfl) (by decide),
    writes_sub_of_mem main_cst_6 (by rfl) (by decide), writes_sub_of_mem main_v76 (by rfl) (by decide),
    writes_sub_of_mem main_v77 (by rfl) (by decide), writes_sub_of_mem main_v78 (by rfl) (by decide),
    writes_sub_of_mem main_v79 (by rfl) (by decide), writes_sub_of_mem main_v80 (by rfl) (by decide),
    writes_sub_of_mem main_v81 (by rfl) (by decide), writes_sub_of_mem main_v82 (by rfl) (by decide),
    writes_sub_of_mem main_v83 (by rfl) (by decide), writes_sub_of_mem main_call2_cst (by rfl) (by decide),
    writes_sub_of_mem main_call2_v0 (by rfl) (by decide), writes_sub_of_mem main_v84 (by rfl) (by decide),
    writes_sub_of_mem main_v85 (by rfl) (by decide), writes_sub_of_mem main_v86 (by rfl) (by decide),
    writes_sub_of_mem main_v87 (by rfl) (by decide), writes_sub_of_mem main_v88 (by rfl) (by decide),
    writes_sub_of_mem main_v89 (by rfl) (by decide), writes_sub_of_mem main_v90 (by rfl) (by decide),
    writes_sub_of_mem main_call3_cst (by rfl) (by decide),
    writes_sub_of_mem main_call3_v0 (by rfl) (by decide), writes_sub_of_mem main_v91 (by rfl) (by decide),
    writes_sub_of_mem main_v92 (by rfl) (by decide), writes_sub_of_mem main_v93 (by rfl) (by decide),
    writes_sub_of_mem main_v94 (by rfl) (by decide), writes_sub_of_mem main_v95 (by rfl) (by decide),
    writes_sub_of_mem main_v96 (by rfl) (by decide), writes_sub_of_mem main_call4_cst (by rfl) (by decide),
    writes_sub_of_mem main_call4_v0 (by rfl) (by decide),
    writes_sub_of_mem main_call4_cst_0 (by rfl) (by decide),
    writes_sub_of_mem main_call4_v1 (by rfl) (by decide),
    writes_sub_of_mem main_call4_v2 (by rfl) (by decide),
    writes_sub_of_mem main_call4_v3 (by rfl) (by decide),
    writes_sub_of_mem main_call4_v4 (by rfl) (by decide),
    writes_sub_of_mem main_call4_v5 (by rfl) (by decide),
    writes_sub_of_mem main_call4_v6 (by rfl) (by decide),
    writes_sub_of_mem main_call4_cst_1 (by rfl) (by decide),
    writes_sub_of_mem main_call4_v7 (by rfl) (by decide),
    writes_sub_of_mem main_call4_v8 (by rfl) (by decide),
    writes_sub_of_mem main_call4_v9 (by rfl) (by decide),
    writes_sub_of_mem main_call4_v10 (by rfl) (by decide), writes_sub_of_mem main_v97 (by rfl) (by decide)⟩

/-- No argument array is the result of an operation. -/
theorem not_written {b : Ref sig .tc} (hb : IsArg b) : b ∉ written := by
  unfold IsArg at hb
  rcases hb with rfl | rfl | rfl | rfl | rfl | rfl | rfl | rfl | rfl | rfl | rfl | rfl | rfl | rfl | rfl | rfl | rfl | rfl | rfl | rfl | rfl | rfl | rfl | rfl | rfl <;> decide

/-- The operations leave every argument array as the launch memory holds it: no operation writes an
    argument. -/
theorem kept (m : (ℓ : Loc nD τ sig) → Buf (Elt F) ℓ) (c : Dev nD) {b : Ref sig .tc} (hb : IsArg b) :
    StableHlo.after (Cert.ReferenceIdeal.ValueP.ops (F := F)) (launchContents m c) (Proc.devRef .tc b) = m ((c.tc : Thread nD τ).loc b) :=
  after_of_writes_sub (Cert.ReferenceIdeal.ValueP.ops (F := F)) (launchContents m c) writes_sub (not_written hb)

end Cert.ReferenceIdeal.RefKeep

end
-- ==== Proof.RefRun.lean ====
/-
  The reference program's run, read back.

  The reference is a straight line of 129 host operations. Every weakly fair execution of it terminates with each
  buffer at the fold of the operations over the launch memory. At the result buffer that fold is the network of
  the argument arrays (its operations read in five consecutive pieces: the two rows of the edge list, one piece per
  layer, the head), with every bias vector laid out as a row by a broadcast; no operation writes an argument, so
  the arguments end as launched.
-/
import proofs.«175860_j29935922053254_2_alg».proof.Proof.RefRunA
import proofs.«175860_j29935922053254_2_alg».proof.Proof.RefChain
import proofs.«175860_j29935922053254_2_alg».proof.Proof.RefKeep
import proofs.«175860_j29935922053254_2_alg».proof.Proof.Spec
import Idealize.ShloMosaic.Lib.StableHlo.Run

noncomputable section

namespace Cert.ReferenceIdeal.RefRun

open Cert.ReferenceIdeal Cert.ReferenceIdeal.Gen
open Idealize.ShloMosaic Idealize.ShloMosaic.TcCoe Idealize.SL.Sem Idealize.ShloMosaic.StableHlo

variable {F : FTy → Type} [FloatOps F]

/-- Every weakly fair execution of the reference terminates with the result buffer at the network of the argument
    arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v97)
        = Cert.Net.net (F := F) Cert.Net.rowB9 Cert.Net.rowB4 Cert.Net.rowB8
      (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      (m ((c.tc : Thread nD τ).loc main_arg11))
      (m ((c.tc : Thread nD τ).loc main_arg12))
      (m ((c.tc : Thread nD τ).loc main_arg13))
      (m ((c.tc : Thread nD τ).loc main_arg14))
      (m ((c.tc : Thread nD τ).loc main_arg15))
      (m ((c.tc : Thread nD τ).loc main_arg16))
      (m ((c.tc : Thread nD τ).loc main_arg17))
      (m ((c.tc : Thread nD τ).loc main_arg18))
      (m ((c.tc : Thread nD τ).loc main_arg19))
      (m ((c.tc : Thread nD τ).loc main_arg20))
      (m ((c.tc : Thread nD τ).loc main_arg21))
      (m ((c.tc : Thread nD τ).loc main_arg22))
      (m ((c.tc : Thread nD τ).loc main_arg23))
      (m ((c.tc : Thread nD τ).loc main_arg24))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun _ h c => ⟨(h c main_v97).trans (Cert.ReferenceIdeal.RefChain.result m c),
      (h c main_arg0).trans (Cert.ReferenceIdeal.RefKeep.kept m c (b := main_arg0) (by unfold Cert.ReferenceIdeal.RefKeep.IsArg; decide)),
      (h c main_arg1).trans (Cert.ReferenceIdeal.RefKeep.kept m c (b := main_arg1) (by unfold Cert.ReferenceIdeal.RefKeep.IsArg; decide)),
      (h c main_arg2).trans (Cert.ReferenceIdeal.RefKeep.kept m c (b := main_arg2) (by unfold Cert.ReferenceIdeal.RefKeep.IsArg; decide)),
      (h c main_arg3).trans (Cert.ReferenceIdeal.RefKeep.kept m c (b := main_arg3) (by unfold Cert.ReferenceIdeal.RefKeep.IsArg; decide)),
      (h c main_arg4).trans (Cert.ReferenceIdeal.RefKeep.kept m c (b := main_arg4) (by unfold Cert.ReferenceIdeal.RefKeep.IsArg; decide)),
      (h c main_arg5).trans (Cert.ReferenceIdeal.RefKeep.kept m c (b := main_arg5) (by unfold Cert.ReferenceIdeal.RefKeep.IsArg; decide)),
      (h c main_arg6).trans (Cert.ReferenceIdeal.RefKeep.kept m c (b := main_arg6) (by unfold Cert.ReferenceIdeal.RefKeep.IsArg; decide)),
      (h c main_arg7).trans (Cert.ReferenceIdeal.RefKeep.kept m c (b := main_arg7) (by unfold Cert.ReferenceIdeal.RefKeep.IsArg; decide)),
      (h c main_arg8).trans (Cert.ReferenceIdeal.RefKeep.kept m c (b := main_arg8) (by unfold Cert.ReferenceIdeal.RefKeep.IsArg; decide)),
      (h c main_arg9).trans (Cert.ReferenceIdeal.RefKeep.kept m c (b := main_arg9) (by unfold Cert.ReferenceIdeal.RefKeep.IsArg; decide)),
      (h c main_arg10).trans (Cert.ReferenceIdeal.RefKeep.kept m c (b := main_arg10) (by unfold Cert.ReferenceIdeal.RefKeep.IsArg; decide)),
      (h c main_arg11).trans (Cert.ReferenceIdeal.RefKeep.kept m c (b := main_arg11) (by unfold Cert.ReferenceIdeal.RefKeep.IsArg; decide)),
      (h c main_arg12).trans (Cert.ReferenceIdeal.RefKeep.kept m c (b := main_arg12) (by unfold Cert.ReferenceIdeal.RefKeep.IsArg; decide)),
      (h c main_arg13).trans (Cert.ReferenceIdeal.RefKeep.kept m c (b := main_arg13) (by unfold Cert.ReferenceIdeal.RefKeep.IsArg; decide)),
      (h c main_arg14).trans (Cert.ReferenceIdeal.RefKeep.kept m c (b := main_arg14) (by unfold Cert.ReferenceIdeal.RefKeep.IsArg; decide)),
      (h c main_arg15).trans (Cert.ReferenceIdeal.RefKeep.kept m c (b := main_arg15) (by unfold Cert.ReferenceIdeal.RefKeep.IsArg; decide)),
      (h c main_arg16).trans (Cert.ReferenceIdeal.RefKeep.kept m c (b := main_arg16) (by unfold Cert.ReferenceIdeal.RefKeep.IsArg; decide)),
      (h c main_arg17).trans (Cert.ReferenceIdeal.RefKeep.kept m c (b := main_arg17) (by unfold Cert.ReferenceIdeal.RefKeep.IsArg; decide)),
      (h c main_arg18).trans (Cert.ReferenceIdeal.RefKeep.kept m c (b := main_arg18) (by unfold Cert.ReferenceIdeal.RefKeep.IsArg; decide)),
      (h c main_arg19).trans (Cert.ReferenceIdeal.RefKeep.kept m c (b := main_arg19) (by unfold Cert.ReferenceIdeal.RefKeep.IsArg; decide)),
      (h c main_arg20).trans (Cert.ReferenceIdeal.RefKeep.kept m c (b := main_arg20) (by unfold Cert.ReferenceIdeal.RefKeep.IsArg; decide)),
      (h c main_arg21).trans (Cert.ReferenceIdeal.RefKeep.kept m c (b := main_arg21) (by unfold Cert.ReferenceIdeal.RefKeep.IsArg; decide)),
      (h c main_arg22).trans (Cert.ReferenceIdeal.RefKeep.kept m c (b := main_arg22) (by unfold Cert.ReferenceIdeal.RefKeep.IsArg; decide)),
      (h c main_arg23).trans (Cert.ReferenceIdeal.RefKeep.kept m c (b := main_arg23) (by unfold Cert.ReferenceIdeal.RefKeep.IsArg; decide)),
      (h c main_arg24).trans (Cert.ReferenceIdeal.RefKeep.kept m c (b := main_arg24) (by unfold Cert.ReferenceIdeal.RefKeep.IsArg; decide))⟩)
    (run_seq Cert.ReferenceIdeal.ValueP.scopedRefs_eq Cert.ReferenceIdeal.ValueP.scopedSems_eq defs main
      (fun _ => Cert.ReferenceIdeal.ValueP.ops) Cert.ReferenceIdeal.ValueP.main_eq (fun _ => Cert.ReferenceIdeal.ValueP.ops_sub) m ρ)

end Cert.ReferenceIdeal.RefRun

end
-- ==== Proof.lean ====
/-
  The certificate of the graph network: the Pallas program against its jnp reference, over the extended reals.

  Both programs compute one function of the 25 argument arrays: three message-passing layers (a linear map on the
  nodes, the source node's row gathered for every edge and multiplied entrywise by a linear map of the edge's
  attributes, the messages summed at the destination nodes, a second linear map and a rectifier) and a head on rows
  of 24 (two linear maps with a rectifier between them, then a row-wise log-softmax). The kernel program computes
  the linear maps, the edge messages and the head in ten tiled launches, block by block, with its matrix products
  accumulated from zero and its operands narrowed to bf16 first (the identity on the extended reals); the gathers and
  segment sums are the same host operations in both programs. Launch by launch the array a launch leaves is the
  reference's stage of the arrays it read (the per-launch modules), so the result buffer ends holding the network of
  the arguments (the chain module); the reference's run ends at the same network (its run read back); the two lay a
  bias vector out as a row differently, by a reshape and by a broadcast, which is one array.

  The three frames: the kernel programs' are the launch-by-launch run of @main (every execution terminates, nothing
  faults, the arguments end as launched); the reference's is its run with the result dropped. The idealization
  rewrote nothing, so nothing is owed for it.
-/
import proofs.«175860_j29935922053254_2_alg».proof.Defs
import proofs.«175860_j29935922053254_2_alg».proof.Proof.Gen.Kernel
import proofs.«175860_j29935922053254_2_alg».proof.Proof.Gen.Kernel.Skeleton
import proofs.«175860_j29935922053254_2_alg».proof.Proof.Gen.Kernel.Launch
import proofs.«175860_j29935922053254_2_alg».proof.Proof.Gen.Kernel.Points
import proofs.«175860_j29935922053254_2_alg».proof.Proof.Gen.Kernel.Frame
import proofs.«175860_j29935922053254_2_alg».proof.Proof.Gen.KernelIdeal
import proofs.«175860_j29935922053254_2_alg».proof.Proof.Gen.KernelIdeal.Skeleton
import proofs.«175860_j29935922053254_2_alg».proof.Proof.Gen.KernelIdeal.Launch
import proofs.«175860_j29935922053254_2_alg».proof.Proof.Gen.KernelIdeal.Points
import proofs.«175860_j29935922053254_2_alg».proof.Proof.Gen.KernelIdeal.Frame
import proofs.«175860_j29935922053254_2_alg».proof.Proof.Gen.ReferenceIdeal
import proofs.«175860_j29935922053254_2_alg».proof.Proof.Gen.Pre_finite_inputs
import proofs.«175860_j29935922053254_2_alg».proof.Proof.KRun
import proofs.«175860_j29935922053254_2_alg».proof.Proof.Chain
import proofs.«175860_j29935922053254_2_alg».proof.Proof.RefRun
import proofs.«175860_j29935922053254_2_alg».proof.Proof.Rows
import Idealize.ShloMosaic.Adequacy
import Idealize.ShloMosaic.Init

noncomputable section

namespace Cert.Proof

open Idealize.ShloMosaic Idealize.SL.Sem

/-- The word-level kernel program's frame: the launch-by-launch run of @main. -/
theorem frame_k : Cert.frame_Kernel := fun m ρ _ => Cert.Kernel.Gen.frame m ρ

/-- The idealized kernel program's frame, the same run at the extended reals. -/
theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

set_option maxHeartbeats 4000000 in
/-- Run from memories that agree on the arguments, both programs end with the network of the arguments in their
    result buffers: the kernel program's with the biases reshaped to rows, the reference's with them broadcast to
    rows, which is the same array. -/
theorem algebraic : Cert.algebraic_KernelIdeal_ReferenceIdeal := by
  intro m ρ m' ρ' _ hagree
  refine ⟨fun c => Cert.KernelIdeal.Chain.OUT m c, ?_, ?_⟩
  · exact (θ_run Cert.KernelIdeal.defs _ _).mono
      (fun r h c => ⟨(h c).1.trans (Cert.KernelIdeal.Chain.out m ρ c), (h c).2⟩) (Cert.KernelIdeal.Run.run (F := Ideal) m ρ)
  · refine (θ_run Cert.ReferenceIdeal.defs _ _).mono (fun r h c => ⟨(h c).1.trans ?_, (h c).2⟩)
      (Cert.ReferenceIdeal.RefRun.run (F := Ideal) m' ρ')
    show _ = Cert.KernelIdeal.Chain.OUT m c
    obtain ⟨h0, h1, h2, h3, h4, h5, h6, h7, h8, h9, h10, h11, h12, h13, h14, h15, h16, h17, h18, h19, h20, h21, h22, h23, h24⟩ := hagree c
    rw [Cert.KernelIdeal.Chain.OUT_eq, Cert.KernelIdeal.Rows.rowS9_eq,
      Cert.KernelIdeal.Rows.rowS4_eq, Cert.KernelIdeal.Rows.rowS8_eq, h0, h1, h2, h3, h4, h5, h6, h7, h8, h9, h10, h11, h12, h13, h14, h15, h16, h17, h18, h19, h20, h21, h22, h23, h24]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
